-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 1536]⟩ ⟨2, ![768, 6144]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 1536]⟩ ⟨2, ![768, 6144]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1536, 768]⟩ ⟨2, ![6144, 768]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S768x768 : Shape := ⟨2, ![768, 768]⟩
abbrev S768x1536 : Shape := ⟨2, ![768, 1536]⟩
abbrev S1536x768 : Shape := ⟨2, ![1536, 768]⟩
abbrev S_ : Shape := ⟨0, ![]⟩

class Facts : Prop where
  bcast_S_S768x768 : S_.BroadcastsInDim S768x768 (![] : Fin 0 → Fin S768x768.rank)
  reducesTo_S768x768_S_d0_1 : S768x768.ReducesTo [0, 1] S_
  h_S_ : 0 < S_.numel
  bcast_S_S768x1536 : S_.BroadcastsInDim S768x1536 (![] : Fin 0 → Fin S768x1536.rank)
  reducesTo_S768x1536_S_d0_1 : S768x1536.ReducesTo [0, 1] S_
  bcast_S_S1536x768 : S_.BroadcastsInDim S1536x768 (![] : Fin 0 → Fin S1536x768.rank)
  reducesTo_S1536x768_S_d0_1 : S1536x768.ReducesTo [0, 1] S_

variable [Facts]

def fn_part1 {F : FTy → Type} [FloatOps F] (main_v13 : IVec S_ 1) (main_v16 : IVec S1536x768 1) : IVec S_ 1 :=
  let main_c_5 : IVec S_ 1 := constantI S_ 1 1#1
  let main_v17 : IVec S_ 1 := (fun x v => Host.reduce IntOp.andi x v reducesTo_S1536x768_S_d0_1 h_S_) main_v16 main_c_5
  let main_v18 : IVec S_ 1 := andi main_v13 main_v17
  main_v18

def fn {F : FTy → Type} [FloatOps F] (main_arg0 : FVec F S768x768 .f32) (main_arg1 : FVec F S768x1536 .f32) (main_arg2 : FVec F S768x1536 .f32) (main_arg3 : FVec F S1536x768 .f32) : IVec S_ 1 :=
  let main_v0 : FVec F S768x768 .f32 := Host.absf main_arg0
  let main_cst : FVec F S_ .f32 := constant S_ .f32 0x7F800000#32
  let main_v1 : FVec F S768x768 .f32 := broadcastInDim S768x768 ![] bcast_S_S768x768 main_cst
  let main_v2 : IVec S768x768 1 := cmpf .olt main_v0 main_v1
  let main_c : IVec S_ 1 := constantI S_ 1 1#1
  let main_v3 : IVec S_ 1 := (fun x v => Host.reduce IntOp.andi x v reducesTo_S768x768_S_d0_1 h_S_) main_v2 main_c
  let main_v4 : FVec F S768x1536 .f32 := Host.absf main_arg1
  let main_cst_0 : FVec F S_ .f32 := constant S_ .f32 0x7F800000#32
  let main_v5 : FVec F S768x1536 .f32 := broadcastInDim S768x1536 ![] bcast_S_S768x1536 main_cst_0
  let main_v6 : IVec S768x1536 1 := cmpf .olt main_v4 main_v5
  let main_c_1 : IVec S_ 1 := constantI S_ 1 1#1
  let main_v7 : IVec S_ 1 := (fun x v => Host.reduce IntOp.andi x v reducesTo_S768x1536_S_d0_1 h_S_) main_v6 main_c_1
  let main_v8 : IVec S_ 1 := andi main_v3 main_v7
  let main_v9 : FVec F S768x1536 .f32 := Host.absf main_arg2
  let main_cst_2 : FVec F S_ .f32 := constant S_ .f32 0x7F800000#32
  let main_v10 : FVec F S768x1536 .f32 := broadcastInDim S768x1536 ![] bcast_S_S768x1536 main_cst_2
  let main_v11 : IVec S768x1536 1 := cmpf .olt main_v9 main_v10
  let main_c_3 : IVec S_ 1 := constantI S_ 1 1#1
  let main_v12 : IVec S_ 1 := (fun x v => Host.reduce IntOp.andi x v reducesTo_S768x1536_S_d0_1 h_S_) main_v11 main_c_3
  let main_v13 : IVec S_ 1 := andi main_v8 main_v12
  let main_v14 : FVec F S1536x768 .f32 := Host.absf main_arg3
  let main_cst_4 : FVec F S_ .f32 := constant S_ .f32 0x7F800000#32
  let main_v15 : FVec F S1536x768 .f32 := broadcastInDim S1536x768 ![] bcast_S_S1536x768 main_cst_4
  let main_v16 : IVec S1536x768 1 := cmpf .olt main_v14 main_v15
  fn_part1 (F := F) main_v13 main_v16
-- ==== Pre_finite_inputs_ReferenceIdeal.lean ====
abbrev S768x768 : Shape := ⟨2, ![768, 768]⟩
abbrev S768x6144 : Shape := ⟨2, ![768, 6144]⟩
abbrev S6144x768 : Shape := ⟨2, ![6144, 768]⟩
abbrev S_ : Shape := ⟨0, ![]⟩

class Facts : Prop where
  bcast_S_S768x768 : S_.BroadcastsInDim S768x768 (![] : Fin 0 → Fin S768x768.rank)
  reducesTo_S768x768_S_d0_1 : S768x768.ReducesTo [0, 1] S_
  h_S_ : 0 < S_.numel
  bcast_S_S768x6144 : S_.BroadcastsInDim S768x6144 (![] : Fin 0 → Fin S768x6144.rank)
  reducesTo_S768x6144_S_d0_1 : S768x6144.ReducesTo [0, 1] S_
  bcast_S_S6144x768 : S_.BroadcastsInDim S6144x768 (![] : Fin 0 → Fin S6144x768.rank)
  reducesTo_S6144x768_S_d0_1 : S6144x768.ReducesTo [0, 1] S_

variable [Facts]

def fn_part1 {F : FTy → Type} [FloatOps F] (main_v13 : IVec S_ 1) (main_v16 : IVec S6144x768 1) : IVec S_ 1 :=
  let main_c_5 : IVec S_ 1 := constantI S_ 1 1#1
  let main_v17 : IVec S_ 1 := (fun x v => Host.reduce IntOp.andi x v reducesTo_S6144x768_S_d0_1 h_S_) main_v16 main_c_5
  let main_v18 : IVec S_ 1 := andi main_v13 main_v17
  main_v18

def fn {F : FTy → Type} [FloatOps F] (main_arg0 : FVec F S768x768 .f32) (main_arg1 : FVec F S768x6144 .f32) (main_arg2 : FVec F S768x6144 .f32) (main_arg3 : FVec F S6144x768 .f32) : IVec S_ 1 :=
  let main_v0 : FVec F S768x768 .f32 := Host.absf main_arg0
  let main_cst : FVec F S_ .f32 := constant S_ .f32 0x7F800000#32
  let main_v1 : FVec F S768x768 .f32 := broadcastInDim S768x768 ![] bcast_S_S768x768 main_cst
  let main_v2 : IVec S768x768 1 := cmpf .olt main_v0 main_v1
  let main_c : IVec S_ 1 := constantI S_ 1 1#1
  let main_v3 : IVec S_ 1 := (fun x v => Host.reduce IntOp.andi x v reducesTo_S768x768_S_d0_1 h_S_) main_v2 main_c
  let main_v4 : FVec F S768x6144 .f32 := Host.absf main_arg1
  let main_cst_0 : FVec F S_ .f32 := constant S_ .f32 0x7F800000#32
  let main_v5 : FVec F S768x6144 .f32 := broadcastInDim S768x6144 ![] bcast_S_S768x6144 main_cst_0
  let main_v6 : IVec S768x6144 1 := cmpf .olt main_v4 main_v5
  let main_c_1 : IVec S_ 1 := constantI S_ 1 1#1
  let main_v7 : IVec S_ 1 := (fun x v => Host.reduce IntOp.andi x v reducesTo_S768x6144_S_d0_1 h_S_) main_v6 main_c_1
  let main_v8 : IVec S_ 1 := andi main_v3 main_v7
  let main_v9 : FVec F S768x6144 .f32 := Host.absf main_arg2
  let main_cst_2 : FVec F S_ .f32 := constant S_ .f32 0x7F800000#32
  let main_v10 : FVec F S768x6144 .f32 := broadcastInDim S768x6144 ![] bcast_S_S768x6144 main_cst_2
  let main_v11 : IVec S768x6144 1 := cmpf .olt main_v9 main_v10
  let main_c_3 : IVec S_ 1 := constantI S_ 1 1#1
  let main_v12 : IVec S_ 1 := (fun x v => Host.reduce IntOp.andi x v reducesTo_S768x6144_S_d0_1 h_S_) main_v11 main_c_3
  let main_v13 : IVec S_ 1 := andi main_v8 main_v12
  let main_v14 : FVec F S6144x768 .f32 := Host.absf main_arg3
  let main_cst_4 : FVec F S_ .f32 := constant S_ .f32 0x7F800000#32
  let main_v15 : FVec F S6144x768 .f32 := broadcastInDim S6144x768 ![] bcast_S_S6144x768 main_cst_4
  let main_v16 : IVec S6144x768 1 := cmpf .olt main_v14 main_v15
  fn_part1 (F := F) main_v13 main_v16
-- ==== Kernel.lean ====
abbrev S768x768 : Shape := ⟨2, ![768, 768]⟩
abbrev S768x1536 : Shape := ⟨2, ![768, 1536]⟩
abbrev S1536x768 : Shape := ⟨2, ![1536, 768]⟩
abbrev S3x192x768 : Shape := ⟨3, ![3, 192, 768]⟩
abbrev S192x768 : Shape := ⟨2, ![192, 768]⟩
abbrev S3 : Shape := ⟨1, ![3]⟩
abbrev S6 : Shape := ⟨1, ![6]⟩
abbrev S_ : Shape := ⟨0, ![]⟩
abbrev S192x1536 : Shape := ⟨2, ![192, 1536]⟩
abbrev S1x192x768 : Shape := ⟨3, ![1, 192, 768]⟩
abbrev S1 : Shape := ⟨1, ![1]⟩
abbrev S1x96x768 : Shape := ⟨3, ![1, 96, 768]⟩
abbrev S96x768 : Shape := ⟨2, ![96, 768]⟩

abbrev nBuf : Space → Nat
  | .hbm => 5
  | .vmem => 9
  | .smem => 0
  | _ => 0

abbrev bufTy : (tb : Table) → Fin (tcTables nBuf tb) → BufTy
  | .hbm, ⟨0, _⟩ => ⟨S768x768, .f32⟩
  | .hbm, ⟨1, _⟩ => ⟨S768x1536, .f32⟩
  | .hbm, ⟨2, _⟩ => ⟨S768x1536, .f32⟩
  | .hbm, ⟨3, _⟩ => ⟨S1536x768, .f32⟩
  | .hbm, ⟨4, _⟩ => ⟨S768x768, .f32⟩
  | .local _ .vmem, ⟨0, _⟩ => ⟨S768x768, .f32⟩
  | .local _ .vmem, ⟨1, _⟩ => ⟨S768x1536, .f32⟩
  | .local _ .vmem, ⟨2, _⟩ => ⟨S768x1536, .f32⟩
  | .local _ .vmem, ⟨3, _⟩ => ⟨S1536x768, .f32⟩
  | .local _ .vmem, ⟨4, _⟩ => ⟨S768x768, .f32⟩
  | .local _ .vmem, ⟨5, _⟩ => ⟨S3x192x768, .bf16⟩
  | .local _ .vmem, ⟨6, _⟩ => ⟨S3x192x768, .bf16⟩
  | .local _ .vmem, ⟨7, _⟩ => ⟨S192x768, .bf16⟩
  | .local _ .vmem, ⟨8, _⟩ => ⟨S3x192x768, .bf16⟩
  | _, _ => ⟨S768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  { ofTc nBuf bufTy 1 23 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21 : BitVec 32 := 1#32
  let v39 : BitVec 32 := Scalar.muli v24 c1_i32_21
  let v40 : BitVec 32 := Scalar.addi c0_i32_22 v39
  v40.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24 : BitVec 32 := 1#32
  let v41 : BitVec 32 := Scalar.muli v13 c1_i32_24
  let v42 : BitVec 32 := Scalar.addi c0_i32_25 v41
  v42.toNat
def k0_off1 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v27 : BitVec 32 := Scalar.addi v2 c2_i32
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c192_i32 : BitVec 32 := 192#32
  let v49 : BitVec 32 := Scalar.muli v37 c192_i32
  let v50 : Index := Scalar.indexCast v49
  let c0_32 : Index := 0#32
  ![v50.toNat, 0]
def k0_dev3 (d0 : Dev nD) : Nat :=
  let c0_i32_43 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.subi c3_i32 v2
  let c1_i32_42 : BitVec 32 := 1#32
  let v63 : BitVec 32 := Scalar.muli v25 c1_i32_42
  let v64 : BitVec 32 := Scalar.addi c0_i32_43 v63
  v64.toNat
def k0_off2 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.subi c3_i32 v2
  let c192_i32_48 : BitVec 32 := 192#32
  let v73 : BitVec 32 := Scalar.muli v25 c192_i32_48
  let v74 : Index := Scalar.indexCast v73
  let c0_49 : Index := 0#32
  ![v74.toNat, 0]
def k0_dev4 (d0 : Dev nD) : Nat :=
  let c0_i32_60 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.subi c3_i32 v2
  let c1_i32_59 : BitVec 32 := 1#32
  let v87 : BitVec 32 := Scalar.muli v25 c1_i32_59
  let v88 : BitVec 32 := Scalar.addi c0_i32_60 v87
  v88.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v26 : BitVec 32 := Scalar.xori v2 c1_i32_13
  let c192_i32_65 : BitVec 32 := 192#32
  let v97 : BitVec 32 := Scalar.muli v26 c192_i32_65
  let v98 : Index := Scalar.indexCast v97
  let c0_66 : Index := 0#32
  ![v98.toNat, 0]
def k0_dev5 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v26 : BitVec 32 := Scalar.xori v2 c1_i32_13
  let c1_i32_89 : BitVec 32 := 1#32
  let v123 : BitVec 32 := Scalar.muli v26 c1_i32_89
  let v124 : BitVec 32 := Scalar.addi c0_i32_90 v123
  v124.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32_95 : BitVec 32 := 192#32
  let v133 : BitVec 32 := Scalar.muli v2 c192_i32_95
  let v134 : Index := Scalar.indexCast v133
  let c0_96 : Index := 0#32
  ![v134.toNat, 0]
def k0_dev6 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_133 : BitVec 32 := 1#32
  let v174 : BitVec 32 := Scalar.muli v13 c1_i32_133
  let v175 : BitVec 32 := Scalar.addi c0_i32_134 v174
  v175.toNat
def k0_dev7 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_142 : BitVec 32 := 1#32
  let v183 : BitVec 32 := Scalar.muli v24 c1_i32_142
  let v184 : BitVec 32 := Scalar.addi c0_i32_143 v183
  v184.toNat
def k0_dev8 (d0 : Dev nD) : Nat :=
  let c0_i32_151 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_150 : BitVec 32 := 1#32
  let v192 : BitVec 32 := Scalar.muli v13 c1_i32_150
  let v193 : BitVec 32 := Scalar.addi c0_i32_151 v192
  v193.toNat
def k0_dev9 (d0 : Dev nD) : Nat :=
  let c0_i32_160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_159 : BitVec 32 := 1#32
  let v201 : BitVec 32 := Scalar.muli v24 c1_i32_159
  let v202 : BitVec 32 := Scalar.addi c0_i32_160 v201
  v202.toNat
def k0_dev10 (d0 : Dev nD) : Nat :=
  let c0_i32_179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_178 : BitVec 32 := 1#32
  let v217 : BitVec 32 := Scalar.muli v13 c1_i32_178
  let v218 : BitVec 32 := Scalar.addi c0_i32_179 v217
  v218.toNat
def k0_dev11 (d0 : Dev nD) : Nat :=
  let c0_i32_197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_196 : BitVec 32 := 1#32
  let v234 : BitVec 32 := Scalar.muli v24 c1_i32_196
  let v235 : BitVec 32 := Scalar.addi c0_i32_197 v234
  v235.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c192_i32_214 : BitVec 32 := 192#32
  let v254 : BitVec 32 := Scalar.muli v24 c192_i32_214
  let v255 : Index := Scalar.indexCast v254
  let c0_215 : Index := 0#32
  ![v255.toNat, 0]
abbrev stage0_0 : Fin 1 → Memref sig .tc .vmem S768x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

class Facts₀ : Prop where
  hamt_1 : (1#32 : BitVec 32).msb = false
  hamt_2 : (2#32 : BitVec 32).msb = false
  inb_S768x1536_S768x1536_0_0 : ∀ a, (![0, 0] : Fin 2 → Nat) a + S768x1536.size a ≤ S768x1536.size a
  h_S768x1536 : 0 < S768x1536.numel
  shapeCasts_S768x1536_S768x1536 : S768x1536.ShapeCasts S768x1536
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  h_S192x768 : 0 < S192x768.numel
  shapeCasts_S192x768_S192x768 : S192x768.ShapeCasts S192x768
  bitsLt_bf16_f32 : FTy.bits .bf16 < FTy.bits .f32
  inb_S3x192x768_S1x192x768_0_0_0 : ∀ a, (![0, 0, 0] : Fin 3 → Nat) a + S1x192x768.size a ≤ S3x192x768.size a
  h_S1x192x768 : 0 < S1x192x768.numel
  shapeCasts_S1x192x768_S192x768 : S1x192x768.ShapeCasts S192x768
  shapeCasts_S192x768_S1x192x768 : S192x768.ShapeCasts S1x192x768
  packedbf16_S3x192x768_S1x192x768_0_0_0 : (Rect.unit (s := S3x192x768) ![0, 0, 0] S1x192x768.size inb_S3x192x768_S1x192x768_0_0_0).PackedRows (EltTy.packing .bf16)
  inb_S3_S1_0 : ∀ a, (![0] : Fin 1 → Nat) a + S1.size a ≤ S3.size a
  squeezes_S1_S_ : S1.Squeezes S_
  squeezes_S1x192x768_S192x768 : S1x192x768.Squeezes S192x768
  wordsbf16_S3x192x768_S1x192x768_0_0_0 : (Rect.unit (s := S3x192x768) ![0, 0, 0] S1x192x768.size inb_S3x192x768_S1x192x768_0_0_0).WholeWords (EltTy.packing .bf16)
  inb_S3x192x768_S1x192x768_1_0_0 : ∀ a, (![1, 0, 0] : Fin 3 → Nat) a + S1x192x768.size a ≤ S3x192x768.size a
  packedbf16_S3x192x768_S1x192x768_1_0_0 : (Rect.unit (s := S3x192x768) ![1, 0, 0] S1x192x768.size inb_S3x192x768_S1x192x768_1_0_0).PackedRows (EltTy.packing .bf16)
  inb_S3_S1_1 : ∀ a, (![1] : Fin 1 → Nat) a + S1.size a ≤ S3.size a
  wordsbf16_S3x192x768_S1x192x768_1_0_0 : (Rect.unit (s := S3x192x768) ![1, 0, 0] S1x192x768.size inb_S3x192x768_S1x192x768_1_0_0).WholeWords (EltTy.packing .bf16)
  inb_S3x192x768_S1x192x768_2_0_0 : ∀ a, (![2, 0, 0] : Fin 3 → Nat) a + S1x192x768.size a ≤ S3x192x768.size a
  packedbf16_S3x192x768_S1x192x768_2_0_0 : (Rect.unit (s := S3x192x768) ![2, 0, 0] S1x192x768.size inb_S3x192x768_S1x192x768_2_0_0).PackedRows (EltTy.packing .bf16)
  inb_S3_S1_2 : ∀ a, (![2] : Fin 1 → Nat) a + S1.size a ≤ S3.size a
  wordsbf16_S3x192x768_S1x192x768_2_0_0 : (Rect.unit (s := S3x192x768) ![2, 0, 0] S1x192x768.size inb_S3x192x768_S1x192x768_2_0_0).WholeWords (EltTy.packing .bf16)
  inb_S192x768_S192x768_0_0 : ∀ a, (![0, 0] : Fin 2 → Nat) a + S192x768.size a ≤ S192x768.size a
  packedbf16_S192x768_S192x768_0_0 : (Rect.unit (s := S192x768) ![0, 0] S192x768.size inb_S192x768_S192x768_0_0).PackedRows (EltTy.packing .bf16)
  inb_S6_S1_0 : ∀ a, (![0] : Fin 1 → Nat) a + S1.size a ≤ S6.size a
  inb_S3x192x768_S1x96x768_0_0_0 : ∀ a, (![0, 0, 0] : Fin 3 → Nat) a + S1x96x768.size a ≤ S3x192x768.size a
  squeezes_S1x96x768_S96x768 : S1x96x768.Squeezes S96x768
  inb_S192x768_S96x768_0_0 : ∀ a, (![0, 0] : Fin 2 → Nat) a + S96x768.size a ≤ S192x768.size a
  wordsbf16_S192x768_S96x768_0_0 : (Rect.unit (s := S192x768) ![0, 0] S96x768.size inb_S192x768_S96x768_0_0).WholeWords (EltTy.packing .bf16)
  wordsbf16_S3x192x768_S1x96x768_0_0_0 : (Rect.unit (s := S3x192x768) ![0, 0, 0] S1x96x768.size inb_S3x192x768_S1x96x768_0_0_0).WholeWords (EltTy.packing .bf16)
  inb_S6_S1_2 : ∀ a, (![2] : Fin 1 → Nat) a + S1.size a ≤ S6.size a
  inb_S6_S1_3 : ∀ a, (![3] : Fin 1 → Nat) a + S1.size a ≤ S6.size a
  inb_S3x192x768_S1x96x768_1_96_0 : ∀ a, (![1, 96, 0] : Fin 3 → Nat) a + S1x96x768.size a ≤ S3x192x768.size a
  inb_S192x768_S96x768_96_0 : ∀ a, (![96, 0] : Fin 2 → Nat) a + S96x768.size a ≤ S192x768.size a
  wordsbf16_S192x768_S96x768_96_0 : (Rect.unit (s := S192x768) ![96, 0] S96x768.size inb_S192x768_S96x768_96_0).WholeWords (EltTy.packing .bf16)
  wordsbf16_S3x192x768_S1x96x768_1_96_0 : (Rect.unit (s := S3x192x768) ![1, 96, 0] S1x96x768.size inb_S3x192x768_S1x96x768_1_96_0).WholeWords (EltTy.packing .bf16)
  inb_S6_S1_1 : ∀ a, (![1] : Fin 1 → Nat) a + S1.size a ≤ S6.size a
  inb_S3x192x768_S1x96x768_0_96_0 : ∀ a, (![0, 96, 0] : Fin 3 → Nat) a + S1x96x768.size a ≤ S3x192x768.size a
  wordsbf16_S3x192x768_S1x96x768_0_96_0 : (Rect.unit (s := S3x192x768) ![0, 96, 0] S1x96x768.size inb_S3x192x768_S1x96x768_0_96_0).WholeWords (EltTy.packing .bf16)
  inb_S3x192x768_S1x96x768_1_0_0 : ∀ a, (![1, 0, 0] : Fin 3 → Nat) a + S1x96x768.size a ≤ S3x192x768.size a
  wordsbf16_S3x192x768_S1x96x768_1_0_0 : (Rect.unit (s := S3x192x768) ![1, 0, 0] S1x96x768.size inb_S3x192x768_S1x96x768_1_0_0).WholeWords (EltTy.packing .bf16)
  inb_S6_S1_4 : ∀ a, (![4] : Fin 1 → Nat) a + S1.size a ≤ S6.size a
  inb_S3x192x768_S1x96x768_2_0_0 : ∀ a, (![2, 0, 0] : Fin 3 → Nat) a + S1x96x768.size a ≤ S3x192x768.size a
  wordsbf16_S3x192x768_S1x96x768_2_0_0 : (Rect.unit (s := S3x192x768) ![2, 0, 0] S1x96x768.size inb_S3x192x768_S1x96x768_2_0_0).WholeWords (EltTy.packing .bf16)
  inb_S6_S1_5 : ∀ a, (![5] : Fin 1 → Nat) a + S1.size a ≤ S6.size a
  inb_S3x192x768_S1x96x768_2_96_0 : ∀ a, (![2, 96, 0] : Fin 3 → Nat) a + S1x96x768.size a ≤ S3x192x768.size a
  wordsbf16_S3x192x768_S1x96x768_2_96_0 : (Rect.unit (s := S3x192x768) ![2, 96, 0] S1x96x768.size inb_S3x192x768_S1x96x768_2_96_0).WholeWords (EltTy.packing .bf16)
  dot_S192x768_S768x1536_S192x1536_1_0_0_1_n_n_wf : DotDims.WF S192x768 S768x1536 S192x1536 [1] [0] [0] [1] [] []
  dot_S192x1536_S1536x768_S192x768_1_0_0_1_n_n_wf : DotDims.WF S192x1536 S1536x768 S192x768 [1] [0] [0] [1] [] []
  hcc0_scratch4 : 5 + S3.numel ≤ 23
  hcc0_scratch5 : 8 + S3.numel ≤ 23
  hcc0_scratch6 : 11 + S6.numel ≤ 23
  hcc0_scratch7 : 17 + S6.numel ≤ 23
  k0_dev1_lt : ∀ d0 : Dev nD, (k0_dev1 d0) < nD
  k0_dev2_lt : ∀ d0 : Dev nD, (k0_dev2 d0) < nD
  k0_off1_inb : ∀ d0 : Dev nD, ∀ (r : Fin 2), ∀ a, (k0_off1 d0 (BitVec.ofNat 32 (1 + r.val))) a + S192x768.size a ≤ S768x768.size a
  k0_dev3_lt : ∀ d0 : Dev nD, (k0_dev3 d0) < nD
  k0_off2_inb : ∀ d0 : Dev nD, ∀ a, (k0_off2 d0) a + S192x768.size a ≤ S768x768.size a
  k0_dev4_lt : ∀ d0 : Dev nD, (k0_dev4 d0) < nD
  k0_off3_inb : ∀ d0 : Dev nD, ∀ a, (k0_off3 d0) a + S192x768.size a ≤ S768x768.size a
  k0_dev5_lt : ∀ d0 : Dev nD, (k0_dev5 d0) < nD
  k0_off4_inb : ∀ d0 : Dev nD, ∀ a, (k0_off4 d0) a + S192x768.size a ≤ S768x768.size a
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off5_inb : ∀ d0 : Dev nD, ∀ a, (k0_off5 d0) a + S192x768.size a ≤ S768x768.size a
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole

variable [Facts₀]

abbrev cc0_scratch4 : DmaSems sig S3 := SemArray.consecutive 5 S3 hcc0_scratch4
abbrev cc0_scratch5 : DmaSems sig S3 := SemArray.consecutive 8 S3 hcc0_scratch5
abbrev cc0_scratch6 : DmaSems sig S6 := SemArray.consecutive 11 S6 hcc0_scratch6
abbrev cc0_scratch7 : DmaSems sig S6 := SemArray.consecutive 17 S6 hcc0_scratch7
def dot_S192x768_S768x1536_S192x1536_1_0_0_1_n_n : DotDims S192x768 S768x1536 S192x1536 where
  lhsContracting := [1]
  rhsContracting := [0]
  lhsNonContracting := [0]
  rhsNonContracting := [1]
  lhsBatch := []
  rhsBatch := []
  wf := dot_S192x768_S768x1536_S192x1536_1_0_0_1_n_n_wf
def dot_S192x1536_S1536x768_S192x768_1_0_0_1_n_n : DotDims S192x1536 S1536x768 S192x768 where
  lhsContracting := [1]
  rhsContracting := [0]
  lhsNonContracting := [0]
  rhsNonContracting := [1]
  lhsBatch := []
  rhsBatch := []
  wf := dot_S192x1536_S1536x768_S192x768_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S768x768 : Shape := ⟨2, ![768, 768]⟩
abbrev S768x6144 : Shape := ⟨2, ![768, 6144]⟩
abbrev S6144x768 : Shape := ⟨2, ![6144, 768]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S768x768, .f32⟩
  | .hbm, ⟨1, _⟩ => ⟨S768x6144, .f32⟩
  | .hbm, ⟨2, _⟩ => ⟨S768x6144, .f32⟩
  | .hbm, ⟨3, _⟩ => ⟨S6144x768, .f32⟩
  | .hbm, ⟨4, _⟩ => ⟨S768x6144, .f32⟩
  | .hbm, ⟨5, _⟩ => ⟨S768x6144, .f32⟩
  | .hbm, ⟨6, _⟩ => ⟨S768x6144, .f32⟩
  | .hbm, ⟨7, _⟩ => ⟨S768x6144, .f32⟩
  | .hbm, ⟨8, _⟩ => ⟨S_, .f32⟩
  | .hbm, ⟨9, _⟩ => ⟨S768x6144, .f32⟩
  | .hbm, ⟨10, _⟩ => ⟨S768x6144, .f32⟩
  | .hbm, ⟨11, _⟩ => ⟨S768x6144, .f32⟩
  | .hbm, ⟨12, _⟩ => ⟨S768x6144, .f32⟩
  | .hbm, ⟨13, _⟩ => ⟨S768x768, .f32⟩
  | _, _ => ⟨S768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S768x6144 : S_.BroadcastsInDim S768x6144 (![] : Fin 0 → Fin S768x6144.rank)
  dot_S768x768_S768x6144_S768x6144_1_0_0_1_n_n_wf : DotDims.WF S768x768 S768x6144 S768x6144 [1] [0] [0] [1] [] []
  dot_S768x6144_S6144x768_S768x768_1_0_0_1_n_n_wf : DotDims.WF S768x6144 S6144x768 S768x768 [1] [0] [0] [1] [] []

variable [Facts₀]

def dot_S768x768_S768x6144_S768x6144_1_0_0_1_n_n : DotDims S768x768 S768x6144 S768x6144 where
  lhsContracting := [1]
  rhsContracting := [0]
  lhsNonContracting := [0]
  rhsNonContracting := [1]
  lhsBatch := []
  rhsBatch := []
  wf := dot_S768x768_S768x6144_S768x6144_1_0_0_1_n_n_wf
def dot_S768x6144_S6144x768_S768x768_1_0_0_1_n_n : DotDims S768x6144 S6144x768 S768x768 where
  lhsContracting := [1]
  rhsContracting := [0]
  lhsNonContracting := [0]
  rhsNonContracting := [1]
  lhsBatch := []
  rhsBatch := []
  wf := dot_S768x6144_S6144x768_S768x768_1_0_0_1_n_n_wf

class Facts : Prop extends Facts₀ where

variable [Facts]
-- ==== Proof.Peers.lean ====
/-
  The four devices of the mesh and what each is to a device: the two ring neighbours, the partner of the first
  exchange (device 3 - c) and the partner of the second (device c xor 1). Each is named through the kernel's own
  device arithmetic, so that the signals and transfers of the body address these names as they stand.
-/
import proofs.«900352_g7700000000000353_dist_gated_mlp_tp_i_m768_h1536_d768_v7x_i4_f32_1_alg».proof.Proof.Gen.KernelIdeal.Skeleton
import proofs.«900352_g7700000000000353_dist_gated_mlp_tp_i_m768_h1536_d768_v7x_i4_f32_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The peers of a device -/

/-- The ring neighbour before `c`: device `(c + 3) mod 4`. -/
def lft (c : Dev nD) : Dev nD := ⟨k0_dev1 c, k0_dev1_lt c⟩
/-- The ring neighbour after `c`: device `(c + 1) mod 4`. -/
def rgt (c : Dev nD) : Dev nD := ⟨k0_dev2 c, k0_dev2_lt c⟩
/-- The partner of the first exchange: device `3 - c`. -/
def far (c : Dev nD) : Dev nD := ⟨k0_dev3 c, k0_dev3_lt c⟩
/-- The partner of the second exchange: device `c xor 1`. -/
def par (c : Dev nD) : Dev nD := ⟨k0_dev5 c, k0_dev5_lt c⟩
/-- The device across the ring: `(c + 2) mod 4`. -/
def opp (c : Dev nD) : Dev nD := lft (lft c)

theorem lft_val : ∀ c : Dev nD, (lft c).val = (c.val + 3) % 4 := by decide +kernel
theorem rgt_val : ∀ c : Dev nD, (rgt c).val = (c.val + 1) % 4 := by decide +kernel
theorem far_val : ∀ c : Dev nD, (far c).val = 3 - c.val := by decide +kernel
theorem par_val : ∀ c : Dev nD, (par c).val = c.val ^^^ 1 := by decide +kernel
theorem opp_val : ∀ c : Dev nD, (opp c).val = (c.val + 2) % 4 := by decide +kernel

theorem lft_rgt : ∀ c : Dev nD, lft (rgt c) = c := by decide +kernel
theorem rgt_lft : ∀ c : Dev nD, rgt (lft c) = c := by decide +kernel
theorem far_far : ∀ c : Dev nD, far (far c) = c := by decide +kernel
theorem par_par : ∀ c : Dev nD, par (par c) = c := by decide +kernel
theorem rgt_rgt : ∀ c : Dev nD, rgt (rgt c) = opp c := by decide +kernel
theorem lft_ne_rgt : ∀ c : Dev nD, lft c ≠ rgt c := by decide +kernel
/-- The two exchange partners are the two ring neighbours: on an even device the first is the one before it. -/
theorem far_par_even : ∀ c : Dev nD, c.val % 2 = 0 → far c = lft c ∧ par c = rgt c := by decide +kernel
theorem far_par_odd : ∀ c : Dev nD, c.val % 2 = 1 → far c = rgt c ∧ par c = lft c := by decide +kernel
/-- The four devices whose partial sums meet on device `c`. -/
theorem four_partners : ∀ c : Dev nD, far (par c) ≠ c ∧ far (par c) ≠ far c ∧ far (par c) ≠ par c ∧ far c ≠ c ∧ par c ≠ c ∧ far c ≠ par c := by
  decide +kernel

/-- The kernel's remaining device chains are these names again. -/
theorem dev4_eq (c : Dev nD) : (⟨k0_dev4 c, k0_dev4_lt c⟩ : Dev nD) = far c :=
  Fin.ext ((by decide +kernel : ∀ c : Dev nD, k0_dev4 c = k0_dev3 c) c)
theorem dev6_eq (c : Dev nD) : (⟨k0_dev6 c, k0_dev6_lt c⟩ : Dev nD) = rgt c :=
  Fin.ext ((by decide +kernel : ∀ c : Dev nD, k0_dev6 c = k0_dev2 c) c)
theorem dev7_eq (c : Dev nD) : (⟨k0_dev7 c, k0_dev7_lt c⟩ : Dev nD) = lft c :=
  Fin.ext ((by decide +kernel : ∀ c : Dev nD, k0_dev7 c = k0_dev1 c) c)
theorem dev8_eq (c : Dev nD) : (⟨k0_dev8 c, k0_dev8_lt c⟩ : Dev nD) = rgt c :=
  Fin.ext ((by decide +kernel : ∀ c : Dev nD, k0_dev8 c = k0_dev2 c) c)
theorem dev9_eq (c : Dev nD) : (⟨k0_dev9 c, k0_dev9_lt c⟩ : Dev nD) = lft c :=
  Fin.ext ((by decide +kernel : ∀ c : Dev nD, k0_dev9 c = k0_dev1 c) c)
theorem dev10_eq (c : Dev nD) : (⟨k0_dev10 c, k0_dev10_lt c⟩ : Dev nD) = rgt c :=
  Fin.ext ((by decide +kernel : ∀ c : Dev nD, k0_dev10 c = k0_dev2 c) c)
theorem dev11_eq (c : Dev nD) : (⟨k0_dev11 c, k0_dev11_lt c⟩ : Dev nD) = lft c :=
  Fin.ext ((by decide +kernel : ∀ c : Dev nD, k0_dev11 c = k0_dev1 c) c)

/-- The row offsets of the four chunks of `x` a device reads, and of the four chunks of the result it writes. -/
theorem off1_two : ∀ c : Dev nD, k0_off1 c 2#32 = ![192 * ((c.val + 2) % 4), 0] := by decide +kernel
theorem off1_one : ∀ c : Dev nD, k0_off1 c 1#32 = ![192 * ((c.val + 1) % 4), 0] := by decide +kernel
theorem off3_eq : ∀ c : Dev nD, k0_off3 c = ![192 * (c.val ^^^ 1), 0] := by decide +kernel
theorem off5_eq : ∀ c : Dev nD, k0_off5 c = ![192 * ((c.val + 3) % 4), 0] := by decide +kernel

end Cert.KernelIdeal.Mlp

end
-- ==== Proof.Cells.lean ====
/-
  The buffers and semaphores of the exchange, as the kernel's body addresses them: the three slots of the send buffer and
  of the reduce-scatter landing buffer (one chunk of 192 rows each), the two halves (96 rows) of the device's own reduced
  chunk, the six half-slots of the all-gather landing buffer; the barrier semaphore and the eighteen transfer semaphores.
-/
import proofs.«900352_g7700000000000353_dist_gated_mlp_tp_i_m768_h1536_d768_v7x_i4_f32_1_alg».proof.Proof.Peers

noncomputable section

namespace Cert.KernelIdeal.Mlp

open Cert.KernelIdeal Cert.KernelIdeal.Gen
open Idealize.ShloMosaic
open Idealize.ShloMosaic.TcCoe

/-! ## The views -/

/-- Slot 0 of the send buffer. -/
abbrev sb0 : Memref sig .tc .vmem S192x768 .bf16 := (((Memref.whole cc0_scratch0 : Memref sig .tc .vmem S3x192x768 .bf16).slice (Rect.unit (s := S3x192x768) ![0, 0, 0] S1x192x768.size inb_S3x192x768_S1x192x768_0_0_0) (fun _ => rfl)).squeeze S192x768 squeezes_S1x192x768_S192x768)
/-- Slot 1 of the send buffer. -/
abbrev sb1 : Memref sig .tc .vmem S192x768 .bf16 := (((Memref.whole cc0_scratch0 : Memref sig .tc .vmem S3x192x768 .bf16).slice (Rect.unit (s := S3x192x768) ![1, 0, 0] S1x192x768.size inb_S3x192x768_S1x192x768_1_0_0) (fun _ => rfl)).squeeze S192x768 squeezes_S1x192x768_S192x768)
/-- Slot 2 of the send buffer. -/
abbrev sb2 : Memref sig .tc .vmem S192x768 .bf16 := (((Memref.whole cc0_scratch0 : Memref sig .tc .vmem S3x192x768 .bf16).slice (Rect.unit (s := S3x192x768) ![2, 0, 0] S1x192x768.size inb_S3x192x768_S1x192x768_2_0_0) (fun _ => rfl)).squeeze S192x768 squeezes_S1x192x768_S192x768)
/-- Slot 0 of the reduce-scatter landing buffer. -/
abbrev rs0 : Memref sig .tc .vmem S192x768 .bf16 := (((Memref.whole cc0_scratch1 : Memref sig .tc .vmem S3x192x768 .bf16).slice (Rect.unit (s := S3x192x768) ![0, 0, 0] S1x192x768.size inb_S3x192x768_S1x192x768_0_0_0) (fun _ => rfl)).squeeze S192x768 squeezes_S1x192x768_S192x768)
/-- Slot 1 of the reduce-scatter landing buffer. -/
abbrev rs1 : Memref sig .tc .vmem S192x768 .bf16 := (((Memref.whole cc0_scratch1 : Memref sig .tc .vmem S3x192x768 .bf16).slice (Rect.unit (s := S3x192x768) ![1, 0, 0] S1x192x768.size inb_S3x192x768_S1x192x768_1_0_0) (fun _ => rfl)).squeeze S192x768 squeezes_S1x192x768_S192x768)
/-- Slot 2 of the reduce-scatter landing buffer. -/
abbrev rs2 : Memref sig .tc .vmem S192x768 .bf16 := (((Memref.whole cc0_scratch1 : Memref sig .tc .vmem S3x192x768 .bf16).slice (Rect.unit (s := S3x192x768) ![2, 0, 0] S1x192x768.size inb_S3x192x768_S1x192x768_2_0_0) (fun _ => rfl)).squeeze S192x768 squeezes_S1x192x768_S192x768)
/-- Rows 0–95 of the device's own reduced chunk. -/
abbrev ownLo : Memref sig .tc .vmem S96x768 .bf16 := ((Memref.whole cc0_scratch2 : Memref sig .tc .vmem S192x768 .bf16).slice (Rect.unit (s := S192x768) ![0, 0] S96x768.size inb_S192x768_S96x768_0_0) (fun _ => rfl))
/-- Rows 96–191 of it. -/
abbrev ownHi : Memref sig .tc .vmem S96x768 .bf16 := ((Memref.whole cc0_scratch2 : Memref sig .tc .vmem S192x768 .bf16).slice (Rect.unit (s := S192x768) ![96, 0] S96x768.size inb_S192x768_S96x768_96_0) (fun _ => rfl))
/-- Rows 0–95 of slot 0 of the all-gather landing buffer. -/
abbrev ag0Lo : Memref sig .tc .vmem S96x768 .bf16 := (((Memref.whole cc0_scratch3 : Memref sig .tc .vmem S3x192x768 .bf16).slice (Rect.unit (s := S3x192x768) ![0, 0, 0] S1x96x768.size inb_S3x192x768_S1x96x768_0_0_0) (fun _ => rfl)).squeeze S96x768 squeezes_S1x96x768_S96x768)
/-- Rows 96–191 of slot 0. -/
abbrev ag0Hi : Memref sig .tc .vmem S96x768 .bf16 := (((Memref.whole cc0_scratch3 : Memref sig .tc .vmem S3x192x768 .bf16).slice (Rect.unit (s := S3x192x768) ![0, 96, 0] S1x96x768.size inb_S3x192x768_S1x96x768_0_96_0) (fun _ => rfl)).squeeze S96x768 squeezes_S1x96x768_S96x768)
/-- Rows 0–95 of slot 1 of the all-gather landing buffer. -/
abbrev ag1Lo : Memref sig .tc .vmem S96x768 .bf16 := (((Memref.whole cc0_scratch3 : Memref sig .tc .vmem S3x192x768 .bf16).slice (Rect.unit (s := S3x192x768) ![1, 0, 0] S1x96x768.size inb_S3x192x768_S1x96x768_1_0_0) (fun _ => rfl)).squeeze S96x768 squeezes_S1x96x768_S96x768)
/-- Rows 96–191 of slot 1. -/
abbrev ag1Hi : Memref sig .tc .vmem S96x768 .bf16 := (((Memref.whole cc0_scratch3 : Memref sig .tc .vmem S3x192x768 .bf16).slice (Rect.unit (s := S3x192x768) ![1, 96, 0] S1x96x768.size inb_S3x192x768_S1x96x768_1_96_0) (fun _ => rfl)).squeeze S96x768 squeezes_S1x96x768_S96x768)
/-- Rows 0–95 of slot 2 of the all-gather landing buffer. -/
abbrev ag2Lo : Memref sig .tc .vmem S96x768 .bf16 := (((Memref.whole cc0_scratch3 : Memref sig .tc .vmem S3x192x768 .bf16).slice (Rect.unit (s := S3x192x768) ![2, 0, 0] S1x96x768.size inb_S3x192x768_S1x96x768_2_0_0) (fun _ => rfl)).squeeze S96x768 squeezes_S1x96x768_S96x768)
/-- Rows 96–191 of slot 2. -/
abbrev ag2Hi : Memref sig .tc .vmem S96x768 .bf16 := (((Memref.whole cc0_scratch3 : Memref sig .tc .vmem S3x192x768 .bf16).slice (Rect.unit (s := S3x192x768) ![2, 96, 0] S1x96x768.size inb_S3x192x768_S1x96x768_2_96_0) (fun _ => rfl)).squeeze S96x768 squeezes_S1x96x768_S96x768)

/-! ## The semaphores -/

/-- The barrier semaphore of the collective: one per device, not scoped to the launch. -/
abbrev barS : Sem sig := (SemArray.scalar (sig.barrier 0 rfl) : Sems sig S_).sem
abbrev rsSnd0 : DmaSem sig := ((cc0_scratch4.slice (Rect.unit (s := S3) ![0] S1.size inb_S3_S1_0)).squeeze S_ squeezes_S1_S_).sem
abbrev rsSnd1 : DmaSem sig := ((cc0_scratch4.slice (Rect.unit (s := S3) ![1] S1.size inb_S3_S1_1)).squeeze S_ squeezes_S1_S_).sem
abbrev rsSnd2 : DmaSem sig := ((cc0_scratch4.slice (Rect.unit (s := S3) ![2] S1.size inb_S3_S1_2)).squeeze S_ squeezes_S1_S_).sem
abbrev rsRcv0 : DmaSem sig := ((cc0_scratch5.slice (Rect.unit (s := S3) ![0] S1.size inb_S3_S1_0)).squeeze S_ squeezes_S1_S_).sem
abbrev rsRcv1 : DmaSem sig := ((cc0_scratch5.slice (Rect.unit (s := S3) ![1] S1.size inb_S3_S1_1)).squeeze S_ squeezes_S1_S_).sem
abbrev rsRcv2 : DmaSem sig := ((cc0_scratch5.slice (Rect.unit (s := S3) ![2] S1.size inb_S3_S1_2)).squeeze S_ squeezes_S1_S_).sem
abbrev agSnd0 : DmaSem sig := ((cc0_scratch6.slice (Rect.unit (s := S6) ![0] S1.size inb_S6_S1_0)).squeeze S_ squeezes_S1_S_).sem
abbrev agSnd1 : DmaSem sig := ((cc0_scratch6.slice (Rect.unit (s := S6) ![1] S1.size inb_S6_S1_1)).squeeze S_ squeezes_S1_S_).sem
abbrev agSnd2 : DmaSem sig := ((cc0_scratch6.slice (Rect.unit (s := S6) ![2] S1.size inb_S6_S1_2)).squeeze S_ squeezes_S1_S_).sem
abbrev agSnd3 : DmaSem sig := ((cc0_scratch6.slice (Rect.unit (s := S6) ![3] S1.size inb_S6_S1_3)).squeeze S_ squeezes_S1_S_).sem
abbrev agSnd4 : DmaSem sig := ((cc0_scratch6.slice (Rect.unit (s := S6) ![4] S1.size inb_S6_S1_4)).squeeze S_ squeezes_S1_S_).sem
abbrev agSnd5 : DmaSem sig := ((cc0_scratch6.slice (Rect.unit (s := S6) ![5] S1.size inb_S6_S1_5)).squeeze S_ squeezes_S1_S_).sem
abbrev agRcv0 : DmaSem sig := ((cc0_scratch7.slice (Rect.unit (s := S6) ![0] S1.size inb_S6_S1_0)).squeeze S_ squeezes_S1_S_).sem
abbrev agRcv1 : DmaSem sig := ((cc0_scratch7.slice (Rect.unit (s := S6) ![1] S1.size inb_S6_S1_1)).squeeze S_ squeezes_S1_S_).sem
abbrev agRcv2 : DmaSem sig := ((cc0_scratch7.slice (Rect.unit (s := S6) ![2] S1.size inb_S6_S1_2)).squeeze S_ squeezes_S1_S_).sem
abbrev agRcv3 : DmaSem sig := ((cc0_scratch7.slice (Rect.unit (s := S6) ![3] S1.size inb_S6_S1_3)).squeeze S_ squeezes_S1_S_).sem
abbrev agRcv4 : DmaSem sig := ((cc0_scratch7.slice (Rect.unit (s := S6) ![4] S1.size inb_S6_S1_4)).squeeze S_ squeezes_S1_S_).sem
abbrev agRcv5 : DmaSem sig := ((cc0_scratch7.slice (Rect.unit (s := S6) ![5] S1.size inb_S6_S1_5)).squeeze S_ squeezes_S1_S_).sem

/-- The transfer semaphores are numbers 5 to 22 of the device's pool, in the order declared: three for the sends of the
    reduce-scatter, three for its landings, six for the sends of the all-gather, six for its landings. -/
theorem sem_vals : rsSnd0.val = 5 ∧ rsSnd1.val = 6 ∧ rsSnd2.val = 7 ∧ rsRcv0.val = 8 ∧ rsRcv1.val = 9 ∧ rsRcv2.val = 10
    ∧ agSnd0.val = 11 ∧ agSnd1.val = 12 ∧ agSnd2.val = 13 ∧ agSnd3.val = 14 ∧ agSnd4.val = 15 ∧ agSnd5.val = 16
    ∧ agRcv0.val = 17 ∧ agRcv1.val = 18 ∧ agRcv2.val = 19 ∧ agRcv3.val = 20 ∧ agRcv4.val = 21 ∧ agRcv5.val = 22 := by
  refine ⟨rfl, rfl, rfl, rfl, rfl, rfl, rfl, rfl, rfl, rfl, rfl, rfl, rfl, rfl, rfl, rfl, rfl, rfl⟩

/-- A device's cell on a semaphore. -/
abbrev cellAt (c : Dev nD) (s : SemLoc sig) : GSem nD τ sig := ((c : Thread nD τ), s)
abbrev barCell (c : Dev nD) : GSem nD τ sig := cellAt c (.reg barS)

end Cert.KernelIdeal.Mlp

end
-- ==== Proof.Vals.lean ====
/-
  What each buffer of the exchange holds, as a function of the memory at launch.

  Device `c` keeps all of `x` and its column blocks of the gate and up weights and its row block of the down weights. For
  a chunk of 192 rows of `x` its PARTIAL result is ((chunk · gate) * ((chunk · up) * logistic (chunk · up))) · down. The
  reduce-scatter sums, for the chunk a device owns, the four devices' partials: a device sends the partial of the chunk
  across the ring (slot 0) and of its first partner's chunk (slot 1) to the first partner (device 3 - c), adds what landed
  in slot 0 to its partial of its second partner's chunk and sends that (slot 2) to the second partner (device c xor 1),
  and adds what landed in slots 1 and 2 to its partial of its own chunk. The all-gather then passes every device's reduced
  chunk, in two halves, both ways round the ring.
-/
import proofs.«900352_g7700000000000353_dist_gated_mlp_tp_i_m768_h1536_d768_v7x_i4_f32_1_alg».proof.Proof.Cells
import Idealize.ShloMosaic.Lib.ValueIdx

noncomputable section

namespace Cert.KernelIdeal.Mlp

open Cert.KernelIdeal Cert.KernelIdeal.Gen
open Idealize.ShloMosaic
open Idealize.ShloMosaic.TcCoe
open Idealize.ShloMosaic.ValueIdx

variable {F : FTy → Type} [FloatOps F]
variable (m : (ℓ : Loc nD τ sig) → Buf (Elt F) ℓ)

/-! ## The staged arguments -/

/-- Device `c`'s copy of `x`, as staged. -/
def stg0 (c : Dev nD) : (cc0_stg0_0 : Ref sig .tc).ty.Contents (Elt F) :=
  (win0_0.blk (0 : Fin 1)).view.read (Elt F) (m ((c : Thread nD τ).loc main_arg0))
/-- Its block of the gate weights. -/
def stg1 (c : Dev nD) : (cc0_stg1_0 : Ref sig .tc).ty.Contents (Elt F) :=
  (win0_1.blk (0 : Fin 1)).view.read (Elt F) (m ((c : Thread nD τ).loc main_arg1))
/-- Its block of the up weights. -/
def stg2 (c : Dev nD) : (cc0_stg2_0 : Ref sig .tc).ty.Contents (Elt F) :=
  (win0_2.blk (0 : Fin 1)).view.read (Elt F) (m ((c : Thread nD τ).loc main_arg2))
/-- Its block of the down weights. -/
def stg3 (c : Dev nD) : (cc0_stg3_0 : Ref sig .tc).ty.Contents (Elt F) :=
  (win0_3.blk (0 : Fin 1)).view.read (Elt F) (m ((c : Thread nD τ).loc main_arg3))

/-- The 192 rows of device `c`'s `x` starting at the row offset `off`. -/
def xAt (c : Dev nD) (off : Fin 2 → Nat) (h : ∀ a, off a + S192x768.size a ≤ S768x768.size a) : Vec F S192x768 .f32 :=
  (Memref.whole cc0_stg0_0 : Memref sig .tc .vmem S768x768 .f32).view.readAt (Elt F)
    (Rect.unit (s := S768x768) off S192x768.size h).toLoadRect (stg0 m c)

/-! ## The reduce-scatter -/

/-- Slot 0 of device `c`'s send buffer: its partial of the chunk across the ring. -/
def SB0 (c : Dev nD) : FVec F S1x192x768 .bf16 :=
  k0_pay4 (stg1 m c) (stg2 m c) (stg3 m c) (xAt m c (k0_off1 c 2#32) (k0_off1_inb c 1))
/-- Slot 1: its partial of its first partner's chunk. -/
def SB1 (c : Dev nD) : FVec F S1x192x768 .bf16 :=
  k0_pay5 (k0_pay1 (stg1 m c)) (k0_pay2 (stg2 m c)) (k0_pay3 (stg3 m c)) (xAt m c (k0_off2 c) (k0_off2_inb c))
/-- Slot 2: its partial of its second partner's chunk plus what its first partner sent for that chunk. -/
def SB2 (c : Dev nD) : FVec F S1x192x768 .bf16 :=
  k0_pay6 (k0_pay1 (stg1 m c)) (k0_pay2 (stg2 m c)) (k0_pay3 (stg3 m c)) (xAt m c (k0_off3 c) (k0_off3_inb c)) (SB0 m (far c))
/-- Device `c`'s partial of its own chunk. -/
def mine (c : Dev nD) : FVec F S192x768 .f32 :=
  k0_pay7 (k0_pay1 (stg1 m c)) (k0_pay2 (stg2 m c)) (k0_pay3 (stg3 m c)) (xAt m c (k0_off4 c) (k0_off4_inb c))
/-- The reduced chunk device `c` owns: the four partials summed. -/
def ACC (c : Dev nD) : FVec F S192x768 .f32 := k0_pay8 (mine m c) (SB1 m (far c)) (SB2 m (par c))
/-- The same, as kept for the all-gather. -/
def OWN (c : Dev nD) : FVec F S192x768 .bf16 := k0_pay9 (mine m c) (SB1 m (far c)) (SB2 m (par c))

/-! ## The buffers' contents, whole -/

/-- A slot of a three-slot buffer read at a row and a column. -/
def slot3 {α : Type} (X0 X1 X2 : S1x192x768.Idx → α) : S3x192x768.Idx → α := fun i =>
  if (i 0).val = 0 then X0 (ix3 (0 : Fin 1) (i 1) (i 2)) else if (i 0).val = 1 then X1 (ix3 (0 : Fin 1) (i 1) (i 2)) else X2 (ix3 (0 : Fin 1) (i 1) (i 2))

/-- The send buffer of device `c` once its three slots are stored. -/
def sbBuf (c : Dev nD) : Buf (Elt F) ((c : Thread nD τ).loc cc0_scratch0) := slot3 (SB0 m c) (SB1 m c) (SB2 m c)
/-- The reduce-scatter landing buffer of device `c` once its three slots have landed: slots 0 and 1 from its first
    partner, slot 2 from its second. -/
def rsBuf (c : Dev nD) : Buf (Elt F) ((c : Thread nD τ).loc cc0_scratch1) := slot3 (SB0 m (far c)) (SB1 m (far c)) (SB2 m (par c))
/-- Device `c`'s own reduced chunk. -/
def ownBuf (c : Dev nD) : Buf (Elt F) ((c : Thread nD τ).loc cc0_scratch2) := OWN m c
/-- A reduced chunk re-read as one slot. -/
def asSlot {α : Type} (X : S192x768.Idx → α) : S1x192x768.Idx → α := fun i => X (ix2 (i 1) (i 2))
/-- The all-gather landing buffer of device `c` once it is full: the chunks of the device before it, the device after
    it and the device across the ring. -/
def agBuf (c : Dev nD) : Buf (Elt F) ((c : Thread nD τ).loc cc0_scratch3) :=
  slot3 (asSlot (OWN m (lft c))) (asSlot (OWN m (rgt c))) (asSlot (OWN m (opp c)))

/-! ## The result -/

/-- The result array on device `c` when the kernel returns: its own chunk of rows is the reduced chunk it computed, the
    three other chunks are the reduced chunks of the device before it, the device after it and the device across the
    ring, as they came through the all-gather. -/
def outBuf (c : Dev nD) : (cc0_stg4_0 : Ref sig .tc).ty.Contents (Elt F) := fun i =>
  if (i 0).val / 192 = c.val then ACC m c (ix2 (⟨(i 0).val % 192, Nat.mod_lt _ (by decide)⟩ : Fin 192) (i 1))
  else if (i 0).val / 192 = (lft c).val then
    k0_pay10 (asSlot (OWN m (lft c))) (ix2 (⟨(i 0).val % 192, Nat.mod_lt _ (by decide)⟩ : Fin 192) (i 1))
  else if (i 0).val / 192 = (rgt c).val then
    k0_pay11 (asSlot (OWN m (rgt c))) (ix2 (⟨(i 0).val % 192, Nat.mod_lt _ (by decide)⟩ : Fin 192) (i 1))
  else k0_pay12 (asSlot (OWN m (opp c))) (ix2 (⟨(i 0).val % 192, Nat.mod_lt _ (by decide)⟩ : Fin 192) (i 1))

end Cert.KernelIdeal.Mlp

end
-- ==== Proof.Sched.lean ====
/-
  The schedule of the exchange: one round on every cell.

  A device's barrier cell expects one unit from each ring neighbour; with its unit a neighbour hands over the regions of
  ITS landing buffers that this device will write (the three half-slots of the all-gather buffer on that side, and the
  slots of the reduce-scatter buffer this device fills there: two on the side of its first partner, one on the side of
  its second — the first partner is the neighbour before an even device and the neighbour after an odd one). A send cell
  expects the credit of its one transfer and gives the source back; a landing cell expects the credit of the one transfer
  into it and gives the landing region at the contents the sender read.
-/
import proofs.«900352_g7700000000000353_dist_gated_mlp_tp_i_m768_h1536_d768_v7x_i4_f32_1_alg».proof.Proof.Vals
import Idealize.ShloMosaic.Lib.Pipeline.Launch
import Idealize.ShloMosaic.Lib.Pipeline.Kit
import Idealize.ShloMosaic.Lib.Tactic

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## What a cell is for -/

inductive Role where
  | bar | rsS (k : ℕ) | rsR (k : ℕ) | agS (k : ℕ) | agR (k : ℕ) | idle
  deriving DecidableEq

/-- The role of a semaphore, by its number in the device's pool. -/
def roleOf : SemLoc sig → Role
  | .reg _ => .bar
  | .dma q => if q.val < 5 then .idle else if q.val < 8 then .rsS (q.val - 5) else if q.val < 11 then .rsR (q.val - 8)
      else if q.val < 17 then .agS (q.val - 11) else .agR (q.val - 17)

/-- The credit of a transfer of one chunk (192 rows), and of half a chunk. -/
abbrev N192 : ℕ := (rs0 : Memref sig .tc .vmem S192x768 .bf16).view.dmaCredit
abbrev N96 : ℕ := (ag0Lo : Memref sig .tc .vmem S96x768 .bf16).view.dmaCredit
theorem N192_pos : 0 < N192 := View.dmaCredit_pos _ (by decide)
theorem N96_pos : 0 < N96 := View.dmaCredit_pos _ (by decide)

/-! ## Regions held and regions handed over -/

/-- Device `p` holds the elements of the view `M` at share `q`, the buffer reading `X` there. -/
def held (p : Dev nD) {sh : Shape} (M : Memref sig .tc .vmem sh .bf16) (q : PosShare TreeShare)
    (X : Buf (Elt F) (M.view.loc (p : Thread nD τ))) : sProp 𝕄 :=
  M.view.loc (p : Thread nD τ) ↦[M.view.set]{q} X
/-- The elements of the view `M` on device `p`, whatever they hold. -/
def free (p : Dev nD) {sh : Shape} (M : Memref sig .tc .vmem sh .bf16) : sProp 𝕄 :=
  iprop(∃ f, M.view.loc (p : Thread nD τ) ↦[M.view.set]{fullShare} f)

omit [FloatOps F] in
theorem held_def (p : Dev nD) {sh : Shape} (M : Memref sig .tc .vmem sh .bf16) (q : PosShare TreeShare)
    (X : Buf (Elt F) (M.view.loc (p : Thread nD τ))) : (held p M q X : sProp 𝕄) = (M.view.loc (p : Thread nD τ) ↦[M.view.set]{q} X) := rfl
omit [FloatOps F] in
theorem free_def (p : Dev nD) {sh : Shape} (M : Memref sig .tc .vmem sh .bf16) :
    (free p M : sProp 𝕄) = iprop(∃ f, M.view.loc (p : Thread nD τ) ↦[M.view.set]{fullShare} f) := rfl

omit [FloatOps F] in
instance held_storable (p : Dev nD) {sh : Shape} (M : Memref sig .tc .vmem sh .bf16) (q : PosShare TreeShare)
    (X : Buf (Elt F) (M.view.loc (p : Thread nD τ))) : BI.Storable (upEmb : UEmb _ 𝕄) (held p M q X) := by
  unfold held; infer_instance
omit [FloatOps F] in
instance free_storable (p : Dev nD) {sh : Shape} (M : Memref sig .tc .vmem sh .bf16) :
    BI.Storable (upEmb : UEmb _ 𝕄) (free (F := F) p M) := by
  unfold free; infer_instance

/-- What a neighbour's unit on device `c`'s barrier cell brings: `true` from the device before it, `false` from the
    device after it. -/
def barPay (c : Dev nD) (d : Bool) : sProp 𝕄 :=
  if d then
    iprop(free (lft c) ag1Hi ∗ free (lft c) ag1Lo ∗ free (lft c) ag2Hi
      ∗ (if c.val % 2 = 0 then iprop(free (lft c) rs0 ∗ free (lft c) rs1) else free (lft c) rs2))
  else
    iprop(free (rgt c) ag0Lo ∗ free (rgt c) ag0Hi ∗ free (rgt c) ag2Lo
      ∗ (if c.val % 2 = 0 then free (rgt c) rs2 else iprop(free (rgt c) rs0 ∗ free (rgt c) rs1)))

/-- What each cell's round hands its owner. -/
def pay (c : Dev nD) : Role → Bool → sProp 𝕄
  | .bar, d => barPay c d
  | .rsS 0, _ => held c sb0 fullShare (sbBuf m c)
  | .rsS 1, _ => held c sb1 fullShare (sbBuf m c)
  | .rsS _, _ => held c sb2 fullShare (sbBuf m c)
  | .rsR 0, _ => held c rs0 fullShare (rsBuf m c)
  | .rsR 1, _ => held c rs1 fullShare (rsBuf m c)
  | .rsR _, _ => held c rs2 fullShare (rsBuf m c)
  | .agS 0, _ => held c ownLo fullShare.left (ownBuf m c)
  | .agS 1, _ => held c ownHi fullShare.left (ownBuf m c)
  | .agS 2, _ => held c ownHi fullShare.right (ownBuf m c)
  | .agS 3, _ => held c ownLo fullShare.right (ownBuf m c)
  | .agS 4, _ => held c ag0Lo fullShare.left (agBuf m c)
  | .agS _, _ => held c ag1Hi fullShare.left (agBuf m c)
  | .agR 0, _ => held c ag0Lo fullShare (agBuf m c)
  | .agR 1, _ => held c ag0Hi fullShare (agBuf m c)
  | .agR 2, _ => held c ag1Lo fullShare (agBuf m c)
  | .agR 3, _ => held c ag1Hi fullShare (agBuf m c)
  | .agR 4, _ => held c ag2Lo fullShare (agBuf m c)
  | .agR _, _ => held c ag2Hi fullShare (agBuf m c)
  | .idle, _ => iprop(emp)

/-! ## The schedule -/

def Rd : Rounds.Schedule (GSem nD τ sig) Bool 𝕄 where
  duties g r := if r = 0 ∧ g.1.2 = .tc then (match roleOf g.2 with | .bar => Finset.univ | .idle => ∅ | _ => {false}) else ∅
  unitless _ := False
  amount g _ _ := match roleOf g.2 with | .bar => 1 | .rsS _ => N192 | .rsR _ => N192 | .agS _ => N96 | .agR _ => N96 | .idle => 1
  payload g _ d := pay m g.1.1 (roleOf g.2) d
  amount_pos g _ _ _ := by
    cases roleOf g.2 <;> first | exact Nat.one_pos | exact N192_pos | exact N96_pos

instance Rd_payload_storable (g : GSem nD τ sig) (r : ℕ) (d : Bool) :
    BI.Storable (upEmb : UEmb _ 𝕄) ((Rd (F := F) m).payload g r d) := by
  show BI.Storable upEmb (pay m g.1.1 (roleOf g.2) d)
  unfold pay barPay
  (repeat' split) <;> infer_instance

end Cert.KernelIdeal.Mlp

end
-- ==== Proof.Tables.lean ====
/-
  The schedule read cell by cell: which duties a round has, how many units each brings, what it hands over, how many
  units the round expects, and what is left of a round of which nothing has been taken yet.
-/
import proofs.«900352_g7700000000000353_dist_gated_mlp_tp_i_m768_h1536_d768_v7x_i4_f32_1_alg».proof.Proof.Sched

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Any cell of a device -/

theorem duties_tc (c : Dev nD) (s : SemLoc sig) :
    (Rd (F := F) m).duties (cellAt c s) 0 = (match roleOf s with | .bar => Finset.univ | .idle => ∅ | _ => {false}) := by
  dsimp only [Rd]; exact if_pos ⟨rfl, rfl⟩
theorem duties_later (g : GSem nD τ sig) (r : ℕ) (hr : 1 ≤ r) : (Rd (F := F) m).duties g r = ∅ := by
  dsimp only [Rd]; exact if_neg fun h => by omega
theorem amount_tc (c : Dev nD) (s : SemLoc sig) (r : ℕ) (d : Bool) :
    (Rd (F := F) m).amount (cellAt c s) r d
      = (match roleOf s with | .bar => 1 | .rsS _ => N192 | .rsR _ => N192 | .agS _ => N96 | .agR _ => N96 | .idle => 1) := rfl
theorem payload_tc (c : Dev nD) (s : SemLoc sig) (r : ℕ) (d : Bool) :
    (Rd (F := F) m).payload (cellAt c s) r d = pay m c (roleOf s) d := rfl

/-- A round of one duty expects that duty's units. -/
theorem expect_single (g : GSem nD τ sig) (h : (Rd (F := F) m).duties g 0 = {false}) :
    (Rd (F := F) m).expect g 0 = (Rd (F := F) m).amount g 0 false := by
  unfold Schedule.expect Schedule.amountOf; rw [h, Finset.sum_singleton]
/-- Of a round of one duty nothing taken yet, what is left is that duty's payload. -/
theorem rest_single (g : GSem nD τ sig) (h : (Rd (F := F) m).duties g 0 = {false}) :
    bigSep ((Rd (F := F) m).duties g 0 \ ∅) (fun d => (Rd (F := F) m).payload g 0 d) = (Rd (F := F) m).payload g 0 false := by
  rw [Finset.sdiff_empty, h, bigSep_singleton]

/-! ## The barrier cell -/

theorem duties_bar (c : Dev nD) : (Rd (F := F) m).duties (barCell c) 0 = Finset.univ := duties_tc m c _
theorem amount_bar (c : Dev nD) (d : Bool) : (Rd (F := F) m).amount (barCell c) 0 d = 1 := rfl
theorem expect_bar (c : Dev nD) : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem payload_bar (c : Dev nD) (d : Bool) : (Rd (F := F) m).payload (barCell c) 0 d = barPay c d := rfl
/-- Of the barrier cell's round nothing taken yet: both neighbours' grants. -/
theorem rest_bar (c : Dev nD) :
    bigSep ((Rd (F := F) m).duties (barCell c) 0 \ ∅) (fun d => (Rd (F := F) m).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl

/-! ## The transfer cells -/

theorem duties_rsSnd0 (c : Dev nD) : (Rd (F := F) m).duties (cellAt c (.dma rsSnd0)) 0 = {false} := duties_tc m c _
theorem amount_rsSnd0 (c : Dev nD) (d : Bool) : (Rd (F := F) m).amount (cellAt c (.dma rsSnd0)) 0 d = N192 := rfl
theorem payload_rsSnd0 (c : Dev nD) (d : Bool) : (Rd (F := F) m).payload (cellAt c (.dma rsSnd0)) 0 d = held c sb0 fullShare (sbBuf m c) := rfl
theorem expect_rsSnd0 (c : Dev nD) : (Rd (F := F) m).expect (cellAt c (.dma rsSnd0)) 0 = N192 :=
  (expect_single m _ (duties_rsSnd0 m c)).trans (amount_rsSnd0 m c false)
theorem rest_rsSnd0 (c : Dev nD) :
    bigSep ((Rd (F := F) m).duties (cellAt c (.dma rsSnd0)) 0 \ ∅) (fun d => (Rd (F := F) m).payload (cellAt c (.dma rsSnd0)) 0 d)
      = held c sb0 fullShare (sbBuf m c) :=
  (rest_single m _ (duties_rsSnd0 m c)).trans (payload_rsSnd0 m c false)
theorem duties_rsSnd1 (c : Dev nD) : (Rd (F := F) m).duties (cellAt c (.dma rsSnd1)) 0 = {false} := duties_tc m c _
theorem amount_rsSnd1 (c : Dev nD) (d : Bool) : (Rd (F := F) m).amount (cellAt c (.dma rsSnd1)) 0 d = N192 := rfl
theorem payload_rsSnd1 (c : Dev nD) (d : Bool) : (Rd (F := F) m).payload (cellAt c (.dma rsSnd1)) 0 d = held c sb1 fullShare (sbBuf m c) := rfl
theorem expect_rsSnd1 (c : Dev nD) : (Rd (F := F) m).expect (cellAt c (.dma rsSnd1)) 0 = N192 :=
  (expect_single m _ (duties_rsSnd1 m c)).trans (amount_rsSnd1 m c false)
theorem rest_rsSnd1 (c : Dev nD) :
    bigSep ((Rd (F := F) m).duties (cellAt c (.dma rsSnd1)) 0 \ ∅) (fun d => (Rd (F := F) m).payload (cellAt c (.dma rsSnd1)) 0 d)
      = held c sb1 fullShare (sbBuf m c) :=
  (rest_single m _ (duties_rsSnd1 m c)).trans (payload_rsSnd1 m c false)
theorem duties_rsSnd2 (c : Dev nD) : (Rd (F := F) m).duties (cellAt c (.dma rsSnd2)) 0 = {false} := duties_tc m c _
theorem amount_rsSnd2 (c : Dev nD) (d : Bool) : (Rd (F := F) m).amount (cellAt c (.dma rsSnd2)) 0 d = N192 := rfl
theorem payload_rsSnd2 (c : Dev nD) (d : Bool) : (Rd (F := F) m).payload (cellAt c (.dma rsSnd2)) 0 d = held c sb2 fullShare (sbBuf m c) := rfl
theorem expect_rsSnd2 (c : Dev nD) : (Rd (F := F) m).expect (cellAt c (.dma rsSnd2)) 0 = N192 :=
  (expect_single m _ (duties_rsSnd2 m c)).trans (amount_rsSnd2 m c false)
theorem rest_rsSnd2 (c : Dev nD) :
    bigSep ((Rd (F := F) m).duties (cellAt c (.dma rsSnd2)) 0 \ ∅) (fun d => (Rd (F := F) m).payload (cellAt c (.dma rsSnd2)) 0 d)
      = held c sb2 fullShare (sbBuf m c) :=
  (rest_single m _ (duties_rsSnd2 m c)).trans (payload_rsSnd2 m c false)
theorem duties_rsRcv0 (c : Dev nD) : (Rd (F := F) m).duties (cellAt c (.dma rsRcv0)) 0 = {false} := duties_tc m c _
theorem amount_rsRcv0 (c : Dev nD) (d : Bool) : (Rd (F := F) m).amount (cellAt c (.dma rsRcv0)) 0 d = N192 := rfl
theorem payload_rsRcv0 (c : Dev nD) (d : Bool) : (Rd (F := F) m).payload (cellAt c (.dma rsRcv0)) 0 d = held c rs0 fullShare (rsBuf m c) := rfl
theorem expect_rsRcv0 (c : Dev nD) : (Rd (F := F) m).expect (cellAt c (.dma rsRcv0)) 0 = N192 :=
  (expect_single m _ (duties_rsRcv0 m c)).trans (amount_rsRcv0 m c false)
theorem rest_rsRcv0 (c : Dev nD) :
    bigSep ((Rd (F := F) m).duties (cellAt c (.dma rsRcv0)) 0 \ ∅) (fun d => (Rd (F := F) m).payload (cellAt c (.dma rsRcv0)) 0 d)
      = held c rs0 fullShare (rsBuf m c) :=
  (rest_single m _ (duties_rsRcv0 m c)).trans (payload_rsRcv0 m c false)
theorem duties_rsRcv1 (c : Dev nD) : (Rd (F := F) m).duties (cellAt c (.dma rsRcv1)) 0 = {false} := duties_tc m c _
theorem amount_rsRcv1 (c : Dev nD) (d : Bool) : (Rd (F := F) m).amount (cellAt c (.dma rsRcv1)) 0 d = N192 := rfl
theorem payload_rsRcv1 (c : Dev nD) (d : Bool) : (Rd (F := F) m).payload (cellAt c (.dma rsRcv1)) 0 d = held c rs1 fullShare (rsBuf m c) := rfl
theorem expect_rsRcv1 (c : Dev nD) : (Rd (F := F) m).expect (cellAt c (.dma rsRcv1)) 0 = N192 :=
  (expect_single m _ (duties_rsRcv1 m c)).trans (amount_rsRcv1 m c false)
theorem rest_rsRcv1 (c : Dev nD) :
    bigSep ((Rd (F := F) m).duties (cellAt c (.dma rsRcv1)) 0 \ ∅) (fun d => (Rd (F := F) m).payload (cellAt c (.dma rsRcv1)) 0 d)
      = held c rs1 fullShare (rsBuf m c) :=
  (rest_single m _ (duties_rsRcv1 m c)).trans (payload_rsRcv1 m c false)
theorem duties_rsRcv2 (c : Dev nD) : (Rd (F := F) m).duties (cellAt c (.dma rsRcv2)) 0 = {false} := duties_tc m c _
theorem amount_rsRcv2 (c : Dev nD) (d : Bool) : (Rd (F := F) m).amount (cellAt c (.dma rsRcv2)) 0 d = N192 := rfl
theorem payload_rsRcv2 (c : Dev nD) (d : Bool) : (Rd (F := F) m).payload (cellAt c (.dma rsRcv2)) 0 d = held c rs2 fullShare (rsBuf m c) := rfl
theorem expect_rsRcv2 (c : Dev nD) : (Rd (F := F) m).expect (cellAt c (.dma rsRcv2)) 0 = N192 :=
  (expect_single m _ (duties_rsRcv2 m c)).trans (amount_rsRcv2 m c false)
theorem rest_rsRcv2 (c : Dev nD) :
    bigSep ((Rd (F := F) m).duties (cellAt c (.dma rsRcv2)) 0 \ ∅) (fun d => (Rd (F := F) m).payload (cellAt c (.dma rsRcv2)) 0 d)
      = held c rs2 fullShare (rsBuf m c) :=
  (rest_single m _ (duties_rsRcv2 m c)).trans (payload_rsRcv2 m c false)
theorem duties_agSnd0 (c : Dev nD) : (Rd (F := F) m).duties (cellAt c (.dma agSnd0)) 0 = {false} := duties_tc m c _
theorem amount_agSnd0 (c : Dev nD) (d : Bool) : (Rd (F := F) m).amount (cellAt c (.dma agSnd0)) 0 d = N96 := rfl
theorem payload_agSnd0 (c : Dev nD) (d : Bool) : (Rd (F := F) m).payload (cellAt c (.dma agSnd0)) 0 d = held c ownLo fullShare.left (ownBuf m c) := rfl
theorem expect_agSnd0 (c : Dev nD) : (Rd (F := F) m).expect (cellAt c (.dma agSnd0)) 0 = N96 :=
  (expect_single m _ (duties_agSnd0 m c)).trans (amount_agSnd0 m c false)
theorem rest_agSnd0 (c : Dev nD) :
    bigSep ((Rd (F := F) m).duties (cellAt c (.dma agSnd0)) 0 \ ∅) (fun d => (Rd (F := F) m).payload (cellAt c (.dma agSnd0)) 0 d)
      = held c ownLo fullShare.left (ownBuf m c) :=
  (rest_single m _ (duties_agSnd0 m c)).trans (payload_agSnd0 m c false)
theorem duties_agSnd1 (c : Dev nD) : (Rd (F := F) m).duties (cellAt c (.dma agSnd1)) 0 = {false} := duties_tc m c _
theorem amount_agSnd1 (c : Dev nD) (d : Bool) : (Rd (F := F) m).amount (cellAt c (.dma agSnd1)) 0 d = N96 := rfl
theorem payload_agSnd1 (c : Dev nD) (d : Bool) : (Rd (F := F) m).payload (cellAt c (.dma agSnd1)) 0 d = held c ownHi fullShare.left (ownBuf m c) := rfl
theorem expect_agSnd1 (c : Dev nD) : (Rd (F := F) m).expect (cellAt c (.dma agSnd1)) 0 = N96 :=
  (expect_single m _ (duties_agSnd1 m c)).trans (amount_agSnd1 m c false)
theorem rest_agSnd1 (c : Dev nD) :
    bigSep ((Rd (F := F) m).duties (cellAt c (.dma agSnd1)) 0 \ ∅) (fun d => (Rd (F := F) m).payload (cellAt c (.dma agSnd1)) 0 d)
      = held c ownHi fullShare.left (ownBuf m c) :=
  (rest_single m _ (duties_agSnd1 m c)).trans (payload_agSnd1 m c false)
theorem duties_agSnd2 (c : Dev nD) : (Rd (F := F) m).duties (cellAt c (.dma agSnd2)) 0 = {false} := duties_tc m c _
theorem amount_agSnd2 (c : Dev nD) (d : Bool) : (Rd (F := F) m).amount (cellAt c (.dma agSnd2)) 0 d = N96 := rfl
theorem payload_agSnd2 (c : Dev nD) (d : Bool) : (Rd (F := F) m).payload (cellAt c (.dma agSnd2)) 0 d = held c ownHi fullShare.right (ownBuf m c) := rfl
theorem expect_agSnd2 (c : Dev nD) : (Rd (F := F) m).expect (cellAt c (.dma agSnd2)) 0 = N96 :=
  (expect_single m _ (duties_agSnd2 m c)).trans (amount_agSnd2 m c false)
theorem rest_agSnd2 (c : Dev nD) :
    bigSep ((Rd (F := F) m).duties (cellAt c (.dma agSnd2)) 0 \ ∅) (fun d => (Rd (F := F) m).payload (cellAt c (.dma agSnd2)) 0 d)
      = held c ownHi fullShare.right (ownBuf m c) :=
  (rest_single m _ (duties_agSnd2 m c)).trans (payload_agSnd2 m c false)
theorem duties_agSnd3 (c : Dev nD) : (Rd (F := F) m).duties (cellAt c (.dma agSnd3)) 0 = {false} := duties_tc m c _
theorem amount_agSnd3 (c : Dev nD) (d : Bool) : (Rd (F := F) m).amount (cellAt c (.dma agSnd3)) 0 d = N96 := rfl
theorem payload_agSnd3 (c : Dev nD) (d : Bool) : (Rd (F := F) m).payload (cellAt c (.dma agSnd3)) 0 d = held c ownLo fullShare.right (ownBuf m c) := rfl
theorem expect_agSnd3 (c : Dev nD) : (Rd (F := F) m).expect (cellAt c (.dma agSnd3)) 0 = N96 :=
  (expect_single m _ (duties_agSnd3 m c)).trans (amount_agSnd3 m c false)
theorem rest_agSnd3 (c : Dev nD) :
    bigSep ((Rd (F := F) m).duties (cellAt c (.dma agSnd3)) 0 \ ∅) (fun d => (Rd (F := F) m).payload (cellAt c (.dma agSnd3)) 0 d)
      = held c ownLo fullShare.right (ownBuf m c) :=
  (rest_single m _ (duties_agSnd3 m c)).trans (payload_agSnd3 m c false)
theorem duties_agSnd4 (c : Dev nD) : (Rd (F := F) m).duties (cellAt c (.dma agSnd4)) 0 = {false} := duties_tc m c _
theorem amount_agSnd4 (c : Dev nD) (d : Bool) : (Rd (F := F) m).amount (cellAt c (.dma agSnd4)) 0 d = N96 := rfl
theorem payload_agSnd4 (c : Dev nD) (d : Bool) : (Rd (F := F) m).payload (cellAt c (.dma agSnd4)) 0 d = held c ag0Lo fullShare.left (agBuf m c) := rfl
theorem expect_agSnd4 (c : Dev nD) : (Rd (F := F) m).expect (cellAt c (.dma agSnd4)) 0 = N96 :=
  (expect_single m _ (duties_agSnd4 m c)).trans (amount_agSnd4 m c false)
theorem rest_agSnd4 (c : Dev nD) :
    bigSep ((Rd (F := F) m).duties (cellAt c (.dma agSnd4)) 0 \ ∅) (fun d => (Rd (F := F) m).payload (cellAt c (.dma agSnd4)) 0 d)
      = held c ag0Lo fullShare.left (agBuf m c) :=
  (rest_single m _ (duties_agSnd4 m c)).trans (payload_agSnd4 m c false)
theorem duties_agSnd5 (c : Dev nD) : (Rd (F := F) m).duties (cellAt c (.dma agSnd5)) 0 = {false} := duties_tc m c _
theorem amount_agSnd5 (c : Dev nD) (d : Bool) : (Rd (F := F) m).amount (cellAt c (.dma agSnd5)) 0 d = N96 := rfl
theorem payload_agSnd5 (c : Dev nD) (d : Bool) : (Rd (F := F) m).payload (cellAt c (.dma agSnd5)) 0 d = held c ag1Hi fullShare.left (agBuf m c) := rfl
theorem expect_agSnd5 (c : Dev nD) : (Rd (F := F) m).expect (cellAt c (.dma agSnd5)) 0 = N96 :=
  (expect_single m _ (duties_agSnd5 m c)).trans (amount_agSnd5 m c false)
theorem rest_agSnd5 (c : Dev nD) :
    bigSep ((Rd (F := F) m).duties (cellAt c (.dma agSnd5)) 0 \ ∅) (fun d => (Rd (F := F) m).payload (cellAt c (.dma agSnd5)) 0 d)
      = held c ag1Hi fullShare.left (agBuf m c) :=
  (rest_single m _ (duties_agSnd5 m c)).trans (payload_agSnd5 m c false)
theorem duties_agRcv0 (c : Dev nD) : (Rd (F := F) m).duties (cellAt c (.dma agRcv0)) 0 = {false} := duties_tc m c _
theorem amount_agRcv0 (c : Dev nD) (d : Bool) : (Rd (F := F) m).amount (cellAt c (.dma agRcv0)) 0 d = N96 := rfl
theorem payload_agRcv0 (c : Dev nD) (d : Bool) : (Rd (F := F) m).payload (cellAt c (.dma agRcv0)) 0 d = held c ag0Lo fullShare (agBuf m c) := rfl
theorem expect_agRcv0 (c : Dev nD) : (Rd (F := F) m).expect (cellAt c (.dma agRcv0)) 0 = N96 :=
  (expect_single m _ (duties_agRcv0 m c)).trans (amount_agRcv0 m c false)
theorem rest_agRcv0 (c : Dev nD) :
    bigSep ((Rd (F := F) m).duties (cellAt c (.dma agRcv0)) 0 \ ∅) (fun d => (Rd (F := F) m).payload (cellAt c (.dma agRcv0)) 0 d)
      = held c ag0Lo fullShare (agBuf m c) :=
  (rest_single m _ (duties_agRcv0 m c)).trans (payload_agRcv0 m c false)
theorem duties_agRcv1 (c : Dev nD) : (Rd (F := F) m).duties (cellAt c (.dma agRcv1)) 0 = {false} := duties_tc m c _
theorem amount_agRcv1 (c : Dev nD) (d : Bool) : (Rd (F := F) m).amount (cellAt c (.dma agRcv1)) 0 d = N96 := rfl
theorem payload_agRcv1 (c : Dev nD) (d : Bool) : (Rd (F := F) m).payload (cellAt c (.dma agRcv1)) 0 d = held c ag0Hi fullShare (agBuf m c) := rfl
theorem expect_agRcv1 (c : Dev nD) : (Rd (F := F) m).expect (cellAt c (.dma agRcv1)) 0 = N96 :=
  (expect_single m _ (duties_agRcv1 m c)).trans (amount_agRcv1 m c false)
theorem rest_agRcv1 (c : Dev nD) :
    bigSep ((Rd (F := F) m).duties (cellAt c (.dma agRcv1)) 0 \ ∅) (fun d => (Rd (F := F) m).payload (cellAt c (.dma agRcv1)) 0 d)
      = held c ag0Hi fullShare (agBuf m c) :=
  (rest_single m _ (duties_agRcv1 m c)).trans (payload_agRcv1 m c false)
theorem duties_agRcv2 (c : Dev nD) : (Rd (F := F) m).duties (cellAt c (.dma agRcv2)) 0 = {false} := duties_tc m c _
theorem amount_agRcv2 (c : Dev nD) (d : Bool) : (Rd (F := F) m).amount (cellAt c (.dma agRcv2)) 0 d = N96 := rfl
theorem payload_agRcv2 (c : Dev nD) (d : Bool) : (Rd (F := F) m).payload (cellAt c (.dma agRcv2)) 0 d = held c ag1Lo fullShare (agBuf m c) := rfl
theorem expect_agRcv2 (c : Dev nD) : (Rd (F := F) m).expect (cellAt c (.dma agRcv2)) 0 = N96 :=
  (expect_single m _ (duties_agRcv2 m c)).trans (amount_agRcv2 m c false)
theorem rest_agRcv2 (c : Dev nD) :
    bigSep ((Rd (F := F) m).duties (cellAt c (.dma agRcv2)) 0 \ ∅) (fun d => (Rd (F := F) m).payload (cellAt c (.dma agRcv2)) 0 d)
      = held c ag1Lo fullShare (agBuf m c) :=
  (rest_single m _ (duties_agRcv2 m c)).trans (payload_agRcv2 m c false)
theorem duties_agRcv3 (c : Dev nD) : (Rd (F := F) m).duties (cellAt c (.dma agRcv3)) 0 = {false} := duties_tc m c _
theorem amount_agRcv3 (c : Dev nD) (d : Bool) : (Rd (F := F) m).amount (cellAt c (.dma agRcv3)) 0 d = N96 := rfl
theorem payload_agRcv3 (c : Dev nD) (d : Bool) : (Rd (F := F) m).payload (cellAt c (.dma agRcv3)) 0 d = held c ag1Hi fullShare (agBuf m c) := rfl
theorem expect_agRcv3 (c : Dev nD) : (Rd (F := F) m).expect (cellAt c (.dma agRcv3)) 0 = N96 :=
  (expect_single m _ (duties_agRcv3 m c)).trans (amount_agRcv3 m c false)
theorem rest_agRcv3 (c : Dev nD) :
    bigSep ((Rd (F := F) m).duties (cellAt c (.dma agRcv3)) 0 \ ∅) (fun d => (Rd (F := F) m).payload (cellAt c (.dma agRcv3)) 0 d)
      = held c ag1Hi fullShare (agBuf m c) :=
  (rest_single m _ (duties_agRcv3 m c)).trans (payload_agRcv3 m c false)
theorem duties_agRcv4 (c : Dev nD) : (Rd (F := F) m).duties (cellAt c (.dma agRcv4)) 0 = {false} := duties_tc m c _
theorem amount_agRcv4 (c : Dev nD) (d : Bool) : (Rd (F := F) m).amount (cellAt c (.dma agRcv4)) 0 d = N96 := rfl
theorem payload_agRcv4 (c : Dev nD) (d : Bool) : (Rd (F := F) m).payload (cellAt c (.dma agRcv4)) 0 d = held c ag2Lo fullShare (agBuf m c) := rfl
theorem expect_agRcv4 (c : Dev nD) : (Rd (F := F) m).expect (cellAt c (.dma agRcv4)) 0 = N96 :=
  (expect_single m _ (duties_agRcv4 m c)).trans (amount_agRcv4 m c false)
theorem rest_agRcv4 (c : Dev nD) :
    bigSep ((Rd (F := F) m).duties (cellAt c (.dma agRcv4)) 0 \ ∅) (fun d => (Rd (F := F) m).payload (cellAt c (.dma agRcv4)) 0 d)
      = held c ag2Lo fullShare (agBuf m c) :=
  (rest_single m _ (duties_agRcv4 m c)).trans (payload_agRcv4 m c false)
theorem duties_agRcv5 (c : Dev nD) : (Rd (F := F) m).duties (cellAt c (.dma agRcv5)) 0 = {false} := duties_tc m c _
theorem amount_agRcv5 (c : Dev nD) (d : Bool) : (Rd (F := F) m).amount (cellAt c (.dma agRcv5)) 0 d = N96 := rfl
theorem payload_agRcv5 (c : Dev nD) (d : Bool) : (Rd (F := F) m).payload (cellAt c (.dma agRcv5)) 0 d = held c ag2Hi fullShare (agBuf m c) := rfl
theorem expect_agRcv5 (c : Dev nD) : (Rd (F := F) m).expect (cellAt c (.dma agRcv5)) 0 = N96 :=
  (expect_single m _ (duties_agRcv5 m c)).trans (amount_agRcv5 m c false)
theorem rest_agRcv5 (c : Dev nD) :
    bigSep ((Rd (F := F) m).duties (cellAt c (.dma agRcv5)) 0 \ ∅) (fun d => (Rd (F := F) m).payload (cellAt c (.dma agRcv5)) 0 d)
      = held c ag2Hi fullShare (agBuf m c) :=
  (rest_single m _ (duties_agRcv5 m c)).trans (payload_agRcv5 m c false)

end Cert.KernelIdeal.Mlp

end
-- ==== Proof.Ghost.lean ====
/-
  What a device owes at launch, the levels that order the waits, and the ghost state a device's body starts from.

  A device owes one unit to each neighbour's barrier cell and the credit of its nine transfers to the landing cells they
  fill. A wait is allowed only on a cell below everything the waiter still owes: the barrier cell sits at level 1, the
  first landing cell of the reduce-scatter at 2, its other two at 3, the four landing cells of the direct all-gather
  transfers at 4 and the two of the forwarded ones at 5; at each of its waits a device owes only cells above the one it
  waits on, which is the whole deadlock argument.
-/
import proofs.«900352_g7700000000000353_dist_gated_mlp_tp_i_m768_h1536_d768_v7x_i4_f32_1_alg».proof.Proof.Tables

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## What each device owes, payment by payment (the last summand is paid first) -/

/-- What a device still owes before its last transfer: the credit of the second half of slot 2 on the device before it. -/
def Oa (c : Dev nD) : CellTallies nD τ sig Unit := tallyAt (cellAt (lft c) (.dma agRcv5)) () N96
def Ob (c : Dev nD) : CellTallies nD τ sig Unit := Oa c + tallyAt (cellAt (rgt c) (.dma agRcv4)) () N96
def Oc (c : Dev nD) : CellTallies nD τ sig Unit := Ob c + tallyAt (cellAt (lft c) (.dma agRcv2)) () N96
def Od (c : Dev nD) : CellTallies nD τ sig Unit := Oc c + tallyAt (cellAt (rgt c) (.dma agRcv1)) () N96
def Oe (c : Dev nD) : CellTallies nD τ sig Unit := Od c + tallyAt (cellAt (lft c) (.dma agRcv3)) () N96
def Of (c : Dev nD) : CellTallies nD τ sig Unit := Oe c + tallyAt (cellAt (rgt c) (.dma agRcv0)) () N96
def Og (c : Dev nD) : CellTallies nD τ sig Unit := Of c + tallyAt (cellAt (par c) (.dma rsRcv2)) () N192
def Oh (c : Dev nD) : CellTallies nD τ sig Unit := Og c + tallyAt (cellAt (far c) (.dma rsRcv1)) () N192
def Oi (c : Dev nD) : CellTallies nD τ sig Unit := Oh c + tallyAt (cellAt (far c) (.dma rsRcv0)) () N192
def Oj (c : Dev nD) : CellTallies nD τ sig Unit := Oi c + tallyAt (barCell (rgt c)) () 1
def O₀ (c : Dev nD) : CellTallies nD τ sig Unit := Oj c + tallyAt (barCell (lft c)) () 1

/-! ## The levels -/

def L (g : GSem nD τ sig) : Finset Unit := if g.1.2 = .tc then {()} else ∅
def lv (g : GSem nD τ sig) (_ : Unit) : ℕ :=
  match roleOf g.2 with | .bar => 1 | .rsR 0 => 2 | .rsR _ => 3 | .agR 4 => 5 | .agR 5 => 5 | .agR _ => 4 | _ => 0

theorem L_of_ne (g : GSem nD τ sig) (h : g.1.2 ≠ .tc) : L g = ∅ := if_neg h
theorem L_tc (c : Dev nD) (sm : SemLoc sig) : L (cellAt c sm) = {()} := if_pos rfl

/-- Everything owed in `O` is a cell of a device above level `n`. -/
def Above (n : ℕ) (O : CellTallies nD τ sig Unit) : Prop := ∀ (g : GSem nD τ sig) (i : Unit), 0 < O g i → i ∈ L g ∧ n < lv g i

theorem above_tallyAt {n : ℕ} (p : Dev nD) (s : SemLoc sig) (k : ℕ) (h : n < lv (cellAt p s) ()) : Above n (tallyAt (cellAt p s) () k) := by
  intro g i hg
  obtain ⟨rfl, rfl⟩ := Pipeline.tallyAt_pos hg
  exact ⟨by rw [L_tc]; exact Finset.mem_singleton_self _, h⟩
theorem above_add {n : ℕ} {A B : CellTallies nD τ sig Unit} (hA : Above n A) (hB : Above n B) : Above n (A + B) := by
  intro g i hg
  rcases Pipeline.add_pos_cases hg with h | h
  · exact hA g i h
  · exact hB g i h
theorem above_mono {n n' : ℕ} {A : CellTallies nD τ sig Unit} (h : n' ≤ n) (hA : Above n A) : Above n' A :=
  fun g i hg => ⟨(hA g i hg).1, Nat.lt_of_le_of_lt h (hA g i hg).2⟩

theorem above_Oa (c : Dev nD) : Above 4 (Oa c) := above_tallyAt _ _ _ (by show (4 : ℕ) < 5; decide)
theorem above_Ob (c : Dev nD) : Above 4 (Ob c) := above_add (above_Oa c) (above_tallyAt _ _ _ (by show (4 : ℕ) < 5; decide))
theorem above_Oc (c : Dev nD) : Above 3 (Oc c) := above_add (above_mono (by decide) (above_Ob c)) (above_tallyAt _ _ _ (by show (3 : ℕ) < 4; decide))
theorem above_Od (c : Dev nD) : Above 3 (Od c) := above_add (above_Oc c) (above_tallyAt _ _ _ (by show (3 : ℕ) < 4; decide))
theorem above_Oe (c : Dev nD) : Above 3 (Oe c) := above_add (above_Od c) (above_tallyAt _ _ _ (by show (3 : ℕ) < 4; decide))
theorem above_Of (c : Dev nD) : Above 3 (Of c) := above_add (above_Oe c) (above_tallyAt _ _ _ (by show (3 : ℕ) < 4; decide))
theorem above_Og (c : Dev nD) : Above 2 (Og c) := above_add (above_mono (by decide) (above_Of c)) (above_tallyAt _ _ _ (by show (2 : ℕ) < 3; decide))
theorem above_Oh (c : Dev nD) : Above 2 (Oh c) := above_add (above_Og c) (above_tallyAt _ _ _ (by show (2 : ℕ) < 3; decide))
theorem above_Oi (c : Dev nD) : Above 1 (Oi c) := above_add (above_mono (by decide) (above_Oh c)) (above_tallyAt _ _ _ (by show (1 : ℕ) < 2; decide))
theorem above_Oj (c : Dev nD) : Above 0 (Oj c) := above_add (above_mono (by decide) (above_Oi c)) (above_tallyAt _ _ _ (by show (0 : ℕ) < 1; decide))
theorem above_O₀ (c : Dev nD) : Above 0 (O₀ c) := above_add (above_Oj c) (above_tallyAt _ _ _ (by show (0 : ℕ) < 1; decide))

/-- A wait on a cell at or below level `n` while owing only cells above `n`. -/
theorem mayWait_above (c : Dev nD) (s : SemLoc sig) {n : ℕ} {O : CellTallies nD τ sig Unit} (hs : lv (cellAt c s) () ≤ n) (hO : Above n O) :
    (levAts L lv : sProp 𝕄) ⊢ MayWait (c : Thread nD τ) s () O :=
  Pipeline.mayWait_of_levAts (L := L) (lev := lv) (by rw [show ((c : Thread nD τ), s) = cellAt c s from rfl, L_tc]; exact Finset.mem_singleton_self _)
    fun g i hg => ⟨(hO g i hg).1, Nat.lt_of_le_of_lt hs (hO g i hg).2⟩

/-- The six waits a device makes while it owes something. -/
theorem mayWait_bar (c : Dev nD) : (levAts L lv : sProp 𝕄) ⊢ MayWait (c : Thread nD τ) (.reg barS) () (Oi c) :=
  mayWait_above c _ (by show (1 : ℕ) ≤ 1; decide) (above_Oi c)
theorem mayWait_rsRcv0 (c : Dev nD) : (levAts L lv : sProp 𝕄) ⊢ MayWait (c : Thread nD τ) (.dma rsRcv0) () (Og c) :=
  mayWait_above c _ (by show (2 : ℕ) ≤ 2; decide) (above_Og c)
theorem mayWait_rsRcv1 (c : Dev nD) : (levAts L lv : sProp 𝕄) ⊢ MayWait (c : Thread nD τ) (.dma rsRcv1) () (Of c) :=
  mayWait_above c _ (by show (3 : ℕ) ≤ 3; decide) (above_Of c)
theorem mayWait_rsRcv2 (c : Dev nD) : (levAts L lv : sProp 𝕄) ⊢ MayWait (c : Thread nD τ) (.dma rsRcv2) () (Of c) :=
  mayWait_above c _ (by show (3 : ℕ) ≤ 3; decide) (above_Of c)
theorem mayWait_agRcv0 (c : Dev nD) : (levAts L lv : sProp 𝕄) ⊢ MayWait (c : Thread nD τ) (.dma agRcv0) () (Ob c) :=
  mayWait_above c _ (by show (4 : ℕ) ≤ 4; decide) (above_Ob c)
theorem mayWait_agRcv3 (c : Dev nD) : (levAts L lv : sProp 𝕄) ⊢ MayWait (c : Thread nD τ) (.dma agRcv3) () (Oa c) :=
  mayWait_above c _ (by show (4 : ℕ) ≤ 4; decide) (above_Oa c)
/-- A staging wait of the pipeline, at level 0, while owing everything or nothing. -/
theorem mayWait_stage (c : Dev nD) (q : DmaSem sig) (hq : lv (cellAt c (.dma q)) () = 0) (O : CellTallies nD τ sig Unit) (hO : O = O₀ c ∨ O = 0) :
    (levAts L lv : sProp 𝕄) ⊢ MayWait (c : Thread nD τ) (.dma q) () O := by
  rcases hO with rfl | rfl
  · exact mayWait_above c _ (Nat.le_of_eq hq) (above_O₀ c)
  · rw [MayWait_zero]; iintro -; iempintro

/-! ## The ghost state of a device -/

/-- The invariants device `c`'s body opens, under the names `K` the launch allocated them at: its own nineteen cells and
    the eleven cells of its peers that it pays. -/
def invs (K : Dev nD × Fin 19 → ℕ) (c : Dev nD) : sProp 𝕄 :=
  iprop(cellInv ER (Rd m) (K (c, 0)) (barCell c)
    ∗ cellInv ER (Rd m) (K (c, 1)) (cellAt c (.dma rsSnd0))
    ∗ cellInv ER (Rd m) (K (c, 2)) (cellAt c (.dma rsSnd1))
    ∗ cellInv ER (Rd m) (K (c, 3)) (cellAt c (.dma rsSnd2))
    ∗ cellInv ER (Rd m) (K (c, 4)) (cellAt c (.dma rsRcv0))
    ∗ cellInv ER (Rd m) (K (c, 5)) (cellAt c (.dma rsRcv1))
    ∗ cellInv ER (Rd m) (K (c, 6)) (cellAt c (.dma rsRcv2))
    ∗ cellInv ER (Rd m) (K (c, 7)) (cellAt c (.dma agSnd0))
    ∗ cellInv ER (Rd m) (K (c, 8)) (cellAt c (.dma agSnd1))
    ∗ cellInv ER (Rd m) (K (c, 9)) (cellAt c (.dma agSnd2))
    ∗ cellInv ER (Rd m) (K (c, 10)) (cellAt c (.dma agSnd3))
    ∗ cellInv ER (Rd m) (K (c, 11)) (cellAt c (.dma agSnd4))
    ∗ cellInv ER (Rd m) (K (c, 12)) (cellAt c (.dma agSnd5))
    ∗ cellInv ER (Rd m) (K (c, 13)) (cellAt c (.dma agRcv0))
    ∗ cellInv ER (Rd m) (K (c, 14)) (cellAt c (.dma agRcv1))
    ∗ cellInv ER (Rd m) (K (c, 15)) (cellAt c (.dma agRcv2))
    ∗ cellInv ER (Rd m) (K (c, 16)) (cellAt c (.dma agRcv3))
    ∗ cellInv ER (Rd m) (K (c, 17)) (cellAt c (.dma agRcv4))
    ∗ cellInv ER (Rd m) (K (c, 18)) (cellAt c (.dma agRcv5))
    ∗ cellInv ER (Rd m) (K (lft c, 0)) (barCell (lft c))
    ∗ cellInv ER (Rd m) (K (rgt c, 0)) (barCell (rgt c))
    ∗ cellInv ER (Rd m) (K (far c, 4)) (cellAt (far c) (.dma rsRcv0))
    ∗ cellInv ER (Rd m) (K (far c, 5)) (cellAt (far c) (.dma rsRcv1))
    ∗ cellInv ER (Rd m) (K (par c, 6)) (cellAt (par c) (.dma rsRcv2))
    ∗ cellInv ER (Rd m) (K (rgt c, 13)) (cellAt (rgt c) (.dma agRcv0))
    ∗ cellInv ER (Rd m) (K (lft c, 16)) (cellAt (lft c) (.dma agRcv3))
    ∗ cellInv ER (Rd m) (K (rgt c, 14)) (cellAt (rgt c) (.dma agRcv1))
    ∗ cellInv ER (Rd m) (K (lft c, 15)) (cellAt (lft c) (.dma agRcv2))
    ∗ cellInv ER (Rd m) (K (rgt c, 17)) (cellAt (rgt c) (.dma agRcv4))
    ∗ cellInv ER (Rd m) (K (lft c, 18)) (cellAt (lft c) (.dma agRcv5)))

instance invs_persistent (K : Dev nD × Fin 19 → ℕ) (c : Dev nD) : BI.Persistent (invs m K c) := by unfold invs; infer_instance

/-- Every cell the body touches has reached its one round. -/
def reacheds (c : Dev nD) : sProp 𝕄 :=
  iprop(reached ER (barCell c) 0
    ∗ reached ER (cellAt c (.dma rsSnd0)) 0
    ∗ reached ER (cellAt c (.dma rsSnd1)) 0
    ∗ reached ER (cellAt c (.dma rsSnd2)) 0
    ∗ reached ER (cellAt c (.dma rsRcv0)) 0
    ∗ reached ER (cellAt c (.dma rsRcv1)) 0
    ∗ reached ER (cellAt c (.dma rsRcv2)) 0
    ∗ reached ER (cellAt c (.dma agSnd0)) 0
    ∗ reached ER (cellAt c (.dma agSnd1)) 0
    ∗ reached ER (cellAt c (.dma agSnd2)) 0
    ∗ reached ER (cellAt c (.dma agSnd3)) 0
    ∗ reached ER (cellAt c (.dma agSnd4)) 0
    ∗ reached ER (cellAt c (.dma agSnd5)) 0
    ∗ reached ER (cellAt c (.dma agRcv0)) 0
    ∗ reached ER (cellAt c (.dma agRcv1)) 0
    ∗ reached ER (cellAt c (.dma agRcv2)) 0
    ∗ reached ER (cellAt c (.dma agRcv3)) 0
    ∗ reached ER (cellAt c (.dma agRcv4)) 0
    ∗ reached ER (cellAt c (.dma agRcv5)) 0
    ∗ reached ER (barCell (lft c)) 0
    ∗ reached ER (barCell (rgt c)) 0
    ∗ reached ER (cellAt (far c) (.dma rsRcv0)) 0
    ∗ reached ER (cellAt (far c) (.dma rsRcv1)) 0
    ∗ reached ER (cellAt (par c) (.dma rsRcv2)) 0
    ∗ reached ER (cellAt (rgt c) (.dma agRcv0)) 0
    ∗ reached ER (cellAt (lft c) (.dma agRcv3)) 0
    ∗ reached ER (cellAt (rgt c) (.dma agRcv1)) 0
    ∗ reached ER (cellAt (lft c) (.dma agRcv2)) 0
    ∗ reached ER (cellAt (rgt c) (.dma agRcv4)) 0
    ∗ reached ER (cellAt (lft c) (.dma agRcv5)) 0)

instance reacheds_persistent (c : Dev nD) : BI.Persistent (reacheds (F := F) c) := by unfold reacheds; infer_instance

/-- Its positions: at the start of the round of each of its own cells. -/
def positions (c : Dev nD) : sProp 𝕄 :=
  iprop(atPos ER (barCell c) 0 ∅ 0
    ∗ atPos ER (cellAt c (.dma rsSnd0)) 0 ∅ 0
    ∗ atPos ER (cellAt c (.dma rsSnd1)) 0 ∅ 0
    ∗ atPos ER (cellAt c (.dma rsSnd2)) 0 ∅ 0
    ∗ atPos ER (cellAt c (.dma rsRcv0)) 0 ∅ 0
    ∗ atPos ER (cellAt c (.dma rsRcv1)) 0 ∅ 0
    ∗ atPos ER (cellAt c (.dma rsRcv2)) 0 ∅ 0
    ∗ atPos ER (cellAt c (.dma agSnd0)) 0 ∅ 0
    ∗ atPos ER (cellAt c (.dma agSnd1)) 0 ∅ 0
    ∗ atPos ER (cellAt c (.dma agSnd2)) 0 ∅ 0
    ∗ atPos ER (cellAt c (.dma agSnd3)) 0 ∅ 0
    ∗ atPos ER (cellAt c (.dma agSnd4)) 0 ∅ 0
    ∗ atPos ER (cellAt c (.dma agSnd5)) 0 ∅ 0
    ∗ atPos ER (cellAt c (.dma agRcv0)) 0 ∅ 0
    ∗ atPos ER (cellAt c (.dma agRcv1)) 0 ∅ 0
    ∗ atPos ER (cellAt c (.dma agRcv2)) 0 ∅ 0
    ∗ atPos ER (cellAt c (.dma agRcv3)) 0 ∅ 0
    ∗ atPos ER (cellAt c (.dma agRcv4)) 0 ∅ 0
    ∗ atPos ER (cellAt c (.dma agRcv5)) 0 ∅ 0)

/-- The tokens of the duties it pays: its two barrier units, the nine landings it fills, its nine departures. -/
def payToks (c : Dev nD) : sProp 𝕄 :=
  iprop(dutyTok ER (barCell (lft c)) 0 false
    ∗ dutyTok ER (barCell (rgt c)) 0 true
    ∗ dutyTok ER (cellAt (far c) (.dma rsRcv0)) 0 false
    ∗ dutyTok ER (cellAt (far c) (.dma rsRcv1)) 0 false
    ∗ dutyTok ER (cellAt (par c) (.dma rsRcv2)) 0 false
    ∗ dutyTok ER (cellAt (rgt c) (.dma agRcv0)) 0 false
    ∗ dutyTok ER (cellAt (lft c) (.dma agRcv3)) 0 false
    ∗ dutyTok ER (cellAt (rgt c) (.dma agRcv1)) 0 false
    ∗ dutyTok ER (cellAt (lft c) (.dma agRcv2)) 0 false
    ∗ dutyTok ER (cellAt (rgt c) (.dma agRcv4)) 0 false
    ∗ dutyTok ER (cellAt (lft c) (.dma agRcv5)) 0 false
    ∗ dutyTok ER (cellAt c (.dma rsSnd0)) 0 false
    ∗ dutyTok ER (cellAt c (.dma rsSnd1)) 0 false
    ∗ dutyTok ER (cellAt c (.dma rsSnd2)) 0 false
    ∗ dutyTok ER (cellAt c (.dma agSnd0)) 0 false
    ∗ dutyTok ER (cellAt c (.dma agSnd1)) 0 false
    ∗ dutyTok ER (cellAt c (.dma agSnd2)) 0 false
    ∗ dutyTok ER (cellAt c (.dma agSnd3)) 0 false
    ∗ dutyTok ER (cellAt c (.dma agSnd4)) 0 false
    ∗ dutyTok ER (cellAt c (.dma agSnd5)) 0 false)

def ghost (K : Dev nD × Fin 19 → ℕ) (c : Dev nD) : sProp 𝕄 :=
  iprop(invs m K c ∗ reacheds c ∗ positions c ∗ payToks c)

/-- The credit others owe its cells: two units on its barrier cell, one transfer on each landing cell. -/
def credits (c : Dev nD) : sProp 𝕄 :=
  iprop(cred (tallyAt (barCell c) () 2)
    ∗ cred (tallyAt (cellAt c (.dma rsRcv0)) () N192)
    ∗ cred (tallyAt (cellAt c (.dma rsRcv1)) () N192)
    ∗ cred (tallyAt (cellAt c (.dma rsRcv2)) () N192)
    ∗ cred (tallyAt (cellAt c (.dma agRcv0)) () N96)
    ∗ cred (tallyAt (cellAt c (.dma agRcv1)) () N96)
    ∗ cred (tallyAt (cellAt c (.dma agRcv2)) () N96)
    ∗ cred (tallyAt (cellAt c (.dma agRcv3)) () N96)
    ∗ cred (tallyAt (cellAt c (.dma agRcv4)) () N96)
    ∗ cred (tallyAt (cellAt c (.dma agRcv5)) () N96))

/-- What device `c`'s body starts from. -/
def start (c : Dev nD) : sProp 𝕄 :=
  iprop((∃ K, ghost m K c) ∗ credits c ∗ levAts L lv)

/-- The four scratch buffers, whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The eighteen transfer semaphores of the device at zero. -/
def semsZero (c : Dev nD) : sProp 𝕄 :=
  iprop(semVal (cellAt c (.dma rsSnd0)) 0
    ∗ semVal (cellAt c (.dma rsSnd1)) 0
    ∗ semVal (cellAt c (.dma rsSnd2)) 0
    ∗ semVal (cellAt c (.dma rsRcv0)) 0
    ∗ semVal (cellAt c (.dma rsRcv1)) 0
    ∗ semVal (cellAt c (.dma rsRcv2)) 0
    ∗ semVal (cellAt c (.dma agSnd0)) 0
    ∗ semVal (cellAt c (.dma agSnd1)) 0
    ∗ semVal (cellAt c (.dma agSnd2)) 0
    ∗ semVal (cellAt c (.dma agSnd3)) 0
    ∗ semVal (cellAt c (.dma agSnd4)) 0
    ∗ semVal (cellAt c (.dma agSnd5)) 0
    ∗ semVal (cellAt c (.dma agRcv0)) 0
    ∗ semVal (cellAt c (.dma agRcv1)) 0
    ∗ semVal (cellAt c (.dma agRcv2)) 0
    ∗ semVal (cellAt c (.dma agRcv3)) 0
    ∗ semVal (cellAt c (.dma agRcv4)) 0
    ∗ semVal (cellAt c (.dma agRcv5)) 0)

def Φ₀ (c : Dev nD) : sProp 𝕄 := iprop(start m c ∗ scratch c)
def Φ₁ (c : Dev nD) : sProp 𝕄 := iprop(scratch (F := F) c ∗ semsZero c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stg0 m c
    | ⟨1, _⟩ => stg1 m c
    | ⟨2, _⟩ => stg2 m c
    | ⟨3, _⟩ => stg3 m c
    | ⟨4, _⟩ => outBuf m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Mlp

end
-- ==== Proof.Launch1.lean ====
/-
  The launch, first part: the nineteen cells of a device numbered, the launch element of the exchange's ghost state and
  what it deals each device, and the allocation of each device's cell invariants from its semaphores at zero.
-/
import proofs.«900352_g7700000000000353_dist_gated_mlp_tp_i_m768_h1536_d768_v7x_i4_f32_1_alg».proof.Proof.Ghost
import Idealize.ShloMosaic.Lib.Pipeline.Launch
import Idealize.ShloMosaic.Lib.Pipeline.Kit
import Idealize.ShloMosaic.Lib.Tactic

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device, numbered -/

/-- The nineteen semaphores of the exchange on a device: the barrier semaphore, then the eighteen transfer semaphores. -/
abbrev csem : Fin 19 → SemLoc sig := fun
  | 0 => .reg barS
  | 1 => .dma rsSnd0
  | 2 => .dma rsSnd1
  | 3 => .dma rsSnd2
  | 4 => .dma rsRcv0
  | 5 => .dma rsRcv1
  | 6 => .dma rsRcv2
  | 7 => .dma agSnd0
  | 8 => .dma agSnd1
  | 9 => .dma agSnd2
  | 10 => .dma agSnd3
  | 11 => .dma agSnd4
  | 12 => .dma agSnd5
  | 13 => .dma agRcv0
  | 14 => .dma agRcv1
  | 15 => .dma agRcv2
  | 16 => .dma agRcv3
  | 17 => .dma agRcv4
  | 18 => .dma agRcv5
  | ⟨_ + 19, h⟩ => absurd h (Nat.not_lt.2 (Nat.le_add_left _ _))
/-- The eighteen transfer semaphores: the kernel's own, scoped to the launch. -/
abbrev osem : Fin 18 → SemLoc sig := fun
  | 0 => .dma rsSnd0
  | 1 => .dma rsSnd1
  | 2 => .dma rsSnd2
  | 3 => .dma rsRcv0
  | 4 => .dma rsRcv1
  | 5 => .dma rsRcv2
  | 6 => .dma agSnd0
  | 7 => .dma agSnd1
  | 8 => .dma agSnd2
  | 9 => .dma agSnd3
  | 10 => .dma agSnd4
  | 11 => .dma agSnd5
  | 12 => .dma agRcv0
  | 13 => .dma agRcv1
  | 14 => .dma agRcv2
  | 15 => .dma agRcv3
  | 16 => .dma agRcv4
  | 17 => .dma agRcv5
  | ⟨_ + 18, h⟩ => absurd h (Nat.not_lt.2 (Nat.le_add_left _ _))
abbrev kcell (ck : Dev nD × Fin 19) : GSem nD τ sig := cellAt ck.1 (csem ck.2)

/-- A semaphore's number among the nineteen. -/
def semNum : SemLoc sig → ℕ
  | .reg _ => 0
  | .dma q => q.val - 4

theorem semNum_csem (k : Fin 19) : semNum (csem k) = k.val := by fin_cases k <;> rfl

theorem kcell_injective : Function.Injective (kcell : Dev nD × Fin 19 → GSem nD τ sig) := by
  rintro ⟨c, k⟩ ⟨c', k'⟩ h
  have h1 : c = c' := by have := congrArg (fun g : GSem nD τ sig => g.1.1) h; exact this
  subst h1
  have h2 : csem k = csem k' := congrArg Prod.snd h
  have h3 : k = k' := Fin.ext (by rw [← semNum_csem k, ← semNum_csem k', h2])
  subst h3; rfl
def ringCells : Finset (GSem nD τ sig) := Finset.univ.map ⟨kcell, kcell_injective⟩

/-- The duty tokens minted on a device's own cells: the two of its barrier cell, then one per transfer cell. -/
abbrev tokOf (cj : Dev nD × Fin 20) : GSem nD τ sig × ℕ × Bool := match cj.2 with
  | 0 => (barCell cj.1, 0, false)
  | 1 => (barCell cj.1, 0, true)
  | 2 => (cellAt cj.1 (.dma rsSnd0), 0, false)
  | 3 => (cellAt cj.1 (.dma rsSnd1), 0, false)
  | 4 => (cellAt cj.1 (.dma rsSnd2), 0, false)
  | 5 => (cellAt cj.1 (.dma rsRcv0), 0, false)
  | 6 => (cellAt cj.1 (.dma rsRcv1), 0, false)
  | 7 => (cellAt cj.1 (.dma rsRcv2), 0, false)
  | 8 => (cellAt cj.1 (.dma agSnd0), 0, false)
  | 9 => (cellAt cj.1 (.dma agSnd1), 0, false)
  | 10 => (cellAt cj.1 (.dma agSnd2), 0, false)
  | 11 => (cellAt cj.1 (.dma agSnd3), 0, false)
  | 12 => (cellAt cj.1 (.dma agSnd4), 0, false)
  | 13 => (cellAt cj.1 (.dma agSnd5), 0, false)
  | 14 => (cellAt cj.1 (.dma agRcv0), 0, false)
  | 15 => (cellAt cj.1 (.dma agRcv1), 0, false)
  | 16 => (cellAt cj.1 (.dma agRcv2), 0, false)
  | 17 => (cellAt cj.1 (.dma agRcv3), 0, false)
  | 18 => (cellAt cj.1 (.dma agRcv4), 0, false)
  | 19 => (cellAt cj.1 (.dma agRcv5), 0, false)
  | ⟨_ + 20, h⟩ => absurd h (Nat.not_lt.2 (Nat.le_add_left _ _))

def tokNum (x : GSem nD τ sig × ℕ × Bool) : ℕ := 2 * semNum x.1.2 + (if x.2.2 then 1 else 0)
theorem tokNum_tokOf (c : Dev nD) (j : Fin 20) :
    tokNum (tokOf (c, j)) = if j.val = 0 then 0 else if j.val = 1 then 1 else 2 * j.val - 2 := by fin_cases j <;> rfl
theorem dev_tokOf (c : Dev nD) (j : Fin 20) : (tokOf (c, j)).1.1.1 = c := by fin_cases j <;> rfl

theorem tokOf_injective : Function.Injective (tokOf : Dev nD × Fin 20 → GSem nD τ sig × ℕ × Bool) := by
  rintro ⟨c, j⟩ ⟨c', j'⟩ h
  have h1 : c = c' := by rw [← dev_tokOf c j, ← dev_tokOf c' j', h]
  subst h1
  have h2 := congrArg tokNum h
  rw [tokNum_tokOf, tokNum_tokOf] at h2
  have h3 : j = j' := Fin.ext (by split_ifs at h2 <;> omega)
  subst h3; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

theorem ownSemFacts : Pipeline.OwnSemFacts cfg0.spec osem := by decide

/-! ## What the launch element deals each device -/

/-- The duty tokens of device `c`'s own cells. -/
def toks (c : Dev nD) : sProp 𝕄 :=
  iprop(dutyTok ER (barCell c) 0 false
    ∗ dutyTok ER (barCell c) 0 true
    ∗ dutyTok ER (cellAt c (.dma rsSnd0)) 0 false
    ∗ dutyTok ER (cellAt c (.dma rsSnd1)) 0 false
    ∗ dutyTok ER (cellAt c (.dma rsSnd2)) 0 false
    ∗ dutyTok ER (cellAt c (.dma rsRcv0)) 0 false
    ∗ dutyTok ER (cellAt c (.dma rsRcv1)) 0 false
    ∗ dutyTok ER (cellAt c (.dma rsRcv2)) 0 false
    ∗ dutyTok ER (cellAt c (.dma agSnd0)) 0 false
    ∗ dutyTok ER (cellAt c (.dma agSnd1)) 0 false
    ∗ dutyTok ER (cellAt c (.dma agSnd2)) 0 false
    ∗ dutyTok ER (cellAt c (.dma agSnd3)) 0 false
    ∗ dutyTok ER (cellAt c (.dma agSnd4)) 0 false
    ∗ dutyTok ER (cellAt c (.dma agSnd5)) 0 false
    ∗ dutyTok ER (cellAt c (.dma agRcv0)) 0 false
    ∗ dutyTok ER (cellAt c (.dma agRcv1)) 0 false
    ∗ dutyTok ER (cellAt c (.dma agRcv2)) 0 false
    ∗ dutyTok ER (cellAt c (.dma agRcv3)) 0 false
    ∗ dutyTok ER (cellAt c (.dma agRcv4)) 0 false
    ∗ dutyTok ER (cellAt c (.dma agRcv5)) 0 false)

/-- What the launch element deals device `c`: the round state of its nineteen cells, its position on each and that
    each has reached its round, and the tokens of their duties. -/
def G (c : Dev nD) : sProp 𝕄 :=
  iprop((bigSep Finset.univ fun k : Fin 19 => roundState ER (Rd m) (kcell (c, k)) 0)
    ∗ (bigSep Finset.univ fun k : Fin 19 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin19 (Φ : Fin 19 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ
theorem bigSep_fin20 (Φ : Fin 20 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 19 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin20]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

/-- The eighteen transfer semaphores are the kernel's own; -/
theorem ownSems0_eq (c : Dev nD) : (Pipeline.ownSems0 (Ix := Unit) (Name := ℕ) (U := UU) (Lvl := ℕ) (Val := Elt F) (τ := τ) osem c : sProp 𝕄)
    = semsZero c := by
  rw [Pipeline.ownSems0_eq_of_list c osem [0, 1, 2, 3, 4, 5, 6, 7, 8, 9, 10, 11, 12, 13, 14, 15, 16, 17] (by decide) (by decide)]; rfl
/-- the barrier semaphore is the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 19 => semVal (kcell (c, k)) 0 : sProp 𝕄) := by
  rw [ownSems0_eq, unscopedSems0_eq, bigSep_fin19]
  unfold semsZero
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 19 => semVal (kcell (c, k)) 0) ∗ bigSep Finset.univ fun k : Fin 19 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

end Cert.KernelIdeal.Mlp

end
-- ==== Proof.Launch.lean ====
/-
  The launch, second part: from the cell invariants of all devices, each device's ghost state (the records every device
  reads, the duty tokens dealt to the devices that pay them); the credit a device is dealt for what its peers owe its
  cells; and the run of the whole program on the four devices, given that each device's body meets its obligation,
  with the final contents of the five windowed arrays read off.
-/
import proofs.«900352_g7700000000000353_dist_gated_mlp_tp_i_m768_h1536_d768_v7x_i4_f32_1_alg».proof.Proof.Launch1
import Idealize.ShloMosaic.Lib.Pipeline.Launch
import Idealize.ShloMosaic.Lib.Pipeline.Kit
import Idealize.ShloMosaic.Lib.Tactic

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The records every device reads, and each device's ghost state from them -/

def records (K : Dev nD × Fin 19 → ℕ) : sProp 𝕄 :=
  iprop((bigSep Finset.univ fun ck : Dev nD × Fin 19 => cellInv ER (Rd m) (K ck) (kcell ck))
    ∗ bigSep Finset.univ fun ck : Dev nD × Fin 19 => reached ER (kcell ck) 0)

instance records_persistent (K : Dev nD × Fin 19 → ℕ) : BI.Persistent (records m K) := by unfold records; infer_instance

theorem inv_at0 (K : Dev nD × Fin 19 → ℕ) (ck : Dev nD × Fin 19) :
    (bigSep Finset.univ fun ck : Dev nD × Fin 19 => (cellInv ER (Rd m) (K ck) (kcell ck) : sProp 𝕄)) ⊢ cellInv ER (Rd m) (K ck) (kcell ck) :=
  bigSep_elim (Finset.mem_univ ck)
theorem reached_at0 (ck : Dev nD × Fin 19) :
    (bigSep Finset.univ fun ck : Dev nD × Fin 19 => (reached ER (kcell ck) 0 : sProp 𝕄)) ⊢ reached ER (kcell ck) 0 :=
  bigSep_elim (Finset.mem_univ ck)
theorem inv_at (K : Dev nD × Fin 19 → ℕ) (ck : Dev nD × Fin 19) : records m K ⊢ cellInv ER (Rd m) (K ck) (kcell ck) := by
  unfold records
  iintro ⟨H, -⟩
  iapply (inv_at0 m K ck)
  iexact H
theorem reached_at (K : Dev nD × Fin 19 → ℕ) (ck : Dev nD × Fin 19) : records m K ⊢ reached ER (kcell ck) 0 := by
  unfold records
  iintro ⟨-, H⟩
  iapply (reached_at0 (F := F) ck)
  iexact H

/-- A persistent assertion yields a conjunction when it yields each part. -/
theorem pers_sep {R A B : sProp 𝕄} [BI.Persistent R] (hA : R ⊢ A) (hB : R ⊢ B) : R ⊢ iprop(A ∗ B) := by
  iintro #H
  isplitr
  · iapply hA; iexact H
  · iapply hB; iexact H

theorem records_invs (K : Dev nD × Fin 19 → ℕ) (c : Dev nD) : records m K ⊢ invs m K c := by
  unfold invs
  exact pers_sep (inv_at m K (c, 0)) (pers_sep (inv_at m K (c, 1)) (pers_sep (inv_at m K (c, 2)) (pers_sep (inv_at m K (c, 3)) (pers_sep (inv_at m K (c, 4)) (pers_sep (inv_at m K (c, 5)) (pers_sep (inv_at m K (c, 6)) (pers_sep (inv_at m K (c, 7)) (pers_sep (inv_at m K (c, 8)) (pers_sep (inv_at m K (c, 9)) (pers_sep (inv_at m K (c, 10)) (pers_sep (inv_at m K (c, 11)) (pers_sep (inv_at m K (c, 12)) (pers_sep (inv_at m K (c, 13)) (pers_sep (inv_at m K (c, 14)) (pers_sep (inv_at m K (c, 15)) (pers_sep (inv_at m K (c, 16)) (pers_sep (inv_at m K (c, 17)) (pers_sep (inv_at m K (c, 18)) (pers_sep (inv_at m K (lft c, 0)) (pers_sep (inv_at m K (rgt c, 0)) (pers_sep (inv_at m K (far c, 4)) (pers_sep (inv_at m K (far c, 5)) (pers_sep (inv_at m K (par c, 6)) (pers_sep (inv_at m K (rgt c, 13)) (pers_sep (inv_at m K (lft c, 16)) (pers_sep (inv_at m K (rgt c, 14)) (pers_sep (inv_at m K (lft c, 15)) (pers_sep (inv_at m K (rgt c, 17)) (inv_at m K (lft c, 18))))))))))))))))))))))))))))))

theorem records_reacheds (K : Dev nD × Fin 19 → ℕ) (c : Dev nD) : records m K ⊢ reacheds c := by
  unfold reacheds
  exact pers_sep (reached_at m K (c, 0)) (pers_sep (reached_at m K (c, 1)) (pers_sep (reached_at m K (c, 2)) (pers_sep (reached_at m K (c, 3)) (pers_sep (reached_at m K (c, 4)) (pers_sep (reached_at m K (c, 5)) (pers_sep (reached_at m K (c, 6)) (pers_sep (reached_at m K (c, 7)) (pers_sep (reached_at m K (c, 8)) (pers_sep (reached_at m K (c, 9)) (pers_sep (reached_at m K (c, 10)) (pers_sep (reached_at m K (c, 11)) (pers_sep (reached_at m K (c, 12)) (pers_sep (reached_at m K (c, 13)) (pers_sep (reached_at m K (c, 14)) (pers_sep (reached_at m K (c, 15)) (pers_sep (reached_at m K (c, 16)) (pers_sep (reached_at m K (c, 17)) (pers_sep (reached_at m K (c, 18)) (pers_sep (reached_at m K (lft c, 0)) (pers_sep (reached_at m K (rgt c, 0)) (pers_sep (reached_at m K (far c, 4)) (pers_sep (reached_at m K (far c, 5)) (pers_sep (reached_at m K (par c, 6)) (pers_sep (reached_at m K (rgt c, 13)) (pers_sep (reached_at m K (lft c, 16)) (pers_sep (reached_at m K (rgt c, 14)) (pers_sep (reached_at m K (lft c, 15)) (pers_sep (reached_at m K (rgt c, 17)) (reached_at m K (lft c, 18))))))))))))))))))))))))))))))

/-- What stays with device `c`: its positions, and the tokens of the duties it pays. -/
def linear (c : Dev nD) : sProp 𝕄 := iprop(positions (F := F) c ∗ payToks c)

theorem ghost_intro (K : Dev nD × Fin 19 → ℕ) (c : Dev nD) : iprop(records m K ∗ linear c) ⊢ G' m c := by
  unfold linear G' ghost
  iintro ⟨#HR, Hpos, Hpay⟩
  iexists K
  isplitr; · iapply (records_invs m K c); iexact HR
  isplitr; · iapply (records_reacheds m K c); iexact HR
  isplitl [Hpos]; · iexact Hpos
  iexact Hpay

/-! ## The tokens dealt around -/

def eLft : Dev nD ≃ Dev nD := ⟨lft, rgt, rgt_lft, lft_rgt⟩
def eRgt : Dev nD ≃ Dev nD := ⟨rgt, lft, lft_rgt, rgt_lft⟩
def eFar : Dev nD ≃ Dev nD := ⟨far, far, far_far, far_far⟩
def ePar : Dev nD ≃ Dev nD := ⟨par, par, par_par, par_par⟩

/-- Each token goes to the device that pays its duty: a barrier cell's two to the two ring neighbours, the landing cells
    of the reduce-scatter to the partner of that exchange, the landing cells of the all-gather to the neighbour that fills
    them; the tokens of the departures stay. -/
theorem toks_around : (bigSep Finset.univ fun c : Dev nD => (toks c : sProp 𝕄)) ⊢ bigSep Finset.univ fun c : Dev nD => payToks c := by
  unfold toks payToks
  simp only [bigSep_sep']
  rw [bigSep_univ_equiv eLft (fun c : Dev nD => (dutyTok ER (barCell c) 0 false : sProp 𝕄)),
    bigSep_univ_equiv eRgt (fun c : Dev nD => (dutyTok ER (barCell c) 0 true : sProp 𝕄)),
    bigSep_univ_equiv eFar (fun c : Dev nD => (dutyTok ER (cellAt c (.dma rsRcv0)) 0 false : sProp 𝕄)),
    bigSep_univ_equiv eFar (fun c : Dev nD => (dutyTok ER (cellAt c (.dma rsRcv1)) 0 false : sProp 𝕄)),
    bigSep_univ_equiv ePar (fun c : Dev nD => (dutyTok ER (cellAt c (.dma rsRcv2)) 0 false : sProp 𝕄)),
    bigSep_univ_equiv eRgt (fun c : Dev nD => (dutyTok ER (cellAt c (.dma agRcv0)) 0 false : sProp 𝕄)),
    bigSep_univ_equiv eRgt (fun c : Dev nD => (dutyTok ER (cellAt c (.dma agRcv1)) 0 false : sProp 𝕄)),
    bigSep_univ_equiv eLft (fun c : Dev nD => (dutyTok ER (cellAt c (.dma agRcv2)) 0 false : sProp 𝕄)),
    bigSep_univ_equiv eLft (fun c : Dev nD => (dutyTok ER (cellAt c (.dma agRcv3)) 0 false : sProp 𝕄)),
    bigSep_univ_equiv eRgt (fun c : Dev nD => (dutyTok ER (cellAt c (.dma agRcv4)) 0 false : sProp 𝕄)),
    bigSep_univ_equiv eLft (fun c : Dev nD => (dutyTok ER (cellAt c (.dma agRcv5)) 0 false : sProp 𝕄))]
  iintro ⟨H0, H1, H2, H3, H4, H5, H6, H7, H8, H9, H10, H11, H12, H13, H14, H15, H16, H17, H18, H19⟩
  isplitl [H0]; · iexact H0
  isplitl [H1]; · iexact H1
  isplitl [H5]; · iexact H5
  isplitl [H6]; · iexact H6
  isplitl [H7]; · iexact H7
  isplitl [H14]; · iexact H14
  isplitl [H17]; · iexact H17
  isplitl [H15]; · iexact H15
  isplitl [H16]; · iexact H16
  isplitl [H18]; · iexact H18
  isplitl [H19]; · iexact H19
  isplitl [H2]; · iexact H2
  isplitl [H3]; · iexact H3
  isplitl [H4]; · iexact H4
  isplitl [H8]; · iexact H8
  isplitl [H9]; · iexact H9
  isplitl [H10]; · iexact H10
  isplitl [H11]; · iexact H11
  isplitl [H12]; · iexact H12
  iexact H13

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 19 => iprop(∃ κ : ℕ, cellInv ER (Rd m) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄))]
  iintro ⟨HI, ⟨Hat, #HR⟩, Htok⟩
  ihave HK := (BI.bigSep_exists_pi Finset.univ (fun (ck : Dev nD × Fin 19) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 19 => (atPos ER (kcell (c, k)) 0 ∅ 0 : sProp 𝕄)) payToks).symm).trans
      (bigSep_mono fun c _ => show _ ⊢ linear c from Entails.of_eq (by
        unfold linear positions
        exact congrArg (fun X : sProp 𝕄 => iprop(X ∗ payToks c)) (bigSep_fin19 _))))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

section Dues
variable (sm : SemLoc sig) (n : ℕ) (c : Dev nD)

/-- Every device owing `n` units on semaphore `sm` of one of its peers, device `c` is dealt `n` units of credit on its own. -/
theorem due_lft : (Pipeline.launchCred (fun d : Dev nD => tallyAt (cellAt (lft d) sm) () n) c : sProp 𝕄) ⊢ cred (tallyAt (cellAt c sm) () n) :=
  Pipeline.launchCred_tallyAt sm lft rgt lft_rgt rgt_lft () n c
theorem due_rgt : (Pipeline.launchCred (fun d : Dev nD => tallyAt (cellAt (rgt d) sm) () n) c : sProp 𝕄) ⊢ cred (tallyAt (cellAt c sm) () n) :=
  Pipeline.launchCred_tallyAt sm rgt lft rgt_lft lft_rgt () n c
theorem due_far : (Pipeline.launchCred (fun d : Dev nD => tallyAt (cellAt (far d) sm) () n) c : sProp 𝕄) ⊢ cred (tallyAt (cellAt c sm) () n) :=
  Pipeline.launchCred_tallyAt sm far far far_far far_far () n c
theorem due_par : (Pipeline.launchCred (fun d : Dev nD => tallyAt (cellAt (par d) sm) () n) c : sProp 𝕄) ⊢ cred (tallyAt (cellAt c sm) () n) :=
  Pipeline.launchCred_tallyAt sm par par par_par par_par () n c

end Dues

theorem split_O₀ (c : Dev nD) : (Pipeline.launchCred O₀ c : sProp 𝕄)
    ⊢ iprop(Pipeline.launchCred Oj c ∗ Pipeline.launchCred (fun d : Dev nD => tallyAt (cellAt (lft d) (.reg barS)) () 1) c) :=
  Entails.of_eq (Pipeline.launchCred_add Oj (fun d : Dev nD => tallyAt (cellAt (lft d) (.reg barS)) () 1) c)
theorem split_Oj (c : Dev nD) : (Pipeline.launchCred Oj c : sProp 𝕄)
    ⊢ iprop(Pipeline.launchCred Oi c ∗ Pipeline.launchCred (fun d : Dev nD => tallyAt (cellAt (rgt d) (.reg barS)) () 1) c) :=
  Entails.of_eq (Pipeline.launchCred_add Oi (fun d : Dev nD => tallyAt (cellAt (rgt d) (.reg barS)) () 1) c)
theorem split_Oi (c : Dev nD) : (Pipeline.launchCred Oi c : sProp 𝕄)
    ⊢ iprop(Pipeline.launchCred Oh c ∗ Pipeline.launchCred (fun d : Dev nD => tallyAt (cellAt (far d) (.dma rsRcv0)) () N192) c) :=
  Entails.of_eq (Pipeline.launchCred_add Oh (fun d : Dev nD => tallyAt (cellAt (far d) (.dma rsRcv0)) () N192) c)
theorem split_Oh (c : Dev nD) : (Pipeline.launchCred Oh c : sProp 𝕄)
    ⊢ iprop(Pipeline.launchCred Og c ∗ Pipeline.launchCred (fun d : Dev nD => tallyAt (cellAt (far d) (.dma rsRcv1)) () N192) c) :=
  Entails.of_eq (Pipeline.launchCred_add Og (fun d : Dev nD => tallyAt (cellAt (far d) (.dma rsRcv1)) () N192) c)
theorem split_Og (c : Dev nD) : (Pipeline.launchCred Og c : sProp 𝕄)
    ⊢ iprop(Pipeline.launchCred Of c ∗ Pipeline.launchCred (fun d : Dev nD => tallyAt (cellAt (par d) (.dma rsRcv2)) () N192) c) :=
  Entails.of_eq (Pipeline.launchCred_add Of (fun d : Dev nD => tallyAt (cellAt (par d) (.dma rsRcv2)) () N192) c)
theorem split_Of (c : Dev nD) : (Pipeline.launchCred Of c : sProp 𝕄)
    ⊢ iprop(Pipeline.launchCred Oe c ∗ Pipeline.launchCred (fun d : Dev nD => tallyAt (cellAt (rgt d) (.dma agRcv0)) () N96) c) :=
  Entails.of_eq (Pipeline.launchCred_add Oe (fun d : Dev nD => tallyAt (cellAt (rgt d) (.dma agRcv0)) () N96) c)
theorem split_Oe (c : Dev nD) : (Pipeline.launchCred Oe c : sProp 𝕄)
    ⊢ iprop(Pipeline.launchCred Od c ∗ Pipeline.launchCred (fun d : Dev nD => tallyAt (cellAt (lft d) (.dma agRcv3)) () N96) c) :=
  Entails.of_eq (Pipeline.launchCred_add Od (fun d : Dev nD => tallyAt (cellAt (lft d) (.dma agRcv3)) () N96) c)
theorem split_Od (c : Dev nD) : (Pipeline.launchCred Od c : sProp 𝕄)
    ⊢ iprop(Pipeline.launchCred Oc c ∗ Pipeline.launchCred (fun d : Dev nD => tallyAt (cellAt (rgt d) (.dma agRcv1)) () N96) c) :=
  Entails.of_eq (Pipeline.launchCred_add Oc (fun d : Dev nD => tallyAt (cellAt (rgt d) (.dma agRcv1)) () N96) c)
theorem split_Oc (c : Dev nD) : (Pipeline.launchCred Oc c : sProp 𝕄)
    ⊢ iprop(Pipeline.launchCred Ob c ∗ Pipeline.launchCred (fun d : Dev nD => tallyAt (cellAt (lft d) (.dma agRcv2)) () N96) c) :=
  Entails.of_eq (Pipeline.launchCred_add Ob (fun d : Dev nD => tallyAt (cellAt (lft d) (.dma agRcv2)) () N96) c)
theorem split_Ob (c : Dev nD) : (Pipeline.launchCred Ob c : sProp 𝕄)
    ⊢ iprop(Pipeline.launchCred Oa c ∗ Pipeline.launchCred (fun d : Dev nD => tallyAt (cellAt (rgt d) (.dma agRcv4)) () N96) c) :=
  Entails.of_eq (Pipeline.launchCred_add Oa (fun d : Dev nD => tallyAt (cellAt (rgt d) (.dma agRcv4)) () N96) c)

theorem split_Oa (c : Dev nD) : (Pipeline.launchCred Oa c : sProp 𝕄)
    ⊢ Pipeline.launchCred (fun d : Dev nD => tallyAt (cellAt (lft d) (.dma agRcv5)) () N96) c :=
  Entails.of_eq rfl

/-- The two units owed a barrier cell are one credit of two. -/
theorem two_units (c : Dev nD) :
    iprop(cred (tallyAt (barCell c) () 1) ∗ cred (tallyAt (barCell c) () 1)) ⊢ (cred (tallyAt (barCell c) () 2) : sProp 𝕄) := by
  show _ ⊢ cred (tallyAt (barCell c) () (1 + 1))
  rw [← tallyAt_add]
  exact (cred_add _ _).2

/-- What the devices owe device `c`'s cells at launch is the credit its body waits with. -/
theorem creds (c : Dev nD) : (Pipeline.launchCred O₀ c : sProp 𝕄) ⊢ credits c := by
  iintro H
  ihave H := (split_O₀ (F := F) c) $$ H
  icases H with ⟨H, Hbl⟩
  ihave H := (split_Oj (F := F) c) $$ H
  icases H with ⟨H, Hbr⟩
  ihave H := (split_Oi (F := F) c) $$ H
  icases H with ⟨H, Hr0⟩
  ihave H := (split_Oh (F := F) c) $$ H
  icases H with ⟨H, Hr1⟩
  ihave H := (split_Og (F := F) c) $$ H
  icases H with ⟨H, Hr2⟩
  ihave H := (split_Of (F := F) c) $$ H
  icases H with ⟨H, Ha0⟩
  ihave H := (split_Oe (F := F) c) $$ H
  icases H with ⟨H, Ha3⟩
  ihave H := (split_Od (F := F) c) $$ H
  icases H with ⟨H, Ha1⟩
  ihave H := (split_Oc (F := F) c) $$ H
  icases H with ⟨H, Ha2⟩
  ihave H := (split_Ob (F := F) c) $$ H
  icases H with ⟨Ha5, Ha4⟩
  ihave Ha5 := (split_Oa (F := F) c) $$ Ha5
  ihave Hbl := (due_lft (F := F) (.reg barS) 1 c) $$ Hbl
  ihave Hbr := (due_rgt (F := F) (.reg barS) 1 c) $$ Hbr
  ihave Hr0 := (due_far (F := F) (.dma rsRcv0) N192 c) $$ Hr0
  ihave Hr1 := (due_far (F := F) (.dma rsRcv1) N192 c) $$ Hr1
  ihave Hr2 := (due_par (F := F) (.dma rsRcv2) N192 c) $$ Hr2
  ihave Ha0 := (due_rgt (F := F) (.dma agRcv0) N96 c) $$ Ha0
  ihave Ha3 := (due_lft (F := F) (.dma agRcv3) N96 c) $$ Ha3
  ihave Ha1 := (due_rgt (F := F) (.dma agRcv1) N96 c) $$ Ha1
  ihave Ha2 := (due_lft (F := F) (.dma agRcv2) N96 c) $$ Ha2
  ihave Ha4 := (due_rgt (F := F) (.dma agRcv4) N96 c) $$ Ha4
  ihave Ha5 := (due_lft (F := F) (.dma agRcv5) N96 c) $$ Ha5
  unfold credits
  isplitl [Hbl Hbr]
  · iapply (two_units (F := F) c)
    isplitl [Hbl] <;> iassumption
  isplitl [Hr0]; · iexact Hr0
  isplitl [Hr1]; · iexact Hr1
  isplitl [Hr2]; · iexact Hr2
  isplitl [Ha0]; · iexact Ha0
  isplitl [Ha1]; · iexact Ha1
  isplitl [Ha2]; · iexact Ha2
  isplitl [Ha3]; · iexact Ha3
  isplitl [Ha4]; · iexact Ha4
  iexact Ha5

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

/-- Every device's windowed arrays end at the contents the proof data computes. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- At the mesh of four devices, for any float values, from any memory with zero counters: when each device's body meets
    its obligation, every weakly fair execution of the program — the four kernels meeting at the barrier, exchanging
    their partial sums and gathering the reduced chunks — terminates, and every final state has each device's windowed
    arrays at the computed contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Mlp.run_main' depends on axioms: [propext, Classical.choice, Quot.sound] -/
#guard_msgs in #print axioms run_main

/-! ## The final arrays, read -/

/-- The four argument arrays end holding what they held. -/
theorem finalA_in0 (c : Dev nD) : (dats m ρ 0 c).arrAt (0 : Fin 5) cfg0.N = (s₀ m ρ).mem (win0_0.arr.view.loc (c : Thread nD τ)) :=
  (dats (F := F) m ρ 0 c).arrAt_in (0 : Fin 5) rfl _
theorem finalA_in1 (c : Dev nD) : (dats m ρ 0 c).arrAt (1 : Fin 5) cfg0.N = (s₀ m ρ).mem (win0_1.arr.view.loc (c : Thread nD τ)) :=
  (dats (F := F) m ρ 0 c).arrAt_in (1 : Fin 5) rfl _
theorem finalA_in2 (c : Dev nD) : (dats m ρ 0 c).arrAt (2 : Fin 5) cfg0.N = (s₀ m ρ).mem (win0_2.arr.view.loc (c : Thread nD τ)) :=
  (dats (F := F) m ρ 0 c).arrAt_in (2 : Fin 5) rfl _
theorem finalA_in3 (c : Dev nD) : (dats m ρ 0 c).arrAt (3 : Fin 5) cfg0.N = (s₀ m ρ).mem (win0_3.arr.view.loc (c : Thread nD τ)) :=
  (dats (F := F) m ρ 0 c).arrAt_in (3 : Fin 5) rfl _

/-- The result array, read through its one block, is what the body left in the staging buffer at the one point. -/
theorem final_out (c : Dev nD) :
    ((cfg0.win (4 : Fin 5)).blk t₀).view.read (Elt F) ((dats m ρ 0 c).arrAt (4 : Fin 5) cfg0.N) = (dats m ρ 0 c).flushed (4 : Fin 5) t₀ := by
  rw [show cfg0.N = (t₀ : Fin cfg0.N).val + 1 from rfl, (dats m ρ 0 c).arrAt_succ (4 : Fin 5) t₀]
  rw [flush0_4 t₀, if_pos rfl]
  exact View.read_write_univ _ _

/-- The result array ends holding what the body computes: the window is the whole array, written back at the one point. -/
theorem finalA_out (c : Dev nD) : (dats m ρ 0 c).arrAt (4 : Fin 5) cfg0.N = outBuf m c := by
  have ho := final_out m ρ c
  have hz : (fun a => (win0_4.index t₀) a * main_v1.ty.shape.size a) = fun _ => 0 := funext fun a => by fin_cases a <;> decide
  have hr := fun f => Memref.read_access_unit_zero (Elt F) main_v1 hz (fun a => by fin_cases a <;> decide) f
  rw [hr] at ho
  rw [ho]
  rfl

end Cert.KernelIdeal.Mlp

end
-- ==== Proof.BodyDefs.lean ====
/-
  What one device's body starts from and what it leaves: the statement of the body's run.

  It starts from its ghost state, the credit others owe its cells, the level facts, its four scratch buffers at any
  contents, what it owes (everything), and the five staging buffers: the four inputs holding the device's copy of `x`
  and its blocks of the three weight arrays, the result buffer holding anything. It leaves the scratch buffers whole
  again, its eighteen transfer semaphores at zero, nothing owed, the inputs as they were and the result buffer holding the
  full result: its own reduced chunk and the three it gathered.
-/
import proofs.«900352_g7700000000000353_dist_gated_mlp_tp_i_m768_h1536_d768_v7x_i4_f32_1_alg».proof.Proof.Ghost

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A staging buffer of device `c` held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 19 → ℕ) (c : Dev nD) : sProp 𝕄 :=
  iprop((ghost m K c ∗ credits c ∗ levAts L lv ∗ scratch c)
    ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ (F := F) c ∗ (dats m ρ 0 c).owesAt () t₀.succ
    ∗ stg c cc0_stg0_0 (stg0 m c) ∗ stg c cc0_stg1_0 (stg1 m c) ∗ stg c cc0_stg2_0 (stg2 m c) ∗ stg c cc0_stg3_0 (stg3 m c)
    ∗ stg c cc0_stg4_0 (outBuf m c))

/-- The statement of the body's run on device `c`. -/
def BodyRuns (c : Dev nD) : Prop :=
  ∀ (K : Dev nD × Fin 19 → ℕ) (Kt : PUnit → sProp 𝕄),
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scratch4 cc0_scratch5 cc0_scratch6 cc0_scratch7) Kt

end Cert.KernelIdeal.Mlp

end
-- ==== Proof.BodyWrap.lean ====
/-
  The body's run as the pipeline's obligation at its one grid point: the five staging buffers are whole buffers, so owning
  each through its memref is holding it whole at the contents named.
-/
import proofs.«900352_g7700000000000353_dist_gated_mlp_tp_i_m768_h1536_d768_v7x_i4_f32_1_alg».proof.Proof.BodyDefs

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

set_option maxRecDepth 4000 in
/-- The library's body obligation on device `c`, from the body's run. -/
theorem body_obligation (c : Dev nD) (h : BodyRuns m ρ c) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scratch4 cc0_scratch5 cc0_scratch6 cc0_scratch7) (fun _ => bodyPost m ρ c)
  unfold bodyPre' Φ₀ start
  iintro ⟨⟨⟨⟨%K, Hg⟩, Hcr, Hlev⟩, Hscr⟩, Ho, Hx0, Hx1, Hx2, Hx3, Hx4⟩
  iapply (h K fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx0]; · iexact Hx0
    isplitl [Hx1]; · iexact Hx1
    isplitl [Hx2]; · iexact Hx2
    isplitl [Hx3]; · iexact Hx3
    iexact Hx4
  · iintro H; iexact H

end Cert.KernelIdeal.Mlp

end
-- ==== Proof.Geom1.lean ====
/-
  The regions of the four scratch buffers.

  A three-slot buffer (3 × 192 × 768) is the disjoint union of its three slots, told apart by the first coordinate; a slot
  is its two halves of 96 rows, told apart by the second; the own chunk (192 × 768) is its two halves of 96 rows. So a
  points-to of a whole buffer, at any share, is the separating conjunction of the points-tos of its slots (or
  half-slots, or halves) at the same contents. A region at the full share is its two half shares; and only the values on
  a region matter to it.
-/
import proofs.«900352_g7700000000000353_dist_gated_mlp_tp_i_m768_h1536_d768_v7x_i4_f32_1_alg».proof.Proof.Sched

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Which elements a slot covers -/

/-- An element lies in slot `k` of a three-slot buffer exactly when its first coordinate is `k`. -/
theorem mem_slot (k : Nat) (inb : ∀ a, (![k, 0, 0] : Fin 3 → Nat) a + S1x192x768.size a ≤ S3x192x768.size a) (i : S3x192x768.Idx) :
    i ∈ (Rect.unit (s := S3x192x768) ![k, 0, 0] S1x192x768.size inb).set ↔ (i 0).val = k := by
  rw [Rect.mem_set_unit]
  constructor
  · intro h
    have h0 : k ≤ (i 0).val ∧ (i 0).val < k + 1 := h 0
    omega
  · intro h a
    match a with
    | ⟨0, _⟩ => exact (show k ≤ (i 0).val ∧ (i 0).val < k + 1 by omega)
    | ⟨1, _⟩ => exact (show 0 ≤ (i 1).val ∧ (i 1).val < 0 + 192 from ⟨Nat.zero_le _, by have h1 : (i 1).val < 192 := (i 1).isLt; omega⟩)
    | ⟨2, _⟩ => exact (show 0 ≤ (i 2).val ∧ (i 2).val < 0 + 768 from ⟨Nat.zero_le _, by have h2 : (i 2).val < 768 := (i 2).isLt; omega⟩)

/-! ## Splitting a points-to along disjoint element sets, as equalities -/

section Generic
variable {ℓ : Loc nD τ sig} {q : PosShare TreeShare} {f : Buf (Elt F) ℓ}

omit [FloatOps F] in
theorem pointsTo_union_eq {I J : Finset (Idx ℓ)} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

omit [FloatOps F] in
theorem carve2 {A0 A1 : Finset (Idx ℓ)} (hcov : Finset.univ = A0 ∪ A1) (hd : Disjoint A0 A1) :
    (ℓ ↦{q} f : sProp 𝕄) = iprop((ℓ ↦[A0]{q} f) ∗ ℓ ↦[A1]{q} f) := by
  rw [hcov, pointsTo_union_eq hd]

omit [FloatOps F] in
theorem carve3 {A0 A1 A2 : Finset (Idx ℓ)} (hcov : Finset.univ = A0 ∪ (A1 ∪ A2)) (hd0 : Disjoint A0 (A1 ∪ A2))
    (hd1 : Disjoint A1 A2) :
    (ℓ ↦{q} f : sProp 𝕄) = iprop((ℓ ↦[A0]{q} f) ∗ (ℓ ↦[A1]{q} f) ∗ ℓ ↦[A2]{q} f) := by
  rw [hcov, pointsTo_union_eq hd0, pointsTo_union_eq hd1]

end Generic

/-- Three sets of elements told apart by the first coordinate being 0, 1, 2 cover a three-slot buffer and are disjoint. -/
theorem slots_partition {A0 A1 A2 : Finset S3x192x768.Idx} (h0 : ∀ i, i ∈ A0 ↔ (i 0).val = 0) (h1 : ∀ i, i ∈ A1 ↔ (i 0).val = 1)
    (h2 : ∀ i, i ∈ A2 ↔ (i 0).val = 2) :
    Finset.univ = A0 ∪ (A1 ∪ A2) ∧ Disjoint A0 (A1 ∪ A2) ∧ Disjoint A1 A2 := by
  refine ⟨?_, ?_, ?_⟩
  · ext i
    have hi : (i 0).val < 3 := (i 0).isLt
    simp only [Finset.mem_univ, Finset.mem_union, h0, h1, h2, true_iff]
    omega
  · rw [Finset.disjoint_left]
    intro i hi hj
    simp only [Finset.mem_union, h0, h1, h2] at hi hj
    omega
  · rw [Finset.disjoint_left]
    intro i hi hj
    rw [h1] at hi; rw [h2] at hj
    omega

/-! ## The slot views' elements -/

omit [FloatOps F] in
theorem mem_rs0 (i : S3x192x768.Idx) : i ∈ (rs0 : Memref sig .tc .vmem S192x768 .bf16).view.set ↔ (i 0).val = 0 := by
  simp only [Memref.view_squeeze, Memref.view_slice, Memref.view_whole, View.set_reshape, View.set_slice_whole]
  exact mem_slot 0 _ i
omit [FloatOps F] in
theorem mem_rs1 (i : S3x192x768.Idx) : i ∈ (rs1 : Memref sig .tc .vmem S192x768 .bf16).view.set ↔ (i 0).val = 1 := by
  simp only [Memref.view_squeeze, Memref.view_slice, Memref.view_whole, View.set_reshape, View.set_slice_whole]
  exact mem_slot 1 _ i
omit [FloatOps F] in
theorem mem_rs2 (i : S3x192x768.Idx) : i ∈ (rs2 : Memref sig .tc .vmem S192x768 .bf16).view.set ↔ (i 0).val = 2 := by
  simp only [Memref.view_squeeze, Memref.view_slice, Memref.view_whole, View.set_reshape, View.set_slice_whole]
  exact mem_slot 2 _ i
omit [FloatOps F] in
theorem mem_sb0 (i : S3x192x768.Idx) : i ∈ (sb0 : Memref sig .tc .vmem S192x768 .bf16).view.set ↔ (i 0).val = 0 := by
  simp only [Memref.view_squeeze, Memref.view_slice, Memref.view_whole, View.set_reshape, View.set_slice_whole]
  exact mem_slot 0 _ i
omit [FloatOps F] in
theorem mem_sb1 (i : S3x192x768.Idx) : i ∈ (sb1 : Memref sig .tc .vmem S192x768 .bf16).view.set ↔ (i 0).val = 1 := by
  simp only [Memref.view_squeeze, Memref.view_slice, Memref.view_whole, View.set_reshape, View.set_slice_whole]
  exact mem_slot 1 _ i
omit [FloatOps F] in
theorem mem_sb2 (i : S3x192x768.Idx) : i ∈ (sb2 : Memref sig .tc .vmem S192x768 .bf16).view.set ↔ (i 0).val = 2 := by
  simp only [Memref.view_squeeze, Memref.view_slice, Memref.view_whole, View.set_reshape, View.set_slice_whole]
  exact mem_slot 2 _ i

/-! ## G1: a whole three-slot buffer is its three slots, at any share -/

omit [FloatOps F] in
/-- The reduce-scatter landing buffer is its three slots. -/
theorem rs_carve (c : Dev nD) (q : PosShare TreeShare) (f : Buf (Elt F) ((c : Thread nD τ).loc cc0_scratch1)) :
    ((c : Thread nD τ).loc cc0_scratch1 ↦{q} f : sProp 𝕄) = iprop(held c rs0 q f ∗ held c rs1 q f ∗ held c rs2 q f) := by
  obtain ⟨hcov, hd0, hd1⟩ := slots_partition mem_rs0 mem_rs1 mem_rs2
  exact carve3 hcov hd0 hd1

omit [FloatOps F] in
/-- The send buffer is its three slots. -/
theorem sb_carve (c : Dev nD) (q : PosShare TreeShare) (f : Buf (Elt F) ((c : Thread nD τ).loc cc0_scratch0)) :
    ((c : Thread nD τ).loc cc0_scratch0 ↦{q} f : sProp 𝕄) = iprop(held c sb0 q f ∗ held c sb1 q f ∗ held c sb2 q f) := by
  obtain ⟨hcov, hd0, hd1⟩ := slots_partition mem_sb0 mem_sb1 mem_sb2
  exact carve3 hcov hd0 hd1

/-! ## The halves of the own chunk, and the half-slots of the all-gather landing buffer -/

/-- An element lies in the 96 rows from row `o` of a 192-row chunk exactly when its row does. -/
theorem mem_rows (o : Nat) (inb : ∀ a, (![o, 0] : Fin 2 → Nat) a + S96x768.size a ≤ S192x768.size a) (i : S192x768.Idx) :
    i ∈ (Rect.unit (s := S192x768) ![o, 0] S96x768.size inb).set ↔ o ≤ (i 0).val ∧ (i 0).val < o + 96 := by
  rw [Rect.mem_set_unit]
  constructor
  · intro h
    exact (show o ≤ (i 0).val ∧ (i 0).val < o + 96 from h 0)
  · intro h a
    match a with
    | ⟨0, _⟩ => exact (show o ≤ (i 0).val ∧ (i 0).val < o + 96 from h)
    | ⟨1, _⟩ => exact (show 0 ≤ (i 1).val ∧ (i 1).val < 0 + 768 from ⟨Nat.zero_le _, by have h1 : (i 1).val < 768 := (i 1).isLt; omega⟩)

/-- An element lies in the 96 rows from row `o` of slot `k` exactly when its slot is `k` and its row is among them. -/
theorem mem_half (k o : Nat) (inb : ∀ a, (![k, o, 0] : Fin 3 → Nat) a + S1x96x768.size a ≤ S3x192x768.size a) (i : S3x192x768.Idx) :
    i ∈ (Rect.unit (s := S3x192x768) ![k, o, 0] S1x96x768.size inb).set ↔ (i 0).val = k ∧ o ≤ (i 1).val ∧ (i 1).val < o + 96 := by
  rw [Rect.mem_set_unit]
  constructor
  · intro h
    have h0 : k ≤ (i 0).val ∧ (i 0).val < k + 1 := h 0
    have h1 : o ≤ (i 1).val ∧ (i 1).val < o + 96 := h 1
    omega
  · intro h a
    match a with
    | ⟨0, _⟩ => exact (show k ≤ (i 0).val ∧ (i 0).val < k + 1 by omega)
    | ⟨1, _⟩ => exact (show o ≤ (i 1).val ∧ (i 1).val < o + 96 from h.2)
    | ⟨2, _⟩ => exact (show 0 ≤ (i 2).val ∧ (i 2).val < 0 + 768 from ⟨Nat.zero_le _, by have h2 : (i 2).val < 768 := (i 2).isLt; omega⟩)

omit [FloatOps F] in
theorem mem_ownLo (i : S192x768.Idx) : i ∈ (ownLo : Memref sig .tc .vmem S96x768 .bf16).view.set ↔ (i 0).val < 96 := by
  simp only [Memref.view_slice, Memref.view_whole, View.set_slice_whole]
  rw [mem_rows 0 _ i]; omega
omit [FloatOps F] in
theorem mem_ownHi (i : S192x768.Idx) : i ∈ (ownHi : Memref sig .tc .vmem S96x768 .bf16).view.set ↔ 96 ≤ (i 0).val := by
  have hi : (i 0).val < 192 := (i 0).isLt
  simp only [Memref.view_slice, Memref.view_whole, View.set_slice_whole]
  rw [mem_rows 96 _ i]; omega

omit [FloatOps F] in
theorem mem_ag0Lo (i : S3x192x768.Idx) : i ∈ (ag0Lo : Memref sig .tc .vmem S96x768 .bf16).view.set ↔ (i 0).val = 0 ∧ (i 1).val < 96 := by
  simp only [Memref.view_squeeze, Memref.view_slice, Memref.view_whole, View.set_reshape, View.set_slice_whole]
  rw [mem_half 0 0 _ i]; omega
omit [FloatOps F] in
theorem mem_ag0Hi (i : S3x192x768.Idx) : i ∈ (ag0Hi : Memref sig .tc .vmem S96x768 .bf16).view.set ↔ (i 0).val = 0 ∧ 96 ≤ (i 1).val := by
  have hi : (i 1).val < 192 := (i 1).isLt
  simp only [Memref.view_squeeze, Memref.view_slice, Memref.view_whole, View.set_reshape, View.set_slice_whole]
  rw [mem_half 0 96 _ i]; omega
omit [FloatOps F] in
theorem mem_ag1Lo (i : S3x192x768.Idx) : i ∈ (ag1Lo : Memref sig .tc .vmem S96x768 .bf16).view.set ↔ (i 0).val = 1 ∧ (i 1).val < 96 := by
  simp only [Memref.view_squeeze, Memref.view_slice, Memref.view_whole, View.set_reshape, View.set_slice_whole]
  rw [mem_half 1 0 _ i]; omega
omit [FloatOps F] in
theorem mem_ag1Hi (i : S3x192x768.Idx) : i ∈ (ag1Hi : Memref sig .tc .vmem S96x768 .bf16).view.set ↔ (i 0).val = 1 ∧ 96 ≤ (i 1).val := by
  have hi : (i 1).val < 192 := (i 1).isLt
  simp only [Memref.view_squeeze, Memref.view_slice, Memref.view_whole, View.set_reshape, View.set_slice_whole]
  rw [mem_half 1 96 _ i]; omega
omit [FloatOps F] in
theorem mem_ag2Lo (i : S3x192x768.Idx) : i ∈ (ag2Lo : Memref sig .tc .vmem S96x768 .bf16).view.set ↔ (i 0).val = 2 ∧ (i 1).val < 96 := by
  simp only [Memref.view_squeeze, Memref.view_slice, Memref.view_whole, View.set_reshape, View.set_slice_whole]
  rw [mem_half 2 0 _ i]; omega
omit [FloatOps F] in
theorem mem_ag2Hi (i : S3x192x768.Idx) : i ∈ (ag2Hi : Memref sig .tc .vmem S96x768 .bf16).view.set ↔ (i 0).val = 2 ∧ 96 ≤ (i 1).val := by
  have hi : (i 1).val < 192 := (i 1).isLt
  simp only [Memref.view_squeeze, Memref.view_slice, Memref.view_whole, View.set_reshape, View.set_slice_whole]
  rw [mem_half 2 96 _ i]; omega

omit [FloatOps F] in
/-- The device's own reduced chunk is its two halves. -/
theorem own_carve (c : Dev nD) (q : PosShare TreeShare) (f : Buf (Elt F) ((c : Thread nD τ).loc cc0_scratch2)) :
    ((c : Thread nD τ).loc cc0_scratch2 ↦{q} f : sProp 𝕄) = iprop(held c ownLo q f ∗ held c ownHi q f) := by
  refine carve2 ?_ ?_
  · ext i
    simp only [Finset.mem_univ, Finset.mem_union, true_iff]
    rcases Nat.lt_or_ge (i 0).val 96 with h | h
    · exact Or.inl ((mem_ownLo i).mpr h)
    · exact Or.inr ((mem_ownHi i).mpr h)
  · rw [Finset.disjoint_left]
    intro i hi hj
    have h1 := (mem_ownLo i).mp hi
    have h2 := (mem_ownHi i).mp hj
    omega

section Generic6
variable {ℓ : Loc nD τ sig} {q : PosShare TreeShare} {f : Buf (Elt F) ℓ}
omit [FloatOps F] in
theorem carve6 {A0 A1 A2 A3 A4 A5 : Finset (Idx ℓ)} (hcov : Finset.univ = A0 ∪ (A1 ∪ (A2 ∪ (A3 ∪ (A4 ∪ A5)))))
    (hd0 : Disjoint A0 (A1 ∪ (A2 ∪ (A3 ∪ (A4 ∪ A5))))) (hd1 : Disjoint A1 (A2 ∪ (A3 ∪ (A4 ∪ A5))))
    (hd2 : Disjoint A2 (A3 ∪ (A4 ∪ A5))) (hd3 : Disjoint A3 (A4 ∪ A5)) (hd4 : Disjoint A4 A5) :
    (ℓ ↦{q} f : sProp 𝕄) = iprop((ℓ ↦[A0]{q} f) ∗ (ℓ ↦[A1]{q} f) ∗ (ℓ ↦[A2]{q} f) ∗ (ℓ ↦[A3]{q} f) ∗ (ℓ ↦[A4]{q} f) ∗ ℓ ↦[A5]{q} f) := by
  rw [hcov, pointsTo_union_eq hd0, pointsTo_union_eq hd1, pointsTo_union_eq hd2, pointsTo_union_eq hd3, pointsTo_union_eq hd4]
end Generic6

/-- Six sets of elements told apart by the slot and by the half of its rows cover a three-slot buffer and are disjoint. -/
theorem halves_partition {L0 H0 L1 H1 L2 H2 : Finset S3x192x768.Idx}
    (l0 : ∀ i, i ∈ L0 ↔ (i 0).val = 0 ∧ (i 1).val < 96) (h0 : ∀ i, i ∈ H0 ↔ (i 0).val = 0 ∧ 96 ≤ (i 1).val)
    (l1 : ∀ i, i ∈ L1 ↔ (i 0).val = 1 ∧ (i 1).val < 96) (h1 : ∀ i, i ∈ H1 ↔ (i 0).val = 1 ∧ 96 ≤ (i 1).val)
    (l2 : ∀ i, i ∈ L2 ↔ (i 0).val = 2 ∧ (i 1).val < 96) (h2 : ∀ i, i ∈ H2 ↔ (i 0).val = 2 ∧ 96 ≤ (i 1).val) :
    Finset.univ = L0 ∪ (H0 ∪ (L1 ∪ (H1 ∪ (L2 ∪ H2)))) ∧ Disjoint L0 (H0 ∪ (L1 ∪ (H1 ∪ (L2 ∪ H2))))
      ∧ Disjoint H0 (L1 ∪ (H1 ∪ (L2 ∪ H2))) ∧ Disjoint L1 (H1 ∪ (L2 ∪ H2)) ∧ Disjoint H1 (L2 ∪ H2) ∧ Disjoint L2 H2 := by
  refine ⟨?_, ?_, ?_, ?_, ?_, ?_⟩
  · ext i
    have hi : (i 0).val < 3 := (i 0).isLt
    simp only [Finset.mem_univ, Finset.mem_union, l0, h0, l1, h1, l2, h2, true_iff]
    omega
  all_goals
    rw [Finset.disjoint_left]
    intro i hi hj
    simp only [Finset.mem_union, l0, h0, l1, h1, l2, h2] at hi hj
    omega

omit [FloatOps F] in
/-- The all-gather landing buffer is its six half-slots. -/
theorem ag_carve (c : Dev nD) (q : PosShare TreeShare) (f : Buf (Elt F) ((c : Thread nD τ).loc cc0_scratch3)) :
    ((c : Thread nD τ).loc cc0_scratch3 ↦{q} f : sProp 𝕄)
      = iprop(held c ag0Lo q f ∗ held c ag0Hi q f ∗ held c ag1Lo q f ∗ held c ag1Hi q f ∗ held c ag2Lo q f ∗ held c ag2Hi q f) := by
  obtain ⟨hcov, hd0, hd1, hd2, hd3, hd4⟩ := halves_partition mem_ag0Lo mem_ag0Hi mem_ag1Lo mem_ag1Hi mem_ag2Lo mem_ag2Hi
  exact carve6 hcov hd0 hd1 hd2 hd3 hd4
  all_goals
    rw [Finset.disjoint_left]
    intro i hi hj
    simp only [Finset.mem_union, mem_ag0Lo, mem_ag0Hi, mem_ag1Lo, mem_ag1Hi, mem_ag2Lo, mem_ag2Hi] at hi hj
    omega

/-! ## G2: halving the share of a region -/

omit [FloatOps F] in
theorem held_halve (p : Dev nD) {sh : Shape} (M : Memref sig .tc .vmem sh .bf16) (X : Buf (Elt F) (M.view.loc (p : Thread nD τ))) :
    (held p M fullShare X : sProp 𝕄) = iprop(held p M fullShare.left X ∗ held p M fullShare.right X) :=
  BI.equiv_iff.mp ⟨(pointsTo_share (PosShare.mem_left_op_right fullShare)).1, (pointsTo_share (PosShare.mem_left_op_right fullShare)).2⟩

/-! ## G3: only the values on the region matter -/

omit [FloatOps F] in
theorem held_congr (p : Dev nD) {sh : Shape} (M : Memref sig .tc .vmem sh .bf16) (q : PosShare TreeShare)
    (X Y : Buf (Elt F) (M.view.loc (p : Thread nD τ))) (h : ∀ i ∈ M.view.set, X i = Y i) :
    (held p M q X : sProp 𝕄) = held p M q Y :=
  pointsTo_congr h

end Cert.KernelIdeal.Mlp

end
-- ==== Proof.BodyMid.lean ====
/-
  The body's run cut in three at two points of the program, and what a device holds at each.

  FIRST POINT: the reduce-scatter is over and the first all-gather transfer (the lower half of the device's reduced chunk, to
  the device after it) is under way. The device has its three landing slots at their final contents, the upper half of
  its own chunk whole and the lower half at the share not lent, the five regions of its neighbours' all-gather buffers it
  has yet to fill, the result buffer with its own chunk written; it still owes the five other all-gather landings.
  SECOND POINT: the last chunk of the result is written. Every transfer has been issued and every landing waited for; the
  device owes nothing, holds its landing buffers (two half-slots at the share not lent to the forwarded transfers) and the
  full result, and has the nine departures' credit in hand: what remains is to wait for them, put the buffers together
  again and close the cells.
-/
import proofs.«900352_g7700000000000353_dist_gated_mlp_tp_i_m768_h1536_d768_v7x_i4_f32_1_alg».proof.Proof.BodyDefs
import proofs.«900352_g7700000000000353_dist_gated_mlp_tp_i_m768_h1536_d768_v7x_i4_f32_1_alg».proof.Proof.Geom1

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The four input staging buffers, as they were. -/
def inputsHeld (c : Dev nD) : sProp 𝕄 :=
  iprop(((Memref.whole cc0_stg0_0 : Memref sig .tc .vmem S768x768 .f32).view.loc (c : Thread nD τ) ↦[(Memref.whole cc0_stg0_0 : Memref sig .tc .vmem S768x768 .f32).view.set]{fullShare} (stg0 m c))
    ∗ ((Memref.whole cc0_stg1_0 : Memref sig .tc .vmem S768x1536 .f32).view.loc (c : Thread nD τ) ↦[(Memref.whole cc0_stg1_0 : Memref sig .tc .vmem S768x1536 .f32).view.set]{fullShare} (stg1 m c))
    ∗ ((Memref.whole cc0_stg2_0 : Memref sig .tc .vmem S768x1536 .f32).view.loc (c : Thread nD τ) ↦[(Memref.whole cc0_stg2_0 : Memref sig .tc .vmem S768x1536 .f32).view.set]{fullShare} (stg2 m c))
    ∗ ((Memref.whole cc0_stg3_0 : Memref sig .tc .vmem S1536x768 .f32).view.loc (c : Thread nD τ) ↦[(Memref.whole cc0_stg3_0 : Memref sig .tc .vmem S1536x768 .f32).view.set]{fullShare} (stg3 m c)))

/-- What device `c` holds at the first point. -/
def M1 (K : Dev nD × Fin 19 → ℕ) (c : Dev nD) : sProp 𝕄 :=
  iprop((invs m K c ∗ reacheds c ∗ levAts L lv)
    ∗ (atPos ER (barCell c) 1 ∅ 0
      ∗ atPos ER (cellAt c (.dma rsRcv0)) 1 ∅ 0
      ∗ atPos ER (cellAt c (.dma rsRcv1)) 1 ∅ 0
      ∗ atPos ER (cellAt c (.dma rsRcv2)) 1 ∅ 0
      ∗ atPos ER (cellAt c (.dma rsSnd0)) 0 ∅ 0
      ∗ atPos ER (cellAt c (.dma rsSnd1)) 0 ∅ 0
      ∗ atPos ER (cellAt c (.dma rsSnd2)) 0 ∅ 0
      ∗ atPos ER (cellAt c (.dma agSnd0)) 0 ∅ 0
      ∗ atPos ER (cellAt c (.dma agSnd1)) 0 ∅ 0
      ∗ atPos ER (cellAt c (.dma agSnd2)) 0 ∅ 0
      ∗ atPos ER (cellAt c (.dma agSnd3)) 0 ∅ 0
      ∗ atPos ER (cellAt c (.dma agSnd4)) 0 ∅ 0
      ∗ atPos ER (cellAt c (.dma agSnd5)) 0 ∅ 0
      ∗ atPos ER (cellAt c (.dma agRcv0)) 0 ∅ 0
      ∗ atPos ER (cellAt c (.dma agRcv1)) 0 ∅ 0
      ∗ atPos ER (cellAt c (.dma agRcv2)) 0 ∅ 0
      ∗ atPos ER (cellAt c (.dma agRcv3)) 0 ∅ 0
      ∗ atPos ER (cellAt c (.dma agRcv4)) 0 ∅ 0
      ∗ atPos ER (cellAt c (.dma agRcv5)) 0 ∅ 0)
    ∗ (dutyTok ER (cellAt (lft c) (.dma agRcv3)) 0 false
      ∗ dutyTok ER (cellAt (rgt c) (.dma agRcv1)) 0 false
      ∗ dutyTok ER (cellAt (lft c) (.dma agRcv2)) 0 false
      ∗ dutyTok ER (cellAt (rgt c) (.dma agRcv4)) 0 false
      ∗ dutyTok ER (cellAt (lft c) (.dma agRcv5)) 0 false
      ∗ dutyTok ER (cellAt c (.dma agSnd1)) 0 false
      ∗ dutyTok ER (cellAt c (.dma agSnd2)) 0 false
      ∗ dutyTok ER (cellAt c (.dma agSnd3)) 0 false
      ∗ dutyTok ER (cellAt c (.dma agSnd4)) 0 false
      ∗ dutyTok ER (cellAt c (.dma agSnd5)) 0 false)
    ∗ (cred (tallyAt (cellAt c (.dma rsSnd0)) () N192)
      ∗ cred (tallyAt (cellAt c (.dma rsSnd1)) () N192)
      ∗ cred (tallyAt (cellAt c (.dma rsSnd2)) () N192)
      ∗ cred (tallyAt (cellAt c (.dma agSnd0)) () N96)
      ∗ cred (tallyAt (cellAt c (.dma agRcv0)) () N96)
      ∗ cred (tallyAt (cellAt c (.dma agRcv1)) () N96)
      ∗ cred (tallyAt (cellAt c (.dma agRcv2)) () N96)
      ∗ cred (tallyAt (cellAt c (.dma agRcv3)) () N96)
      ∗ cred (tallyAt (cellAt c (.dma agRcv4)) () N96)
      ∗ cred (tallyAt (cellAt c (.dma agRcv5)) () N96))
    ∗ (∃ W, owes (c : Thread nD τ) (Oe c) W)
    ∗ (held c rs0 fullShare (rsBuf m c)
      ∗ held c rs1 fullShare (rsBuf m c)
      ∗ held c rs2 fullShare (rsBuf m c)
      ∗ held c ownHi fullShare (ownBuf m c)
      ∗ held c ownLo fullShare.right (ownBuf m c)
      ∗ free (rgt c) ag0Hi
      ∗ free (rgt c) ag2Lo
      ∗ free (lft c) ag1Hi
      ∗ free (lft c) ag1Lo
      ∗ free (lft c) ag2Hi)
    ∗ inputsHeld m c
    ∗ (∃ x4, ((Memref.whole cc0_stg4_0 : Memref sig .tc .vmem S768x768 .f32).view.loc (c : Thread nD τ) ↦[(Memref.whole cc0_stg4_0 : Memref sig .tc .vmem S768x768 .f32).view.set]{fullShare} (((Memref.whole cc0_stg4_0 : Memref sig .tc .vmem S768x768 .f32).access (Rect.unit (s := S768x768) (k0_off4 c) S192x768.size (k0_off4_inb c))).write (Elt F) x4 (ACC m c) Finset.univ))))

/-- What device `c` holds at the second point. -/
def M2 (K : Dev nD × Fin 19 → ℕ) (c : Dev nD) : sProp 𝕄 :=
  iprop((invs m K c ∗ reacheds c ∗ levAts L lv)
    ∗ (atPos ER (barCell c) 1 ∅ 0
      ∗ atPos ER (cellAt c (.dma rsRcv0)) 1 ∅ 0
      ∗ atPos ER (cellAt c (.dma rsRcv1)) 1 ∅ 0
      ∗ atPos ER (cellAt c (.dma rsRcv2)) 1 ∅ 0
      ∗ atPos ER (cellAt c (.dma agRcv0)) 1 ∅ 0
      ∗ atPos ER (cellAt c (.dma agRcv1)) 1 ∅ 0
      ∗ atPos ER (cellAt c (.dma agRcv2)) 1 ∅ 0
      ∗ atPos ER (cellAt c (.dma agRcv3)) 1 ∅ 0
      ∗ atPos ER (cellAt c (.dma agRcv4)) 1 ∅ 0
      ∗ atPos ER (cellAt c (.dma agRcv5)) 1 ∅ 0
      ∗ atPos ER (cellAt c (.dma rsSnd0)) 0 ∅ 0
      ∗ atPos ER (cellAt c (.dma rsSnd1)) 0 ∅ 0
      ∗ atPos ER (cellAt c (.dma rsSnd2)) 0 ∅ 0
      ∗ atPos ER (cellAt c (.dma agSnd0)) 0 ∅ 0
      ∗ atPos ER (cellAt c (.dma agSnd1)) 0 ∅ 0
      ∗ atPos ER (cellAt c (.dma agSnd2)) 0 ∅ 0
      ∗ atPos ER (cellAt c (.dma agSnd3)) 0 ∅ 0
      ∗ atPos ER (cellAt c (.dma agSnd4)) 0 ∅ 0
      ∗ atPos ER (cellAt c (.dma agSnd5)) 0 ∅ 0)
    ∗ (cred (tallyAt (cellAt c (.dma rsSnd0)) () N192)
      ∗ cred (tallyAt (cellAt c (.dma rsSnd1)) () N192)
      ∗ cred (tallyAt (cellAt c (.dma rsSnd2)) () N192)
      ∗ cred (tallyAt (cellAt c (.dma agSnd0)) () N96)
      ∗ cred (tallyAt (cellAt c (.dma agSnd1)) () N96)
      ∗ cred (tallyAt (cellAt c (.dma agSnd2)) () N96)
      ∗ cred (tallyAt (cellAt c (.dma agSnd3)) () N96)
      ∗ cred (tallyAt (cellAt c (.dma agSnd4)) () N96)
      ∗ cred (tallyAt (cellAt c (.dma agSnd5)) () N96))
    ∗ (∃ W, owes (c : Thread nD τ) 0 W)
    ∗ (held c rs0 fullShare (rsBuf m c)
      ∗ held c rs1 fullShare (rsBuf m c)
      ∗ held c rs2 fullShare (rsBuf m c)
      ∗ held c ag0Lo fullShare.right (agBuf m c)
      ∗ held c ag0Hi fullShare (agBuf m c)
      ∗ held c ag1Lo fullShare (agBuf m c)
      ∗ held c ag1Hi fullShare.right (agBuf m c)
      ∗ held c ag2Lo fullShare (agBuf m c)
      ∗ held c ag2Hi fullShare (agBuf m c))
    ∗ inputsHeld m c
    ∗ ((Memref.whole cc0_stg4_0 : Memref sig .tc .vmem S768x768 .f32).view.loc (c : Thread nD τ) ↦[(Memref.whole cc0_stg4_0 : Memref sig .tc .vmem S768x768 .f32).view.set]{fullShare} (outBuf m c)))

/-- The middle stretch: the three other direct all-gather transfers, the two forwarded ones, the six landings and the
    three gathered chunks written, over any continuation. (The words `v13 v24 v37` are the ring neighbours' and the
    opposite device's ids as the program carries them; nothing here reads them.) -/
def MidRuns (c : Dev nD) : Prop :=
  ∀ (K : Dev nD × Fin 19 → ℕ) (v13 v24 v37 : BitVec 32) (α : Type) (kk : PUnit.{1} → Prog (TpuEff nD τ sig (Elt F) Λ₀ .tc) α) (Kt : α → sProp 𝕄),
    iprop(M1 m K c ∗ (M2 m K c -∗ wp frame (wpE (defs₀ (F := F)) 𝒱₀ c none) Set.univ (kk ⟨⟩) Kt))
      ⊢ wp frame (wpE (defs₀ (F := F)) 𝒱₀ c none) Set.univ
        (do
          k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v13 v24
          k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v13 v24
          k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v13 v24
          k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v13 v24 v37
          kk ⟨⟩) Kt

/-- The closing stretch: the nine waits for the departures, the buffers whole again, the cells closed. -/
def EndRuns (c : Dev nD) : Prop :=
  ∀ (K : Dev nD × Fin 19 → ℕ) (Kt : PUnit → sProp 𝕄),
    iprop(M2 m K c ∗ (bodyPost m ρ c -∗ Kt ⟨⟩))
      ⊢ wp frame (wpE (defs₀ (F := F)) 𝒱₀ c none) Set.univ
        (do
          k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
          k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
          Prog.lift (.waitDma2 agSnd5 ag2Hi ag1Hi
            (((Memref.isWhole_whole cc0_scratch3).wordExact_slice rfl _ wordsbf16_S3x192x768_S1x96x768_2_96_0).reshape _ _)
            (((Memref.isWhole_whole cc0_scratch3).wordExact_slice rfl _ wordsbf16_S3x192x768_S1x96x768_1_96_0).reshape _ _))
          pure ⟨⟩) Kt

end Cert.KernelIdeal.Mlp

end
-- ==== Proof.BodyFront.lean ====
/-
  The first stretch of the body's run cut once more, after the first exchange is issued.

  EARLY POINT: the device has passed the barrier, stored slots 0 and 1 of its send buffer and issued the two transfers of
  the first exchange to its first partner. It holds slot 2 of the send buffer and its own-chunk buffer at whatever they
  hold, the landing regions of its peers it has yet to fill (slot 2 of its second partner's reduce-scatter buffer and the
  six half-slots of its neighbours' all-gather buffers), the inputs and the result buffer untouched; it still owes the
  third reduce-scatter landing and the six all-gather landings.
-/
import proofs.«900352_g7700000000000353_dist_gated_mlp_tp_i_m768_h1536_d768_v7x_i4_f32_1_alg».proof.Proof.BodyMid

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device `c` holds at the early point. -/
def M0 (K : Dev nD × Fin 19 → ℕ) (c : Dev nD) : sProp 𝕄 :=
  iprop((invs m K c ∗ reacheds c ∗ levAts L lv)
    ∗ (atPos ER (barCell c) 1 ∅ 0
      ∗ atPos ER (cellAt c (.dma rsRcv0)) 0 ∅ 0
      ∗ atPos ER (cellAt c (.dma rsRcv1)) 0 ∅ 0
      ∗ atPos ER (cellAt c (.dma rsRcv2)) 0 ∅ 0
      ∗ atPos ER (cellAt c (.dma rsSnd0)) 0 ∅ 0
      ∗ atPos ER (cellAt c (.dma rsSnd1)) 0 ∅ 0
      ∗ atPos ER (cellAt c (.dma rsSnd2)) 0 ∅ 0
      ∗ atPos ER (cellAt c (.dma agSnd0)) 0 ∅ 0
      ∗ atPos ER (cellAt c (.dma agSnd1)) 0 ∅ 0
      ∗ atPos ER (cellAt c (.dma agSnd2)) 0 ∅ 0
      ∗ atPos ER (cellAt c (.dma agSnd3)) 0 ∅ 0
      ∗ atPos ER (cellAt c (.dma agSnd4)) 0 ∅ 0
      ∗ atPos ER (cellAt c (.dma agSnd5)) 0 ∅ 0
      ∗ atPos ER (cellAt c (.dma agRcv0)) 0 ∅ 0
      ∗ atPos ER (cellAt c (.dma agRcv1)) 0 ∅ 0
      ∗ atPos ER (cellAt c (.dma agRcv2)) 0 ∅ 0
      ∗ atPos ER (cellAt c (.dma agRcv3)) 0 ∅ 0
      ∗ atPos ER (cellAt c (.dma agRcv4)) 0 ∅ 0
      ∗ atPos ER (cellAt c (.dma agRcv5)) 0 ∅ 0)
    ∗ (dutyTok ER (cellAt (par c) (.dma rsRcv2)) 0 false
      ∗ dutyTok ER (cellAt (rgt c) (.dma agRcv0)) 0 false
      ∗ dutyTok ER (cellAt (lft c) (.dma agRcv3)) 0 false
      ∗ dutyTok ER (cellAt (rgt c) (.dma agRcv1)) 0 false
      ∗ dutyTok ER (cellAt (lft c) (.dma agRcv2)) 0 false
      ∗ dutyTok ER (cellAt (rgt c) (.dma agRcv4)) 0 false
      ∗ dutyTok ER (cellAt (lft c) (.dma agRcv5)) 0 false
      ∗ dutyTok ER (cellAt c (.dma rsSnd2)) 0 false
      ∗ dutyTok ER (cellAt c (.dma agSnd0)) 0 false
      ∗ dutyTok ER (cellAt c (.dma agSnd1)) 0 false
      ∗ dutyTok ER (cellAt c (.dma agSnd2)) 0 false
      ∗ dutyTok ER (cellAt c (.dma agSnd3)) 0 false
      ∗ dutyTok ER (cellAt c (.dma agSnd4)) 0 false
      ∗ dutyTok ER (cellAt c (.dma agSnd5)) 0 false)
    ∗ (cred (tallyAt (cellAt c (.dma rsSnd0)) () N192)
      ∗ cred (tallyAt (cellAt c (.dma rsSnd1)) () N192)
      ∗ cred (tallyAt (cellAt c (.dma rsRcv0)) () N192)
      ∗ cred (tallyAt (cellAt c (.dma rsRcv1)) () N192)
      ∗ cred (tallyAt (cellAt c (.dma rsRcv2)) () N192)
      ∗ cred (tallyAt (cellAt c (.dma agRcv0)) () N96)
      ∗ cred (tallyAt (cellAt c (.dma agRcv1)) () N96)
      ∗ cred (tallyAt (cellAt c (.dma agRcv2)) () N96)
      ∗ cred (tallyAt (cellAt c (.dma agRcv3)) () N96)
      ∗ cred (tallyAt (cellAt c (.dma agRcv4)) () N96)
      ∗ cred (tallyAt (cellAt c (.dma agRcv5)) () N96))
    ∗ (∃ W, owes (c : Thread nD τ) (Og c) W)
    ∗ (free c sb2
      ∗ (∃ f2, ((Memref.whole cc0_scratch2 : Memref sig .tc .vmem S192x768 .bf16).view.loc (c : Thread nD τ) ↦[(Memref.whole cc0_scratch2 : Memref sig .tc .vmem S192x768 .bf16).view.set]{fullShare} f2))
      ∗ free (par c) rs2
      ∗ free (rgt c) ag0Lo
      ∗ free (rgt c) ag0Hi
      ∗ free (rgt c) ag2Lo
      ∗ free (lft c) ag1Hi
      ∗ free (lft c) ag1Lo
      ∗ free (lft c) ag2Hi)
    ∗ inputsHeld m c
    ∗ (∃ x4, ((Memref.whole cc0_stg4_0 : Memref sig .tc .vmem S768x768 .f32).view.loc (c : Thread nD τ) ↦[(Memref.whole cc0_stg4_0 : Memref sig .tc .vmem S768x768 .f32).view.set]{fullShare} x4)))

/-- The stretch from the early point to the first point: the landing of the first partner's slot 0, slot 2 stored and
    sent to the second partner, the two other landings, the device's own chunk reduced and stored, the first all-gather
    transfer issued; over any continuation. (The words `v2 v13 v24 v25 v26` are device ids as the program carries them;
    nothing here reads them. The three weight blocks reach these parts as the values the second part returned.) -/
def FrontRuns (c : Dev nD) : Prop :=
  ∀ (K : Dev nD × Fin 19 → ℕ) (v2 v13 v24 v25 v26 : BitVec 32) (α : Type) (kk : PUnit.{1} → Prog (TpuEff nD τ sig (Elt F) Λ₀ .tc) α) (Kt : α → sProp 𝕄),
    iprop(M0 m K c ∗ (M1 m K c -∗ wp frame (wpE (defs₀ (F := F)) 𝒱₀ c none) Set.univ (kk ⟨⟩) Kt))
      ⊢ wp frame (wpE (defs₀ (F := F)) 𝒱₀ c none) Set.univ
        (do
          k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v25 v26 (k0_pay1 (stg1 m c)) (k0_pay2 (stg2 m c)) (k0_pay3 (stg3 m c))
          let v142 ← k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v25 v26 (k0_pay1 (stg1 m c)) (k0_pay2 (stg2 m c)) (k0_pay3 (stg3 m c))
          k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v13 v24 v142
          kk ⟨⟩) Kt

end Cert.KernelIdeal.Mlp

end
-- ==== Proof.BodyCompose.lean ====
/-
  The body's run on a device put together from its four stretches: the first (from what the body starts with to the early
  point), the front (to the first point), the middle (to the second point) and the closing one (to what the body ends
  with), each stated over any continuation and chained through the continuations in program order.
-/
import proofs.«900352_g7700000000000353_dist_gated_mlp_tp_i_m768_h1536_d768_v7x_i4_f32_1_alg».proof.Proof.BodyFront
import proofs.«900352_g7700000000000353_dist_gated_mlp_tp_i_m768_h1536_d768_v7x_i4_f32_1_alg».proof.Proof.BodyMid
import Idealize.ShloMosaic.Lib.Pipeline.Launch
import Idealize.ShloMosaic.Lib.Pipeline.Kit
import Idealize.ShloMosaic.Lib.Tactic

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The first stretch of the body's run: the prologue, the two barrier units and the barrier wait, the weights loaded, the
    first two chunks of the partial sums stored and sent to the first partner; from what the body starts with to the
    early point, over any continuation, which receives the device, the device ids as the program carries them (nothing
    later reads them) and the three weight blocks as loaded. -/
def HeadRuns (c : Dev nD) : Prop :=
  ∀ (K : Dev nD × Fin 19 → ℕ) (α : Type)
    (kk : Dev nD → BitVec 32 → BitVec 32 → BitVec 32 → BitVec 32 → BitVec 32 → BitVec 32
      → FVec F S768x1536 .f32 → FVec F S768x1536 .f32 → FVec F S1536x768 .f32 → Prog (TpuEff nD τ sig (Elt F) Λ₀ .tc) α)
    (Kt : α → sProp 𝕄),
    iprop(bodyPre m ρ K c
        ∗ (∀ (v2 v13 v24 v25 v26 v37 : BitVec 32), M0 m K c -∗ wp frame (wpE (defs₀ (F := F)) 𝒱₀ c none) Set.univ
            (kk c v2 v13 v24 v25 v26 v37 (k0_pay1 (stg1 m c)) (k0_pay2 (stg2 m c)) (k0_pay3 (stg3 m c))) Kt))
      ⊢ wp frame (wpE (defs₀ (F := F)) 𝒱₀ c none) Set.univ
        (do
          let ⟨d0, v2, v13, v24, v25, v26, v29, v30, v31, v32, v33⟩ : Σ' (d0 : Dev nD) (v2 : BitVec 32) (v13 : BitVec 32) (v24 : BitVec 32) (v25 : BitVec 32) (v26 : BitVec 32) (v29 : BitVec 32) (v30 : BitVec 32) (v31 : BitVec 1) (v32 : BitVec 1), BitVec 1 ← k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
          let ⟨v37, v44, v46, v48, c1_i32_42⟩ : Σ' (v37 : BitVec 32) (v44 : FVec F S768x1536 .f32) (v46 : FVec F S768x1536 .f32) (v48 : FVec F S1536x768 .f32), BitVec 32 ← k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v13 v24 v29 v30 v31 v32 v33
          k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v25 v44 v46 v48 c1_i32_42
          kk d0 v2 v13 v24 v25 v26 v37 v44 v46 v48) Kt

set_option maxRecDepth 65536 in
/-- The body's run on a device, from the runs of its four stretches. -/
theorem sound_body (c : Dev nD) (hhead : HeadRuns m ρ c) (hfront : FrontRuns m c) (hmid : MidRuns m c) (hend : EndRuns m ρ c) :
    BodyRuns m ρ c := by
  intro K Kt
  simp only [cc0_body_eq_skeleton]; unfold cc0_body_skel
  iintro ⟨Hpre, Hk⟩
  iapply (hhead K PUnit (fun d0 v2 v13 v24 v25 v26 v37 v44 v46 v48 => (do
          k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v25 v26 v44 v46 v48
          let v142 ← k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v25 v26 v44 v46 v48
          k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v13 v24 v142
          k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v13 v24
          k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v13 v24
          k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v13 v24
          k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v13 v24 v37
          k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
          k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
          Prog.lift (.waitDma2 agSnd5 ag2Hi ag1Hi
            (((Memref.isWhole_whole cc0_scratch3).wordExact_slice rfl _ wordsbf16_S3x192x768_S1x96x768_2_96_0).reshape _ _)
            (((Memref.isWhole_whole cc0_scratch3).wordExact_slice rfl _ wordsbf16_S3x192x768_S1x96x768_1_96_0).reshape _ _))
          pure ⟨⟩ : Prog (TpuEff nD τ sig (Elt F) Λ₀ .tc) PUnit)) Kt)
  isplitl [Hpre]; · iexact Hpre
  iintro %v2 %v13 %v24 %v25 %v26 %v37 HM0
  iapply (hfront K v2 v13 v24 v25 v26 PUnit (fun _ => (do
          k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v13 v24
          k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v13 v24
          k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v13 v24
          k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v13 v24 v37
          k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
          k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
          Prog.lift (.waitDma2 agSnd5 ag2Hi ag1Hi
            (((Memref.isWhole_whole cc0_scratch3).wordExact_slice rfl _ wordsbf16_S3x192x768_S1x96x768_2_96_0).reshape _ _)
            (((Memref.isWhole_whole cc0_scratch3).wordExact_slice rfl _ wordsbf16_S3x192x768_S1x96x768_1_96_0).reshape _ _))
          pure ⟨⟩ : Prog (TpuEff nD τ sig (Elt F) Λ₀ .tc) PUnit)) Kt)
  isplitl [HM0]; · iexact HM0
  iintro HM1
  iapply (hmid K v13 v24 v37 PUnit (fun _ => (do
          k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
          k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
          Prog.lift (.waitDma2 agSnd5 ag2Hi ag1Hi
            (((Memref.isWhole_whole cc0_scratch3).wordExact_slice rfl _ wordsbf16_S3x192x768_S1x96x768_2_96_0).reshape _ _)
            (((Memref.isWhole_whole cc0_scratch3).wordExact_slice rfl _ wordsbf16_S3x192x768_S1x96x768_1_96_0).reshape _ _))
          pure ⟨⟩ : Prog (TpuEff nD τ sig (Elt F) Λ₀ .tc) PUnit)) Kt)
  isplitl [HM1]; · iexact HM1
  iintro HM2
  iapply (hend K Kt)
  isplitl [HM2]; · iexact HM2
  iexact Hk

end Cert.KernelIdeal.Mlp

end
-- ==== Proof.BodyIn.lean ====
/-
  At the one grid point each input window is fetched, so its staging buffer holds the window's block of the device's
  argument array: the staged contents named in the values module.
-/
import proofs.«900352_g7700000000000353_dist_gated_mlp_tp_i_m768_h1536_d768_v7x_i4_f32_1_alg».proof.Proof.BodyDefs

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem before_in0 (c : Dev nD) (d) : (dats m ρ 0 c).before (0 : Fin 5) t₀ d = stg0 m c := by
  unfold Dat.before; rw [if_pos (fetch0_0 t₀)]; rfl
theorem before_in1 (c : Dev nD) (d) : (dats m ρ 0 c).before (1 : Fin 5) t₀ d = stg1 m c := by
  unfold Dat.before; rw [if_pos (fetch0_1 t₀)]; rfl
theorem before_in2 (c : Dev nD) (d) : (dats m ρ 0 c).before (2 : Fin 5) t₀ d = stg2 m c := by
  unfold Dat.before; rw [if_pos (fetch0_2 t₀)]; rfl
theorem before_in3 (c : Dev nD) (d) : (dats m ρ 0 c).before (3 : Fin 5) t₀ d = stg3 m c := by
  unfold Dat.before; rw [if_pos (fetch0_3 t₀)]; rfl

end Cert.KernelIdeal.Mlp

end
-- ==== Proof.Geom2.lean ====
/-
  Reading and landing in the scratch buffers.

  A slot view puts `(p, q)` at `(k, p, q)` of its three-slot buffer, a half-slot view at `(k, o + p, q)`, a half of the own
  chunk at `(o + p, q)`. So each view reads, of the canonical contents of its buffer, the payload stored there; and a
  transfer that writes through the destination view what the source view read of the sender's canonical contents leaves
  the destination region at the receiver's canonical contents, the two devices being each other's partner (or
  neighbour) in the sense the contents are defined by. A whole slot loaded from a landing buffer is the payload that
  landed there.
-/
import proofs.«900352_g7700000000000353_dist_gated_mlp_tp_i_m768_h1536_d768_v7x_i4_f32_1_alg».proof.Proof.Geom1
import Idealize.ShloMosaic.Lib.ValueLayout

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.ValueIdx

/-! ## Where a slot view puts an element -/

theorem slot_rect_emb (k : Nat) (hk : k < 3) (inb : ∀ a, (![k, 0, 0] : Fin 3 → Nat) a + S1x192x768.size a ≤ S3x192x768.size a)
    (p : Fin 192) (q : Fin 768) :
    (Rect.unit (s := S3x192x768) ![k, 0, 0] S1x192x768.size inb).emb (ix3 (⟨0, Nat.one_pos⟩ : Fin 1) p q) = ix3 (⟨k, hk⟩ : Fin 3) p q := by
  funext a
  match a with
  | ⟨0, _⟩ => exact Fin.ext (show k + 1 * 0 = k by omega)
  | ⟨1, _⟩ => exact Fin.ext (show 0 + 1 * p.val = p.val by omega)
  | ⟨2, _⟩ => exact Fin.ext (show 0 + 1 * q.val = q.val by omega)

omit [FloatOps F] in
/-- A slot of a three-slot buffer read at `(p, q)` is the buffer read at `(k, p, q)`. -/
theorem slot_read (W : Memref sig .tc .vmem S3x192x768 .bf16) (k : Nat) (hk : k < 3)
    (inb : ∀ a, (![k, 0, 0] : Fin 3 → Nat) a + S1x192x768.size a ≤ S3x192x768.size a) (hsq : S1x192x768.Squeezes S192x768)
    (f : W.view.ty.Contents (Elt F)) (p : Fin 192) (q : Fin 768) :
    ((W.slice (Rect.unit (s := S3x192x768) ![k, 0, 0] S1x192x768.size inb) (fun _ => rfl)).squeeze S192x768 hsq).view.read (Elt F) f (ix2 p q)
      = W.view.read (Elt F) f (ix3 (⟨k, hk⟩ : Fin 3) p q) := by
  rw [View.read_apply, View.read_apply]
  simp only [Memref.view_squeeze, Memref.view_slice, View.emb_reshape, View.emb_slice, Function.Embedding.trans_apply,
    Equiv.coe_toEmbedding]
  rw [reshapeEquiv_ix2_1ab, slot_rect_emb k hk]

theorem half_rect_emb (k : Nat) (hk : k < 3) (o : Nat) (ho : o + 96 ≤ 192)
    (inb : ∀ a, (![k, o, 0] : Fin 3 → Nat) a + S1x96x768.size a ≤ S3x192x768.size a) (p : Fin 96) (q : Fin 768) :
    (Rect.unit (s := S3x192x768) ![k, o, 0] S1x96x768.size inb).emb (ix3 (⟨0, Nat.one_pos⟩ : Fin 1) p q)
      = ix3 (⟨k, hk⟩ : Fin 3) (⟨o + p.val, by have := p.isLt; omega⟩ : Fin 192) q := by
  funext a
  match a with
  | ⟨0, _⟩ => exact Fin.ext (show k + 1 * 0 = k by omega)
  | ⟨1, _⟩ => exact Fin.ext (show o + 1 * p.val = o + p.val by omega)
  | ⟨2, _⟩ => exact Fin.ext (show 0 + 1 * q.val = q.val by omega)

omit [FloatOps F] in
/-- Half a slot read at `(p, q)` is the buffer read at `(k, o + p, q)`. -/
theorem half_read (W : Memref sig .tc .vmem S3x192x768 .bf16) (k : Nat) (hk : k < 3) (o : Nat) (ho : o + 96 ≤ 192)
    (inb : ∀ a, (![k, o, 0] : Fin 3 → Nat) a + S1x96x768.size a ≤ S3x192x768.size a) (hsq : S1x96x768.Squeezes S96x768)
    (f : W.view.ty.Contents (Elt F)) (p : Fin 96) (q : Fin 768) :
    ((W.slice (Rect.unit (s := S3x192x768) ![k, o, 0] S1x96x768.size inb) (fun _ => rfl)).squeeze S96x768 hsq).view.read (Elt F) f (ix2 p q)
      = W.view.read (Elt F) f (ix3 (⟨k, hk⟩ : Fin 3) (⟨o + p.val, by have := p.isLt; omega⟩ : Fin 192) q) := by
  rw [View.read_apply, View.read_apply]
  simp only [Memref.view_squeeze, Memref.view_slice, View.emb_reshape, View.emb_slice, Function.Embedding.trans_apply,
    Equiv.coe_toEmbedding]
  rw [reshapeEquiv_ix2_1ab, half_rect_emb k hk o ho]

theorem rows_rect_emb (o : Nat) (ho : o + 96 ≤ 192)
    (inb : ∀ a, (![o, 0] : Fin 2 → Nat) a + S96x768.size a ≤ S192x768.size a) (p : Fin 96) (q : Fin 768) :
    (Rect.unit (s := S192x768) ![o, 0] S96x768.size inb).emb (ix2 p q)
      = ix2 (⟨o + p.val, by have := p.isLt; omega⟩ : Fin 192) q := by
  funext a
  match a with
  | ⟨0, _⟩ => exact Fin.ext (show o + 1 * p.val = o + p.val by omega)
  | ⟨1, _⟩ => exact Fin.ext (show 0 + 1 * q.val = q.val by omega)

omit [FloatOps F] in
/-- Half the own chunk read at `(p, q)` is the chunk read at `(o + p, q)`. -/
theorem rows_read (W : Memref sig .tc .vmem S192x768 .bf16) (o : Nat) (ho : o + 96 ≤ 192)
    (inb : ∀ a, (![o, 0] : Fin 2 → Nat) a + S96x768.size a ≤ S192x768.size a)
    (f : W.view.ty.Contents (Elt F)) (p : Fin 96) (q : Fin 768) :
    (W.slice (Rect.unit (s := S192x768) ![o, 0] S96x768.size inb) (fun _ => rfl)).view.read (Elt F) f (ix2 p q)
      = W.view.read (Elt F) f (ix2 (⟨o + p.val, by have := p.isLt; omega⟩ : Fin 192) q) := by
  rw [View.read_apply, View.read_apply]
  simp only [Memref.view_slice, View.emb_slice, Function.Embedding.trans_apply]
  rw [rows_rect_emb o ho]

/-! ## The canonical contents at a slot -/

theorem slot3_zero {α : Type} (X0 X1 X2 : S1x192x768.Idx → α) (p : Fin 192) (q : Fin 768) :
    slot3 X0 X1 X2 (ix3 (⟨0, by decide⟩ : Fin 3) p q) = X0 (ix3 (0 : Fin 1) p q) := rfl
theorem slot3_one {α : Type} (X0 X1 X2 : S1x192x768.Idx → α) (p : Fin 192) (q : Fin 768) :
    slot3 X0 X1 X2 (ix3 (⟨1, by decide⟩ : Fin 3) p q) = X1 (ix3 (0 : Fin 1) p q) := rfl
theorem slot3_two {α : Type} (X0 X1 X2 : S1x192x768.Idx → α) (p : Fin 192) (q : Fin 768) :
    slot3 X0 X1 X2 (ix3 (⟨2, by decide⟩ : Fin 3) p q) = X2 (ix3 (0 : Fin 1) p q) := rfl

/-! ## A landing: writing through a view what it reads of `Y` leaves the region at `Y` -/

omit [FloatOps F] in
theorem landing (p : Dev nD) {sh : Shape} (D : Memref sig .tc .vmem sh .bf16) (q : PosShare TreeShare)
    (fd Y : Buf (Elt F) (D.view.loc (p : Thread nD τ))) (w : sh.Idx → Elt F .bf16) (h : D.view.read (Elt F) Y = w) :
    (held p D q (D.view.write (Elt F) fd w Finset.univ) : sProp 𝕄) = held p D q Y := by
  refine held_congr p D q _ _ fun i hi => ?_
  obtain ⟨x, rfl⟩ := View.exists_emb_of_mem_set _ hi
  rw [View.write_emb_of_mem _ _ (Finset.mem_univ x), ← h, View.read_apply, cast_cast, cast_eq]

variable (m : (ℓ : Loc nD τ sig) → Buf (Elt F) ℓ)

/-! ## The canonical contents read through each view -/

theorem read_sb0 (c : Dev nD) (p : Fin 192) (q : Fin 768) :
    sb0.view.read (Elt F) (sbBuf m c) (ix2 p q) = SB0 m c (ix3 (0 : Fin 1) p q) :=
  (slot_read (Memref.whole cc0_scratch0) 0 (by decide) _ _ (sbBuf m c) p q).trans
    (show (Memref.whole cc0_scratch0 : Memref sig .tc .vmem S3x192x768 .bf16).view.read (Elt F) (sbBuf m c) (ix3 (⟨0, by decide⟩ : Fin 3) p q)
        = SB0 m c (ix3 (0 : Fin 1) p q) from slot3_zero (SB0 m c) (SB1 m c) (SB2 m c) p q)
theorem read_sb1 (c : Dev nD) (p : Fin 192) (q : Fin 768) :
    sb1.view.read (Elt F) (sbBuf m c) (ix2 p q) = SB1 m c (ix3 (0 : Fin 1) p q) :=
  (slot_read (Memref.whole cc0_scratch0) 1 (by decide) _ _ (sbBuf m c) p q).trans
    (show (Memref.whole cc0_scratch0 : Memref sig .tc .vmem S3x192x768 .bf16).view.read (Elt F) (sbBuf m c) (ix3 (⟨1, by decide⟩ : Fin 3) p q)
        = SB1 m c (ix3 (0 : Fin 1) p q) from slot3_one (SB0 m c) (SB1 m c) (SB2 m c) p q)
theorem read_sb2 (c : Dev nD) (p : Fin 192) (q : Fin 768) :
    sb2.view.read (Elt F) (sbBuf m c) (ix2 p q) = SB2 m c (ix3 (0 : Fin 1) p q) :=
  (slot_read (Memref.whole cc0_scratch0) 2 (by decide) _ _ (sbBuf m c) p q).trans
    (show (Memref.whole cc0_scratch0 : Memref sig .tc .vmem S3x192x768 .bf16).view.read (Elt F) (sbBuf m c) (ix3 (⟨2, by decide⟩ : Fin 3) p q)
        = SB2 m c (ix3 (0 : Fin 1) p q) from slot3_two (SB0 m c) (SB1 m c) (SB2 m c) p q)
theorem read_rs0 (c : Dev nD) (p : Fin 192) (q : Fin 768) :
    rs0.view.read (Elt F) (rsBuf m c) (ix2 p q) = SB0 m (far c) (ix3 (0 : Fin 1) p q) :=
  (slot_read (Memref.whole cc0_scratch1) 0 (by decide) _ _ (rsBuf m c) p q).trans
    (show (Memref.whole cc0_scratch1 : Memref sig .tc .vmem S3x192x768 .bf16).view.read (Elt F) (rsBuf m c) (ix3 (⟨0, by decide⟩ : Fin 3) p q)
        = SB0 m (far c) (ix3 (0 : Fin 1) p q) from slot3_zero (SB0 m (far c)) (SB1 m (far c)) (SB2 m (par c)) p q)
theorem read_rs1 (c : Dev nD) (p : Fin 192) (q : Fin 768) :
    rs1.view.read (Elt F) (rsBuf m c) (ix2 p q) = SB1 m (far c) (ix3 (0 : Fin 1) p q) :=
  (slot_read (Memref.whole cc0_scratch1) 1 (by decide) _ _ (rsBuf m c) p q).trans
    (show (Memref.whole cc0_scratch1 : Memref sig .tc .vmem S3x192x768 .bf16).view.read (Elt F) (rsBuf m c) (ix3 (⟨1, by decide⟩ : Fin 3) p q)
        = SB1 m (far c) (ix3 (0 : Fin 1) p q) from slot3_one (SB0 m (far c)) (SB1 m (far c)) (SB2 m (par c)) p q)
theorem read_rs2 (c : Dev nD) (p : Fin 192) (q : Fin 768) :
    rs2.view.read (Elt F) (rsBuf m c) (ix2 p q) = SB2 m (par c) (ix3 (0 : Fin 1) p q) :=
  (slot_read (Memref.whole cc0_scratch1) 2 (by decide) _ _ (rsBuf m c) p q).trans
    (show (Memref.whole cc0_scratch1 : Memref sig .tc .vmem S3x192x768 .bf16).view.read (Elt F) (rsBuf m c) (ix3 (⟨2, by decide⟩ : Fin 3) p q)
        = SB2 m (par c) (ix3 (0 : Fin 1) p q) from slot3_two (SB0 m (far c)) (SB1 m (far c)) (SB2 m (par c)) p q)

theorem read_ownLo (c : Dev nD) (p : Fin 96) (q : Fin 768) :
    ownLo.view.read (Elt F) (ownBuf m c) (ix2 p q) = OWN m c (ix2 (⟨0 + p.val, by have := p.isLt; omega⟩ : Fin 192) q) :=
  rows_read (Memref.whole cc0_scratch2) 0 (by decide) _ (ownBuf m c) p q
theorem read_ownHi (c : Dev nD) (p : Fin 96) (q : Fin 768) :
    ownHi.view.read (Elt F) (ownBuf m c) (ix2 p q) = OWN m c (ix2 (⟨96 + p.val, by have := p.isLt; omega⟩ : Fin 192) q) :=
  rows_read (Memref.whole cc0_scratch2) 96 (by decide) _ (ownBuf m c) p q

theorem read_ag0Lo (c : Dev nD) (p : Fin 96) (q : Fin 768) :
    ag0Lo.view.read (Elt F) (agBuf m c) (ix2 p q) = OWN m (lft c) (ix2 (⟨0 + p.val, by have := p.isLt; omega⟩ : Fin 192) q) :=
  half_read (Memref.whole cc0_scratch3) 0 (by decide) 0 (by decide) _ _ (agBuf m c) p q
theorem read_ag0Hi (c : Dev nD) (p : Fin 96) (q : Fin 768) :
    ag0Hi.view.read (Elt F) (agBuf m c) (ix2 p q) = OWN m (lft c) (ix2 (⟨96 + p.val, by have := p.isLt; omega⟩ : Fin 192) q) :=
  half_read (Memref.whole cc0_scratch3) 0 (by decide) 96 (by decide) _ _ (agBuf m c) p q
theorem read_ag1Lo (c : Dev nD) (p : Fin 96) (q : Fin 768) :
    ag1Lo.view.read (Elt F) (agBuf m c) (ix2 p q) = OWN m (rgt c) (ix2 (⟨0 + p.val, by have := p.isLt; omega⟩ : Fin 192) q) :=
  half_read (Memref.whole cc0_scratch3) 1 (by decide) 0 (by decide) _ _ (agBuf m c) p q
theorem read_ag1Hi (c : Dev nD) (p : Fin 96) (q : Fin 768) :
    ag1Hi.view.read (Elt F) (agBuf m c) (ix2 p q) = OWN m (rgt c) (ix2 (⟨96 + p.val, by have := p.isLt; omega⟩ : Fin 192) q) :=
  half_read (Memref.whole cc0_scratch3) 1 (by decide) 96 (by decide) _ _ (agBuf m c) p q
theorem read_ag2Lo (c : Dev nD) (p : Fin 96) (q : Fin 768) :
    ag2Lo.view.read (Elt F) (agBuf m c) (ix2 p q) = OWN m (opp c) (ix2 (⟨0 + p.val, by have := p.isLt; omega⟩ : Fin 192) q) :=
  half_read (Memref.whole cc0_scratch3) 2 (by decide) 0 (by decide) _ _ (agBuf m c) p q
theorem read_ag2Hi (c : Dev nD) (p : Fin 96) (q : Fin 768) :
    ag2Hi.view.read (Elt F) (agBuf m c) (ix2 p q) = OWN m (opp c) (ix2 (⟨96 + p.val, by have := p.isLt; omega⟩ : Fin 192) q) :=
  half_read (Memref.whole cc0_scratch3) 2 (by decide) 96 (by decide) _ _ (agBuf m c) p q

/-! ## G4: the nine landings -/

theorem opp_rgt : ∀ c : Dev nD, opp (rgt c) = lft c := by decide +kernel
theorem opp_lft : ∀ c : Dev nD, opp (lft c) = rgt c := by decide +kernel

/-- Slot 0 of the send buffer of `c` lands in slot 0 of its first partner's landing buffer. -/
theorem land_rs0 (c : Dev nD) (fd : Buf (Elt F) (rs0.view.loc ((far c : Dev nD) : Thread nD τ))) :
    (held (far c) rs0 fullShare (rs0.view.write (Elt F) fd (sb0.view.read (Elt F) (sbBuf m c)) Finset.univ) : sProp 𝕄)
      = held (far c) rs0 fullShare (rsBuf m (far c)) := by
  refine landing (far c) rs0 fullShare fd (rsBuf m (far c)) _ (funext fun x => ?_)
  obtain ⟨p, q, rfl⟩ : ∃ (p : Fin 192) (q : Fin 768), x = ix2 p q := ⟨x 0, x 1, eq_ix2 x⟩
  rw [read_rs0, read_sb0, far_far]
/-- Slot 1 likewise. -/
theorem land_rs1 (c : Dev nD) (fd : Buf (Elt F) (rs1.view.loc ((far c : Dev nD) : Thread nD τ))) :
    (held (far c) rs1 fullShare (rs1.view.write (Elt F) fd (sb1.view.read (Elt F) (sbBuf m c)) Finset.univ) : sProp 𝕄)
      = held (far c) rs1 fullShare (rsBuf m (far c)) := by
  refine landing (far c) rs1 fullShare fd (rsBuf m (far c)) _ (funext fun x => ?_)
  obtain ⟨p, q, rfl⟩ : ∃ (p : Fin 192) (q : Fin 768), x = ix2 p q := ⟨x 0, x 1, eq_ix2 x⟩
  rw [read_rs1, read_sb1, far_far]
/-- Slot 2 lands in slot 2 of its second partner's landing buffer. -/
theorem land_rs2 (c : Dev nD) (fd : Buf (Elt F) (rs2.view.loc ((par c : Dev nD) : Thread nD τ))) :
    (held (par c) rs2 fullShare (rs2.view.write (Elt F) fd (sb2.view.read (Elt F) (sbBuf m c)) Finset.univ) : sProp 𝕄)
      = held (par c) rs2 fullShare (rsBuf m (par c)) := by
  refine landing (par c) rs2 fullShare fd (rsBuf m (par c)) _ (funext fun x => ?_)
  obtain ⟨p, q, rfl⟩ : ∃ (p : Fin 192) (q : Fin 768), x = ix2 p q := ⟨x 0, x 1, eq_ix2 x⟩
  rw [read_rs2, read_sb2, par_par]

/-- The lower half of `c`'s reduced chunk lands in the lower half of slot 0 of the device after it. -/
theorem land_ag0Lo (c : Dev nD) (fd : Buf (Elt F) (ag0Lo.view.loc ((rgt c : Dev nD) : Thread nD τ))) :
    (held (rgt c) ag0Lo fullShare (ag0Lo.view.write (Elt F) fd (ownLo.view.read (Elt F) (ownBuf m c)) Finset.univ) : sProp 𝕄)
      = held (rgt c) ag0Lo fullShare (agBuf m (rgt c)) := by
  refine landing (rgt c) ag0Lo fullShare fd (agBuf m (rgt c)) _ (funext fun x => ?_)
  obtain ⟨p, q, rfl⟩ : ∃ (p : Fin 96) (q : Fin 768), x = ix2 p q := ⟨x 0, x 1, eq_ix2 x⟩
  rw [read_ag0Lo, read_ownLo, lft_rgt]
/-- The upper half likewise. -/
theorem land_ag0Hi (c : Dev nD) (fd : Buf (Elt F) (ag0Hi.view.loc ((rgt c : Dev nD) : Thread nD τ))) :
    (held (rgt c) ag0Hi fullShare (ag0Hi.view.write (Elt F) fd (ownHi.view.read (Elt F) (ownBuf m c)) Finset.univ) : sProp 𝕄)
      = held (rgt c) ag0Hi fullShare (agBuf m (rgt c)) := by
  refine landing (rgt c) ag0Hi fullShare fd (agBuf m (rgt c)) _ (funext fun x => ?_)
  obtain ⟨p, q, rfl⟩ : ∃ (p : Fin 96) (q : Fin 768), x = ix2 p q := ⟨x 0, x 1, eq_ix2 x⟩
  rw [read_ag0Hi, read_ownHi, lft_rgt]
/-- The upper half of `c`'s reduced chunk lands in the upper half of slot 1 of the device before it. -/
theorem land_ag1Hi (c : Dev nD) (fd : Buf (Elt F) (ag1Hi.view.loc ((lft c : Dev nD) : Thread nD τ))) :
    (held (lft c) ag1Hi fullShare (ag1Hi.view.write (Elt F) fd (ownHi.view.read (Elt F) (ownBuf m c)) Finset.univ) : sProp 𝕄)
      = held (lft c) ag1Hi fullShare (agBuf m (lft c)) := by
  refine landing (lft c) ag1Hi fullShare fd (agBuf m (lft c)) _ (funext fun x => ?_)
  obtain ⟨p, q, rfl⟩ : ∃ (p : Fin 96) (q : Fin 768), x = ix2 p q := ⟨x 0, x 1, eq_ix2 x⟩
  rw [read_ag1Hi, read_ownHi, rgt_lft]
/-- The lower half likewise. -/
theorem land_ag1Lo (c : Dev nD) (fd : Buf (Elt F) (ag1Lo.view.loc ((lft c : Dev nD) : Thread nD τ))) :
    (held (lft c) ag1Lo fullShare (ag1Lo.view.write (Elt F) fd (ownLo.view.read (Elt F) (ownBuf m c)) Finset.univ) : sProp 𝕄)
      = held (lft c) ag1Lo fullShare (agBuf m (lft c)) := by
  refine landing (lft c) ag1Lo fullShare fd (agBuf m (lft c)) _ (funext fun x => ?_)
  obtain ⟨p, q, rfl⟩ : ∃ (p : Fin 96) (q : Fin 768), x = ix2 p q := ⟨x 0, x 1, eq_ix2 x⟩
  rw [read_ag1Lo, read_ownLo, rgt_lft]
/-- What landed in the lower half of slot 0 of `c` is passed on to the lower half of slot 2 of the device after it. -/
theorem land_ag2Lo (c : Dev nD) (fd : Buf (Elt F) (ag2Lo.view.loc ((rgt c : Dev nD) : Thread nD τ))) :
    (held (rgt c) ag2Lo fullShare (ag2Lo.view.write (Elt F) fd (ag0Lo.view.read (Elt F) (agBuf m c)) Finset.univ) : sProp 𝕄)
      = held (rgt c) ag2Lo fullShare (agBuf m (rgt c)) := by
  refine landing (rgt c) ag2Lo fullShare fd (agBuf m (rgt c)) _ (funext fun x => ?_)
  obtain ⟨p, q, rfl⟩ : ∃ (p : Fin 96) (q : Fin 768), x = ix2 p q := ⟨x 0, x 1, eq_ix2 x⟩
  rw [read_ag2Lo, read_ag0Lo, opp_rgt]
/-- What landed in the upper half of slot 1 of `c` is passed on to the upper half of slot 2 of the device before it. -/
theorem land_ag2Hi (c : Dev nD) (fd : Buf (Elt F) (ag2Hi.view.loc ((lft c : Dev nD) : Thread nD τ))) :
    (held (lft c) ag2Hi fullShare (ag2Hi.view.write (Elt F) fd (ag1Hi.view.read (Elt F) (agBuf m c)) Finset.univ) : sProp 𝕄)
      = held (lft c) ag2Hi fullShare (agBuf m (lft c)) := by
  refine landing (lft c) ag2Hi fullShare fd (agBuf m (lft c)) _ (funext fun x => ?_)
  obtain ⟨p, q, rfl⟩ : ∃ (p : Fin 96) (q : Fin 768), x = ix2 p q := ⟨x 0, x 1, eq_ix2 x⟩
  rw [read_ag2Hi, read_ag1Hi, opp_lft]

/-! ## G5: loading a whole slot -/

omit [FloatOps F] in
/-- A slot loaded from a three-slot buffer at `x` is the buffer read at `(k, x 1, x 2)`. -/
theorem slot_load (W : Memref sig .tc .vmem S3x192x768 .bf16) (k : Nat) (hk : k < 3)
    (inb : ∀ a, (![k, 0, 0] : Fin 3 → Nat) a + S1x192x768.size a ≤ S3x192x768.size a)
    (f : W.view.ty.Contents (Elt F)) (x : S1x192x768.Idx) :
    W.view.readAt (Elt F) (Rect.unit (s := S3x192x768) ![k, 0, 0] S1x192x768.size inb).toLoadRect f x
      = W.view.read (Elt F) f (ix3 (⟨k, hk⟩ : Fin 3) (x 1) (x 2)) := by
  rw [View.readAt_apply]
  refine congrArg (W.view.read (Elt F) f) (funext fun a => ?_)
  match a with
  | ⟨0, _⟩ => exact Fin.ext (show k + 1 * (x 0).val = k by have h0 : (x 0).val < 1 := (x 0).isLt; omega)
  | ⟨1, _⟩ => exact Fin.ext (show 0 + 1 * (x 1).val = (x 1).val by omega)
  | ⟨2, _⟩ => exact Fin.ext (show 0 + 1 * (x 2).val = (x 2).val by omega)

/-- An index of a one-slot shape is `(0, x 1, x 2)`. -/
theorem ix3_unit (x : S1x192x768.Idx) : ix3 (0 : Fin 1) (x 1) (x 2) = x :=
  funext fun a => match a with | ⟨0, _⟩ => Fin.ext (show 0 = (x 0).val by have h0 : (x 0).val < 1 := (x 0).isLt; omega) | ⟨1, _⟩ => rfl | ⟨2, _⟩ => rfl

theorem load_rs0 (c : Dev nD) :
    (Memref.whole cc0_scratch1 : Memref sig .tc .vmem S3x192x768 .bf16).view.readAt (Elt F)
      (Rect.unit (s := S3x192x768) ![0, 0, 0] S1x192x768.size inb_S3x192x768_S1x192x768_0_0_0).toLoadRect (rsBuf m c) = SB0 m (far c) :=
  funext fun x => (slot_load (Memref.whole cc0_scratch1) 0 (by decide) _ (rsBuf m c) x).trans
    ((show (Memref.whole cc0_scratch1 : Memref sig .tc .vmem S3x192x768 .bf16).view.read (Elt F) (rsBuf m c) (ix3 (⟨0, by decide⟩ : Fin 3) (x 1) (x 2))
        = SB0 m (far c) (ix3 (0 : Fin 1) (x 1) (x 2)) from slot3_zero (SB0 m (far c)) (SB1 m (far c)) (SB2 m (par c)) (x 1) (x 2)).trans
      (congrArg (SB0 m (far c)) (ix3_unit x)))
theorem load_rs1 (c : Dev nD) :
    (Memref.whole cc0_scratch1 : Memref sig .tc .vmem S3x192x768 .bf16).view.readAt (Elt F)
      (Rect.unit (s := S3x192x768) ![1, 0, 0] S1x192x768.size inb_S3x192x768_S1x192x768_1_0_0).toLoadRect (rsBuf m c) = SB1 m (far c) :=
  funext fun x => (slot_load (Memref.whole cc0_scratch1) 1 (by decide) _ (rsBuf m c) x).trans
    ((show (Memref.whole cc0_scratch1 : Memref sig .tc .vmem S3x192x768 .bf16).view.read (Elt F) (rsBuf m c) (ix3 (⟨1, by decide⟩ : Fin 3) (x 1) (x 2))
        = SB1 m (far c) (ix3 (0 : Fin 1) (x 1) (x 2)) from slot3_one (SB0 m (far c)) (SB1 m (far c)) (SB2 m (par c)) (x 1) (x 2)).trans
      (congrArg (SB1 m (far c)) (ix3_unit x)))
theorem load_rs2 (c : Dev nD) :
    (Memref.whole cc0_scratch1 : Memref sig .tc .vmem S3x192x768 .bf16).view.readAt (Elt F)
      (Rect.unit (s := S3x192x768) ![2, 0, 0] S1x192x768.size inb_S3x192x768_S1x192x768_2_0_0).toLoadRect (rsBuf m c) = SB2 m (par c) :=
  funext fun x => (slot_load (Memref.whole cc0_scratch1) 2 (by decide) _ (rsBuf m c) x).trans
    ((show (Memref.whole cc0_scratch1 : Memref sig .tc .vmem S3x192x768 .bf16).view.read (Elt F) (rsBuf m c) (ix3 (⟨2, by decide⟩ : Fin 3) (x 1) (x 2))
        = SB2 m (par c) (ix3 (0 : Fin 1) (x 1) (x 2)) from slot3_two (SB0 m (far c)) (SB1 m (far c)) (SB2 m (par c)) (x 1) (x 2)).trans
      (congrArg (SB2 m (par c)) (ix3_unit x)))

theorem load_ag0 (c : Dev nD) :
    (Memref.whole cc0_scratch3 : Memref sig .tc .vmem S3x192x768 .bf16).view.readAt (Elt F)
      (Rect.unit (s := S3x192x768) ![0, 0, 0] S1x192x768.size inb_S3x192x768_S1x192x768_0_0_0).toLoadRect (agBuf m c) = asSlot (OWN m (lft c)) :=
  funext fun x => (slot_load (Memref.whole cc0_scratch3) 0 (by decide) _ (agBuf m c) x).trans
    ((show (Memref.whole cc0_scratch3 : Memref sig .tc .vmem S3x192x768 .bf16).view.read (Elt F) (agBuf m c) (ix3 (⟨0, by decide⟩ : Fin 3) (x 1) (x 2))
        = asSlot (OWN m (lft c)) (ix3 (0 : Fin 1) (x 1) (x 2)) from
          slot3_zero (asSlot (OWN m (lft c))) (asSlot (OWN m (rgt c))) (asSlot (OWN m (opp c))) (x 1) (x 2)).trans
      (congrArg (asSlot (OWN m (lft c))) (ix3_unit x)))
theorem load_ag1 (c : Dev nD) :
    (Memref.whole cc0_scratch3 : Memref sig .tc .vmem S3x192x768 .bf16).view.readAt (Elt F)
      (Rect.unit (s := S3x192x768) ![1, 0, 0] S1x192x768.size inb_S3x192x768_S1x192x768_1_0_0).toLoadRect (agBuf m c) = asSlot (OWN m (rgt c)) :=
  funext fun x => (slot_load (Memref.whole cc0_scratch3) 1 (by decide) _ (agBuf m c) x).trans
    ((show (Memref.whole cc0_scratch3 : Memref sig .tc .vmem S3x192x768 .bf16).view.read (Elt F) (agBuf m c) (ix3 (⟨1, by decide⟩ : Fin 3) (x 1) (x 2))
        = asSlot (OWN m (rgt c)) (ix3 (0 : Fin 1) (x 1) (x 2)) from
          slot3_one (asSlot (OWN m (lft c))) (asSlot (OWN m (rgt c))) (asSlot (OWN m (opp c))) (x 1) (x 2)).trans
      (congrArg (asSlot (OWN m (rgt c))) (ix3_unit x)))
theorem load_ag2 (c : Dev nD) :
    (Memref.whole cc0_scratch3 : Memref sig .tc .vmem S3x192x768 .bf16).view.readAt (Elt F)
      (Rect.unit (s := S3x192x768) ![2, 0, 0] S1x192x768.size inb_S3x192x768_S1x192x768_2_0_0).toLoadRect (agBuf m c) = asSlot (OWN m (opp c)) :=
  funext fun x => (slot_load (Memref.whole cc0_scratch3) 2 (by decide) _ (agBuf m c) x).trans
    ((show (Memref.whole cc0_scratch3 : Memref sig .tc .vmem S3x192x768 .bf16).view.read (Elt F) (agBuf m c) (ix3 (⟨2, by decide⟩ : Fin 3) (x 1) (x 2))
        = asSlot (OWN m (opp c)) (ix3 (0 : Fin 1) (x 1) (x 2)) from
          slot3_two (asSlot (OWN m (lft c))) (asSlot (OWN m (rgt c))) (asSlot (OWN m (opp c))) (x 1) (x 2)).trans
      (congrArg (asSlot (OWN m (opp c))) (ix3_unit x)))

end Cert.KernelIdeal.Mlp

end
-- ==== Proof.BodyInv.lean ====
/-
  Small facts the body's run uses between its steps: the two neighbours of a device have the same parity, opposite to its
  own; what a device hands its neighbours with its two barrier units is the nine landing regions of its own buffers; what it
  receives with theirs is the nine regions of theirs that it will write, named by the partners of its two exchanges.
-/
import proofs.«900352_g7700000000000353_dist_gated_mlp_tp_i_m768_h1536_d768_v7x_i4_f32_1_alg».proof.Proof.BodyDefs
import proofs.«900352_g7700000000000353_dist_gated_mlp_tp_i_m768_h1536_d768_v7x_i4_f32_1_alg».proof.Proof.Geom2

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Parity of the neighbours -/

theorem nbr_parity : ∀ c : Dev nD, (rgt c).val % 2 = (lft c).val % 2 ∧ ((lft c).val % 2 = 0 ↔ c.val % 2 = 1) := by decide +kernel

/-! ## The barrier's grants -/

omit [FloatOps F] in
/-- A region held at some contents is a region handed over. -/
theorem free_of_held (p : Dev nD) {sh : Shape} (M : Memref sig .tc .vmem sh .bf16) (X : Buf (Elt F) (M.view.loc (p : Thread nD τ))) :
    (held p M fullShare X : sProp 𝕄) ⊢ free p M := by
  unfold held free; iintro H; iexists X; iexact H

omit [FloatOps F] in
/-- What a device hands over with its two barrier units: the six half-slots of its all-gather landing buffer and the three
    slots of its reduce-scatter landing buffer. -/
theorem barPay_give (c : Dev nD) :
    (iprop(free c ag0Lo ∗ free c ag0Hi ∗ free c ag1Lo ∗ free c ag1Hi ∗ free c ag2Lo ∗ free c ag2Hi ∗ free c rs0 ∗ free c rs1 ∗ free c rs2) : sProp 𝕄)
      ⊢ iprop(barPay (lft c) false ∗ barPay (rgt c) true) := by
  unfold barPay
  simp only [Bool.false_eq_true, if_false, if_true, rgt_lft, lft_rgt]
  rcases Nat.mod_two_eq_zero_or_one (lft c).val with h | h
  · have h' : (rgt c).val % 2 = 0 := (nbr_parity c).1.trans h
    simp only [h, h', if_true]
    iintro ⟨H1, H2, H3, H4, H5, H6, H7, H8, H9⟩
    isplitl [H1 H2 H5 H9]
    · isplitl [H1]; · iexact H1
      isplitl [H2]; · iexact H2
      isplitl [H5]; · iexact H5
      iexact H9
    · isplitl [H4]; · iexact H4
      isplitl [H3]; · iexact H3
      isplitl [H6]; · iexact H6
      isplitl [H7]; · iexact H7
      iexact H8
  · have h' : (rgt c).val % 2 = 1 := (nbr_parity c).1.trans h
    simp only [h, h', Nat.one_ne_zero, if_false]
    iintro ⟨H1, H2, H3, H4, H5, H6, H7, H8, H9⟩
    isplitl [H1 H2 H5 H7 H8]
    · isplitl [H1]; · iexact H1
      isplitl [H2]; · iexact H2
      isplitl [H5]; · iexact H5
      isplitl [H7]; · iexact H7
      iexact H8
    · isplitl [H4]; · iexact H4
      isplitl [H3]; · iexact H3
      isplitl [H6]; · iexact H6
      iexact H9

omit [FloatOps F] in
/-- What a device receives with its neighbours' units: the half-slots of their all-gather buffers on its side, and the
    slots of the reduce-scatter buffers of its two partners that it fills. -/
theorem barPay_take (c : Dev nD) :
    (iprop(barPay c false ∗ barPay c true) : sProp 𝕄)
      ⊢ iprop(free (rgt c) ag0Lo ∗ free (rgt c) ag0Hi ∗ free (rgt c) ag2Lo ∗ free (lft c) ag1Hi ∗ free (lft c) ag1Lo ∗ free (lft c) ag2Hi
          ∗ free (far c) rs0 ∗ free (far c) rs1 ∗ free (par c) rs2) := by
  unfold barPay
  simp only [Bool.false_eq_true, if_false, if_true]
  rcases Nat.mod_two_eq_zero_or_one c.val with h | h
  · obtain ⟨hf, hp⟩ := far_par_even c h
    simp only [h, if_true, hf, hp]
    iintro ⟨⟨H1, H2, H3, H9⟩, H4, H5, H6, H7, H8⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · obtain ⟨hf, hp⟩ := far_par_odd c h
    simp only [h, Nat.one_ne_zero, if_false, hf, hp]
    iintro ⟨⟨H1, H2, H3, H7, H8⟩, H4, H5, H6, H9⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

omit [FloatOps F] in
/-- Two assertions held together feed a consequence that asks for them one after the other. -/
theorem sep_wand2 (A B P : sProp 𝕄) : iprop((A ∗ B) ∗ (A -∗ B -∗ P)) ⊢ P := by
  iintro ⟨⟨HA, HB⟩, HP⟩
  iapply HP $$ HA HB

omit [FloatOps F] in
/-- `barPay_give`, for a consequence that asks for the two grants one after the other. -/
theorem barPay_give_k (c : Dev nD) (P : sProp 𝕄) :
    iprop((free c ag0Lo ∗ free c ag0Hi ∗ free c ag1Lo ∗ free c ag1Hi ∗ free c ag2Lo ∗ free c ag2Hi ∗ free c rs0 ∗ free c rs1 ∗ free c rs2)
        ∗ (barPay (lft c) false -∗ barPay (rgt c) true -∗ P)) ⊢ P :=
  (sep_mono_left (barPay_give (F := F) c)).trans (sep_wand2 _ _ P)

omit [FloatOps F] in
/-- What is left of the barrier cell's round when nothing of it has been taken: both neighbours' grants. -/
theorem barPay_rest (c : Dev nD) :
    (bigSep (Finset.univ : Finset Bool) (fun d => barPay (F := F) c d) : sProp 𝕄)
      ⊢ iprop(free (rgt c) ag0Lo ∗ free (rgt c) ag0Hi ∗ free (rgt c) ag2Lo ∗ free (lft c) ag1Hi ∗ free (lft c) ag1Lo ∗ free (lft c) ag2Hi
          ∗ free (far c) rs0 ∗ free (far c) rs1 ∗ free (par c) rs2) := by
  rw [bigSep_univ_eq_bigSepL [false, true] (by decide) (by decide), bigSepL_cons_cons, bigSepL_singleton]
  exact barPay_take c

end Cert.KernelIdeal.Mlp

end
-- ==== Proof.Geom3.lean ====
/-
  Storing into the scratch buffers and the result buffer.

  A whole slot stored into the send buffer leaves, on that slot, the canonical contents of the buffer (the stored
  payload is what the contents are defined to hold there); the elements such a store writes are the slot view's, and
  the elements a whole-slot load of a landing buffer reads are the slot view's (its two half views', for the all-gather
  buffer). The reduced chunk stored over the whole own buffer is its canonical contents. Last, the result buffer: a row
  lies in exactly one of the four chunks of 192 rows, and the device writes its own chunk, the chunk of the device before
  it, of the device after it and of the device across the ring — four different chunks — so after the four stores a row
  holds what the one store covering it wrote.
-/
import proofs.«900352_g7700000000000353_dist_gated_mlp_tp_i_m768_h1536_d768_v7x_i4_f32_1_alg».proof.Proof.Geom2

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.ValueIdx

variable (m : (ℓ : Loc nD τ sig) → Buf (Elt F) ℓ)

/-! ## The canonical contents of a three-slot buffer, by the slot of the element -/

theorem slot3_of_zero {α : Type} (X0 X1 X2 : S1x192x768.Idx → α) (i : S3x192x768.Idx) (h : (i 0).val = 0) :
    slot3 X0 X1 X2 i = X0 (ix3 (0 : Fin 1) (i 1) (i 2)) := by
  unfold slot3; rw [if_pos h]
theorem slot3_of_one {α : Type} (X0 X1 X2 : S1x192x768.Idx → α) (i : S3x192x768.Idx) (h : (i 0).val = 1) :
    slot3 X0 X1 X2 i = X1 (ix3 (0 : Fin 1) (i 1) (i 2)) := by
  unfold slot3; rw [if_neg (by omega), if_pos h]
theorem slot3_of_two {α : Type} (X0 X1 X2 : S1x192x768.Idx → α) (i : S3x192x768.Idx) (h : (i 0).val = 2) :
    slot3 X0 X1 X2 i = X2 (ix3 (0 : Fin 1) (i 1) (i 2)) := by
  unfold slot3; rw [if_neg (by omega), if_neg (by omega)]

/-! ## G6: a store of a whole slot, read at an element of the slot -/

/-- An element of slot `k` is where the slot's rectangle puts `(0, i 1, i 2)`. -/
theorem slot_rect_emb_of (k : Nat) (inb : ∀ a, (![k, 0, 0] : Fin 3 → Nat) a + S1x192x768.size a ≤ S3x192x768.size a)
    (i : S3x192x768.Idx) (hi : (i 0).val = k) :
    (Rect.unit (s := S3x192x768) ![k, 0, 0] S1x192x768.size inb).emb (ix3 (0 : Fin 1) (i 1) (i 2)) = i := by
  funext a
  match a with
  | ⟨0, _⟩ => exact Fin.ext (show k + 1 * 0 = (i 0).val by omega)
  | ⟨1, _⟩ => exact Fin.ext (show 0 + 1 * (i 1).val = (i 1).val by omega)
  | ⟨2, _⟩ => exact Fin.ext (show 0 + 1 * (i 2).val = (i 2).val by omega)

omit [FloatOps F] in
/-- What a write through a view leaves at the place of one of its indices. -/
theorem write_at {κ : Kind} {sp : Space} {sh : Shape} {e : EltTy} (V : View sig κ sp sh e) (f : V.ty.Contents (Elt F))
    (w : sh.Idx → Elt F e) (x : sh.Idx) (i : V.ty.Idx) (h : V.emb x = i) :
    V.write (Elt F) f w Finset.univ i = _root_.cast (congrArg (Elt F) V.elt_eq.symm) (w x) :=
  h ▸ View.write_emb_of_mem f w (Finset.mem_univ x)

/-- Slot 0 of the send buffer once stored: on that slot the buffer is the canonical contents. -/
theorem store_sb0 (c : Dev nD) (f : Buf (Elt F) ((c : Thread nD τ).loc cc0_scratch0)) :
    ∀ i ∈ (sb0 : Memref sig .tc .vmem S192x768 .bf16).view.set,
      ((Memref.whole cc0_scratch0 : Memref sig .tc .vmem S3x192x768 .bf16).access
        (Rect.unit (s := S3x192x768) ![0, 0, 0] S1x192x768.size inb_S3x192x768_S1x192x768_0_0_0)).write (Elt F) f (SB0 m c) Finset.univ i
        = sbBuf m c i := by
  intro i hi
  have h0 : (i 0).val = 0 := (mem_sb0 i).mp hi
  refine (write_at _ f (SB0 m c) (ix3 (0 : Fin 1) (i 1) (i 2)) i (slot_rect_emb_of 0 _ i h0)).trans ?_
  rw [cast_eq]
  exact (slot3_of_zero (SB0 m c) (SB1 m c) (SB2 m c) i h0).symm

/-- Slot 1 of the send buffer once stored: on that slot the buffer is the canonical contents. -/
theorem store_sb1 (c : Dev nD) (f : Buf (Elt F) ((c : Thread nD τ).loc cc0_scratch0)) :
    ∀ i ∈ (sb1 : Memref sig .tc .vmem S192x768 .bf16).view.set,
      ((Memref.whole cc0_scratch0 : Memref sig .tc .vmem S3x192x768 .bf16).access
        (Rect.unit (s := S3x192x768) ![1, 0, 0] S1x192x768.size inb_S3x192x768_S1x192x768_1_0_0)).write (Elt F) f (SB1 m c) Finset.univ i
        = sbBuf m c i := by
  intro i hi
  have h0 : (i 0).val = 1 := (mem_sb1 i).mp hi
  refine (write_at _ f (SB1 m c) (ix3 (0 : Fin 1) (i 1) (i 2)) i (slot_rect_emb_of 1 _ i h0)).trans ?_
  rw [cast_eq]
  exact (slot3_of_one (SB0 m c) (SB1 m c) (SB2 m c) i h0).symm

/-- Slot 2 of the send buffer once stored: on that slot the buffer is the canonical contents. -/
theorem store_sb2 (c : Dev nD) (f : Buf (Elt F) ((c : Thread nD τ).loc cc0_scratch0)) :
    ∀ i ∈ (sb2 : Memref sig .tc .vmem S192x768 .bf16).view.set,
      ((Memref.whole cc0_scratch0 : Memref sig .tc .vmem S3x192x768 .bf16).access
        (Rect.unit (s := S3x192x768) ![2, 0, 0] S1x192x768.size inb_S3x192x768_S1x192x768_2_0_0)).write (Elt F) f (SB2 m c) Finset.univ i
        = sbBuf m c i := by
  intro i hi
  have h0 : (i 0).val = 2 := (mem_sb2 i).mp hi
  refine (write_at _ f (SB2 m c) (ix3 (0 : Fin 1) (i 1) (i 2)) i (slot_rect_emb_of 2 _ i h0)).trans ?_
  rw [cast_eq]
  exact (slot3_of_two (SB0 m c) (SB1 m c) (SB2 m c) i h0).symm

/-! ## The elements a slot store writes and a slot load reads -/

omit [FloatOps F] in
theorem store_set_sb0 : ((Memref.whole cc0_scratch0 : Memref sig .tc .vmem S3x192x768 .bf16).access
      (Rect.unit (s := S3x192x768) ![0, 0, 0] S1x192x768.size inb_S3x192x768_S1x192x768_0_0_0)).setOn Finset.univ
    = (sb0 : Memref sig .tc .vmem S192x768 .bf16).view.set := by
  simp only [View.setOn_univ, Memref.view_squeeze, Memref.view_slice, Memref.view_whole, View.set_reshape, View.set_slice_whole]
  exact View.set_slice_whole cc0_scratch0 _
omit [FloatOps F] in
theorem store_set_sb1 : ((Memref.whole cc0_scratch0 : Memref sig .tc .vmem S3x192x768 .bf16).access
      (Rect.unit (s := S3x192x768) ![1, 0, 0] S1x192x768.size inb_S3x192x768_S1x192x768_1_0_0)).setOn Finset.univ
    = (sb1 : Memref sig .tc .vmem S192x768 .bf16).view.set := by
  simp only [View.setOn_univ, Memref.view_squeeze, Memref.view_slice, Memref.view_whole, View.set_reshape, View.set_slice_whole]
  exact View.set_slice_whole cc0_scratch0 _
omit [FloatOps F] in
theorem store_set_sb2 : ((Memref.whole cc0_scratch0 : Memref sig .tc .vmem S3x192x768 .bf16).access
      (Rect.unit (s := S3x192x768) ![2, 0, 0] S1x192x768.size inb_S3x192x768_S1x192x768_2_0_0)).setOn Finset.univ
    = (sb2 : Memref sig .tc .vmem S192x768 .bf16).view.set := by
  simp only [View.setOn_univ, Memref.view_squeeze, Memref.view_slice, Memref.view_whole, View.set_reshape, View.set_slice_whole]
  exact View.set_slice_whole cc0_scratch0 _

omit [FloatOps F] in
/-- A slot load of the reduce-scatter landing buffer reads the elements of that slot's view. -/
theorem load_set_rs0 : (Memref.whole cc0_scratch1 : Memref sig .tc .vmem S3x192x768 .bf16).view.setOn
      (Rect.unit (s := S3x192x768) ![0, 0, 0] S1x192x768.size inb_S3x192x768_S1x192x768_0_0_0).toLoadRect.set
    ⊆ (rs0 : Memref sig .tc .vmem S192x768 .bf16).view.set := by
  intro i hi
  obtain ⟨j, hj, rfl⟩ := Finset.mem_map.mp hi
  exact (mem_rs0 _).mpr ((mem_slot 0 _ j).mp hj)
omit [FloatOps F] in
theorem load_set_rs1 : (Memref.whole cc0_scratch1 : Memref sig .tc .vmem S3x192x768 .bf16).view.setOn
      (Rect.unit (s := S3x192x768) ![1, 0, 0] S1x192x768.size inb_S3x192x768_S1x192x768_1_0_0).toLoadRect.set
    ⊆ (rs1 : Memref sig .tc .vmem S192x768 .bf16).view.set := by
  intro i hi
  obtain ⟨j, hj, rfl⟩ := Finset.mem_map.mp hi
  exact (mem_rs1 _).mpr ((mem_slot 1 _ j).mp hj)
omit [FloatOps F] in
theorem load_set_rs2 : (Memref.whole cc0_scratch1 : Memref sig .tc .vmem S3x192x768 .bf16).view.setOn
      (Rect.unit (s := S3x192x768) ![2, 0, 0] S1x192x768.size inb_S3x192x768_S1x192x768_2_0_0).toLoadRect.set
    ⊆ (rs2 : Memref sig .tc .vmem S192x768 .bf16).view.set := by
  intro i hi
  obtain ⟨j, hj, rfl⟩ := Finset.mem_map.mp hi
  exact (mem_rs2 _).mpr ((mem_slot 2 _ j).mp hj)

omit [FloatOps F] in
/-- A slot load of the all-gather landing buffer reads the elements of that slot's two half views. -/
theorem load_set_ag0 : (Memref.whole cc0_scratch3 : Memref sig .tc .vmem S3x192x768 .bf16).view.setOn
      (Rect.unit (s := S3x192x768) ![0, 0, 0] S1x192x768.size inb_S3x192x768_S1x192x768_0_0_0).toLoadRect.set
    ⊆ (ag0Lo : Memref sig .tc .vmem S96x768 .bf16).view.set ∪ (ag0Hi : Memref sig .tc .vmem S96x768 .bf16).view.set := by
  intro i hi
  obtain ⟨j, hj, rfl⟩ := Finset.mem_map.mp hi
  have h0 := (mem_slot 0 _ j).mp hj
  rcases Nat.lt_or_ge (j 1).val 96 with h | h
  · exact Finset.mem_union_left _ ((mem_ag0Lo _).mpr ⟨h0, h⟩)
  · exact Finset.mem_union_right _ ((mem_ag0Hi _).mpr ⟨h0, h⟩)
omit [FloatOps F] in
theorem load_set_ag1 : (Memref.whole cc0_scratch3 : Memref sig .tc .vmem S3x192x768 .bf16).view.setOn
      (Rect.unit (s := S3x192x768) ![1, 0, 0] S1x192x768.size inb_S3x192x768_S1x192x768_1_0_0).toLoadRect.set
    ⊆ (ag1Lo : Memref sig .tc .vmem S96x768 .bf16).view.set ∪ (ag1Hi : Memref sig .tc .vmem S96x768 .bf16).view.set := by
  intro i hi
  obtain ⟨j, hj, rfl⟩ := Finset.mem_map.mp hi
  have h0 := (mem_slot 1 _ j).mp hj
  rcases Nat.lt_or_ge (j 1).val 96 with h | h
  · exact Finset.mem_union_left _ ((mem_ag1Lo _).mpr ⟨h0, h⟩)
  · exact Finset.mem_union_right _ ((mem_ag1Hi _).mpr ⟨h0, h⟩)
omit [FloatOps F] in
theorem load_set_ag2 : (Memref.whole cc0_scratch3 : Memref sig .tc .vmem S3x192x768 .bf16).view.setOn
      (Rect.unit (s := S3x192x768) ![2, 0, 0] S1x192x768.size inb_S3x192x768_S1x192x768_2_0_0).toLoadRect.set
    ⊆ (ag2Lo : Memref sig .tc .vmem S96x768 .bf16).view.set ∪ (ag2Hi : Memref sig .tc .vmem S96x768 .bf16).view.set := by
  intro i hi
  obtain ⟨j, hj, rfl⟩ := Finset.mem_map.mp hi
  have h0 := (mem_slot 2 _ j).mp hj
  rcases Nat.lt_or_ge (j 1).val 96 with h | h
  · exact Finset.mem_union_left _ ((mem_ag2Lo _).mpr ⟨h0, h⟩)
  · exact Finset.mem_union_right _ ((mem_ag2Hi _).mpr ⟨h0, h⟩)

/-! ## The own chunk stored whole -/

/-- The reduced chunk stored over the whole own buffer: the buffer is the canonical contents. -/
theorem store_own (c : Dev nD) (f : Buf (Elt F) ((c : Thread nD τ).loc cc0_scratch2)) :
    ((Memref.whole cc0_scratch2 : Memref sig .tc .vmem S192x768 .bf16).access
      (Rect.unit (s := S192x768) ![0, 0] S192x768.size inb_S192x768_S192x768_0_0)).write (Elt F) f (OWN m c) Finset.univ = ownBuf m c :=
  Memref.write_access_unit_zero_univ (Elt F) cc0_scratch2 (funext fun a => by fin_cases a <;> rfl) _ f (OWN m c)

/-! ## G7: the result buffer, written chunk by chunk -/

/-- The four row offsets of the result's chunks, by the chunk they start. -/
theorem roff_own (c : Dev nD) : k0_off4 c = ![192 * c.val, 0] := k0_off4_eq c
theorem roff_lft (c : Dev nD) : k0_off5 c = ![192 * (lft c).val, 0] := by rw [off5_eq, lft_val]
theorem roff_rgt (c : Dev nD) : k0_off1 c 1#32 = ![192 * (rgt c).val, 0] := by rw [off1_one, rgt_val]
theorem roff_opp (c : Dev nD) : k0_off1 c 2#32 = ![192 * (opp c).val, 0] := by rw [off1_two, opp_val]

/-- The four chunks a device writes are the four chunks. -/
theorem four_chunks : ∀ (c : Dev nD) (e : Fin 4),
    (e.val = c.val ∨ e.val = (lft c).val ∨ e.val = (rgt c).val ∨ e.val = (opp c).val)
      ∧ c.val ≠ (lft c).val ∧ c.val ≠ (rgt c).val ∧ c.val ≠ (opp c).val
      ∧ (lft c).val ≠ (rgt c).val ∧ (lft c).val ≠ (opp c).val ∧ (rgt c).val ≠ (opp c).val := by
  decide +kernel

omit [FloatOps F] in
/-- One chunk of 192 rows written into the 768-row result buffer: a row of that chunk holds what was written, any other
    row what it held. -/
theorem chunk_write_stg4 (off : Fin 2 → Nat) (hinb : ∀ a, off a + S192x768.size a ≤ S768x768.size a) (e : Fin 4)
    (hoff : off = ![192 * e.val, 0]) (g : (cc0_stg4_0 : Ref sig .tc).ty.Contents (Elt F)) (w : S192x768.Idx → Elt F .f32)
    (i : S768x768.Idx) :
    ((Memref.whole cc0_stg4_0 : Memref sig .tc .vmem S768x768 .f32).access (Rect.unit (s := S768x768) off S192x768.size hinb)).write
        (Elt F) g w Finset.univ i
      = if (i 0).val / 192 = e.val then w (ix2 (⟨(i 0).val % 192, Nat.mod_lt _ (by decide)⟩ : Fin 192) (i 1)) else g i := by
  subst hoff
  by_cases h : (i 0).val / 192 = e.val
  · rw [if_pos h]
    refine (write_at ((Memref.whole cc0_stg4_0 : Memref sig .tc .vmem S768x768 .f32).access
      (Rect.unit (s := S768x768) ![192 * e.val, 0] S192x768.size hinb)) g w
      (ix2 (⟨(i 0).val % 192, Nat.mod_lt _ (by decide)⟩ : Fin 192) (i 1)) i ?_).trans (cast_eq _ _)
    funext a
    match a with
    | ⟨0, _⟩ => exact Fin.ext (show 192 * e.val + 1 * ((i 0).val % 192) = (i 0).val by omega)
    | ⟨1, _⟩ => exact Fin.ext (show 0 + 1 * (i 1).val = (i 1).val by omega)
  · rw [if_neg h]
    refine View.write_of_not_mem (v := (Memref.whole cc0_stg4_0 : Memref sig .tc .vmem S768x768 .f32).access
      (Rect.unit (s := S768x768) ![192 * e.val, 0] S192x768.size hinb)) g w Finset.univ (i := i) fun hi => h ?_
    obtain ⟨j, -, hj⟩ := Finset.mem_map.mp hi
    have h0 : (i 0).val = 192 * e.val + 1 * (j 0).val := (congrArg (fun x : S768x768.Idx => (x 0).val) hj).symm
    have hj0 : (j 0).val < 192 := (j 0).isLt
    omega

/-- THE RESULT BUFFER: the four chunks written in the order own, before, after, across leave the result array. -/
theorem out_writes (c : Dev nD) (x4 : (cc0_stg4_0 : Ref sig .tc).ty.Contents (Elt F)) :
    ((Memref.whole cc0_stg4_0 : Memref sig .tc .vmem S768x768 .f32).access
        (Rect.unit (s := S768x768) (k0_off1 c 2#32) S192x768.size (k0_off1_inb c 1))).write (Elt F)
      (((Memref.whole cc0_stg4_0 : Memref sig .tc .vmem S768x768 .f32).access
          (Rect.unit (s := S768x768) (k0_off1 c 1#32) S192x768.size (k0_off1_inb c 0))).write (Elt F)
        (((Memref.whole cc0_stg4_0 : Memref sig .tc .vmem S768x768 .f32).access
            (Rect.unit (s := S768x768) (k0_off5 c) S192x768.size (k0_off5_inb c))).write (Elt F)
          (((Memref.whole cc0_stg4_0 : Memref sig .tc .vmem S768x768 .f32).access
              (Rect.unit (s := S768x768) (k0_off4 c) S192x768.size (k0_off4_inb c))).write (Elt F) x4 (ACC m c) Finset.univ)
          (k0_pay10 (asSlot (OWN m (lft c)))) Finset.univ)
        (k0_pay11 (asSlot (OWN m (rgt c)))) Finset.univ)
      (k0_pay12 (asSlot (OWN m (opp c)))) Finset.univ
      = outBuf m c := by
  funext i
  have hi : (i 0).val < 768 := (i 0).isLt
  obtain ⟨hcase, d1, d2, d3, d4, d5, d6⟩ := four_chunks c ⟨(i 0).val / 192, by omega⟩
  have hcase' : (i 0).val / 192 = c.val ∨ (i 0).val / 192 = (lft c).val ∨ (i 0).val / 192 = (rgt c).val
      ∨ (i 0).val / 192 = (opp c).val := hcase
  rw [chunk_write_stg4 _ _ (opp c) (roff_opp c), chunk_write_stg4 _ _ (rgt c) (roff_rgt c),
    chunk_write_stg4 _ _ (lft c) (roff_lft c), chunk_write_stg4 _ _ c (roff_own c)]
  unfold outBuf
  split_ifs <;> first | (exfalso; omega) | rfl

end Cert.KernelIdeal.Mlp

end
-- ==== Proof.BodyMidRun.lean ====
/-
  The middle stretch of the body's run on a device: the three remaining direct transfers of the all-gather (the upper
  half of the device's reduced chunk to both ring neighbours, the lower half to the device before it), the two forwarded
  ones (what landed in the lower half of slot 0 on to the device after, what landed in the upper half of slot 1 on to the
  device before), the six landings waited for, and the three gathered chunks read slot by slot and written to the result.
  Each transfer pays one summand of what the device owes and hands the landed region to the landing cell's round; each
  wait returns the landed region at the canonical contents; a slot is read through its two halves held at one share.
-/
import proofs.«900352_g7700000000000353_dist_gated_mlp_tp_i_m768_h1536_d768_v7x_i4_f32_1_alg».proof.Proof.BodyMid
import proofs.«900352_g7700000000000353_dist_gated_mlp_tp_i_m768_h1536_d768_v7x_i4_f32_1_alg».proof.Proof.Geom3
import Idealize.ShloMosaic.Lib.Pipeline.Launch
import Idealize.ShloMosaic.Lib.Pipeline.Kit
import Idealize.ShloMosaic.Lib.Tactic

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The transfer rule at this kernel's cells, and the regions joined and split -/

namespace MidRun

/-- A transfer of a region held at share `q` to a peer's region the issuer holds whole: the source goes to the send
    cell's round, the landed region to the landing cell's, and one summand of what the issuer owes is paid. -/
theorem wp_send_to (c p n : Dev nD) (hn : n = p) {sh : Shape} {S D : Memref sig .tc .vmem sh .bf16} {sS sR : DmaSem sig}
    {hsc : (D : Memref sig (Dev.tc n : Thread nD τ).2.kind .vmem sh .bf16).view.ref.isScScratch = false}
    {hsrc : S.view.WordExact} {hdst : D.view.WordExact}
    {hsem : DmaTarget.Typed .vmem (.dma sR) (.remote (Dev.tc n : Thread nD τ) D (.dma sS) hsc)}
    {α : Type} {Q : α → sProp 𝕄} {k : PUnit → Prog (TpuEff nD τ sig (Elt F) Λ₀ .tc) α}
    (q : PosShare TreeShare) (fs : Buf (Elt F) (S.view.loc (c : Thread nD τ))) (fd : Buf (Elt F) (D.view.loc (p : Thread nD τ)))
    (W : Waits sig Unit) (κ₁ κ₂ : ℕ) (N : ℕ) (O O' : CellTallies nD τ sig Unit)
    (hd₁ : false ∈ (Rd m).duties (cellAt c (.dma sS)) 0) (hd₂ : false ∈ (Rd m).duties (cellAt p (.dma sR)) 0)
    (hN : D.view.amount (.dma sR) = N)
    (hk₁ : (Rd m).amount (cellAt c (.dma sS)) 0 false = N) (hk₂ : (Rd m).amount (cellAt p (.dma sR)) 0 false = N)
    (hO : O = O' + tallyAt (cellAt p (.dma sR)) () N)
    (hpay₁ : held c S q fs ⊢ (Rd m).payload (cellAt c (.dma sS)) 0 false)
    (hpay₂ : held p D fullShare (D.view.write (Elt F) fd (S.view.read (Elt F) fs) Finset.univ) ⊢ (Rd m).payload (cellAt p (.dma sR)) 0 false) :
    iprop(cellInv ER (Rd m) κ₁ (cellAt c (.dma sS)) ∗ cellInv ER (Rd m) κ₂ (cellAt p (.dma sR))
        ∗ held c S q fs ∗ held p D fullShare fd
        ∗ owes (c : Thread nD τ) O W
        ∗ dutyTok ER (cellAt c (.dma sS)) 0 false ∗ reached ER (cellAt c (.dma sS)) 0
        ∗ dutyTok ER (cellAt p (.dma sR)) 0 false ∗ reached ER (cellAt p (.dma sR)) 0)
      ⊢ iprop(((cred (tallyAt (cellAt c (.dma sS)) () N) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma S (.remote (Dev.tc n : Thread nD τ) D (.dma sS) hsc) (.dma sR) hsrc hdst hsem) k) Q) := by
  subst hn
  unfold held at hpay₁ hpay₂ ⊢
  exact Rounds.wp_send_pointsTo 𝒱₀ ER (Rd m) (c : Thread nD τ) none (κ₁ := κ₁) (κ₂ := κ₂)
    (r₁ := 0) (r₂ := 0) (d₁ := false) (d₂ := false) (fd := fd) hd₁ hd₂ () () N hN hk₁ hk₂ O' hO (W := W) hpay₁ hpay₂

/-- A region handed over is a region held at some contents. -/
theorem free_held (p : Dev nD) {sh : Shape} (M : Memref sig .tc .vmem sh .bf16) :
    (free p M : sProp 𝕄) = iprop(∃ f, held p M fullShare f) := rfl

/-- The two halves of slot 0 of the all-gather landing buffer, at one share, are one region. -/
theorem slot0_join (c : Dev nD) (q : PosShare TreeShare) (X : Buf (Elt F) ((c : Thread nD τ).loc cc0_scratch3)) :
    (iprop(held c ag0Lo q X ∗ held c ag0Hi q X) : sProp 𝕄)
      = ((c : Thread nD τ).loc cc0_scratch3 ↦[(ag0Lo : Memref sig .tc .vmem S96x768 .bf16).view.set ∪ (ag0Hi : Memref sig .tc .vmem S96x768 .bf16).view.set]{q} X) :=
  (pointsTo_union_eq (Finset.disjoint_left.mpr fun i hi hj => by
    have h1 := (mem_ag0Lo i).mp hi
    have h2 := (mem_ag0Hi i).mp hj
    omega)).symm

/-- The two halves of slot 1 of the all-gather landing buffer, at one share, are one region. -/
theorem slot1_join (c : Dev nD) (q : PosShare TreeShare) (X : Buf (Elt F) ((c : Thread nD τ).loc cc0_scratch3)) :
    (iprop(held c ag1Lo q X ∗ held c ag1Hi q X) : sProp 𝕄)
      = ((c : Thread nD τ).loc cc0_scratch3 ↦[(ag1Lo : Memref sig .tc .vmem S96x768 .bf16).view.set ∪ (ag1Hi : Memref sig .tc .vmem S96x768 .bf16).view.set]{q} X) :=
  (pointsTo_union_eq (Finset.disjoint_left.mpr fun i hi hj => by
    have h1 := (mem_ag1Lo i).mp hi
    have h2 := (mem_ag1Hi i).mp hj
    omega)).symm

/-- The two halves of slot 2 of the all-gather landing buffer, at one share, are one region. -/
theorem slot2_join (c : Dev nD) (q : PosShare TreeShare) (X : Buf (Elt F) ((c : Thread nD τ).loc cc0_scratch3)) :
    (iprop(held c ag2Lo q X ∗ held c ag2Hi q X) : sProp 𝕄)
      = ((c : Thread nD τ).loc cc0_scratch3 ↦[(ag2Lo : Memref sig .tc .vmem S96x768 .bf16).view.set ∪ (ag2Hi : Memref sig .tc .vmem S96x768 .bf16).view.set]{q} X) :=
  (pointsTo_union_eq (Finset.disjoint_left.mpr fun i hi hj => by
    have h1 := (mem_ag2Lo i).mp hi
    have h2 := (mem_ag2Hi i).mp hj
    omega)).symm

/-- The result staging buffer is held whole. -/
theorem sub_out (c : Dev nD) (A : Finset (Idx ((Memref.whole cc0_stg4_0 : Memref sig .tc .vmem S768x768 .f32).view.loc ((c : Dev nD) : Thread nD τ)))) :
    A ⊆ (Memref.whole cc0_stg4_0 : Memref sig .tc .vmem S768x768 .f32).view.set := by
  rw [show (Memref.whole cc0_stg4_0 : Memref sig .tc .vmem S768x768 .f32).view.set = Finset.univ from View.set_whole _]
  exact Finset.subset_univ _

/-- A persistent assertion may be kept and used. -/
theorem pers_dup (P : sProp 𝕄) [BI.Persistent P] : P ⊢ iprop(P ∗ P) := by
  iintro #H; isplitr <;> iexact H

end MidRun

open MidRun in
set_option maxHeartbeats 1600000 in
set_option maxRecDepth 65536 in
/-- The middle stretch runs from the first point's holdings to the second point's. -/
theorem mid_runs (c : Dev nD) : MidRuns m c := by
  intro K v13 v24 v37 α kk Kt
  simp only [k0_part7_eq_skeleton, k0_part8_eq_skeleton, k0_part9_eq_skeleton, k0_part10_eq_skeleton]
  unfold k0_part7_skel k0_part8_skel k0_part9_skel k0_part10_skel
  simp only [Prog.lift, Prog.bind_op, Prog.bind_ret, Prog.pure_eq_ret, bind_assoc, pure_bind]
  unfold M1
  iintro ⟨⟨⟨HI, HR, #Hlev⟩, ⟨Pbar, Prr0, Prr1, Prr2, Prs0, Prs1, Prs2, Pas0, Pas1, Pas2, Pas3, Pas4, Pas5, Par0, Par1, Par2, Par3, Par4, Par5⟩,
    ⟨Tr3, Tr1, Tr2, Tr4, Tr5, Ts1, Ts2, Ts3, Ts4, Ts5⟩, ⟨Crs0, Crs1, Crs2, Cas0, Car0, Car1, Car2, Car3, Car4, Car5⟩, ⟨%W, HO⟩,
    ⟨Hrs0, Hrs1, Hrs2, HownHi, HownLoR, Fag0Hi, Fag2Lo, Fag1Hi, Fag1Lo, Fag2Hi⟩, Hin, ⟨%x4, Hout⟩⟩, Hk⟩

  ihave HI := (pers_dup (invs m K c)) $$ HI
  icases HI with ⟨#HIall, HI⟩
  unfold invs
  icases HI with ⟨#I0, #I1, #I2, #I3, #I4, #I5, #I6, #I7, #I8, #I9, #I10, #I11, #I12, #I13, #I14, #I15, #I16, #I17, #I18, #I19, #I20, #I21, #I22, #I23, #I24, #I25, #I26, #I27, #I28, #I29⟩
  ihave HR := (pers_dup (reacheds (F := F) c)) $$ HR
  icases HR with ⟨#HRall, HR⟩
  unfold reacheds
  icases HR with ⟨#R0, #R1, #R2, #R3, #R4, #R5, #R6, #R7, #R8, #R9, #R10, #R11, #R12, #R13, #R14, #R15, #R16, #R17, #R18, #R19, #R20, #R21, #R22, #R23, #R24, #R25, #R26, #R27, #R28, #R29⟩
  -- the upper half of the own chunk, in two shares
  ihave HownHi := (Entails.of_eq (held_halve c ownHi (ownBuf m c))) $$ HownHi
  icases HownHi with ⟨HownHiL, HownHiR⟩
  -- the upper half, to the upper half of slot 1 of the device before
  ihave Fag1Hi := (Entails.of_eq (free_held (F := F) (lft c) ag1Hi)) $$ Fag1Hi
  icases Fag1Hi with ⟨%fd1, Fag1Hi⟩
  iapply (wp_send_to m c (lft c) _ (dev7_eq c) fullShare.right (ownBuf m c) fd1 W (K (c, 9)) (K (lft c, 16)) N96 (Oe c) (Od c)
      (by rw [duties_agSnd2]; exact Finset.mem_singleton_self _) (by rw [duties_agRcv3]; exact Finset.mem_singleton_self _)
      rfl (amount_agSnd2 m c false) (amount_agRcv3 m (lft c) false) rfl
      (by rw [payload_agSnd2])
      (by rw [payload_agRcv3, land_ag1Hi m c fd1])) $$ [HownHiR Fag1Hi HO Ts2 Tr3]
  · isplitr; · iexact I9
    isplitr; · iexact I25
    isplitl [HownHiR]; · iexact HownHiR
    isplitl [Fag1Hi]; · iexact Fag1Hi
    isplitl [HO]; · iexact HO
    isplitl [Ts2]; · iexact Ts2
    isplitr; · iexact R9
    isplitl [Tr3]; · iexact Tr3
    iexact R25
  iintro ⟨Cas2, HO⟩
  -- the upper half, to the upper half of slot 0 of the device after
  ihave Fag0Hi := (Entails.of_eq (free_held (F := F) (rgt c) ag0Hi)) $$ Fag0Hi
  icases Fag0Hi with ⟨%fd2, Fag0Hi⟩
  iapply (wp_send_to m c (rgt c) _ (dev8_eq c) fullShare.left (ownBuf m c) fd2 W (K (c, 8)) (K (rgt c, 14)) N96 (Od c) (Oc c)
      (by rw [duties_agSnd1]; exact Finset.mem_singleton_self _) (by rw [duties_agRcv1]; exact Finset.mem_singleton_self _)
      rfl (amount_agSnd1 m c false) (amount_agRcv1 m (rgt c) false) rfl
      (by rw [payload_agSnd1])
      (by rw [payload_agRcv1, land_ag0Hi m c fd2])) $$ [HownHiL Fag0Hi HO Ts1 Tr1]
  · isplitr; · iexact I8
    isplitr; · iexact I26
    isplitl [HownHiL]; · iexact HownHiL
    isplitl [Fag0Hi]; · iexact Fag0Hi
    isplitl [HO]; · iexact HO
    isplitl [Ts1]; · iexact Ts1
    isplitr; · iexact R8
    isplitl [Tr1]; · iexact Tr1
    iexact R26
  iintro ⟨Cas1, HO⟩
  -- the lower half, to the lower half of slot 1 of the device before
  ihave Fag1Lo := (Entails.of_eq (free_held (F := F) (lft c) ag1Lo)) $$ Fag1Lo
  icases Fag1Lo with ⟨%fd3, Fag1Lo⟩
  iapply (wp_send_to m c (lft c) _ (dev9_eq c) fullShare.right (ownBuf m c) fd3 W (K (c, 10)) (K (lft c, 15)) N96 (Oc c) (Ob c)
      (by rw [duties_agSnd3]; exact Finset.mem_singleton_self _) (by rw [duties_agRcv2]; exact Finset.mem_singleton_self _)
      rfl (amount_agSnd3 m c false) (amount_agRcv2 m (lft c) false) rfl
      (by rw [payload_agSnd3])
      (by rw [payload_agRcv2, land_ag1Lo m c fd3])) $$ [HownLoR Fag1Lo HO Ts3 Tr2]
  · isplitr; · iexact I10
    isplitr; · iexact I27
    isplitl [HownLoR]; · iexact HownLoR
    isplitl [Fag1Lo]; · iexact Fag1Lo
    isplitl [HO]; · iexact HO
    isplitl [Ts3]; · iexact Ts3
    isplitr; · iexact R10
    isplitl [Tr2]; · iexact Tr2
    iexact R27
  iintro ⟨Cas3, HO⟩
  -- the landing in the lower half of slot 0
  iapply (Rounds.wp_wait_rest_token 𝒱₀ ER (Rd m) (c : Thread nD τ) none (κ := K (c, 13))
      (wpE_waitDma2_eq 𝒱₀ (c : Thread nD τ) none Set.univ) (Set.mem_univ _) () (O := Ob c) (W := W) (R := 0) (m := 0) (T := ∅)
      (by rw [Nat.zero_add, expect_agRcv0])) $$ [Car0 HO Par0]
  · isplitr; · iexact I13
    isplitl [Car0]; · iexact Car0
    isplitl [HO]; · iexact HO
    isplitr; · iapply (mayWait_agRcv0 c); iexact Hlev
    iexact Par0
  iintro ⟨HO, Par0, -, Hpay⟩
  ihave Hag0Lo := (Entails.of_eq (rest_agRcv0 m c)) $$ Hpay
  ihave Hag0Lo := (Entails.of_eq (held_halve c ag0Lo (agBuf m c))) $$ Hag0Lo
  icases Hag0Lo with ⟨Hag0LoL, Hag0LoR⟩
  -- what landed there, on to the lower half of slot 2 of the device after
  ihave Fag2Lo := (Entails.of_eq (free_held (F := F) (rgt c) ag2Lo)) $$ Fag2Lo
  icases Fag2Lo with ⟨%fd4, Fag2Lo⟩
  iapply (wp_send_to m c (rgt c) _ (dev10_eq c) fullShare.left (agBuf m c) fd4 (insert (SemLoc.dma agRcv0, ()) W) (K (c, 11)) (K (rgt c, 17)) N96 (Ob c) (Oa c)
      (by rw [duties_agSnd4]; exact Finset.mem_singleton_self _) (by rw [duties_agRcv4]; exact Finset.mem_singleton_self _)
      rfl (amount_agSnd4 m c false) (amount_agRcv4 m (rgt c) false) rfl
      (by rw [payload_agSnd4])
      (by rw [payload_agRcv4, land_ag2Lo m c fd4])) $$ [Hag0LoL Fag2Lo HO Ts4 Tr4]
  · isplitr; · iexact I11
    isplitr; · iexact I28
    isplitl [Hag0LoL]; · iexact Hag0LoL
    isplitl [Fag2Lo]; · iexact Fag2Lo
    isplitl [HO]; · iexact HO
    isplitl [Ts4]; · iexact Ts4
    isplitr; · iexact R11
    isplitl [Tr4]; · iexact Tr4
    iexact R28
  iintro ⟨Cas4, HO⟩
  -- the landing in the upper half of slot 1
  iapply (Rounds.wp_wait_rest_token 𝒱₀ ER (Rd m) (c : Thread nD τ) none (κ := K (c, 16))
      (wpE_waitDma2_eq 𝒱₀ (c : Thread nD τ) none Set.univ) (Set.mem_univ _) () (O := Oa c) (W := (insert (SemLoc.dma agRcv0, ()) W)) (R := 0) (m := 0) (T := ∅)
      (by rw [Nat.zero_add, expect_agRcv3])) $$ [Car3 HO Par3]
  · isplitr; · iexact I16
    isplitl [Car3]; · iexact Car3
    isplitl [HO]; · iexact HO
    isplitr; · iapply (mayWait_agRcv3 c); iexact Hlev
    iexact Par3
  iintro ⟨HO, Par3, -, Hpay⟩
  ihave Hag1Hi := (Entails.of_eq (rest_agRcv3 m c)) $$ Hpay
  ihave Hag1Hi := (Entails.of_eq (held_halve c ag1Hi (agBuf m c))) $$ Hag1Hi
  icases Hag1Hi with ⟨Hag1HiL, Hag1HiR⟩
  -- what landed there, on to the upper half of slot 2 of the device before
  ihave Fag2Hi := (Entails.of_eq (free_held (F := F) (lft c) ag2Hi)) $$ Fag2Hi
  icases Fag2Hi with ⟨%fd5, Fag2Hi⟩
  iapply (wp_send_to m c (lft c) _ (dev11_eq c) fullShare.left (agBuf m c) fd5 (insert (SemLoc.dma agRcv3, ()) (insert (SemLoc.dma agRcv0, ()) W)) (K (c, 12)) (K (lft c, 18)) N96 (Oa c) (0)
      (by rw [duties_agSnd5]; exact Finset.mem_singleton_self _) (by rw [duties_agRcv5]; exact Finset.mem_singleton_self _)
      rfl (amount_agSnd5 m c false) (amount_agRcv5 m (lft c) false) (zero_add _).symm
      (by rw [payload_agSnd5])
      (by rw [payload_agRcv5, land_ag2Hi m c fd5])) $$ [Hag1HiL Fag2Hi HO Ts5 Tr5]
  · isplitr; · iexact I12
    isplitr; · iexact I29
    isplitl [Hag1HiL]; · iexact Hag1HiL
    isplitl [Fag2Hi]; · iexact Fag2Hi
    isplitl [HO]; · iexact HO
    isplitl [Ts5]; · iexact Ts5
    isplitr; · iexact R12
    isplitl [Tr5]; · iexact Tr5
    iexact R29
  iintro ⟨Cas5, HO⟩
  -- the landing in the upper half of slot 0
  iapply (Rounds.wp_wait_rest_token 𝒱₀ ER (Rd m) (c : Thread nD τ) none (κ := K (c, 14))
      (wpE_waitDma2_eq 𝒱₀ (c : Thread nD τ) none Set.univ) (Set.mem_univ _) () (O := 0) (W := (insert (SemLoc.dma agRcv3, ()) (insert (SemLoc.dma agRcv0, ()) W))) (R := 0) (m := 0) (T := ∅)
      (by rw [Nat.zero_add, expect_agRcv1])) $$ [Car1 HO Par1]
  · isplitr; · iexact I14
    isplitl [Car1]; · iexact Car1
    isplitl [HO]; · iexact HO
    isplitr; · rw [MayWait_zero]; iempintro
    iexact Par1
  iintro ⟨HO, Par1, -, Hpay⟩
  ihave Hag0Hi := (Entails.of_eq (rest_agRcv1 m c)) $$ Hpay
  -- slot 0, read through the two halves held at one share
  ihave Hag0Hi := (Entails.of_eq (held_halve c ag0Hi (agBuf m c))) $$ Hag0Hi
  icases Hag0Hi with ⟨Hag0HiL, Hag0HiR⟩
  ihave Hs0 := (Entails.of_eq (slot0_join c fullShare.right (agBuf m c))) $$ [Hag0LoR Hag0HiR]
  · isplitl [Hag0LoR] <;> iassumption
  iapply (wp_load 𝒱₀ (c : Thread nD τ) none Set.univ (m := (Memref.whole cc0_scratch3 : Memref sig .tc .vmem S3x192x768 .bf16)) load_set_ag0) $$ Hs0
  iintro Hs0
  rw [load_ag0]
  ihave Hs0 := (Entails.of_eq (slot0_join c fullShare.right (agBuf m c)).symm) $$ Hs0
  icases Hs0 with ⟨Hag0LoR, Hag0HiR⟩
  ihave Hag0Hi := (Entails.of_eq (held_halve c ag0Hi (agBuf m c)).symm) $$ [Hag0HiL Hag0HiR]
  · isplitl [Hag0HiL] <;> iassumption
  iapply (wp_load 𝒱₀ (c : Thread nD τ) none Set.univ (m := (Memref.whole cc0_stg4_0 : Memref sig .tc .vmem S768x768 .f32)) (sub_out c _)) $$ Hout
  iintro Hout
  iapply (wp_store 𝒱₀ (c : Thread nD τ) none Set.univ (m := (Memref.whole cc0_stg4_0 : Memref sig .tc .vmem S768x768 .f32))
      (r := Rect.unit (s := S768x768) (k0_off5 c) S192x768.size (k0_off5_inb c)) (Mk := Finset.univ) (sub_out c _)) $$ Hout
  iintro Hout
  -- the landing in the lower half of slot 1
  iapply (Rounds.wp_wait_rest_token 𝒱₀ ER (Rd m) (c : Thread nD τ) none (κ := K (c, 15))
      (wpE_waitDma2_eq 𝒱₀ (c : Thread nD τ) none Set.univ) (Set.mem_univ _) () (O := 0) (W := (insert (SemLoc.dma agRcv1, ()) (insert (SemLoc.dma agRcv3, ()) (insert (SemLoc.dma agRcv0, ()) W)))) (R := 0) (m := 0) (T := ∅)
      (by rw [Nat.zero_add, expect_agRcv2])) $$ [Car2 HO Par2]
  · isplitr; · iexact I15
    isplitl [Car2]; · iexact Car2
    isplitl [HO]; · iexact HO
    isplitr; · rw [MayWait_zero]; iempintro
    iexact Par2
  iintro ⟨HO, Par2, -, Hpay⟩
  ihave Hag1Lo := (Entails.of_eq (rest_agRcv2 m c)) $$ Hpay
  -- slot 1 likewise
  ihave Hag1Lo := (Entails.of_eq (held_halve c ag1Lo (agBuf m c))) $$ Hag1Lo
  icases Hag1Lo with ⟨Hag1LoL, Hag1LoR⟩
  ihave Hs1 := (Entails.of_eq (slot1_join c fullShare.right (agBuf m c))) $$ [Hag1LoR Hag1HiR]
  · isplitl [Hag1LoR] <;> iassumption
  iapply (wp_load 𝒱₀ (c : Thread nD τ) none Set.univ (m := (Memref.whole cc0_scratch3 : Memref sig .tc .vmem S3x192x768 .bf16)) load_set_ag1) $$ Hs1
  iintro Hs1
  rw [load_ag1]
  ihave Hs1 := (Entails.of_eq (slot1_join c fullShare.right (agBuf m c)).symm) $$ Hs1
  icases Hs1 with ⟨Hag1LoR, Hag1HiR⟩
  ihave Hag1Lo := (Entails.of_eq (held_halve c ag1Lo (agBuf m c)).symm) $$ [Hag1LoL Hag1LoR]
  · isplitl [Hag1LoL] <;> iassumption
  iapply (wp_load 𝒱₀ (c : Thread nD τ) none Set.univ (m := (Memref.whole cc0_stg4_0 : Memref sig .tc .vmem S768x768 .f32)) (sub_out c _)) $$ Hout
  iintro Hout
  iapply (wp_store 𝒱₀ (c : Thread nD τ) none Set.univ (m := (Memref.whole cc0_stg4_0 : Memref sig .tc .vmem S768x768 .f32))
      (r := Rect.unit (s := S768x768) (k0_off1 c 1#32) S192x768.size (k0_off1_inb c 0)) (Mk := Finset.univ) (sub_out c _)) $$ Hout
  iintro Hout
  -- the landing in the lower half of slot 2
  iapply (Rounds.wp_wait_rest_token 𝒱₀ ER (Rd m) (c : Thread nD τ) none (κ := K (c, 17))
      (wpE_waitDma2_eq 𝒱₀ (c : Thread nD τ) none Set.univ) (Set.mem_univ _) () (O := 0) (W := (insert (SemLoc.dma agRcv2, ()) (insert (SemLoc.dma agRcv1, ()) (insert (SemLoc.dma agRcv3, ()) (insert (SemLoc.dma agRcv0, ()) W))))) (R := 0) (m := 0) (T := ∅)
      (by rw [Nat.zero_add, expect_agRcv4])) $$ [Car4 HO Par4]
  · isplitr; · iexact I17
    isplitl [Car4]; · iexact Car4
    isplitl [HO]; · iexact HO
    isplitr; · rw [MayWait_zero]; iempintro
    iexact Par4
  iintro ⟨HO, Par4, -, Hpay⟩
  ihave Hag2Lo := (Entails.of_eq (rest_agRcv4 m c)) $$ Hpay
  -- the landing in the upper half of slot 2
  iapply (Rounds.wp_wait_rest_token 𝒱₀ ER (Rd m) (c : Thread nD τ) none (κ := K (c, 18))
      (wpE_waitDma2_eq 𝒱₀ (c : Thread nD τ) none Set.univ) (Set.mem_univ _) () (O := 0) (W := (insert (SemLoc.dma agRcv4, ()) (insert (SemLoc.dma agRcv2, ()) (insert (SemLoc.dma agRcv1, ()) (insert (SemLoc.dma agRcv3, ()) (insert (SemLoc.dma agRcv0, ()) W)))))) (R := 0) (m := 0) (T := ∅)
      (by rw [Nat.zero_add, expect_agRcv5])) $$ [Car5 HO Par5]
  · isplitr; · iexact I18
    isplitl [Car5]; · iexact Car5
    isplitl [HO]; · iexact HO
    isplitr; · rw [MayWait_zero]; iempintro
    iexact Par5
  iintro ⟨HO, Par5, -, Hpay⟩
  ihave Hag2Hi := (Entails.of_eq (rest_agRcv5 m c)) $$ Hpay
  -- slot 2, held whole
  ihave Hs2 := (Entails.of_eq (slot2_join c fullShare (agBuf m c))) $$ [Hag2Lo Hag2Hi]
  · isplitl [Hag2Lo] <;> iassumption
  iapply (wp_load 𝒱₀ (c : Thread nD τ) none Set.univ (m := (Memref.whole cc0_scratch3 : Memref sig .tc .vmem S3x192x768 .bf16)) load_set_ag2) $$ Hs2
  iintro Hs2
  rw [load_ag2]
  ihave Hs2 := (Entails.of_eq (slot2_join c fullShare (agBuf m c)).symm) $$ Hs2
  icases Hs2 with ⟨Hag2Lo, Hag2Hi⟩
  iapply (wp_load 𝒱₀ (c : Thread nD τ) none Set.univ (m := (Memref.whole cc0_stg4_0 : Memref sig .tc .vmem S768x768 .f32)) (sub_out c _)) $$ Hout
  iintro Hout
  iapply (wp_store 𝒱₀ (c : Thread nD τ) none Set.univ (m := (Memref.whole cc0_stg4_0 : Memref sig .tc .vmem S768x768 .f32))
      (r := Rect.unit (s := S768x768) (k0_off1 c 2#32) S192x768.size (k0_off1_inb c 1)) (Mk := Finset.univ) (sub_out c _)) $$ Hout
  iintro Hout
  -- the four chunks written are the result
  rw [out_writes m c x4]
  iapply Hk
  unfold M2 invs reacheds
  isplitr
  · isplitr; · iexact HIall
    isplitr; · iexact HRall
    iexact Hlev
  isplitl [Pbar Prr0 Prr1 Prr2 Par0 Par1 Par2 Par3 Par4 Par5 Prs0 Prs1 Prs2 Pas0 Pas1 Pas2 Pas3 Pas4 Pas5]
  ·
    isplitl [Pbar]; · iexact Pbar
    isplitl [Prr0]; · iexact Prr0
    isplitl [Prr1]; · iexact Prr1
    isplitl [Prr2]; · iexact Prr2
    isplitl [Par0]; · iexact Par0
    isplitl [Par1]; · iexact Par1
    isplitl [Par2]; · iexact Par2
    isplitl [Par3]; · iexact Par3
    isplitl [Par4]; · iexact Par4
    isplitl [Par5]; · iexact Par5
    isplitl [Prs0]; · iexact Prs0
    isplitl [Prs1]; · iexact Prs1
    isplitl [Prs2]; · iexact Prs2
    isplitl [Pas0]; · iexact Pas0
    isplitl [Pas1]; · iexact Pas1
    isplitl [Pas2]; · iexact Pas2
    isplitl [Pas3]; · iexact Pas3
    isplitl [Pas4]; · iexact Pas4
    iexact Pas5
  isplitl [Crs0 Crs1 Crs2 Cas0 Cas1 Cas2 Cas3 Cas4 Cas5]
  ·
    isplitl [Crs0]; · iexact Crs0
    isplitl [Crs1]; · iexact Crs1
    isplitl [Crs2]; · iexact Crs2
    isplitl [Cas0]; · iexact Cas0
    isplitl [Cas1]; · iexact Cas1
    isplitl [Cas2]; · iexact Cas2
    isplitl [Cas3]; · iexact Cas3
    isplitl [Cas4]; · iexact Cas4
    iexact Cas5
  isplitl [HO]
  · iexists (insert (SemLoc.dma agRcv5, ()) (insert (SemLoc.dma agRcv4, ()) (insert (SemLoc.dma agRcv2, ()) (insert (SemLoc.dma agRcv1, ()) (insert (SemLoc.dma agRcv3, ()) (insert (SemLoc.dma agRcv0, ()) W))))))
    iexact HO
  isplitl [Hrs0 Hrs1 Hrs2 Hag0LoR Hag0Hi Hag1Lo Hag1HiR Hag2Lo Hag2Hi]
  ·
    isplitl [Hrs0]; · iexact Hrs0
    isplitl [Hrs1]; · iexact Hrs1
    isplitl [Hrs2]; · iexact Hrs2
    isplitl [Hag0LoR]; · iexact Hag0LoR
    isplitl [Hag0Hi]; · iexact Hag0Hi
    isplitl [Hag1Lo]; · iexact Hag1Lo
    isplitl [Hag1HiR]; · iexact Hag1HiR
    isplitl [Hag2Lo]; · iexact Hag2Lo
    iexact Hag2Hi
  isplitl [Hin]; · iexact Hin
  iexact Hout

/-- info: 'Cert.KernelIdeal.Mlp.mid_runs' depends on axioms: [propext, Classical.choice, Quot.sound] -/
#guard_msgs in #print axioms mid_runs

end Cert.KernelIdeal.Mlp

end
-- ==== Proof.Geom4.lean ====
/-
  A whole buffer held, in the two spellings: by its location and all its elements, and through the view of its whole
  memref. The two are the same assertion (the whole view's elements are all the elements).
-/
import proofs.«900352_g7700000000000353_dist_gated_mlp_tp_i_m768_h1536_d768_v7x_i4_f32_1_alg».proof.Proof.Sched

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
theorem raw_eq_whole (c : Dev nD) (b : Ref sig .tc) (q : PosShare TreeShare) (X : Buf (Elt F) ((c : Thread nD τ).loc b)) :
    ((((c : Thread nD τ).loc b) ↦{q} X) : sProp 𝕄)
      = ((Memref.whole b).view.loc (c : Thread nD τ) ↦[(Memref.whole b).view.set]{q} X) := by
  show _ = (((View.whole b : View sig .tc _ _ _).loc (c : Thread nD τ)) ↦[(View.whole b : View sig .tc _ _ _).set]{q} X : sProp 𝕄)
  rw [View.set_whole]

end Cert.KernelIdeal.Mlp

end
-- ==== Proof.BodyHeadC.lean ====
/-
  The first stretch of the body's run on a device: from what the body starts with to the early point.

  The device carves its reduce-scatter and all-gather landing buffers into the regions its neighbours will write and hands
  them over with its two barrier units; the barrier wait brings it the regions of its neighbours' and partners' buffers that
  it will write. It loads its weight blocks, computes the partial sum of the chunk across the ring into slot 0 of its send
  buffer and sends it to slot 0 of its first partner's landing buffer, then the partial sum of the first partner's own
  chunk into slot 1 and sends it to slot 1 there. Each stored slot agrees, on its region, with the send buffer's final
  contents, and each landing is the first partner's landing buffer's final contents there, which is what the two cells of
  each transfer are owed.
-/
import proofs.«900352_g7700000000000353_dist_gated_mlp_tp_i_m768_h1536_d768_v7x_i4_f32_1_alg».proof.Proof.BodyCompose
import proofs.«900352_g7700000000000353_dist_gated_mlp_tp_i_m768_h1536_d768_v7x_i4_f32_1_alg».proof.Proof.BodyIn
import proofs.«900352_g7700000000000353_dist_gated_mlp_tp_i_m768_h1536_d768_v7x_i4_f32_1_alg».proof.Proof.BodyInv
import proofs.«900352_g7700000000000353_dist_gated_mlp_tp_i_m768_h1536_d768_v7x_i4_f32_1_alg».proof.Proof.BodyMidRun
import proofs.«900352_g7700000000000353_dist_gated_mlp_tp_i_m768_h1536_d768_v7x_i4_f32_1_alg».proof.Proof.Geom3
import proofs.«900352_g7700000000000353_dist_gated_mlp_tp_i_m768_h1536_d768_v7x_i4_f32_1_alg».proof.Proof.Geom4

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem z2 : (![0, 0] : Fin 2 → ℕ) = fun _ => 0 := by funext a; fin_cases a <;> rfl

/-- A weight block read whole is the block. -/
theorem w1_eq (c : Dev nD) :
    View.readAt (Elt F) (Memref.whole cc0_stg1_0 : Memref sig .tc .vmem S768x1536 .f32).view
      (Rect.unit (s := S768x1536) ![0, 0] S768x1536.size inb_S768x1536_S768x1536_0_0).toLoadRect (stg1 m c) = stg1 m c :=
  Memref.readAt_unit_zero (Elt F) cc0_stg1_0 z2 _ (stg1 m c)
theorem w2_eq (c : Dev nD) :
    View.readAt (Elt F) (Memref.whole cc0_stg2_0 : Memref sig .tc .vmem S768x1536 .f32).view
      (Rect.unit (s := S768x1536) ![0, 0] S768x1536.size inb_S768x1536_S768x1536_0_0).toLoadRect (stg2 m c) = stg2 m c :=
  Memref.readAt_unit_zero (Elt F) cc0_stg2_0 z2 _ (stg2 m c)
theorem w3_eq (c : Dev nD) :
    View.readAt (Elt F) (Memref.whole cc0_stg3_0 : Memref sig .tc .vmem S1536x768 .f32).view
      (Rect.unit (s := S1536x768) ![0, 0] S1536x768.size inb_S1536x768_S1536x768_0_0).toLoadRect (stg3 m c) = stg3 m c :=
  Memref.readAt_unit_zero (Elt F) cc0_stg3_0 z2 _ (stg3 m c)

omit [FloatOps F] in
/-- A region's contents may be restated by any buffer that agrees with them on the region. -/
theorem pts_congr (p : Dev nD) {sh : Shape} (M : Memref sig .tc .vmem sh .bf16) (q : PosShare TreeShare)
    (X Y : Buf (Elt F) (M.view.loc (p : Thread nD τ))) (h : ∀ i ∈ M.view.set, X i = Y i) :
    (M.view.loc (p : Thread nD τ) ↦[M.view.set]{q} X : sProp 𝕄) = (M.view.loc (p : Thread nD τ) ↦[M.view.set]{q} Y) :=
  held_congr p M q X Y h

omit [FloatOps F] in
theorem free_open (p : Dev nD) {sh : Shape} (M : Memref sig .tc .vmem sh .bf16) :
    (free p M : sProp 𝕄) ⊢ iprop(∃ f, M.view.loc (p : Thread nD τ) ↦[M.view.set]{fullShare} f) := by
  unfold free; exact .rfl
omit [FloatOps F] in
theorem free_close (p : Dev nD) {sh : Shape} (M : Memref sig .tc .vmem sh .bf16) (f : Buf (Elt F) (M.view.loc (p : Thread nD τ))) :
    (M.view.loc (p : Thread nD τ) ↦[M.view.set]{fullShare} f : sProp 𝕄) ⊢ free p M := by
  unfold free; iintro H; iexists f; iexact H

omit [FloatOps F] in
/-- The same, leaving the region named. -/
theorem pts_held_congr (p : Dev nD) {sh : Shape} (M : Memref sig .tc .vmem sh .bf16) (q : PosShare TreeShare)
    (X Y : Buf (Elt F) (M.view.loc (p : Thread nD τ))) (h : ∀ i ∈ M.view.set, X i = Y i) :
    (M.view.loc (p : Thread nD τ) ↦[M.view.set]{q} X : sProp 𝕄) = held p M q Y :=
  held_congr p M q X Y h
omit [FloatOps F] in
theorem pts_held (p : Dev nD) {sh : Shape} (M : Memref sig .tc .vmem sh .bf16) (q : PosShare TreeShare)
    (X : Buf (Elt F) (M.view.loc (p : Thread nD τ))) :
    (M.view.loc (p : Thread nD τ) ↦[M.view.set]{q} X : sProp 𝕄) = held p M q X := rfl

attribute [local sl_rounds] duties_bar amount_bar payload_bar expect_bar rest_bar held_def free_def

set_option maxHeartbeats 3200000 in
theorem head_runs (c : Dev nD) : HeadRuns m ρ c := by
  intro K α kk Kt
  simp only [k0_part1_eq_skeleton, k0_part2_eq_skeleton, k0_part3_eq_skeleton]
  unfold bodyPre
  simp only [before_in0, before_in1, before_in2, before_in3]
  iintro ⟨⟨⟨Hg, Hcr, Hlev, Hscr⟩, Ho, Hx0, Hx1, Hx2, Hx3, Hx4⟩, HK⟩
  unfold ghost
  icases Hg with ⟨#Hinv, #Hreach, Hpos, Htok⟩
  icases Hlev with #Hlev
  unfold scratch
  icases Hscr with ⟨⟨%f0, Hf0⟩, ⟨%f1, Hf1⟩, ⟨%f2, Hf2⟩, ⟨%f3, Hf3⟩⟩
  icases Hx0 with ⟨%d0, %x0, %hx0, Hx0⟩
  icases Hx1 with ⟨%d1, %x1, %hx1, Hx1⟩
  icases Hx2 with ⟨%d2, %x2, %hx2, Hx2⟩
  icases Hx3 with ⟨%d3, %x3, %hx3, Hx3⟩
  icases Hx4 with ⟨%d4, %x4, %hx4, Hx4⟩
  subst hx0 hx1 hx2 hx3
  clear hx4 d0 d1 d2 d3
  ihave Hf2 := (Entails.of_eq (raw_eq_whole (F := F) c cc0_scratch2 fullShare f2)) $$ Hf2
  ihave Hx0 := (Entails.of_eq (raw_eq_whole (F := F) c cc0_stg0_0 fullShare (stg0 m c))) $$ Hx0
  ihave Hx1 := (Entails.of_eq (raw_eq_whole (F := F) c cc0_stg1_0 fullShare (stg1 m c))) $$ Hx1
  ihave Hx2 := (Entails.of_eq (raw_eq_whole (F := F) c cc0_stg2_0 fullShare (stg2 m c))) $$ Hx2
  ihave Hx3 := (Entails.of_eq (raw_eq_whole (F := F) c cc0_stg3_0 fullShare (stg3 m c))) $$ Hx3
  ihave Hx4 := (Entails.of_eq (raw_eq_whole (F := F) c cc0_stg4_0 fullShare x4)) $$ Hx4
  icases Ho with ⟨%W, %hW, HO⟩
  rw [show (dats m ρ 0 c).owed t₀.castSucc = Oi c + tallyAt (barCell (rgt c)) () 1 + tallyAt (barCell (lft c)) () 1 from rfl]
  unfold invs
  icases +keep Hinv with ⟨#I0, #I1, #I2, #I3, #I4, #I5, #I6, #I7, #I8, #I9, #I10, #I11, #I12, #I13, #I14, #I15, #I16, #I17, #I18, #I19, #I20, #I21, #I22, #I23, #I24, #I25, #I26, #I27, #I28, #I29⟩
  unfold reacheds
  icases +keep Hreach with ⟨#R0, #R1, #R2, #R3, #R4, #R5, #R6, #R7, #R8, #R9, #R10, #R11, #R12, #R13, #R14, #R15, #R16, #R17, #R18, #R19, #R20, #R21, #R22, #R23, #R24, #R25, #R26, #R27, #R28, #R29⟩
  unfold positions
  icases Hpos with ⟨Pb, Ps0, Ps1, Ps2, Pr0, Pr1, Pr2, Pg0, Pg1, Pg2, Pg3, Pg4, Pg5, Pa0, Pa1, Pa2, Pa3, Pa4, Pa5⟩
  unfold payToks
  icases Htok with ⟨TbL, TbR, Tr0, Tr1, Tr2, Ta0, Ta3, Ta1, Ta2, Ta4, Ta5, Ts0, Ts1, Ts2, Tg0, Tg1, Tg2, Tg3, Tg4, Tg5⟩
  unfold credits
  icases Hcr with ⟨Cb, Cr0, Cr1, Cr2, Ca0, Ca1, Ca2, Ca3, Ca4, Ca5⟩
  -- the three landing buffers and the send buffer, region by region
  ihave Hsb := (Entails.of_eq (sb_carve (F := F) c fullShare f0)) $$ Hf0
  icases Hsb with ⟨Hsb0, Hsb1, Hsb2⟩
  ihave Hrs := (Entails.of_eq (rs_carve (F := F) c fullShare f1)) $$ Hf1
  icases Hrs with ⟨Hrs0, Hrs1, Hrs2⟩
  ihave Hag := (Entails.of_eq (ag_carve (F := F) c fullShare f3)) $$ Hf3
  icases Hag with ⟨Hag0Lo, Hag0Hi, Hag1Lo, Hag1Hi, Hag2Lo, Hag2Hi⟩
  ihave Hrs0 := (free_of_held (F := F) c rs0 f1) $$ Hrs0
  ihave Hrs1 := (free_of_held (F := F) c rs1 f1) $$ Hrs1
  ihave Hrs2 := (free_of_held (F := F) c rs2 f1) $$ Hrs2
  ihave Hag0Lo := (free_of_held (F := F) c ag0Lo f3) $$ Hag0Lo
  ihave Hag0Hi := (free_of_held (F := F) c ag0Hi f3) $$ Hag0Hi
  ihave Hag1Lo := (free_of_held (F := F) c ag1Lo f3) $$ Hag1Lo
  ihave Hag1Hi := (free_of_held (F := F) c ag1Hi f3) $$ Hag1Hi
  ihave Hag2Lo := (free_of_held (F := F) c ag2Lo f3) $$ Hag2Lo
  ihave Hag2Hi := (free_of_held (F := F) c ag2Hi f3) $$ Hag2Hi
  iapply (barPay_give_k (F := F) c _)
  isplitl [Hag0Lo Hag0Hi Hag1Lo Hag1Hi Hag2Lo Hag2Hi Hrs0 Hrs1 Hrs2]
  · isplitl [Hag0Lo]; · iexact Hag0Lo
    isplitl [Hag0Hi]; · iexact Hag0Hi
    isplitl [Hag1Lo]; · iexact Hag1Lo
    isplitl [Hag1Hi]; · iexact Hag1Hi
    isplitl [Hag2Lo]; · iexact Hag2Lo
    isplitl [Hag2Hi]; · iexact Hag2Hi
    isplitl [Hrs0]; · iexact Hrs0
    isplitl [Hrs1]; · iexact Hrs1
    iexact Hrs2
  iintro HpL HpR
  unfold held
  have hmw := mayWait_bar (F := F) c
  -- the prologue, the two barrier units, the barrier wait, the weights, slot 0 stored
  sl_exec
  -- what the neighbours' units brought
  ihave Hpeers := (barPay_rest (F := F) c) $$ Pb_pay1
  icases Hpeers with ⟨Qa0Lo, Qa0Hi, Qa2Lo, Qa1Hi, Qa1Lo, Qa2Hi, Qr0, Qr1, Qr2⟩
  ihave Qr0 := (Entails.of_eq (MidRun.free_held (F := F) (far c) rs0)) $$ Qr0
  icases Qr0 with ⟨%g0, Qr0⟩
  ihave Qr1 := (Entails.of_eq (MidRun.free_held (F := F) (far c) rs1)) $$ Qr1
  icases Qr1 with ⟨%g1, Qr1⟩
  -- slot 0 holds its final contents
  have hs0 : ∀ i ∈ (sb0 : Memref sig .tc .vmem S192x768 .bf16).view.set, head_runs.sl.Hsb0_w1 m c f0 i = sbBuf m c i := by
    intro i hi
    have e := store_sb0 m c f0 i hi
    unfold head_runs.sl.Hsb0_w1
    rw [w1_eq, w2_eq, w3_eq]
    exact e
  ihave Hsb0 := (Entails.of_eq (pts_held_congr (F := F) c sb0 fullShare _ (sbBuf m c) hs0)) $$ Hsb0
  -- slot 0 to slot 0 of the first partner's landing buffer
  iapply (MidRun.wp_send_to m c (far c) _ rfl fullShare (sbBuf m c) g0 _ (K (c, 1)) (K (far c, 4)) N192 (Oi c) (Oh c)
      (by rw [duties_rsSnd0]; exact Finset.mem_singleton_self _) (by rw [duties_rsRcv0]; exact Finset.mem_singleton_self _)
      rfl (amount_rsSnd0 m c false) (amount_rsRcv0 m (far c) false) rfl
      (by rw [payload_rsSnd0])
      (by rw [payload_rsRcv0, land_rs0 m c g0])) $$ [Hsb0 Qr0 HO Ts0 Tr0]
  · isplitr; · iexact I1
    isplitr; · iexact I21
    isplitl [Hsb0]; · iexact Hsb0
    isplitl [Qr0]; · iexact Qr0
    isplitl [HO]; · iexact HO
    isplitl [Ts0]; · iexact Ts0
    isplitr; · iexact R1
    isplitl [Tr0]; · iexact Tr0
    iexact R21
  iintro ⟨Cs0, HO⟩
  -- the chunk of the first partner, slot 1 stored
  sl_exec
  have hs1 : ∀ i ∈ (sb1 : Memref sig .tc .vmem S192x768 .bf16).view.set, head_runs.sl.Hsb1_w1 m c f0 i = sbBuf m c i := by
    intro i hi
    have e := store_sb1 m c f0 i hi
    unfold head_runs.sl.Hsb1_w1 head_runs.sl.r head_runs.sl.r_1 head_runs.sl.r_2
    rw [w1_eq, w2_eq, w3_eq]
    exact e
  ihave Hsb1 := (Entails.of_eq (pts_held_congr (F := F) c sb1 fullShare _ (sbBuf m c) hs1)) $$ Hsb1
  -- slot 1 to slot 1 of the first partner's landing buffer
  iapply (MidRun.wp_send_to m c (far c) _ (dev4_eq c) fullShare (sbBuf m c) g1 _ (K (c, 2)) (K (far c, 5)) N192 (Oh c) (Og c)
      (by rw [duties_rsSnd1]; exact Finset.mem_singleton_self _) (by rw [duties_rsRcv1]; exact Finset.mem_singleton_self _)
      rfl (amount_rsSnd1 m c false) (amount_rsRcv1 m (far c) false) rfl
      (by rw [payload_rsSnd1])
      (by rw [payload_rsRcv1, land_rs1 m c g1])) $$ [Hsb1 Qr1 HO Ts1 Tr1]
  · isplitr; · iexact I2
    isplitr; · iexact I22
    isplitl [Hsb1]; · iexact Hsb1
    isplitl [Qr1]; · iexact Qr1
    isplitl [HO]; · iexact HO
    isplitl [Ts1]; · iexact Ts1
    isplitr; · iexact R2
    isplitl [Tr1]; · iexact Tr1
    iexact R22
  iintro ⟨Cs1, HO⟩
  -- the first exchange is issued: the early point
  sl_exec
  have hr0 : head_runs.sl.r m c = k0_pay1 (stg1 m c) := by unfold head_runs.sl.r; rw [w1_eq]
  have hr1 : head_runs.sl.r_1 m c = k0_pay2 (stg2 m c) := by unfold head_runs.sl.r_1; rw [w2_eq]
  have hr2 : head_runs.sl.r_2 m c = k0_pay3 (stg3 m c) := by unfold head_runs.sl.r_2; rw [w3_eq]
  rw [hr0, hr1, hr2]
  iapply HK
  unfold M0 inputsHeld invs reacheds
  isplitr
  · isplitr; · iexact Hinv
    isplitr; · iexact Hreach
    iexact Hlev
  isplitl [Pb Pr0 Pr1 Pr2 Ps0 Ps1 Ps2 Pg0 Pg1 Pg2 Pg3 Pg4 Pg5 Pa0 Pa1 Pa2 Pa3 Pa4 Pa5]
  ·
    isplitl [Pb]; · iexact Pb
    isplitl [Pr0]; · iexact Pr0
    isplitl [Pr1]; · iexact Pr1
    isplitl [Pr2]; · iexact Pr2
    isplitl [Ps0]; · iexact Ps0
    isplitl [Ps1]; · iexact Ps1
    isplitl [Ps2]; · iexact Ps2
    isplitl [Pg0]; · iexact Pg0
    isplitl [Pg1]; · iexact Pg1
    isplitl [Pg2]; · iexact Pg2
    isplitl [Pg3]; · iexact Pg3
    isplitl [Pg4]; · iexact Pg4
    isplitl [Pg5]; · iexact Pg5
    isplitl [Pa0]; · iexact Pa0
    isplitl [Pa1]; · iexact Pa1
    isplitl [Pa2]; · iexact Pa2
    isplitl [Pa3]; · iexact Pa3
    isplitl [Pa4]; · iexact Pa4
    iexact Pa5
  isplitl [Tr2 Ta0 Ta3 Ta1 Ta2 Ta4 Ta5 Ts2 Tg0 Tg1 Tg2 Tg3 Tg4 Tg5]
  ·
    isplitl [Tr2]; · iexact Tr2
    isplitl [Ta0]; · iexact Ta0
    isplitl [Ta3]; · iexact Ta3
    isplitl [Ta1]; · iexact Ta1
    isplitl [Ta2]; · iexact Ta2
    isplitl [Ta4]; · iexact Ta4
    isplitl [Ta5]; · iexact Ta5
    isplitl [Ts2]; · iexact Ts2
    isplitl [Tg0]; · iexact Tg0
    isplitl [Tg1]; · iexact Tg1
    isplitl [Tg2]; · iexact Tg2
    isplitl [Tg3]; · iexact Tg3
    isplitl [Tg4]; · iexact Tg4
    iexact Tg5
  isplitl [Cs0 Cs1 Cr0 Cr1 Cr2 Ca0 Ca1 Ca2 Ca3 Ca4 Ca5]
  ·
    isplitl [Cs0]; · iexact Cs0
    isplitl [Cs1]; · iexact Cs1
    isplitl [Cr0]; · iexact Cr0
    isplitl [Cr1]; · iexact Cr1
    isplitl [Cr2]; · iexact Cr2
    isplitl [Ca0]; · iexact Ca0
    isplitl [Ca1]; · iexact Ca1
    isplitl [Ca2]; · iexact Ca2
    isplitl [Ca3]; · iexact Ca3
    isplitl [Ca4]; · iexact Ca4
    iexact Ca5
  isplitl [HO]
  · iexists _; iexact HO
  isplitl [Hsb2 Hf2 Qr2 Qa0Lo Qa0Hi Qa2Lo Qa1Hi Qa1Lo Qa2Hi]
  · isplitl [Hsb2]
    · iapply (free_close (F := F) c sb2 f0); iexact Hsb2
    isplitl [Hf2]
    · iexists f2; iexact Hf2
    isplitl [Qr2]; · iexact Qr2
    isplitl [Qa0Lo]; · iexact Qa0Lo
    isplitl [Qa0Hi]; · iexact Qa0Hi
    isplitl [Qa2Lo]; · iexact Qa2Lo
    isplitl [Qa1Hi]; · iexact Qa1Hi
    isplitl [Qa1Lo]; · iexact Qa1Lo
    iexact Qa2Hi
  isplitl [Hx0 Hx1 Hx2 Hx3]
  ·
    isplitl [Hx0]; · iexact Hx0
    isplitl [Hx1]; · iexact Hx1
    isplitl [Hx2]; · iexact Hx2
    iexact Hx3
  iexists x4; iexact Hx4

end Cert.KernelIdeal.Mlp

end
-- ==== Proof.BodyFrontRun.lean ====
/-
  The stretch of the body's run from the early point to the first point.

  The device loads the rows of `x` of its second partner's chunk and computes its partial of that chunk; it waits for slot 0
  of its landing buffer (owing only cells above that one), reads what its first partner sent there, adds it, and stores the
  sum as slot 2 of its send buffer: on that slot the buffer now holds its canonical contents. Slot 2 goes to the second
  partner's landing buffer: the source is lent to the send cell's round, the landing region, as it will read once written,
  to the landing cell's round, and the landing's credit is paid off what the device owes. It loads the rows of its own chunk
  and computes its partial; it waits for slots 1 and 2 of its landing buffer, reads them, and the three summed are its reduced
  chunk: stored over the own buffer (now at its canonical contents) and over the device's own rows of the result. The own
  buffer is its two halves; the lower half is held in two shares, and one of them goes with the first all-gather transfer to
  the lower half of slot 0 of the device after it. What the device then holds is the first point.
-/
import proofs.«900352_g7700000000000353_dist_gated_mlp_tp_i_m768_h1536_d768_v7x_i4_f32_1_alg».proof.Proof.BodyFront
import proofs.«900352_g7700000000000353_dist_gated_mlp_tp_i_m768_h1536_d768_v7x_i4_f32_1_alg».proof.Proof.Geom3

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rule of an exchange transfer at this kernel's cells, and small facts -/

/-- A transfer of a region the device holds at share `q` into a peer's region it holds whole: the source goes to the
    send cell's round, the region as it lands to the landing cell's, and the landing's credit is paid off what the device
    owes. The peer is named by the program's own device arithmetic (`n`), equal to the schedule's name (`p`). -/
theorem send_region (c p n : Dev nD) (hn : n = p) {sh : Shape} {S D : Memref sig .tc .vmem sh .bf16} {sS sR : DmaSem sig}
    {hsc : (D : Memref sig (Dev.tc n : Thread nD τ).2.kind .vmem sh .bf16).view.ref.isScScratch = false}
    {hsrc : S.view.WordExact} {hdst : D.view.WordExact}
    {hsem : DmaTarget.Typed .vmem (.dma sR) (.remote (Dev.tc n : Thread nD τ) D (.dma sS) hsc)}
    {α : Type} {Q : α → sProp 𝕄} {k : PUnit → Prog (TpuEff nD τ sig (Elt F) Λ₀ .tc) α}
    (q : PosShare TreeShare) (fs : Buf (Elt F) (S.view.loc (c : Thread nD τ))) (fd : Buf (Elt F) (D.view.loc (p : Thread nD τ)))
    (W : Waits sig Unit) (κ₁ κ₂ : ℕ) (N : ℕ) (O O' : CellTallies nD τ sig Unit)
    (hd₁ : false ∈ (Rd m).duties (cellAt c (.dma sS)) 0) (hd₂ : false ∈ (Rd m).duties (cellAt p (.dma sR)) 0)
    (hN : D.view.amount (.dma sR) = N)
    (hk₁ : (Rd m).amount (cellAt c (.dma sS)) 0 false = N) (hk₂ : (Rd m).amount (cellAt p (.dma sR)) 0 false = N)
    (hO : O = O' + tallyAt (cellAt p (.dma sR)) () N)
    (hpay₁ : held c S q fs ⊢ (Rd m).payload (cellAt c (.dma sS)) 0 false)
    (hpay₂ : held p D fullShare (D.view.write (Elt F) fd (S.view.read (Elt F) fs) Finset.univ) ⊢ (Rd m).payload (cellAt p (.dma sR)) 0 false) :
    iprop(cellInv ER (Rd m) κ₁ (cellAt c (.dma sS)) ∗ cellInv ER (Rd m) κ₂ (cellAt p (.dma sR))
        ∗ held c S q fs ∗ held p D fullShare fd
        ∗ owes (c : Thread nD τ) O W
        ∗ dutyTok ER (cellAt c (.dma sS)) 0 false ∗ reached ER (cellAt c (.dma sS)) 0
        ∗ dutyTok ER (cellAt p (.dma sR)) 0 false ∗ reached ER (cellAt p (.dma sR)) 0)
      ⊢ iprop(((cred (tallyAt (cellAt c (.dma sS)) () N) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma S (.remote (Dev.tc n : Thread nD τ) D (.dma sS) hsc) (.dma sR) hsrc hdst hsem) k) Q) := by
  subst hn
  unfold held at hpay₁ hpay₂ ⊢
  exact Rounds.wp_send_pointsTo 𝒱₀ ER (Rd m) (c : Thread nD τ) none (κ₁ := κ₁) (κ₂ := κ₂)
    (r₁ := 0) (r₂ := 0) (d₁ := false) (d₂ := false) (fd := fd) hd₁ hd₂ () () N hN hk₁ hk₂ O' hO (W := W) hpay₁ hpay₂

omit [FloatOps F] in
/-- A region handed over is that region held at some contents. -/
theorem free_is_held (p : Dev nD) {sh : Shape} (M : Memref sig .tc .vmem sh .bf16) :
    (free p M : sProp 𝕄) = iprop(∃ f, held p M fullShare f) := rfl

omit [FloatOps F] in
/-- A persistent assertion may be kept and used. -/
theorem keep_pers (P : sProp 𝕄) [BI.Persistent P] : P ⊢ iprop(P ∗ P) := by
  iintro #H; isplitr <;> iexact H

omit [FloatOps F] in
/-- A whole-slot load of slot 2 of the send buffer reads the elements of that slot's view. -/
theorem load_set_sb2 : (Memref.whole cc0_scratch0 : Memref sig .tc .vmem S3x192x768 .bf16).view.setOn
      (Rect.unit (s := S3x192x768) ![2, 0, 0] S1x192x768.size inb_S3x192x768_S1x192x768_2_0_0).toLoadRect.set
    ⊆ (sb2 : Memref sig .tc .vmem S192x768 .bf16).view.set := by
  intro i hi
  obtain ⟨j, hj, rfl⟩ := Finset.mem_map.mp hi
  exact (mem_sb2 _).mpr ((mem_slot 2 _ j).mp hj)

/-- The own buffer once the reduced chunk is stored over it: held whole at its canonical contents. -/
theorem own_stored (c : Dev nD) (f : Buf (Elt F) ((c : Thread nD τ).loc cc0_scratch2)) :
    ((((Memref.whole cc0_scratch2 : Memref sig .tc .vmem S192x768 .bf16).access
        (Rect.unit (s := S192x768) ![0, 0] S192x768.size inb_S192x768_S192x768_0_0)).loc (c : Thread nD τ))
        ↦[(Memref.whole cc0_scratch2 : Memref sig .tc .vmem S192x768 .bf16).view.set]{fullShare}
          (((Memref.whole cc0_scratch2 : Memref sig .tc .vmem S192x768 .bf16).access
            (Rect.unit (s := S192x768) ![0, 0] S192x768.size inb_S192x768_S192x768_0_0)).write (Elt F) f (OWN m c) Finset.univ) : sProp 𝕄)
      = ((c : Thread nD τ).loc cc0_scratch2 ↦{fullShare} ownBuf m c) := by
  rw [store_own]
  exact congrArg (fun S => ((c : Thread nD τ).loc cc0_scratch2 ↦[S]{fullShare} ownBuf m c : sProp 𝕄)) (View.set_whole cc0_scratch2)

/-! ## The values, as the program composes them -/

/-- The rows of `x` a load at a row offset reads. -/
theorem xAt_eq (c : Dev nD) (off : Fin 2 → Nat) (h : ∀ a, off a + S192x768.size a ≤ S768x768.size a) :
    (Memref.whole cc0_stg0_0 : Memref sig .tc .vmem S768x768 .f32).view.readAt (Elt F)
      (Rect.unit (s := S768x768) off S192x768.size h).toLoadRect (stg0 m c) = xAt m c off h := rfl
theorem SB2_eq (c : Dev nD) :
    k0_pay6 (k0_pay1 (stg1 m c)) (k0_pay2 (stg2 m c)) (k0_pay3 (stg3 m c)) (xAt m c (k0_off3 c) (k0_off3_inb c)) (SB0 m (far c)) = SB2 m c := rfl
theorem mine_eq (c : Dev nD) :
    k0_pay7 (k0_pay1 (stg1 m c)) (k0_pay2 (stg2 m c)) (k0_pay3 (stg3 m c)) (xAt m c (k0_off4 c) (k0_off4_inb c)) = mine m c := rfl
theorem OWN_eq (c : Dev nD) : k0_pay9 (mine m c) (SB1 m (far c)) (SB2 m (par c)) = OWN m c := rfl
theorem ACC_eq (c : Dev nD) : k0_pay8 (mine m c) (SB1 m (far c)) (SB2 m (par c)) = ACC m c := rfl

/-- Slot 2 of the send buffer once its payload is stored: that slot held at the buffer's canonical contents. -/
theorem sb2_stored (c : Dev nD) (g : Buf (Elt F) ((c : Thread nD τ).loc cc0_scratch0)) :
    ((((Memref.whole cc0_scratch0 : Memref sig .tc .vmem S3x192x768 .bf16).access (Rect.unit (s := S3x192x768) ![2, 0, 0] S1x192x768.size inb_S3x192x768_S1x192x768_2_0_0)).loc (c : Thread nD τ))
        ↦[(sb2 : Memref sig .tc .vmem S192x768 .bf16).view.set]{fullShare}
          (((Memref.whole cc0_scratch0 : Memref sig .tc .vmem S3x192x768 .bf16).access (Rect.unit (s := S3x192x768) ![2, 0, 0] S1x192x768.size inb_S3x192x768_S1x192x768_2_0_0)).write (Elt F) g (SB2 m c) Finset.univ) : sProp 𝕄)
      = held c sb2 fullShare (sbBuf m c) :=
  held_congr c sb2 fullShare _ (sbBuf m c) (store_sb2 m c g)

/-- A slot of the landing buffer held through the whole buffer's location is that slot held. -/
theorem rs0_held (c : Dev nD) : (((Memref.whole cc0_scratch1 : Memref sig .tc .vmem S3x192x768 .bf16).view.loc (c : Thread nD τ))
    ↦[(rs0 : Memref sig .tc .vmem S192x768 .bf16).view.set]{fullShare} rsBuf m c : sProp 𝕄) = held c rs0 fullShare (rsBuf m c) := rfl
theorem rs1_held (c : Dev nD) : (((Memref.whole cc0_scratch1 : Memref sig .tc .vmem S3x192x768 .bf16).view.loc (c : Thread nD τ))
    ↦[(rs1 : Memref sig .tc .vmem S192x768 .bf16).view.set]{fullShare} rsBuf m c : sProp 𝕄) = held c rs1 fullShare (rsBuf m c) := rfl
theorem rs2_held (c : Dev nD) : (((Memref.whole cc0_scratch1 : Memref sig .tc .vmem S3x192x768 .bf16).view.loc (c : Thread nD τ))
    ↦[(rs2 : Memref sig .tc .vmem S192x768 .bf16).view.set]{fullShare} rsBuf m c : sProp 𝕄) = held c rs2 fullShare (rsBuf m c) := rfl

set_option maxHeartbeats 1600000 in
set_option maxRecDepth 65536 in
theorem front_runs (c : Dev nD) : FrontRuns m c := by
  intro K v2 v13 v24 v25 v26 α kk Kt
  simp only [k0_part4_eq_skeleton, k0_part5_eq_skeleton, k0_part6_eq_skeleton]
  unfold k0_part4_skel k0_part5_skel k0_part6_skel
  simp only [Prog.lift, Prog.bind_op, Prog.bind_ret, Prog.pure_eq_ret, bind_assoc, pure_bind]
  unfold M0 inputsHeld
  iintro ⟨⟨⟨HI, HR, #Hlev⟩, ⟨Pbar, Prr0, Prr1, Prr2, Prs0, Prs1, Prs2, Pas0, Pas1, Pas2, Pas3, Pas4, Pas5, Par0, Par1, Par2, Par3, Par4, Par5⟩,
    ⟨Trr2, Tr0, Tr3, Tr1, Tr2, Tr4, Tr5, Tss2, Ts0, Ts1, Ts2, Ts3, Ts4, Ts5⟩,
    ⟨Crs0, Crs1, Crr0, Crr1, Crr2, Car0, Car1, Car2, Car3, Car4, Car5⟩, ⟨%W, HO⟩,
    ⟨Fsb2, ⟨%f2, Hown⟩, Frs2, Fag0Lo, Fag0Hi, Fag2Lo, Fag1Hi, Fag1Lo, Fag2Hi⟩, ⟨Hx0, Hx1, Hx2, Hx3⟩, ⟨%x4, Hout⟩⟩, Hk⟩
  ihave HI := (keep_pers (invs m K c)) $$ HI
  icases HI with ⟨#HIall, HI⟩
  unfold invs
  icases HI with ⟨#I0, #I1, #I2, #I3, #I4, #I5, #I6, #I7, #I8, #I9, #I10, #I11, #I12, #I13, #I14, #I15, #I16, #I17, #I18, #I19, #I20, #I21, #I22, #I23, #I24, #I25, #I26, #I27, #I28, #I29⟩
  ihave HR := (keep_pers (reacheds (F := F) c)) $$ HR
  icases HR with ⟨#HRall, HR⟩
  unfold reacheds
  icases HR with ⟨#R0, #R1, #R2, #R3, #R4, #R5, #R6, #R7, #R8, #R9, #R10, #R11, #R12, #R13, #R14, #R15, #R16, #R17, #R18, #R19, #R20, #R21, #R22, #R23, #R24, #R25, #R26, #R27, #R28, #R29⟩
  -- the rows of x for the second partner's chunk
  iapply (wp_load 𝒱₀ (c : Thread nD τ) none Set.univ (m := (Memref.whole cc0_stg0_0 : Memref sig .tc .vmem S768x768 .f32)) (View.setOn_subset_set _ _)) $$ Hx0
  iintro Hx0
  rw [xAt_eq m c]
  -- the first partner's slot 0 has landed
  iapply (Rounds.wp_wait_rest_token 𝒱₀ ER (Rd m) (c : Thread nD τ) none (κ := K (c, 4))
      (wpE_waitDma2_eq 𝒱₀ (c : Thread nD τ) none Set.univ) (Set.mem_univ _) () (O := Og c) (W := W) (R := 0) (m := 0) (T := ∅)
      (by rw [Nat.zero_add, expect_rsRcv0])) $$ [Crr0 HO Prr0]
  · isplitr; · iexact I4
    isplitl [Crr0]; · iexact Crr0
    isplitl [HO]; · iexact HO
    isplitr; · iapply (mayWait_rsRcv0 c); iexact Hlev
    iexact Prr0
  iintro ⟨HO, Prr0, -, Hpay⟩
  ihave Hrs0 := (Entails.of_eq (rest_rsRcv0 m c)) $$ Hpay
  ihave Hrs0 := (Entails.of_eq (held_def c rs0 fullShare (rsBuf m c))) $$ Hrs0
  iapply (wp_load 𝒱₀ (c : Thread nD τ) none Set.univ (m := (Memref.whole cc0_scratch1 : Memref sig .tc .vmem S3x192x768 .bf16)) load_set_rs0) $$ Hrs0
  iintro Hrs0
  rw [load_rs0, SB2_eq m c]
  -- slot 2 of the send buffer: read, then stored
  ihave Fsb2 := (Entails.of_eq (free_def (F := F) c sb2)) $$ Fsb2
  icases Fsb2 with ⟨%g2, Hsb2⟩
  iapply (wp_load 𝒱₀ (c : Thread nD τ) none Set.univ (m := (Memref.whole cc0_scratch0 : Memref sig .tc .vmem S3x192x768 .bf16)) load_set_sb2) $$ Hsb2
  iintro Hsb2
  iapply (wp_store 𝒱₀ (c : Thread nD τ) none Set.univ (m := (Memref.whole cc0_scratch0 : Memref sig .tc .vmem S3x192x768 .bf16))
      (r := Rect.unit (s := S3x192x768) ![2, 0, 0] S1x192x768.size inb_S3x192x768_S1x192x768_2_0_0) (Mk := Finset.univ)
      (Finset.subset_of_eq store_set_sb2)) $$ Hsb2
  iintro Hsb2
  ihave Hsb2 := (Entails.of_eq (sb2_stored m c g2)) $$ Hsb2
  -- slot 2 goes to the second partner's landing buffer
  ihave Frs2 := (Entails.of_eq (free_is_held (F := F) (par c) rs2)) $$ Frs2
  icases Frs2 with ⟨%fd2, Frs2⟩
  iapply (send_region m c (par c) _ rfl fullShare (sbBuf m c) fd2 (insert (SemLoc.dma rsRcv0, ()) W) (K (c, 3)) (K (par c, 6)) N192 (Og c) (Of c)
      (by rw [duties_rsSnd2]; exact Finset.mem_singleton_self _) (by rw [duties_rsRcv2]; exact Finset.mem_singleton_self _)
      rfl (amount_rsSnd2 m c false) (amount_rsRcv2 m (par c) false) rfl
      (by rw [payload_rsSnd2])
      (by rw [payload_rsRcv2, land_rs2 m c fd2])) $$ [Hsb2 Frs2 HO Tss2 Trr2]
  · isplitr; · iexact I3
    isplitr; · iexact I23
    isplitl [Hsb2]; · iexact Hsb2
    isplitl [Frs2]; · iexact Frs2
    isplitl [HO]; · iexact HO
    isplitl [Tss2]; · iexact Tss2
    isplitr; · iexact R3
    isplitl [Trr2]; · iexact Trr2
    iexact R23
  iintro ⟨Crs2, HO⟩
  -- the rows of x for the device's own chunk
  iapply (wp_load 𝒱₀ (c : Thread nD τ) none Set.univ (m := (Memref.whole cc0_stg0_0 : Memref sig .tc .vmem S768x768 .f32)) (View.setOn_subset_set _ _)) $$ Hx0
  iintro Hx0
  rw [xAt_eq m c, mine_eq m c]
  -- the first partner's slot 1 has landed, and the second partner's slot 2
  iapply (Rounds.wp_wait_rest_token 𝒱₀ ER (Rd m) (c : Thread nD τ) none (κ := K (c, 5))
      (wpE_waitDma2_eq 𝒱₀ (c : Thread nD τ) none Set.univ) (Set.mem_univ _) () (O := Of c) (W := (insert (SemLoc.dma rsRcv0, ()) W)) (R := 0) (m := 0) (T := ∅)
      (by rw [Nat.zero_add, expect_rsRcv1])) $$ [Crr1 HO Prr1]
  · isplitr; · iexact I5
    isplitl [Crr1]; · iexact Crr1
    isplitl [HO]; · iexact HO
    isplitr; · iapply (mayWait_rsRcv1 c); iexact Hlev
    iexact Prr1
  iintro ⟨HO, Prr1, -, Hpay⟩
  ihave Hrs1 := (Entails.of_eq (rest_rsRcv1 m c)) $$ Hpay
  iapply (Rounds.wp_wait_rest_token 𝒱₀ ER (Rd m) (c : Thread nD τ) none (κ := K (c, 6))
      (wpE_waitDma2_eq 𝒱₀ (c : Thread nD τ) none Set.univ) (Set.mem_univ _) () (O := Of c) (W := (insert (SemLoc.dma rsRcv1, ()) (insert (SemLoc.dma rsRcv0, ()) W))) (R := 0) (m := 0) (T := ∅)
      (by rw [Nat.zero_add, expect_rsRcv2])) $$ [Crr2 HO Prr2]
  · isplitr; · iexact I6
    isplitl [Crr2]; · iexact Crr2
    isplitl [HO]; · iexact HO
    isplitr; · iapply (mayWait_rsRcv2 c); iexact Hlev
    iexact Prr2
  iintro ⟨HO, Prr2, -, Hpay⟩
  ihave Hrs2 := (Entails.of_eq (rest_rsRcv2 m c)) $$ Hpay
  -- slots 1 and 2 of the landing buffer
  ihave Hrs1 := (Entails.of_eq (held_def c rs1 fullShare (rsBuf m c))) $$ Hrs1
  iapply (wp_load 𝒱₀ (c : Thread nD τ) none Set.univ (m := (Memref.whole cc0_scratch1 : Memref sig .tc .vmem S3x192x768 .bf16)) load_set_rs1) $$ Hrs1
  iintro Hrs1
  ihave Hrs2 := (Entails.of_eq (held_def c rs2 fullShare (rsBuf m c))) $$ Hrs2
  iapply (wp_load 𝒱₀ (c : Thread nD τ) none Set.univ (m := (Memref.whole cc0_scratch1 : Memref sig .tc .vmem S3x192x768 .bf16)) load_set_rs2) $$ Hrs2
  iintro Hrs2
  rw [load_rs1, load_rs2, OWN_eq m c, ACC_eq m c]
  -- the reduced chunk stored over the own buffer
  iapply (wp_load 𝒱₀ (c : Thread nD τ) none Set.univ (m := (Memref.whole cc0_scratch2 : Memref sig .tc .vmem S192x768 .bf16)) (View.setOn_subset_set _ _)) $$ Hown
  iintro Hown
  iapply (wp_store 𝒱₀ (c : Thread nD τ) none Set.univ (m := (Memref.whole cc0_scratch2 : Memref sig .tc .vmem S192x768 .bf16)) (r := (Rect.unit (s := S192x768) ![0, 0] S192x768.size inb_S192x768_S192x768_0_0)) (Mk := Finset.univ)
      (Memref.setOn_access_subset _ _ _)) $$ Hown
  iintro Hown
  ihave Hown := (Entails.of_eq (own_stored m c f2)) $$ Hown
  -- and written to the device's own rows of the result
  iapply (wp_load 𝒱₀ (c : Thread nD τ) none Set.univ (m := (Memref.whole cc0_stg4_0 : Memref sig .tc .vmem S768x768 .f32)) (View.setOn_subset_set _ _)) $$ Hout
  iintro Hout
  iapply (wp_store 𝒱₀ (c : Thread nD τ) none Set.univ (m := (Memref.whole cc0_stg4_0 : Memref sig .tc .vmem S768x768 .f32)) (r := (Rect.unit (s := S768x768) (k0_off4 c) S192x768.size (k0_off4_inb c))) (Mk := Finset.univ)
      (Memref.setOn_access_subset _ _ _)) $$ Hout
  iintro Hout
  -- the own chunk in its two halves, the lower half in two shares; one share goes with the transfer to the device after
  ihave Hown := (Entails.of_eq (own_carve (F := F) c fullShare (ownBuf m c))) $$ Hown
  icases Hown with ⟨HownLo, HownHi⟩
  ihave HownLo := (Entails.of_eq (held_halve (F := F) c ownLo (ownBuf m c))) $$ HownLo
  icases HownLo with ⟨HownLoL, HownLoR⟩
  ihave Fag0Lo := (Entails.of_eq (free_is_held (F := F) (rgt c) ag0Lo)) $$ Fag0Lo
  icases Fag0Lo with ⟨%fd0, Fag0Lo⟩
  iapply (send_region m c (rgt c) _ (dev6_eq c) fullShare.left (ownBuf m c) fd0 (insert (SemLoc.dma rsRcv2, ()) (insert (SemLoc.dma rsRcv1, ()) (insert (SemLoc.dma rsRcv0, ()) W))) (K (c, 7)) (K (rgt c, 13)) N96 (Of c) (Oe c)
      (by rw [duties_agSnd0]; exact Finset.mem_singleton_self _) (by rw [duties_agRcv0]; exact Finset.mem_singleton_self _)
      rfl (amount_agSnd0 m c false) (amount_agRcv0 m (rgt c) false) rfl
      (by rw [payload_agSnd0])
      (by rw [payload_agRcv0, land_ag0Lo m c fd0])) $$ [HownLoL Fag0Lo HO Ts0 Tr0]
  · isplitr; · iexact I7
    isplitr; · iexact I24
    isplitl [HownLoL]; · iexact HownLoL
    isplitl [Fag0Lo]; · iexact Fag0Lo
    isplitl [HO]; · iexact HO
    isplitl [Ts0]; · iexact Ts0
    isplitr; · iexact R7
    isplitl [Tr0]; · iexact Tr0
    iexact R24
  iintro ⟨Cas0, HO⟩
  -- what the device holds at the first point
  iapply Hk
  unfold M1 invs reacheds inputsHeld
  isplitr
  · isplitr; · iexact HIall
    isplitr; · iexact HRall
    iexact Hlev
  isplitl [Pbar Prr0 Prr1 Prr2 Prs0 Prs1 Prs2 Pas0 Pas1 Pas2 Pas3 Pas4 Pas5 Par0 Par1 Par2 Par3 Par4 Par5]
  · isplitl [Pbar]; · iexact Pbar
    isplitl [Prr0]; · iexact Prr0
    isplitl [Prr1]; · iexact Prr1
    isplitl [Prr2]; · iexact Prr2
    isplitl [Prs0]; · iexact Prs0
    isplitl [Prs1]; · iexact Prs1
    isplitl [Prs2]; · iexact Prs2
    isplitl [Pas0]; · iexact Pas0
    isplitl [Pas1]; · iexact Pas1
    isplitl [Pas2]; · iexact Pas2
    isplitl [Pas3]; · iexact Pas3
    isplitl [Pas4]; · iexact Pas4
    isplitl [Pas5]; · iexact Pas5
    isplitl [Par0]; · iexact Par0
    isplitl [Par1]; · iexact Par1
    isplitl [Par2]; · iexact Par2
    isplitl [Par3]; · iexact Par3
    isplitl [Par4]; · iexact Par4
    iexact Par5
  isplitl [Tr3 Tr1 Tr2 Tr4 Tr5 Ts1 Ts2 Ts3 Ts4 Ts5]
  · isplitl [Tr3]; · iexact Tr3
    isplitl [Tr1]; · iexact Tr1
    isplitl [Tr2]; · iexact Tr2
    isplitl [Tr4]; · iexact Tr4
    isplitl [Tr5]; · iexact Tr5
    isplitl [Ts1]; · iexact Ts1
    isplitl [Ts2]; · iexact Ts2
    isplitl [Ts3]; · iexact Ts3
    isplitl [Ts4]; · iexact Ts4
    iexact Ts5
  isplitl [Crs0 Crs1 Crs2 Cas0 Car0 Car1 Car2 Car3 Car4 Car5]
  · isplitl [Crs0]; · iexact Crs0
    isplitl [Crs1]; · iexact Crs1
    isplitl [Crs2]; · iexact Crs2
    isplitl [Cas0]; · iexact Cas0
    isplitl [Car0]; · iexact Car0
    isplitl [Car1]; · iexact Car1
    isplitl [Car2]; · iexact Car2
    isplitl [Car3]; · iexact Car3
    isplitl [Car4]; · iexact Car4
    iexact Car5
  isplitl [HO]
  · iexists _; iexact HO
  isplitl [Hrs0 Hrs1 Hrs2 HownHi HownLoR Fag0Hi Fag2Lo Fag1Hi Fag1Lo Fag2Hi]
  · isplitl [Hrs0]; · iapply (Entails.of_eq (rs0_held m c)); iexact Hrs0
    isplitl [Hrs1]; · iapply (Entails.of_eq (rs1_held m c)); iexact Hrs1
    isplitl [Hrs2]; · iapply (Entails.of_eq (rs2_held m c)); iexact Hrs2
    isplitl [HownHi]; · iexact HownHi
    isplitl [HownLoR]; · iexact HownLoR
    isplitl [Fag0Hi]; · iexact Fag0Hi
    isplitl [Fag2Lo]; · iexact Fag2Lo
    isplitl [Fag1Hi]; · iexact Fag1Hi
    isplitl [Fag1Lo]; · iexact Fag1Lo
    iexact Fag2Hi
  isplitl [Hx0 Hx1 Hx2 Hx3]
  · isplitl [Hx0]; · iexact Hx0
    isplitl [Hx1]; · iexact Hx1
    isplitl [Hx2]; · iexact Hx2
    iexact Hx3
  iexists x4; iexact Hout

end Cert.KernelIdeal.Mlp

end
-- ==== Proof.BodyEnd.lean ====
/-
  The closing stretch of the body's run: from the second point to the end.

  Every transfer has been issued and every landing waited for; the device owes nothing. It waits for its nine departures, each on
  its own send cell, in the order the program makes them: with the credit of the transfer in hand and nothing owed the wait
  is allowed, it ends the cell's one round, and the round's payload gives back the source that was lent — a slot of the send
  buffer whole, or a half of the own chunk (or of a forwarded half-slot) at the share that was lent. The half shares join to
  full shares, the slots, halves and half-slots join to the four whole scratch buffers, and these, at whatever they hold,
  are the scratch buffers the device started from. Its eighteen transfer cells, each past its one round with nothing taken
  of a later one and no later round with a duty, close: their counters are the device's again, at zero. What is left is what
  the body promises: the scratch buffers, the semaphores at zero, nothing owed, the four inputs as they were and the result
  buffer holding the full result.
-/
import proofs.«900352_g7700000000000353_dist_gated_mlp_tp_i_m768_h1536_d768_v7x_i4_f32_1_alg».proof.Proof.BodyMid

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_rsSnd0 amount_rsSnd0 payload_rsSnd0 expect_rsSnd0 rest_rsSnd0 duties_rsSnd1 amount_rsSnd1 payload_rsSnd1 expect_rsSnd1 rest_rsSnd1 duties_rsSnd2 amount_rsSnd2 payload_rsSnd2 expect_rsSnd2 rest_rsSnd2 duties_agSnd0 amount_agSnd0 payload_agSnd0 expect_agSnd0 rest_agSnd0 duties_agSnd1 amount_agSnd1 payload_agSnd1 expect_agSnd1 rest_agSnd1 duties_agSnd2 amount_agSnd2 payload_agSnd2 expect_agSnd2 rest_agSnd2 duties_agSnd3 amount_agSnd3 payload_agSnd3 expect_agSnd3 rest_agSnd3 duties_agSnd4 amount_agSnd4 payload_agSnd4 expect_agSnd4 rest_agSnd4 duties_agSnd5 amount_agSnd5 payload_agSnd5 expect_agSnd5 rest_agSnd5

omit [FloatOps F] in
/-- A staging buffer held through its whole view is the staging buffer held. -/
theorem stg_of_whole (c : Dev nD) (b : Ref sig .tc) (X : Buf (Elt F) ((c : Thread nD τ).loc b)) :
    (((View.whole b : View sig .tc _ _ _).loc (c : Thread nD τ)) ↦[(View.whole b : View sig .tc _ _ _).set]{fullShare} X : sProp 𝕄) ⊢ stg c b X := by
  rw [View.set_whole]
  iintro H; iexists X; isplitr; · ipureintro; rfl
  iexact H

/-- A device that owes nothing owes what the point after the body asks: nothing, whatever waits it has recorded. -/
theorem owesAt_done (c : Dev nD) (W : Waits sig Unit) :
    (owes (c : Thread nD τ) 0 W : sProp 𝕄) ⊢ (dats m ρ 0 c).owesAt () t₀.succ := by
  unfold Dat.owesAt Pipeline.owesWithin
  iintro H; iexists W
  isplitr; · ipureintro; exact fun _ _ => Or.inl (Set.mem_univ _)
  iexact H

theorem end_runs (c : Dev nD) : EndRuns m ρ c := by
  intro K Kt
  unfold M2 invs reacheds inputsHeld
  iintro ⟨⟨⟨⟨#I0, #I1, #I2, #I3, #I4, #I5, #I6, #I7, #I8, #I9, #I10, #I11, #I12, #I13, #I14, #I15, #I16, #I17, #I18, -⟩, #HR, #Hlev⟩,
    ⟨Pb, Pr0, Pr1, Pr2, Pa0, Pa1, Pa2, Pa3, Pa4, Pa5, Ps0, Ps1, Ps2, Pg0, Pg1, Pg2, Pg3, Pg4, Pg5⟩,
    ⟨C0, C1, C2, C3, C4, C5, C6, C7, C8⟩, ⟨%W, HO⟩,
    ⟨Hrs0, Hrs1, Hrs2, Hag0Lo, Hag0Hi, Hag1Lo, Hag1Hi, Hag2Lo, Hag2Hi⟩, ⟨Hx0, Hx1, Hx2, Hx3⟩, Hx4⟩, HK⟩
  simp only [k0_part11_eq_skeleton, k0_part12_eq_skeleton]
  unfold k0_part11_skel k0_part12_skel
  -- the nine waits for the departures
  sl_exec
  -- halves to full shares, regions to whole buffers
  ihave Hsb := (Entails.of_eq (sb_carve (F := F) c fullShare (sbBuf m c)).symm) $$ [Ps0_pay1 Ps1_pay1 Ps2_pay1]
  · isplitl [Ps0_pay1]; · iexact Ps0_pay1
    isplitl [Ps1_pay1]; · iexact Ps1_pay1
    iexact Ps2_pay1
  ihave Hrs := (Entails.of_eq (rs_carve (F := F) c fullShare (rsBuf m c)).symm) $$ [Hrs0 Hrs1 Hrs2]
  · isplitl [Hrs0]; · iexact Hrs0
    isplitl [Hrs1]; · iexact Hrs1
    iexact Hrs2
  ihave HownLo := (Entails.of_eq (held_halve (F := F) c ownLo (ownBuf m c)).symm) $$ [Pg0_pay1 Pg3_pay1]
  · isplitl [Pg0_pay1]; · iexact Pg0_pay1
    iexact Pg3_pay1
  ihave HownHi := (Entails.of_eq (held_halve (F := F) c ownHi (ownBuf m c)).symm) $$ [Pg1_pay1 Pg2_pay1]
  · isplitl [Pg1_pay1]; · iexact Pg1_pay1
    iexact Pg2_pay1
  ihave Hown := (Entails.of_eq (own_carve (F := F) c fullShare (ownBuf m c)).symm) $$ [HownLo HownHi]
  · isplitl [HownLo]; · iexact HownLo
    iexact HownHi
  ihave Hag0LoF := (Entails.of_eq (held_halve (F := F) c ag0Lo (agBuf m c)).symm) $$ [Pg4_pay1 Hag0Lo]
  · isplitl [Pg4_pay1]; · iexact Pg4_pay1
    iexact Hag0Lo
  ihave Hag1HiF := (Entails.of_eq (held_halve (F := F) c ag1Hi (agBuf m c)).symm) $$ [Pg5_pay1 Hag1Hi]
  · isplitl [Pg5_pay1]; · iexact Pg5_pay1
    iexact Hag1Hi
  ihave Hag := (Entails.of_eq (ag_carve (F := F) c fullShare (agBuf m c)).symm) $$ [Hag0LoF Hag0Hi Hag1Lo Hag1HiF Hag2Lo Hag2Hi]
  · isplitl [Hag0LoF]; · iexact Hag0LoF
    isplitl [Hag0Hi]; · iexact Hag0Hi
    isplitl [Hag1Lo]; · iexact Hag1Lo
    isplitl [Hag1HiF]; · iexact Hag1HiF
    isplitl [Hag2Lo]; · iexact Hag2Lo
    iexact Hag2Hi
  -- the eighteen transfer cells close: their counters are the device's again, at zero
  imod (Rounds.cell_close ER (Rd m) (Set.mem_univ (K (c, 1))) (fun h => h) (R := 1) (fun r hr => duties_later m _ r hr)) $$ [Ps0] with Z1
  · isplitr; · iexact I1
    iexact Ps0
  imod (Rounds.cell_close ER (Rd m) (Set.mem_univ (K (c, 2))) (fun h => h) (R := 1) (fun r hr => duties_later m _ r hr)) $$ [Ps1] with Z2
  · isplitr; · iexact I2
    iexact Ps1
  imod (Rounds.cell_close ER (Rd m) (Set.mem_univ (K (c, 3))) (fun h => h) (R := 1) (fun r hr => duties_later m _ r hr)) $$ [Ps2] with Z3
  · isplitr; · iexact I3
    iexact Ps2
  imod (Rounds.cell_close ER (Rd m) (Set.mem_univ (K (c, 4))) (fun h => h) (R := 1) (fun r hr => duties_later m _ r hr)) $$ [Pr0] with Z4
  · isplitr; · iexact I4
    iexact Pr0
  imod (Rounds.cell_close ER (Rd m) (Set.mem_univ (K (c, 5))) (fun h => h) (R := 1) (fun r hr => duties_later m _ r hr)) $$ [Pr1] with Z5
  · isplitr; · iexact I5
    iexact Pr1
  imod (Rounds.cell_close ER (Rd m) (Set.mem_univ (K (c, 6))) (fun h => h) (R := 1) (fun r hr => duties_later m _ r hr)) $$ [Pr2] with Z6
  · isplitr; · iexact I6
    iexact Pr2
  imod (Rounds.cell_close ER (Rd m) (Set.mem_univ (K (c, 7))) (fun h => h) (R := 1) (fun r hr => duties_later m _ r hr)) $$ [Pg0] with Z7
  · isplitr; · iexact I7
    iexact Pg0
  imod (Rounds.cell_close ER (Rd m) (Set.mem_univ (K (c, 8))) (fun h => h) (R := 1) (fun r hr => duties_later m _ r hr)) $$ [Pg1] with Z8
  · isplitr; · iexact I8
    iexact Pg1
  imod (Rounds.cell_close ER (Rd m) (Set.mem_univ (K (c, 9))) (fun h => h) (R := 1) (fun r hr => duties_later m _ r hr)) $$ [Pg2] with Z9
  · isplitr; · iexact I9
    iexact Pg2
  imod (Rounds.cell_close ER (Rd m) (Set.mem_univ (K (c, 10))) (fun h => h) (R := 1) (fun r hr => duties_later m _ r hr)) $$ [Pg3] with Z10
  · isplitr; · iexact I10
    iexact Pg3
  imod (Rounds.cell_close ER (Rd m) (Set.mem_univ (K (c, 11))) (fun h => h) (R := 1) (fun r hr => duties_later m _ r hr)) $$ [Pg4] with Z11
  · isplitr; · iexact I11
    iexact Pg4
  imod (Rounds.cell_close ER (Rd m) (Set.mem_univ (K (c, 12))) (fun h => h) (R := 1) (fun r hr => duties_later m _ r hr)) $$ [Pg5] with Z12
  · isplitr; · iexact I12
    iexact Pg5
  imod (Rounds.cell_close ER (Rd m) (Set.mem_univ (K (c, 13))) (fun h => h) (R := 1) (fun r hr => duties_later m _ r hr)) $$ [Pa0] with Z13
  · isplitr; · iexact I13
    iexact Pa0
  imod (Rounds.cell_close ER (Rd m) (Set.mem_univ (K (c, 14))) (fun h => h) (R := 1) (fun r hr => duties_later m _ r hr)) $$ [Pa1] with Z14
  · isplitr; · iexact I14
    iexact Pa1
  imod (Rounds.cell_close ER (Rd m) (Set.mem_univ (K (c, 15))) (fun h => h) (R := 1) (fun r hr => duties_later m _ r hr)) $$ [Pa2] with Z15
  · isplitr; · iexact I15
    iexact Pa2
  imod (Rounds.cell_close ER (Rd m) (Set.mem_univ (K (c, 16))) (fun h => h) (R := 1) (fun r hr => duties_later m _ r hr)) $$ [Pa3] with Z16
  · isplitr; · iexact I16
    iexact Pa3
  imod (Rounds.cell_close ER (Rd m) (Set.mem_univ (K (c, 17))) (fun h => h) (R := 1) (fun r hr => duties_later m _ r hr)) $$ [Pa4] with Z17
  · isplitr; · iexact I17
    iexact Pa4
  imod (Rounds.cell_close ER (Rd m) (Set.mem_univ (K (c, 18))) (fun h => h) (R := 1) (fun r hr => duties_later m _ r hr)) $$ [Pa5] with Z18
  · isplitr; · iexact I18
    iexact Pa5
  rw [wp_ret]; imodintro
  iapply HK
  unfold bodyPost Φ₁ scratch semsZero

  isplitl [Hsb Hrs Hown Hag Z1 Z2 Z3 Z4 Z5 Z6 Z7 Z8 Z9 Z10 Z11 Z12 Z13 Z14 Z15 Z16 Z17 Z18]
  · isplitl [Hsb Hrs Hown Hag]
    · isplitl [Hsb]; · iexists _; iexact Hsb
      isplitl [Hrs]; · iexists _; iexact Hrs
      isplitl [Hown]; · iexists _; iexact Hown
      iexists _; iexact Hag
    · isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      isplitl [Z10]; · iexact Z10
      isplitl [Z11]; · iexact Z11
      isplitl [Z12]; · iexact Z12
      isplitl [Z13]; · iexact Z13
      isplitl [Z14]; · iexact Z14
      isplitl [Z15]; · iexact Z15
      isplitl [Z16]; · iexact Z16
      isplitl [Z17]; · iexact Z17
      iexact Z18
  isplitl [HO]; · iapply (owesAt_done m ρ c _); iexact HO
  isplitl [Hx0]; · iapply (stg_of_whole (F := F) c cc0_stg0_0 (stg0 m c)); iexact Hx0
  isplitl [Hx1]; · iapply (stg_of_whole (F := F) c cc0_stg1_0 (stg1 m c)); iexact Hx1
  isplitl [Hx2]; · iapply (stg_of_whole (F := F) c cc0_stg2_0 (stg2 m c)); iexact Hx2
  isplitl [Hx3]; · iapply (stg_of_whole (F := F) c cc0_stg3_0 (stg3 m c)); iexact Hx3
  iapply (stg_of_whole (F := F) c cc0_stg4_0 (outBuf m c)); iexact Hx4

end Cert.KernelIdeal.Mlp

end
-- ==== Proof.WPeers.lean ====
/-
  The four devices of the mesh and what each is to a device: the two ring neighbours, the partner of the first
  exchange (device 3 - c) and the partner of the second (device c xor 1). Each is named through the kernel's own
  device arithmetic, so that the signals and transfers of the body address these names as they stand.
-/
import proofs.«900352_g7700000000000353_dist_gated_mlp_tp_i_m768_h1536_d768_v7x_i4_f32_1_alg».proof.Proof.Gen.Kernel.Skeleton
import proofs.«900352_g7700000000000353_dist_gated_mlp_tp_i_m768_h1536_d768_v7x_i4_f32_1_alg».proof.Proof.Gen.Kernel.Frame
import Idealize.ShloMosaic.Lib.Pipeline.Launch
import Idealize.ShloMosaic.Lib.Pipeline.Kit
import Idealize.ShloMosaic.Lib.Tactic

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The peers of a device -/

/-- The ring neighbour before `c`: device `(c + 3) mod 4`. -/
def lft (c : Dev nD) : Dev nD := ⟨k0_dev1 c, k0_dev1_lt c⟩
/-- The ring neighbour after `c`: device `(c + 1) mod 4`. -/
def rgt (c : Dev nD) : Dev nD := ⟨k0_dev2 c, k0_dev2_lt c⟩
/-- The partner of the first exchange: device `3 - c`. -/
def far (c : Dev nD) : Dev nD := ⟨k0_dev3 c, k0_dev3_lt c⟩
/-- The partner of the second exchange: device `c xor 1`. -/
def par (c : Dev nD) : Dev nD := ⟨k0_dev5 c, k0_dev5_lt c⟩
/-- The device across the ring: `(c + 2) mod 4`. -/
def opp (c : Dev nD) : Dev nD := lft (lft c)

theorem lft_val : ∀ c : Dev nD, (lft c).val = (c.val + 3) % 4 := by decide +kernel
theorem rgt_val : ∀ c : Dev nD, (rgt c).val = (c.val + 1) % 4 := by decide +kernel
theorem far_val : ∀ c : Dev nD, (far c).val = 3 - c.val := by decide +kernel
theorem par_val : ∀ c : Dev nD, (par c).val = c.val ^^^ 1 := by decide +kernel
theorem opp_val : ∀ c : Dev nD, (opp c).val = (c.val + 2) % 4 := by decide +kernel

theorem lft_rgt : ∀ c : Dev nD, lft (rgt c) = c := by decide +kernel
theorem rgt_lft : ∀ c : Dev nD, rgt (lft c) = c := by decide +kernel
theorem far_far : ∀ c : Dev nD, far (far c) = c := by decide +kernel
theorem par_par : ∀ c : Dev nD, par (par c) = c := by decide +kernel
theorem rgt_rgt : ∀ c : Dev nD, rgt (rgt c) = opp c := by decide +kernel
theorem lft_ne_rgt : ∀ c : Dev nD, lft c ≠ rgt c := by decide +kernel
/-- The two exchange partners are the two ring neighbours: on an even device the first is the one before it. -/
theorem far_par_even : ∀ c : Dev nD, c.val % 2 = 0 → far c = lft c ∧ par c = rgt c := by decide +kernel
theorem far_par_odd : ∀ c : Dev nD, c.val % 2 = 1 → far c = rgt c ∧ par c = lft c := by decide +kernel
/-- The four devices whose partial sums meet on device `c`. -/
theorem four_partners : ∀ c : Dev nD, far (par c) ≠ c ∧ far (par c) ≠ far c ∧ far (par c) ≠ par c ∧ far c ≠ c ∧ par c ≠ c ∧ far c ≠ par c := by
  decide +kernel

/-- The kernel's remaining device chains are these names again. -/
theorem dev4_eq (c : Dev nD) : (⟨k0_dev4 c, k0_dev4_lt c⟩ : Dev nD) = far c :=
  Fin.ext ((by decide +kernel : ∀ c : Dev nD, k0_dev4 c = k0_dev3 c) c)
theorem dev6_eq (c : Dev nD) : (⟨k0_dev6 c, k0_dev6_lt c⟩ : Dev nD) = rgt c :=
  Fin.ext ((by decide +kernel : ∀ c : Dev nD, k0_dev6 c = k0_dev2 c) c)
theorem dev7_eq (c : Dev nD) : (⟨k0_dev7 c, k0_dev7_lt c⟩ : Dev nD) = lft c :=
  Fin.ext ((by decide +kernel : ∀ c : Dev nD, k0_dev7 c = k0_dev1 c) c)
theorem dev8_eq (c : Dev nD) : (⟨k0_dev8 c, k0_dev8_lt c⟩ : Dev nD) = rgt c :=
  Fin.ext ((by decide +kernel : ∀ c : Dev nD, k0_dev8 c = k0_dev2 c) c)
theorem dev9_eq (c : Dev nD) : (⟨k0_dev9 c, k0_dev9_lt c⟩ : Dev nD) = lft c :=
  Fin.ext ((by decide +kernel : ∀ c : Dev nD, k0_dev9 c = k0_dev1 c) c)
theorem dev10_eq (c : Dev nD) : (⟨k0_dev10 c, k0_dev10_lt c⟩ : Dev nD) = rgt c :=
  Fin.ext ((by decide +kernel : ∀ c : Dev nD, k0_dev10 c = k0_dev2 c) c)
theorem dev11_eq (c : Dev nD) : (⟨k0_dev11 c, k0_dev11_lt c⟩ : Dev nD) = lft c :=
  Fin.ext ((by decide +kernel : ∀ c : Dev nD, k0_dev11 c = k0_dev1 c) c)

/-- The row offsets of the four chunks of `x` a device reads, and of the four chunks of the result it writes. -/
theorem off1_two : ∀ c : Dev nD, k0_off1 c 2#32 = ![192 * ((c.val + 2) % 4), 0] := by decide +kernel
theorem off1_one : ∀ c : Dev nD, k0_off1 c 1#32 = ![192 * ((c.val + 1) % 4), 0] := by decide +kernel
theorem off3_eq : ∀ c : Dev nD, k0_off3 c = ![192 * (c.val ^^^ 1), 0] := by decide +kernel
theorem off5_eq : ∀ c : Dev nD, k0_off5 c = ![192 * ((c.val + 3) % 4), 0] := by decide +kernel

end Cert.Kernel.Mlp

end
-- ==== Proof.WCells.lean ====
/-
  The buffers and semaphores of the exchange, as the kernel's body addresses them: the three slots of the send buffer and
  of the reduce-scatter landing buffer (one chunk of 192 rows each), the two halves (96 rows) of the device's own reduced
  chunk, the six half-slots of the all-gather landing buffer; the barrier semaphore and the eighteen transfer semaphores.
-/
import proofs.«900352_g7700000000000353_dist_gated_mlp_tp_i_m768_h1536_d768_v7x_i4_f32_1_alg».proof.Proof.WPeers

noncomputable section

namespace Cert.Kernel.Mlp

open Cert.Kernel Cert.Kernel.Gen
open Idealize.ShloMosaic
open Idealize.ShloMosaic.TcCoe

/-! ## The views -/

/-- Slot 0 of the send buffer. -/
abbrev sb0 : Memref sig .tc .vmem S192x768 .bf16 := (((Memref.whole cc0_scratch0 : Memref sig .tc .vmem S3x192x768 .bf16).slice (Rect.unit (s := S3x192x768) ![0, 0, 0] S1x192x768.size inb_S3x192x768_S1x192x768_0_0_0) (fun _ => rfl)).squeeze S192x768 squeezes_S1x192x768_S192x768)
/-- Slot 1 of the send buffer. -/
abbrev sb1 : Memref sig .tc .vmem S192x768 .bf16 := (((Memref.whole cc0_scratch0 : Memref sig .tc .vmem S3x192x768 .bf16).slice (Rect.unit (s := S3x192x768) ![1, 0, 0] S1x192x768.size inb_S3x192x768_S1x192x768_1_0_0) (fun _ => rfl)).squeeze S192x768 squeezes_S1x192x768_S192x768)
/-- Slot 2 of the send buffer. -/
abbrev sb2 : Memref sig .tc .vmem S192x768 .bf16 := (((Memref.whole cc0_scratch0 : Memref sig .tc .vmem S3x192x768 .bf16).slice (Rect.unit (s := S3x192x768) ![2, 0, 0] S1x192x768.size inb_S3x192x768_S1x192x768_2_0_0) (fun _ => rfl)).squeeze S192x768 squeezes_S1x192x768_S192x768)
/-- Slot 0 of the reduce-scatter landing buffer. -/
abbrev rs0 : Memref sig .tc .vmem S192x768 .bf16 := (((Memref.whole cc0_scratch1 : Memref sig .tc .vmem S3x192x768 .bf16).slice (Rect.unit (s := S3x192x768) ![0, 0, 0] S1x192x768.size inb_S3x192x768_S1x192x768_0_0_0) (fun _ => rfl)).squeeze S192x768 squeezes_S1x192x768_S192x768)
/-- Slot 1 of the reduce-scatter landing buffer. -/
abbrev rs1 : Memref sig .tc .vmem S192x768 .bf16 := (((Memref.whole cc0_scratch1 : Memref sig .tc .vmem S3x192x768 .bf16).slice (Rect.unit (s := S3x192x768) ![1, 0, 0] S1x192x768.size inb_S3x192x768_S1x192x768_1_0_0) (fun _ => rfl)).squeeze S192x768 squeezes_S1x192x768_S192x768)
/-- Slot 2 of the reduce-scatter landing buffer. -/
abbrev rs2 : Memref sig .tc .vmem S192x768 .bf16 := (((Memref.whole cc0_scratch1 : Memref sig .tc .vmem S3x192x768 .bf16).slice (Rect.unit (s := S3x192x768) ![2, 0, 0] S1x192x768.size inb_S3x192x768_S1x192x768_2_0_0) (fun _ => rfl)).squeeze S192x768 squeezes_S1x192x768_S192x768)
/-- Rows 0–95 of the device's own reduced chunk. -/
abbrev ownLo : Memref sig .tc .vmem S96x768 .bf16 := ((Memref.whole cc0_scratch2 : Memref sig .tc .vmem S192x768 .bf16).slice (Rect.unit (s := S192x768) ![0, 0] S96x768.size inb_S192x768_S96x768_0_0) (fun _ => rfl))
/-- Rows 96–191 of it. -/
abbrev ownHi : Memref sig .tc .vmem S96x768 .bf16 := ((Memref.whole cc0_scratch2 : Memref sig .tc .vmem S192x768 .bf16).slice (Rect.unit (s := S192x768) ![96, 0] S96x768.size inb_S192x768_S96x768_96_0) (fun _ => rfl))
/-- Rows 0–95 of slot 0 of the all-gather landing buffer. -/
abbrev ag0Lo : Memref sig .tc .vmem S96x768 .bf16 := (((Memref.whole cc0_scratch3 : Memref sig .tc .vmem S3x192x768 .bf16).slice (Rect.unit (s := S3x192x768) ![0, 0, 0] S1x96x768.size inb_S3x192x768_S1x96x768_0_0_0) (fun _ => rfl)).squeeze S96x768 squeezes_S1x96x768_S96x768)
/-- Rows 96–191 of slot 0. -/
abbrev ag0Hi : Memref sig .tc .vmem S96x768 .bf16 := (((Memref.whole cc0_scratch3 : Memref sig .tc .vmem S3x192x768 .bf16).slice (Rect.unit (s := S3x192x768) ![0, 96, 0] S1x96x768.size inb_S3x192x768_S1x96x768_0_96_0) (fun _ => rfl)).squeeze S96x768 squeezes_S1x96x768_S96x768)
/-- Rows 0–95 of slot 1 of the all-gather landing buffer. -/
abbrev ag1Lo : Memref sig .tc .vmem S96x768 .bf16 := (((Memref.whole cc0_scratch3 : Memref sig .tc .vmem S3x192x768 .bf16).slice (Rect.unit (s := S3x192x768) ![1, 0, 0] S1x96x768.size inb_S3x192x768_S1x96x768_1_0_0) (fun _ => rfl)).squeeze S96x768 squeezes_S1x96x768_S96x768)
/-- Rows 96–191 of slot 1. -/
abbrev ag1Hi : Memref sig .tc .vmem S96x768 .bf16 := (((Memref.whole cc0_scratch3 : Memref sig .tc .vmem S3x192x768 .bf16).slice (Rect.unit (s := S3x192x768) ![1, 96, 0] S1x96x768.size inb_S3x192x768_S1x96x768_1_96_0) (fun _ => rfl)).squeeze S96x768 squeezes_S1x96x768_S96x768)
/-- Rows 0–95 of slot 2 of the all-gather landing buffer. -/
abbrev ag2Lo : Memref sig .tc .vmem S96x768 .bf16 := (((Memref.whole cc0_scratch3 : Memref sig .tc .vmem S3x192x768 .bf16).slice (Rect.unit (s := S3x192x768) ![2, 0, 0] S1x96x768.size inb_S3x192x768_S1x96x768_2_0_0) (fun _ => rfl)).squeeze S96x768 squeezes_S1x96x768_S96x768)
/-- Rows 96–191 of slot 2. -/
abbrev ag2Hi : Memref sig .tc .vmem S96x768 .bf16 := (((Memref.whole cc0_scratch3 : Memref sig .tc .vmem S3x192x768 .bf16).slice (Rect.unit (s := S3x192x768) ![2, 96, 0] S1x96x768.size inb_S3x192x768_S1x96x768_2_96_0) (fun _ => rfl)).squeeze S96x768 squeezes_S1x96x768_S96x768)

/-! ## The semaphores -/

/-- The barrier semaphore of the collective: one per device, not scoped to the launch. -/
abbrev barS : Sem sig := (SemArray.scalar (sig.barrier 0 rfl) : Sems sig S_).sem
abbrev rsSnd0 : DmaSem sig := ((cc0_scratch4.slice (Rect.unit (s := S3) ![0] S1.size inb_S3_S1_0)).squeeze S_ squeezes_S1_S_).sem
abbrev rsSnd1 : DmaSem sig := ((cc0_scratch4.slice (Rect.unit (s := S3) ![1] S1.size inb_S3_S1_1)).squeeze S_ squeezes_S1_S_).sem
abbrev rsSnd2 : DmaSem sig := ((cc0_scratch4.slice (Rect.unit (s := S3) ![2] S1.size inb_S3_S1_2)).squeeze S_ squeezes_S1_S_).sem
abbrev rsRcv0 : DmaSem sig := ((cc0_scratch5.slice (Rect.unit (s := S3) ![0] S1.size inb_S3_S1_0)).squeeze S_ squeezes_S1_S_).sem
abbrev rsRcv1 : DmaSem sig := ((cc0_scratch5.slice (Rect.unit (s := S3) ![1] S1.size inb_S3_S1_1)).squeeze S_ squeezes_S1_S_).sem
abbrev rsRcv2 : DmaSem sig := ((cc0_scratch5.slice (Rect.unit (s := S3) ![2] S1.size inb_S3_S1_2)).squeeze S_ squeezes_S1_S_).sem
abbrev agSnd0 : DmaSem sig := ((cc0_scratch6.slice (Rect.unit (s := S6) ![0] S1.size inb_S6_S1_0)).squeeze S_ squeezes_S1_S_).sem
abbrev agSnd1 : DmaSem sig := ((cc0_scratch6.slice (Rect.unit (s := S6) ![1] S1.size inb_S6_S1_1)).squeeze S_ squeezes_S1_S_).sem
abbrev agSnd2 : DmaSem sig := ((cc0_scratch6.slice (Rect.unit (s := S6) ![2] S1.size inb_S6_S1_2)).squeeze S_ squeezes_S1_S_).sem
abbrev agSnd3 : DmaSem sig := ((cc0_scratch6.slice (Rect.unit (s := S6) ![3] S1.size inb_S6_S1_3)).squeeze S_ squeezes_S1_S_).sem
abbrev agSnd4 : DmaSem sig := ((cc0_scratch6.slice (Rect.unit (s := S6) ![4] S1.size inb_S6_S1_4)).squeeze S_ squeezes_S1_S_).sem
abbrev agSnd5 : DmaSem sig := ((cc0_scratch6.slice (Rect.unit (s := S6) ![5] S1.size inb_S6_S1_5)).squeeze S_ squeezes_S1_S_).sem
abbrev agRcv0 : DmaSem sig := ((cc0_scratch7.slice (Rect.unit (s := S6) ![0] S1.size inb_S6_S1_0)).squeeze S_ squeezes_S1_S_).sem
abbrev agRcv1 : DmaSem sig := ((cc0_scratch7.slice (Rect.unit (s := S6) ![1] S1.size inb_S6_S1_1)).squeeze S_ squeezes_S1_S_).sem
abbrev agRcv2 : DmaSem sig := ((cc0_scratch7.slice (Rect.unit (s := S6) ![2] S1.size inb_S6_S1_2)).squeeze S_ squeezes_S1_S_).sem
abbrev agRcv3 : DmaSem sig := ((cc0_scratch7.slice (Rect.unit (s := S6) ![3] S1.size inb_S6_S1_3)).squeeze S_ squeezes_S1_S_).sem
abbrev agRcv4 : DmaSem sig := ((cc0_scratch7.slice (Rect.unit (s := S6) ![4] S1.size inb_S6_S1_4)).squeeze S_ squeezes_S1_S_).sem
abbrev agRcv5 : DmaSem sig := ((cc0_scratch7.slice (Rect.unit (s := S6) ![5] S1.size inb_S6_S1_5)).squeeze S_ squeezes_S1_S_).sem

/-- The transfer semaphores are numbers 5 to 22 of the device's pool, in the order declared: three for the sends of the
    reduce-scatter, three for its landings, six for the sends of the all-gather, six for its landings. -/
theorem sem_vals : rsSnd0.val = 5 ∧ rsSnd1.val = 6 ∧ rsSnd2.val = 7 ∧ rsRcv0.val = 8 ∧ rsRcv1.val = 9 ∧ rsRcv2.val = 10
    ∧ agSnd0.val = 11 ∧ agSnd1.val = 12 ∧ agSnd2.val = 13 ∧ agSnd3.val = 14 ∧ agSnd4.val = 15 ∧ agSnd5.val = 16
    ∧ agRcv0.val = 17 ∧ agRcv1.val = 18 ∧ agRcv2.val = 19 ∧ agRcv3.val = 20 ∧ agRcv4.val = 21 ∧ agRcv5.val = 22 := by
  refine ⟨rfl, rfl, rfl, rfl, rfl, rfl, rfl, rfl, rfl, rfl, rfl, rfl, rfl, rfl, rfl, rfl, rfl, rfl⟩

/-- A device's cell on a semaphore. -/
abbrev cellAt (c : Dev nD) (s : SemLoc sig) : GSem nD τ sig := ((c : Thread nD τ), s)
abbrev barCell (c : Dev nD) : GSem nD τ sig := cellAt c (.reg barS)

end Cert.Kernel.Mlp

end
-- ==== Proof.WVals.lean ====
/-
  What each buffer of the exchange holds, as a function of the memory at launch.

  Device `c` keeps all of `x` and its column blocks of the gate and up weights and its row block of the down weights. For
  a chunk of 192 rows of `x` its PARTIAL result is ((chunk · gate) * ((chunk · up) * logistic (chunk · up))) · down. The
  reduce-scatter sums, for the chunk a device owns, the four devices' partials: a device sends the partial of the chunk
  across the ring (slot 0) and of its first partner's chunk (slot 1) to the first partner (device 3 - c), adds what landed
  in slot 0 to its partial of its second partner's chunk and sends that (slot 2) to the second partner (device c xor 1),
  and adds what landed in slots 1 and 2 to its partial of its own chunk. The all-gather then passes every device's reduced
  chunk, in two halves, both ways round the ring.
-/
import proofs.«900352_g7700000000000353_dist_gated_mlp_tp_i_m768_h1536_d768_v7x_i4_f32_1_alg».proof.Proof.WCells
import Idealize.ShloMosaic.Lib.ValueIdx

noncomputable section

namespace Cert.Kernel.Mlp

open Cert.Kernel Cert.Kernel.Gen
open Idealize.ShloMosaic
open Idealize.ShloMosaic.TcCoe
open Idealize.ShloMosaic.ValueIdx

variable {F : FTy → Type} [FloatOps F]
variable (m : (ℓ : Loc nD τ sig) → Buf (Elt F) ℓ)

/-! ## The staged arguments -/

/-- Device `c`'s copy of `x`, as staged. -/
def stg0 (c : Dev nD) : (cc0_stg0_0 : Ref sig .tc).ty.Contents (Elt F) :=
  (win0_0.blk (0 : Fin 1)).view.read (Elt F) (m ((c : Thread nD τ).loc main_arg0))
/-- Its block of the gate weights. -/
def stg1 (c : Dev nD) : (cc0_stg1_0 : Ref sig .tc).ty.Contents (Elt F) :=
  (win0_1.blk (0 : Fin 1)).view.read (Elt F) (m ((c : Thread nD τ).loc main_arg1))
/-- Its block of the up weights. -/
def stg2 (c : Dev nD) : (cc0_stg2_0 : Ref sig .tc).ty.Contents (Elt F) :=
  (win0_2.blk (0 : Fin 1)).view.read (Elt F) (m ((c : Thread nD τ).loc main_arg2))
/-- Its block of the down weights. -/
def stg3 (c : Dev nD) : (cc0_stg3_0 : Ref sig .tc).ty.Contents (Elt F) :=
  (win0_3.blk (0 : Fin 1)).view.read (Elt F) (m ((c : Thread nD τ).loc main_arg3))

/-- The 192 rows of device `c`'s `x` starting at the row offset `off`. -/
def xAt (c : Dev nD) (off : Fin 2 → Nat) (h : ∀ a, off a + S192x768.size a ≤ S768x768.size a) : Vec F S192x768 .f32 :=
  (Memref.whole cc0_stg0_0 : Memref sig .tc .vmem S768x768 .f32).view.readAt (Elt F)
    (Rect.unit (s := S768x768) off S192x768.size h).toLoadRect (stg0 m c)

/-! ## The reduce-scatter -/

/-- Slot 0 of device `c`'s send buffer: its partial of the chunk across the ring. -/
def SB0 (c : Dev nD) : FVec F S1x192x768 .bf16 :=
  k0_pay4 (stg1 m c) (stg2 m c) (stg3 m c) (xAt m c (k0_off1 c 2#32) (k0_off1_inb c 1))
/-- Slot 1: its partial of its first partner's chunk. -/
def SB1 (c : Dev nD) : FVec F S1x192x768 .bf16 :=
  k0_pay5 (k0_pay1 (stg1 m c)) (k0_pay2 (stg2 m c)) (k0_pay3 (stg3 m c)) (xAt m c (k0_off2 c) (k0_off2_inb c))
/-- Slot 2: its partial of its second partner's chunk plus what its first partner sent for that chunk. -/
def SB2 (c : Dev nD) : FVec F S1x192x768 .bf16 :=
  k0_pay6 (k0_pay1 (stg1 m c)) (k0_pay2 (stg2 m c)) (k0_pay3 (stg3 m c)) (xAt m c (k0_off3 c) (k0_off3_inb c)) (SB0 m (far c))
/-- Device `c`'s partial of its own chunk. -/
def mine (c : Dev nD) : FVec F S192x768 .f32 :=
  k0_pay7 (k0_pay1 (stg1 m c)) (k0_pay2 (stg2 m c)) (k0_pay3 (stg3 m c)) (xAt m c (k0_off4 c) (k0_off4_inb c))
/-- The reduced chunk device `c` owns: the four partials summed. -/
def ACC (c : Dev nD) : FVec F S192x768 .f32 := k0_pay8 (mine m c) (SB1 m (far c)) (SB2 m (par c))
/-- The same, as kept for the all-gather. -/
def OWN (c : Dev nD) : FVec F S192x768 .bf16 := k0_pay9 (mine m c) (SB1 m (far c)) (SB2 m (par c))

/-! ## The buffers' contents, whole -/

/-- A slot of a three-slot buffer read at a row and a column. -/
def slot3 {α : Type} (X0 X1 X2 : S1x192x768.Idx → α) : S3x192x768.Idx → α := fun i =>
  if (i 0).val = 0 then X0 (ix3 (0 : Fin 1) (i 1) (i 2)) else if (i 0).val = 1 then X1 (ix3 (0 : Fin 1) (i 1) (i 2)) else X2 (ix3 (0 : Fin 1) (i 1) (i 2))

/-- The send buffer of device `c` once its three slots are stored. -/
def sbBuf (c : Dev nD) : Buf (Elt F) ((c : Thread nD τ).loc cc0_scratch0) := slot3 (SB0 m c) (SB1 m c) (SB2 m c)
/-- The reduce-scatter landing buffer of device `c` once its three slots have landed: slots 0 and 1 from its first
    partner, slot 2 from its second. -/
def rsBuf (c : Dev nD) : Buf (Elt F) ((c : Thread nD τ).loc cc0_scratch1) := slot3 (SB0 m (far c)) (SB1 m (far c)) (SB2 m (par c))
/-- Device `c`'s own reduced chunk. -/
def ownBuf (c : Dev nD) : Buf (Elt F) ((c : Thread nD τ).loc cc0_scratch2) := OWN m c
/-- A reduced chunk re-read as one slot. -/
def asSlot {α : Type} (X : S192x768.Idx → α) : S1x192x768.Idx → α := fun i => X (ix2 (i 1) (i 2))
/-- The all-gather landing buffer of device `c` once it is full: the chunks of the device before it, the device after
    it and the device across the ring. -/
def agBuf (c : Dev nD) : Buf (Elt F) ((c : Thread nD τ).loc cc0_scratch3) :=
  slot3 (asSlot (OWN m (lft c))) (asSlot (OWN m (rgt c))) (asSlot (OWN m (opp c)))

/-! ## The result -/

/-- The result array on device `c` when the kernel returns: its own chunk of rows is the reduced chunk it computed, the
    three other chunks are the reduced chunks of the device before it, the device after it and the device across the
    ring, as they came through the all-gather. -/
def outBuf (c : Dev nD) : (cc0_stg4_0 : Ref sig .tc).ty.Contents (Elt F) := fun i =>
  if (i 0).val / 192 = c.val then ACC m c (ix2 (⟨(i 0).val % 192, Nat.mod_lt _ (by decide)⟩ : Fin 192) (i 1))
  else if (i 0).val / 192 = (lft c).val then
    k0_pay10 (asSlot (OWN m (lft c))) (ix2 (⟨(i 0).val % 192, Nat.mod_lt _ (by decide)⟩ : Fin 192) (i 1))
  else if (i 0).val / 192 = (rgt c).val then
    k0_pay11 (asSlot (OWN m (rgt c))) (ix2 (⟨(i 0).val % 192, Nat.mod_lt _ (by decide)⟩ : Fin 192) (i 1))
  else k0_pay12 (asSlot (OWN m (opp c))) (ix2 (⟨(i 0).val % 192, Nat.mod_lt _ (by decide)⟩ : Fin 192) (i 1))

end Cert.Kernel.Mlp

end
-- ==== Proof.WSched.lean ====
/-
  The schedule of the exchange: one round on every cell.

  A device's barrier cell expects one unit from each ring neighbour; with its unit a neighbour hands over the regions of
  ITS landing buffers that this device will write (the three half-slots of the all-gather buffer on that side, and the
  slots of the reduce-scatter buffer this device fills there: two on the side of its first partner, one on the side of
  its second — the first partner is the neighbour before an even device and the neighbour after an odd one). A send cell
  expects the credit of its one transfer and gives the source back; a landing cell expects the credit of the one transfer
  into it and gives the landing region at the contents the sender read.
-/
import proofs.«900352_g7700000000000353_dist_gated_mlp_tp_i_m768_h1536_d768_v7x_i4_f32_1_alg».proof.Proof.WVals
import Idealize.ShloMosaic.Lib.Pipeline.Launch
import Idealize.ShloMosaic.Lib.Pipeline.Kit
import Idealize.ShloMosaic.Lib.Tactic

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## What a cell is for -/

inductive Role where
  | bar | rsS (k : ℕ) | rsR (k : ℕ) | agS (k : ℕ) | agR (k : ℕ) | idle
  deriving DecidableEq

/-- The role of a semaphore, by its number in the device's pool. -/
def roleOf : SemLoc sig → Role
  | .reg _ => .bar
  | .dma q => if q.val < 5 then .idle else if q.val < 8 then .rsS (q.val - 5) else if q.val < 11 then .rsR (q.val - 8)
      else if q.val < 17 then .agS (q.val - 11) else .agR (q.val - 17)

/-- The credit of a transfer of one chunk (192 rows), and of half a chunk. -/
abbrev N192 : ℕ := (rs0 : Memref sig .tc .vmem S192x768 .bf16).view.dmaCredit
abbrev N96 : ℕ := (ag0Lo : Memref sig .tc .vmem S96x768 .bf16).view.dmaCredit
theorem N192_pos : 0 < N192 := View.dmaCredit_pos _ (by decide)
theorem N96_pos : 0 < N96 := View.dmaCredit_pos _ (by decide)

/-! ## Regions held and regions handed over -/

/-- Device `p` holds the elements of the view `M` at share `q`, the buffer reading `X` there. -/
def held (p : Dev nD) {sh : Shape} (M : Memref sig .tc .vmem sh .bf16) (q : PosShare TreeShare)
    (X : Buf (Elt F) (M.view.loc (p : Thread nD τ))) : sProp 𝕄 :=
  M.view.loc (p : Thread nD τ) ↦[M.view.set]{q} X
/-- The elements of the view `M` on device `p`, whatever they hold. -/
def free (p : Dev nD) {sh : Shape} (M : Memref sig .tc .vmem sh .bf16) : sProp 𝕄 :=
  iprop(∃ f, M.view.loc (p : Thread nD τ) ↦[M.view.set]{fullShare} f)

omit [FloatOps F] in
theorem held_def (p : Dev nD) {sh : Shape} (M : Memref sig .tc .vmem sh .bf16) (q : PosShare TreeShare)
    (X : Buf (Elt F) (M.view.loc (p : Thread nD τ))) : (held p M q X : sProp 𝕄) = (M.view.loc (p : Thread nD τ) ↦[M.view.set]{q} X) := rfl
omit [FloatOps F] in
theorem free_def (p : Dev nD) {sh : Shape} (M : Memref sig .tc .vmem sh .bf16) :
    (free p M : sProp 𝕄) = iprop(∃ f, M.view.loc (p : Thread nD τ) ↦[M.view.set]{fullShare} f) := rfl

omit [FloatOps F] in
instance held_storable (p : Dev nD) {sh : Shape} (M : Memref sig .tc .vmem sh .bf16) (q : PosShare TreeShare)
    (X : Buf (Elt F) (M.view.loc (p : Thread nD τ))) : BI.Storable (upEmb : UEmb _ 𝕄) (held p M q X) := by
  unfold held; infer_instance
omit [FloatOps F] in
instance free_storable (p : Dev nD) {sh : Shape} (M : Memref sig .tc .vmem sh .bf16) :
    BI.Storable (upEmb : UEmb _ 𝕄) (free (F := F) p M) := by
  unfold free; infer_instance

/-- What a neighbour's unit on device `c`'s barrier cell brings: `true` from the device before it, `false` from the
    device after it. -/
def barPay (c : Dev nD) (d : Bool) : sProp 𝕄 :=
  if d then
    iprop(free (lft c) ag1Hi ∗ free (lft c) ag1Lo ∗ free (lft c) ag2Hi
      ∗ (if c.val % 2 = 0 then iprop(free (lft c) rs0 ∗ free (lft c) rs1) else free (lft c) rs2))
  else
    iprop(free (rgt c) ag0Lo ∗ free (rgt c) ag0Hi ∗ free (rgt c) ag2Lo
      ∗ (if c.val % 2 = 0 then free (rgt c) rs2 else iprop(free (rgt c) rs0 ∗ free (rgt c) rs1)))

/-- What each cell's round hands its owner. -/
def pay (c : Dev nD) : Role → Bool → sProp 𝕄
  | .bar, d => barPay c d
  | .rsS 0, _ => held c sb0 fullShare (sbBuf m c)
  | .rsS 1, _ => held c sb1 fullShare (sbBuf m c)
  | .rsS _, _ => held c sb2 fullShare (sbBuf m c)
  | .rsR 0, _ => held c rs0 fullShare (rsBuf m c)
  | .rsR 1, _ => held c rs1 fullShare (rsBuf m c)
  | .rsR _, _ => held c rs2 fullShare (rsBuf m c)
  | .agS 0, _ => held c ownLo fullShare.left (ownBuf m c)
  | .agS 1, _ => held c ownHi fullShare.left (ownBuf m c)
  | .agS 2, _ => held c ownHi fullShare.right (ownBuf m c)
  | .agS 3, _ => held c ownLo fullShare.right (ownBuf m c)
  | .agS 4, _ => held c ag0Lo fullShare.left (agBuf m c)
  | .agS _, _ => held c ag1Hi fullShare.left (agBuf m c)
  | .agR 0, _ => held c ag0Lo fullShare (agBuf m c)
  | .agR 1, _ => held c ag0Hi fullShare (agBuf m c)
  | .agR 2, _ => held c ag1Lo fullShare (agBuf m c)
  | .agR 3, _ => held c ag1Hi fullShare (agBuf m c)
  | .agR 4, _ => held c ag2Lo fullShare (agBuf m c)
  | .agR _, _ => held c ag2Hi fullShare (agBuf m c)
  | .idle, _ => iprop(emp)

/-! ## The schedule -/

def Rd : Rounds.Schedule (GSem nD τ sig) Bool 𝕄 where
  duties g r := if r = 0 ∧ g.1.2 = .tc then (match roleOf g.2 with | .bar => Finset.univ | .idle => ∅ | _ => {false}) else ∅
  unitless _ := False
  amount g _ _ := match roleOf g.2 with | .bar => 1 | .rsS _ => N192 | .rsR _ => N192 | .agS _ => N96 | .agR _ => N96 | .idle => 1
  payload g _ d := pay m g.1.1 (roleOf g.2) d
  amount_pos g _ _ _ := by
    cases roleOf g.2 <;> first | exact Nat.one_pos | exact N192_pos | exact N96_pos

instance Rd_payload_storable (g : GSem nD τ sig) (r : ℕ) (d : Bool) :
    BI.Storable (upEmb : UEmb _ 𝕄) ((Rd (F := F) m).payload g r d) := by
  show BI.Storable upEmb (pay m g.1.1 (roleOf g.2) d)
  unfold pay barPay
  (repeat' split) <;> infer_instance

end Cert.Kernel.Mlp

end
-- ==== Proof.WTables.lean ====
/-
  The schedule read cell by cell: which duties a round has, how many units each brings, what it hands over, how many
  units the round expects, and what is left of a round of which nothing has been taken yet.
-/
import proofs.«900352_g7700000000000353_dist_gated_mlp_tp_i_m768_h1536_d768_v7x_i4_f32_1_alg».proof.Proof.WSched

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Any cell of a device -/

theorem duties_tc (c : Dev nD) (s : SemLoc sig) :
    (Rd (F := F) m).duties (cellAt c s) 0 = (match roleOf s with | .bar => Finset.univ | .idle => ∅ | _ => {false}) := by
  dsimp only [Rd]; exact if_pos ⟨rfl, rfl⟩
theorem duties_later (g : GSem nD τ sig) (r : ℕ) (hr : 1 ≤ r) : (Rd (F := F) m).duties g r = ∅ := by
  dsimp only [Rd]; exact if_neg fun h => by omega
theorem amount_tc (c : Dev nD) (s : SemLoc sig) (r : ℕ) (d : Bool) :
    (Rd (F := F) m).amount (cellAt c s) r d
      = (match roleOf s with | .bar => 1 | .rsS _ => N192 | .rsR _ => N192 | .agS _ => N96 | .agR _ => N96 | .idle => 1) := rfl
theorem payload_tc (c : Dev nD) (s : SemLoc sig) (r : ℕ) (d : Bool) :
    (Rd (F := F) m).payload (cellAt c s) r d = pay m c (roleOf s) d := rfl

/-- A round of one duty expects that duty's units. -/
theorem expect_single (g : GSem nD τ sig) (h : (Rd (F := F) m).duties g 0 = {false}) :
    (Rd (F := F) m).expect g 0 = (Rd (F := F) m).amount g 0 false := by
  unfold Schedule.expect Schedule.amountOf; rw [h, Finset.sum_singleton]
/-- Of a round of one duty nothing taken yet, what is left is that duty's payload. -/
theorem rest_single (g : GSem nD τ sig) (h : (Rd (F := F) m).duties g 0 = {false}) :
    bigSep ((Rd (F := F) m).duties g 0 \ ∅) (fun d => (Rd (F := F) m).payload g 0 d) = (Rd (F := F) m).payload g 0 false := by
  rw [Finset.sdiff_empty, h, bigSep_singleton]

/-! ## The barrier cell -/

theorem duties_bar (c : Dev nD) : (Rd (F := F) m).duties (barCell c) 0 = Finset.univ := duties_tc m c _
theorem amount_bar (c : Dev nD) (d : Bool) : (Rd (F := F) m).amount (barCell c) 0 d = 1 := rfl
theorem expect_bar (c : Dev nD) : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem payload_bar (c : Dev nD) (d : Bool) : (Rd (F := F) m).payload (barCell c) 0 d = barPay c d := rfl
/-- Of the barrier cell's round nothing taken yet: both neighbours' grants. -/
theorem rest_bar (c : Dev nD) :
    bigSep ((Rd (F := F) m).duties (barCell c) 0 \ ∅) (fun d => (Rd (F := F) m).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl

/-! ## The transfer cells -/

theorem duties_rsSnd0 (c : Dev nD) : (Rd (F := F) m).duties (cellAt c (.dma rsSnd0)) 0 = {false} := duties_tc m c _
theorem amount_rsSnd0 (c : Dev nD) (d : Bool) : (Rd (F := F) m).amount (cellAt c (.dma rsSnd0)) 0 d = N192 := rfl
theorem payload_rsSnd0 (c : Dev nD) (d : Bool) : (Rd (F := F) m).payload (cellAt c (.dma rsSnd0)) 0 d = held c sb0 fullShare (sbBuf m c) := rfl
theorem expect_rsSnd0 (c : Dev nD) : (Rd (F := F) m).expect (cellAt c (.dma rsSnd0)) 0 = N192 :=
  (expect_single m _ (duties_rsSnd0 m c)).trans (amount_rsSnd0 m c false)
theorem rest_rsSnd0 (c : Dev nD) :
    bigSep ((Rd (F := F) m).duties (cellAt c (.dma rsSnd0)) 0 \ ∅) (fun d => (Rd (F := F) m).payload (cellAt c (.dma rsSnd0)) 0 d)
      = held c sb0 fullShare (sbBuf m c) :=
  (rest_single m _ (duties_rsSnd0 m c)).trans (payload_rsSnd0 m c false)
theorem duties_rsSnd1 (c : Dev nD) : (Rd (F := F) m).duties (cellAt c (.dma rsSnd1)) 0 = {false} := duties_tc m c _
theorem amount_rsSnd1 (c : Dev nD) (d : Bool) : (Rd (F := F) m).amount (cellAt c (.dma rsSnd1)) 0 d = N192 := rfl
theorem payload_rsSnd1 (c : Dev nD) (d : Bool) : (Rd (F := F) m).payload (cellAt c (.dma rsSnd1)) 0 d = held c sb1 fullShare (sbBuf m c) := rfl
theorem expect_rsSnd1 (c : Dev nD) : (Rd (F := F) m).expect (cellAt c (.dma rsSnd1)) 0 = N192 :=
  (expect_single m _ (duties_rsSnd1 m c)).trans (amount_rsSnd1 m c false)
theorem rest_rsSnd1 (c : Dev nD) :
    bigSep ((Rd (F := F) m).duties (cellAt c (.dma rsSnd1)) 0 \ ∅) (fun d => (Rd (F := F) m).payload (cellAt c (.dma rsSnd1)) 0 d)
      = held c sb1 fullShare (sbBuf m c) :=
  (rest_single m _ (duties_rsSnd1 m c)).trans (payload_rsSnd1 m c false)
theorem duties_rsSnd2 (c : Dev nD) : (Rd (F := F) m).duties (cellAt c (.dma rsSnd2)) 0 = {false} := duties_tc m c _
theorem amount_rsSnd2 (c : Dev nD) (d : Bool) : (Rd (F := F) m).amount (cellAt c (.dma rsSnd2)) 0 d = N192 := rfl
theorem payload_rsSnd2 (c : Dev nD) (d : Bool) : (Rd (F := F) m).payload (cellAt c (.dma rsSnd2)) 0 d = held c sb2 fullShare (sbBuf m c) := rfl
theorem expect_rsSnd2 (c : Dev nD) : (Rd (F := F) m).expect (cellAt c (.dma rsSnd2)) 0 = N192 :=
  (expect_single m _ (duties_rsSnd2 m c)).trans (amount_rsSnd2 m c false)
theorem rest_rsSnd2 (c : Dev nD) :
    bigSep ((Rd (F := F) m).duties (cellAt c (.dma rsSnd2)) 0 \ ∅) (fun d => (Rd (F := F) m).payload (cellAt c (.dma rsSnd2)) 0 d)
      = held c sb2 fullShare (sbBuf m c) :=
  (rest_single m _ (duties_rsSnd2 m c)).trans (payload_rsSnd2 m c false)
theorem duties_rsRcv0 (c : Dev nD) : (Rd (F := F) m).duties (cellAt c (.dma rsRcv0)) 0 = {false} := duties_tc m c _
theorem amount_rsRcv0 (c : Dev nD) (d : Bool) : (Rd (F := F) m).amount (cellAt c (.dma rsRcv0)) 0 d = N192 := rfl
theorem payload_rsRcv0 (c : Dev nD) (d : Bool) : (Rd (F := F) m).payload (cellAt c (.dma rsRcv0)) 0 d = held c rs0 fullShare (rsBuf m c) := rfl
theorem expect_rsRcv0 (c : Dev nD) : (Rd (F := F) m).expect (cellAt c (.dma rsRcv0)) 0 = N192 :=
  (expect_single m _ (duties_rsRcv0 m c)).trans (amount_rsRcv0 m c false)
theorem rest_rsRcv0 (c : Dev nD) :
    bigSep ((Rd (F := F) m).duties (cellAt c (.dma rsRcv0)) 0 \ ∅) (fun d => (Rd (F := F) m).payload (cellAt c (.dma rsRcv0)) 0 d)
      = held c rs0 fullShare (rsBuf m c) :=
  (rest_single m _ (duties_rsRcv0 m c)).trans (payload_rsRcv0 m c false)
theorem duties_rsRcv1 (c : Dev nD) : (Rd (F := F) m).duties (cellAt c (.dma rsRcv1)) 0 = {false} := duties_tc m c _
theorem amount_rsRcv1 (c : Dev nD) (d : Bool) : (Rd (F := F) m).amount (cellAt c (.dma rsRcv1)) 0 d = N192 := rfl
theorem payload_rsRcv1 (c : Dev nD) (d : Bool) : (Rd (F := F) m).payload (cellAt c (.dma rsRcv1)) 0 d = held c rs1 fullShare (rsBuf m c) := rfl
theorem expect_rsRcv1 (c : Dev nD) : (Rd (F := F) m).expect (cellAt c (.dma rsRcv1)) 0 = N192 :=
  (expect_single m _ (duties_rsRcv1 m c)).trans (amount_rsRcv1 m c false)
theorem rest_rsRcv1 (c : Dev nD) :
    bigSep ((Rd (F := F) m).duties (cellAt c (.dma rsRcv1)) 0 \ ∅) (fun d => (Rd (F := F) m).payload (cellAt c (.dma rsRcv1)) 0 d)
      = held c rs1 fullShare (rsBuf m c) :=
  (rest_single m _ (duties_rsRcv1 m c)).trans (payload_rsRcv1 m c false)
theorem duties_rsRcv2 (c : Dev nD) : (Rd (F := F) m).duties (cellAt c (.dma rsRcv2)) 0 = {false} := duties_tc m c _
theorem amount_rsRcv2 (c : Dev nD) (d : Bool) : (Rd (F := F) m).amount (cellAt c (.dma rsRcv2)) 0 d = N192 := rfl
theorem payload_rsRcv2 (c : Dev nD) (d : Bool) : (Rd (F := F) m).payload (cellAt c (.dma rsRcv2)) 0 d = held c rs2 fullShare (rsBuf m c) := rfl
theorem expect_rsRcv2 (c : Dev nD) : (Rd (F := F) m).expect (cellAt c (.dma rsRcv2)) 0 = N192 :=
  (expect_single m _ (duties_rsRcv2 m c)).trans (amount_rsRcv2 m c false)
theorem rest_rsRcv2 (c : Dev nD) :
    bigSep ((Rd (F := F) m).duties (cellAt c (.dma rsRcv2)) 0 \ ∅) (fun d => (Rd (F := F) m).payload (cellAt c (.dma rsRcv2)) 0 d)
      = held c rs2 fullShare (rsBuf m c) :=
  (rest_single m _ (duties_rsRcv2 m c)).trans (payload_rsRcv2 m c false)
theorem duties_agSnd0 (c : Dev nD) : (Rd (F := F) m).duties (cellAt c (.dma agSnd0)) 0 = {false} := duties_tc m c _
theorem amount_agSnd0 (c : Dev nD) (d : Bool) : (Rd (F := F) m).amount (cellAt c (.dma agSnd0)) 0 d = N96 := rfl
theorem payload_agSnd0 (c : Dev nD) (d : Bool) : (Rd (F := F) m).payload (cellAt c (.dma agSnd0)) 0 d = held c ownLo fullShare.left (ownBuf m c) := rfl
theorem expect_agSnd0 (c : Dev nD) : (Rd (F := F) m).expect (cellAt c (.dma agSnd0)) 0 = N96 :=
  (expect_single m _ (duties_agSnd0 m c)).trans (amount_agSnd0 m c false)
theorem rest_agSnd0 (c : Dev nD) :
    bigSep ((Rd (F := F) m).duties (cellAt c (.dma agSnd0)) 0 \ ∅) (fun d => (Rd (F := F) m).payload (cellAt c (.dma agSnd0)) 0 d)
      = held c ownLo fullShare.left (ownBuf m c) :=
  (rest_single m _ (duties_agSnd0 m c)).trans (payload_agSnd0 m c false)
theorem duties_agSnd1 (c : Dev nD) : (Rd (F := F) m).duties (cellAt c (.dma agSnd1)) 0 = {false} := duties_tc m c _
theorem amount_agSnd1 (c : Dev nD) (d : Bool) : (Rd (F := F) m).amount (cellAt c (.dma agSnd1)) 0 d = N96 := rfl
theorem payload_agSnd1 (c : Dev nD) (d : Bool) : (Rd (F := F) m).payload (cellAt c (.dma agSnd1)) 0 d = held c ownHi fullShare.left (ownBuf m c) := rfl
theorem expect_agSnd1 (c : Dev nD) : (Rd (F := F) m).expect (cellAt c (.dma agSnd1)) 0 = N96 :=
  (expect_single m _ (duties_agSnd1 m c)).trans (amount_agSnd1 m c false)
theorem rest_agSnd1 (c : Dev nD) :
    bigSep ((Rd (F := F) m).duties (cellAt c (.dma agSnd1)) 0 \ ∅) (fun d => (Rd (F := F) m).payload (cellAt c (.dma agSnd1)) 0 d)
      = held c ownHi fullShare.left (ownBuf m c) :=
  (rest_single m _ (duties_agSnd1 m c)).trans (payload_agSnd1 m c false)
theorem duties_agSnd2 (c : Dev nD) : (Rd (F := F) m).duties (cellAt c (.dma agSnd2)) 0 = {false} := duties_tc m c _
theorem amount_agSnd2 (c : Dev nD) (d : Bool) : (Rd (F := F) m).amount (cellAt c (.dma agSnd2)) 0 d = N96 := rfl
theorem payload_agSnd2 (c : Dev nD) (d : Bool) : (Rd (F := F) m).payload (cellAt c (.dma agSnd2)) 0 d = held c ownHi fullShare.right (ownBuf m c) := rfl
theorem expect_agSnd2 (c : Dev nD) : (Rd (F := F) m).expect (cellAt c (.dma agSnd2)) 0 = N96 :=
  (expect_single m _ (duties_agSnd2 m c)).trans (amount_agSnd2 m c false)
theorem rest_agSnd2 (c : Dev nD) :
    bigSep ((Rd (F := F) m).duties (cellAt c (.dma agSnd2)) 0 \ ∅) (fun d => (Rd (F := F) m).payload (cellAt c (.dma agSnd2)) 0 d)
      = held c ownHi fullShare.right (ownBuf m c) :=
  (rest_single m _ (duties_agSnd2 m c)).trans (payload_agSnd2 m c false)
theorem duties_agSnd3 (c : Dev nD) : (Rd (F := F) m).duties (cellAt c (.dma agSnd3)) 0 = {false} := duties_tc m c _
theorem amount_agSnd3 (c : Dev nD) (d : Bool) : (Rd (F := F) m).amount (cellAt c (.dma agSnd3)) 0 d = N96 := rfl
theorem payload_agSnd3 (c : Dev nD) (d : Bool) : (Rd (F := F) m).payload (cellAt c (.dma agSnd3)) 0 d = held c ownLo fullShare.right (ownBuf m c) := rfl
theorem expect_agSnd3 (c : Dev nD) : (Rd (F := F) m).expect (cellAt c (.dma agSnd3)) 0 = N96 :=
  (expect_single m _ (duties_agSnd3 m c)).trans (amount_agSnd3 m c false)
theorem rest_agSnd3 (c : Dev nD) :
    bigSep ((Rd (F := F) m).duties (cellAt c (.dma agSnd3)) 0 \ ∅) (fun d => (Rd (F := F) m).payload (cellAt c (.dma agSnd3)) 0 d)
      = held c ownLo fullShare.right (ownBuf m c) :=
  (rest_single m _ (duties_agSnd3 m c)).trans (payload_agSnd3 m c false)
theorem duties_agSnd4 (c : Dev nD) : (Rd (F := F) m).duties (cellAt c (.dma agSnd4)) 0 = {false} := duties_tc m c _
theorem amount_agSnd4 (c : Dev nD) (d : Bool) : (Rd (F := F) m).amount (cellAt c (.dma agSnd4)) 0 d = N96 := rfl
theorem payload_agSnd4 (c : Dev nD) (d : Bool) : (Rd (F := F) m).payload (cellAt c (.dma agSnd4)) 0 d = held c ag0Lo fullShare.left (agBuf m c) := rfl
theorem expect_agSnd4 (c : Dev nD) : (Rd (F := F) m).expect (cellAt c (.dma agSnd4)) 0 = N96 :=
  (expect_single m _ (duties_agSnd4 m c)).trans (amount_agSnd4 m c false)
theorem rest_agSnd4 (c : Dev nD) :
    bigSep ((Rd (F := F) m).duties (cellAt c (.dma agSnd4)) 0 \ ∅) (fun d => (Rd (F := F) m).payload (cellAt c (.dma agSnd4)) 0 d)
      = held c ag0Lo fullShare.left (agBuf m c) :=
  (rest_single m _ (duties_agSnd4 m c)).trans (payload_agSnd4 m c false)
theorem duties_agSnd5 (c : Dev nD) : (Rd (F := F) m).duties (cellAt c (.dma agSnd5)) 0 = {false} := duties_tc m c _
theorem amount_agSnd5 (c : Dev nD) (d : Bool) : (Rd (F := F) m).amount (cellAt c (.dma agSnd5)) 0 d = N96 := rfl
theorem payload_agSnd5 (c : Dev nD) (d : Bool) : (Rd (F := F) m).payload (cellAt c (.dma agSnd5)) 0 d = held c ag1Hi fullShare.left (agBuf m c) := rfl
theorem expect_agSnd5 (c : Dev nD) : (Rd (F := F) m).expect (cellAt c (.dma agSnd5)) 0 = N96 :=
  (expect_single m _ (duties_agSnd5 m c)).trans (amount_agSnd5 m c false)
theorem rest_agSnd5 (c : Dev nD) :
    bigSep ((Rd (F := F) m).duties (cellAt c (.dma agSnd5)) 0 \ ∅) (fun d => (Rd (F := F) m).payload (cellAt c (.dma agSnd5)) 0 d)
      = held c ag1Hi fullShare.left (agBuf m c) :=
  (rest_single m _ (duties_agSnd5 m c)).trans (payload_agSnd5 m c false)
theorem duties_agRcv0 (c : Dev nD) : (Rd (F := F) m).duties (cellAt c (.dma agRcv0)) 0 = {false} := duties_tc m c _
theorem amount_agRcv0 (c : Dev nD) (d : Bool) : (Rd (F := F) m).amount (cellAt c (.dma agRcv0)) 0 d = N96 := rfl
theorem payload_agRcv0 (c : Dev nD) (d : Bool) : (Rd (F := F) m).payload (cellAt c (.dma agRcv0)) 0 d = held c ag0Lo fullShare (agBuf m c) := rfl
theorem expect_agRcv0 (c : Dev nD) : (Rd (F := F) m).expect (cellAt c (.dma agRcv0)) 0 = N96 :=
  (expect_single m _ (duties_agRcv0 m c)).trans (amount_agRcv0 m c false)
theorem rest_agRcv0 (c : Dev nD) :
    bigSep ((Rd (F := F) m).duties (cellAt c (.dma agRcv0)) 0 \ ∅) (fun d => (Rd (F := F) m).payload (cellAt c (.dma agRcv0)) 0 d)
      = held c ag0Lo fullShare (agBuf m c) :=
  (rest_single m _ (duties_agRcv0 m c)).trans (payload_agRcv0 m c false)
theorem duties_agRcv1 (c : Dev nD) : (Rd (F := F) m).duties (cellAt c (.dma agRcv1)) 0 = {false} := duties_tc m c _
theorem amount_agRcv1 (c : Dev nD) (d : Bool) : (Rd (F := F) m).amount (cellAt c (.dma agRcv1)) 0 d = N96 := rfl
theorem payload_agRcv1 (c : Dev nD) (d : Bool) : (Rd (F := F) m).payload (cellAt c (.dma agRcv1)) 0 d = held c ag0Hi fullShare (agBuf m c) := rfl
theorem expect_agRcv1 (c : Dev nD) : (Rd (F := F) m).expect (cellAt c (.dma agRcv1)) 0 = N96 :=
  (expect_single m _ (duties_agRcv1 m c)).trans (amount_agRcv1 m c false)
theorem rest_agRcv1 (c : Dev nD) :
    bigSep ((Rd (F := F) m).duties (cellAt c (.dma agRcv1)) 0 \ ∅) (fun d => (Rd (F := F) m).payload (cellAt c (.dma agRcv1)) 0 d)
      = held c ag0Hi fullShare (agBuf m c) :=
  (rest_single m _ (duties_agRcv1 m c)).trans (payload_agRcv1 m c false)
theorem duties_agRcv2 (c : Dev nD) : (Rd (F := F) m).duties (cellAt c (.dma agRcv2)) 0 = {false} := duties_tc m c _
theorem amount_agRcv2 (c : Dev nD) (d : Bool) : (Rd (F := F) m).amount (cellAt c (.dma agRcv2)) 0 d = N96 := rfl
theorem payload_agRcv2 (c : Dev nD) (d : Bool) : (Rd (F := F) m).payload (cellAt c (.dma agRcv2)) 0 d = held c ag1Lo fullShare (agBuf m c) := rfl
theorem expect_agRcv2 (c : Dev nD) : (Rd (F := F) m).expect (cellAt c (.dma agRcv2)) 0 = N96 :=
  (expect_single m _ (duties_agRcv2 m c)).trans (amount_agRcv2 m c false)
theorem rest_agRcv2 (c : Dev nD) :
    bigSep ((Rd (F := F) m).duties (cellAt c (.dma agRcv2)) 0 \ ∅) (fun d => (Rd (F := F) m).payload (cellAt c (.dma agRcv2)) 0 d)
      = held c ag1Lo fullShare (agBuf m c) :=
  (rest_single m _ (duties_agRcv2 m c)).trans (payload_agRcv2 m c false)
theorem duties_agRcv3 (c : Dev nD) : (Rd (F := F) m).duties (cellAt c (.dma agRcv3)) 0 = {false} := duties_tc m c _
theorem amount_agRcv3 (c : Dev nD) (d : Bool) : (Rd (F := F) m).amount (cellAt c (.dma agRcv3)) 0 d = N96 := rfl
theorem payload_agRcv3 (c : Dev nD) (d : Bool) : (Rd (F := F) m).payload (cellAt c (.dma agRcv3)) 0 d = held c ag1Hi fullShare (agBuf m c) := rfl
theorem expect_agRcv3 (c : Dev nD) : (Rd (F := F) m).expect (cellAt c (.dma agRcv3)) 0 = N96 :=
  (expect_single m _ (duties_agRcv3 m c)).trans (amount_agRcv3 m c false)
theorem rest_agRcv3 (c : Dev nD) :
    bigSep ((Rd (F := F) m).duties (cellAt c (.dma agRcv3)) 0 \ ∅) (fun d => (Rd (F := F) m).payload (cellAt c (.dma agRcv3)) 0 d)
      = held c ag1Hi fullShare (agBuf m c) :=
  (rest_single m _ (duties_agRcv3 m c)).trans (payload_agRcv3 m c false)
theorem duties_agRcv4 (c : Dev nD) : (Rd (F := F) m).duties (cellAt c (.dma agRcv4)) 0 = {false} := duties_tc m c _
theorem amount_agRcv4 (c : Dev nD) (d : Bool) : (Rd (F := F) m).amount (cellAt c (.dma agRcv4)) 0 d = N96 := rfl
theorem payload_agRcv4 (c : Dev nD) (d : Bool) : (Rd (F := F) m).payload (cellAt c (.dma agRcv4)) 0 d = held c ag2Lo fullShare (agBuf m c) := rfl
theorem expect_agRcv4 (c : Dev nD) : (Rd (F := F) m).expect (cellAt c (.dma agRcv4)) 0 = N96 :=
  (expect_single m _ (duties_agRcv4 m c)).trans (amount_agRcv4 m c false)
theorem rest_agRcv4 (c : Dev nD) :
    bigSep ((Rd (F := F) m).duties (cellAt c (.dma agRcv4)) 0 \ ∅) (fun d => (Rd (F := F) m).payload (cellAt c (.dma agRcv4)) 0 d)
      = held c ag2Lo fullShare (agBuf m c) :=
  (rest_single m _ (duties_agRcv4 m c)).trans (payload_agRcv4 m c false)
theorem duties_agRcv5 (c : Dev nD) : (Rd (F := F) m).duties (cellAt c (.dma agRcv5)) 0 = {false} := duties_tc m c _
theorem amount_agRcv5 (c : Dev nD) (d : Bool) : (Rd (F := F) m).amount (cellAt c (.dma agRcv5)) 0 d = N96 := rfl
theorem payload_agRcv5 (c : Dev nD) (d : Bool) : (Rd (F := F) m).payload (cellAt c (.dma agRcv5)) 0 d = held c ag2Hi fullShare (agBuf m c) := rfl
theorem expect_agRcv5 (c : Dev nD) : (Rd (F := F) m).expect (cellAt c (.dma agRcv5)) 0 = N96 :=
  (expect_single m _ (duties_agRcv5 m c)).trans (amount_agRcv5 m c false)
theorem rest_agRcv5 (c : Dev nD) :
    bigSep ((Rd (F := F) m).duties (cellAt c (.dma agRcv5)) 0 \ ∅) (fun d => (Rd (F := F) m).payload (cellAt c (.dma agRcv5)) 0 d)
      = held c ag2Hi fullShare (agBuf m c) :=
  (rest_single m _ (duties_agRcv5 m c)).trans (payload_agRcv5 m c false)

end Cert.Kernel.Mlp

end
-- ==== Proof.WGhost.lean ====
/-
  What a device owes at launch, the levels that order the waits, and the ghost state a device's body starts from.

  A device owes one unit to each neighbour's barrier cell and the credit of its nine transfers to the landing cells they
  fill. A wait is allowed only on a cell below everything the waiter still owes: the barrier cell sits at level 1, the
  first landing cell of the reduce-scatter at 2, its other two at 3, the four landing cells of the direct all-gather
  transfers at 4 and the two of the forwarded ones at 5; at each of its waits a device owes only cells above the one it
  waits on, which is the whole deadlock argument.
-/
import proofs.«900352_g7700000000000353_dist_gated_mlp_tp_i_m768_h1536_d768_v7x_i4_f32_1_alg».proof.Proof.WTables

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## What each device owes, payment by payment (the last summand is paid first) -/

/-- What a device still owes before its last transfer: the credit of the second half of slot 2 on the device before it. -/
def Oa (c : Dev nD) : CellTallies nD τ sig Unit := tallyAt (cellAt (lft c) (.dma agRcv5)) () N96
def Ob (c : Dev nD) : CellTallies nD τ sig Unit := Oa c + tallyAt (cellAt (rgt c) (.dma agRcv4)) () N96
def Oc (c : Dev nD) : CellTallies nD τ sig Unit := Ob c + tallyAt (cellAt (lft c) (.dma agRcv2)) () N96
def Od (c : Dev nD) : CellTallies nD τ sig Unit := Oc c + tallyAt (cellAt (rgt c) (.dma agRcv1)) () N96
def Oe (c : Dev nD) : CellTallies nD τ sig Unit := Od c + tallyAt (cellAt (lft c) (.dma agRcv3)) () N96
def Of (c : Dev nD) : CellTallies nD τ sig Unit := Oe c + tallyAt (cellAt (rgt c) (.dma agRcv0)) () N96
def Og (c : Dev nD) : CellTallies nD τ sig Unit := Of c + tallyAt (cellAt (par c) (.dma rsRcv2)) () N192
def Oh (c : Dev nD) : CellTallies nD τ sig Unit := Og c + tallyAt (cellAt (far c) (.dma rsRcv1)) () N192
def Oi (c : Dev nD) : CellTallies nD τ sig Unit := Oh c + tallyAt (cellAt (far c) (.dma rsRcv0)) () N192
def Oj (c : Dev nD) : CellTallies nD τ sig Unit := Oi c + tallyAt (barCell (rgt c)) () 1
def O₀ (c : Dev nD) : CellTallies nD τ sig Unit := Oj c + tallyAt (barCell (lft c)) () 1

/-! ## The levels -/

def L (g : GSem nD τ sig) : Finset Unit := if g.1.2 = .tc then {()} else ∅
def lv (g : GSem nD τ sig) (_ : Unit) : ℕ :=
  match roleOf g.2 with | .bar => 1 | .rsR 0 => 2 | .rsR _ => 3 | .agR 4 => 5 | .agR 5 => 5 | .agR _ => 4 | _ => 0

theorem L_of_ne (g : GSem nD τ sig) (h : g.1.2 ≠ .tc) : L g = ∅ := if_neg h
theorem L_tc (c : Dev nD) (sm : SemLoc sig) : L (cellAt c sm) = {()} := if_pos rfl

/-- Everything owed in `O` is a cell of a device above level `n`. -/
def Above (n : ℕ) (O : CellTallies nD τ sig Unit) : Prop := ∀ (g : GSem nD τ sig) (i : Unit), 0 < O g i → i ∈ L g ∧ n < lv g i

theorem above_tallyAt {n : ℕ} (p : Dev nD) (s : SemLoc sig) (k : ℕ) (h : n < lv (cellAt p s) ()) : Above n (tallyAt (cellAt p s) () k) := by
  intro g i hg
  obtain ⟨rfl, rfl⟩ := Pipeline.tallyAt_pos hg
  exact ⟨by rw [L_tc]; exact Finset.mem_singleton_self _, h⟩
theorem above_add {n : ℕ} {A B : CellTallies nD τ sig Unit} (hA : Above n A) (hB : Above n B) : Above n (A + B) := by
  intro g i hg
  rcases Pipeline.add_pos_cases hg with h | h
  · exact hA g i h
  · exact hB g i h
theorem above_mono {n n' : ℕ} {A : CellTallies nD τ sig Unit} (h : n' ≤ n) (hA : Above n A) : Above n' A :=
  fun g i hg => ⟨(hA g i hg).1, Nat.lt_of_le_of_lt h (hA g i hg).2⟩

theorem above_Oa (c : Dev nD) : Above 4 (Oa c) := above_tallyAt _ _ _ (by show (4 : ℕ) < 5; decide)
theorem above_Ob (c : Dev nD) : Above 4 (Ob c) := above_add (above_Oa c) (above_tallyAt _ _ _ (by show (4 : ℕ) < 5; decide))
theorem above_Oc (c : Dev nD) : Above 3 (Oc c) := above_add (above_mono (by decide) (above_Ob c)) (above_tallyAt _ _ _ (by show (3 : ℕ) < 4; decide))
theorem above_Od (c : Dev nD) : Above 3 (Od c) := above_add (above_Oc c) (above_tallyAt _ _ _ (by show (3 : ℕ) < 4; decide))
theorem above_Oe (c : Dev nD) : Above 3 (Oe c) := above_add (above_Od c) (above_tallyAt _ _ _ (by show (3 : ℕ) < 4; decide))
theorem above_Of (c : Dev nD) : Above 3 (Of c) := above_add (above_Oe c) (above_tallyAt _ _ _ (by show (3 : ℕ) < 4; decide))
theorem above_Og (c : Dev nD) : Above 2 (Og c) := above_add (above_mono (by decide) (above_Of c)) (above_tallyAt _ _ _ (by show (2 : ℕ) < 3; decide))
theorem above_Oh (c : Dev nD) : Above 2 (Oh c) := above_add (above_Og c) (above_tallyAt _ _ _ (by show (2 : ℕ) < 3; decide))
theorem above_Oi (c : Dev nD) : Above 1 (Oi c) := above_add (above_mono (by decide) (above_Oh c)) (above_tallyAt _ _ _ (by show (1 : ℕ) < 2; decide))
theorem above_Oj (c : Dev nD) : Above 0 (Oj c) := above_add (above_mono (by decide) (above_Oi c)) (above_tallyAt _ _ _ (by show (0 : ℕ) < 1; decide))
theorem above_O₀ (c : Dev nD) : Above 0 (O₀ c) := above_add (above_Oj c) (above_tallyAt _ _ _ (by show (0 : ℕ) < 1; decide))

/-- A wait on a cell at or below level `n` while owing only cells above `n`. -/
theorem mayWait_above (c : Dev nD) (s : SemLoc sig) {n : ℕ} {O : CellTallies nD τ sig Unit} (hs : lv (cellAt c s) () ≤ n) (hO : Above n O) :
    (levAts L lv : sProp 𝕄) ⊢ MayWait (c : Thread nD τ) s () O :=
  Pipeline.mayWait_of_levAts (L := L) (lev := lv) (by rw [show ((c : Thread nD τ), s) = cellAt c s from rfl, L_tc]; exact Finset.mem_singleton_self _)
    fun g i hg => ⟨(hO g i hg).1, Nat.lt_of_le_of_lt hs (hO g i hg).2⟩

/-- The six waits a device makes while it owes something. -/
theorem mayWait_bar (c : Dev nD) : (levAts L lv : sProp 𝕄) ⊢ MayWait (c : Thread nD τ) (.reg barS) () (Oi c) :=
  mayWait_above c _ (by show (1 : ℕ) ≤ 1; decide) (above_Oi c)
theorem mayWait_rsRcv0 (c : Dev nD) : (levAts L lv : sProp 𝕄) ⊢ MayWait (c : Thread nD τ) (.dma rsRcv0) () (Og c) :=
  mayWait_above c _ (by show (2 : ℕ) ≤ 2; decide) (above_Og c)
theorem mayWait_rsRcv1 (c : Dev nD) : (levAts L lv : sProp 𝕄) ⊢ MayWait (c : Thread nD τ) (.dma rsRcv1) () (Of c) :=
  mayWait_above c _ (by show (3 : ℕ) ≤ 3; decide) (above_Of c)
theorem mayWait_rsRcv2 (c : Dev nD) : (levAts L lv : sProp 𝕄) ⊢ MayWait (c : Thread nD τ) (.dma rsRcv2) () (Of c) :=
  mayWait_above c _ (by show (3 : ℕ) ≤ 3; decide) (above_Of c)
theorem mayWait_agRcv0 (c : Dev nD) : (levAts L lv : sProp 𝕄) ⊢ MayWait (c : Thread nD τ) (.dma agRcv0) () (Ob c) :=
  mayWait_above c _ (by show (4 : ℕ) ≤ 4; decide) (above_Ob c)
theorem mayWait_agRcv3 (c : Dev nD) : (levAts L lv : sProp 𝕄) ⊢ MayWait (c : Thread nD τ) (.dma agRcv3) () (Oa c) :=
  mayWait_above c _ (by show (4 : ℕ) ≤ 4; decide) (above_Oa c)
/-- A staging wait of the pipeline, at level 0, while owing everything or nothing. -/
theorem mayWait_stage (c : Dev nD) (q : DmaSem sig) (hq : lv (cellAt c (.dma q)) () = 0) (O : CellTallies nD τ sig Unit) (hO : O = O₀ c ∨ O = 0) :
    (levAts L lv : sProp 𝕄) ⊢ MayWait (c : Thread nD τ) (.dma q) () O := by
  rcases hO with rfl | rfl
  · exact mayWait_above c _ (Nat.le_of_eq hq) (above_O₀ c)
  · rw [MayWait_zero]; iintro -; iempintro

/-! ## The ghost state of a device -/

/-- The invariants device `c`'s body opens, under the names `K` the launch allocated them at: its own nineteen cells and
    the eleven cells of its peers that it pays. -/
def invs (K : Dev nD × Fin 19 → ℕ) (c : Dev nD) : sProp 𝕄 :=
  iprop(cellInv ER (Rd m) (K (c, 0)) (barCell c)
    ∗ cellInv ER (Rd m) (K (c, 1)) (cellAt c (.dma rsSnd0))
    ∗ cellInv ER (Rd m) (K (c, 2)) (cellAt c (.dma rsSnd1))
    ∗ cellInv ER (Rd m) (K (c, 3)) (cellAt c (.dma rsSnd2))
    ∗ cellInv ER (Rd m) (K (c, 4)) (cellAt c (.dma rsRcv0))
    ∗ cellInv ER (Rd m) (K (c, 5)) (cellAt c (.dma rsRcv1))
    ∗ cellInv ER (Rd m) (K (c, 6)) (cellAt c (.dma rsRcv2))
    ∗ cellInv ER (Rd m) (K (c, 7)) (cellAt c (.dma agSnd0))
    ∗ cellInv ER (Rd m) (K (c, 8)) (cellAt c (.dma agSnd1))
    ∗ cellInv ER (Rd m) (K (c, 9)) (cellAt c (.dma agSnd2))
    ∗ cellInv ER (Rd m) (K (c, 10)) (cellAt c (.dma agSnd3))
    ∗ cellInv ER (Rd m) (K (c, 11)) (cellAt c (.dma agSnd4))
    ∗ cellInv ER (Rd m) (K (c, 12)) (cellAt c (.dma agSnd5))
    ∗ cellInv ER (Rd m) (K (c, 13)) (cellAt c (.dma agRcv0))
    ∗ cellInv ER (Rd m) (K (c, 14)) (cellAt c (.dma agRcv1))
    ∗ cellInv ER (Rd m) (K (c, 15)) (cellAt c (.dma agRcv2))
    ∗ cellInv ER (Rd m) (K (c, 16)) (cellAt c (.dma agRcv3))
    ∗ cellInv ER (Rd m) (K (c, 17)) (cellAt c (.dma agRcv4))
    ∗ cellInv ER (Rd m) (K (c, 18)) (cellAt c (.dma agRcv5))
    ∗ cellInv ER (Rd m) (K (lft c, 0)) (barCell (lft c))
    ∗ cellInv ER (Rd m) (K (rgt c, 0)) (barCell (rgt c))
    ∗ cellInv ER (Rd m) (K (far c, 4)) (cellAt (far c) (.dma rsRcv0))
    ∗ cellInv ER (Rd m) (K (far c, 5)) (cellAt (far c) (.dma rsRcv1))
    ∗ cellInv ER (Rd m) (K (par c, 6)) (cellAt (par c) (.dma rsRcv2))
    ∗ cellInv ER (Rd m) (K (rgt c, 13)) (cellAt (rgt c) (.dma agRcv0))
    ∗ cellInv ER (Rd m) (K (lft c, 16)) (cellAt (lft c) (.dma agRcv3))
    ∗ cellInv ER (Rd m) (K (rgt c, 14)) (cellAt (rgt c) (.dma agRcv1))
    ∗ cellInv ER (Rd m) (K (lft c, 15)) (cellAt (lft c) (.dma agRcv2))
    ∗ cellInv ER (Rd m) (K (rgt c, 17)) (cellAt (rgt c) (.dma agRcv4))
    ∗ cellInv ER (Rd m) (K (lft c, 18)) (cellAt (lft c) (.dma agRcv5)))

instance invs_persistent (K : Dev nD × Fin 19 → ℕ) (c : Dev nD) : BI.Persistent (invs m K c) := by unfold invs; infer_instance

/-- Every cell the body touches has reached its one round. -/
def reacheds (c : Dev nD) : sProp 𝕄 :=
  iprop(reached ER (barCell c) 0
    ∗ reached ER (cellAt c (.dma rsSnd0)) 0
    ∗ reached ER (cellAt c (.dma rsSnd1)) 0
    ∗ reached ER (cellAt c (.dma rsSnd2)) 0
    ∗ reached ER (cellAt c (.dma rsRcv0)) 0
    ∗ reached ER (cellAt c (.dma rsRcv1)) 0
    ∗ reached ER (cellAt c (.dma rsRcv2)) 0
    ∗ reached ER (cellAt c (.dma agSnd0)) 0
    ∗ reached ER (cellAt c (.dma agSnd1)) 0
    ∗ reached ER (cellAt c (.dma agSnd2)) 0
    ∗ reached ER (cellAt c (.dma agSnd3)) 0
    ∗ reached ER (cellAt c (.dma agSnd4)) 0
    ∗ reached ER (cellAt c (.dma agSnd5)) 0
    ∗ reached ER (cellAt c (.dma agRcv0)) 0
    ∗ reached ER (cellAt c (.dma agRcv1)) 0
    ∗ reached ER (cellAt c (.dma agRcv2)) 0
    ∗ reached ER (cellAt c (.dma agRcv3)) 0
    ∗ reached ER (cellAt c (.dma agRcv4)) 0
    ∗ reached ER (cellAt c (.dma agRcv5)) 0
    ∗ reached ER (barCell (lft c)) 0
    ∗ reached ER (barCell (rgt c)) 0
    ∗ reached ER (cellAt (far c) (.dma rsRcv0)) 0
    ∗ reached ER (cellAt (far c) (.dma rsRcv1)) 0
    ∗ reached ER (cellAt (par c) (.dma rsRcv2)) 0
    ∗ reached ER (cellAt (rgt c) (.dma agRcv0)) 0
    ∗ reached ER (cellAt (lft c) (.dma agRcv3)) 0
    ∗ reached ER (cellAt (rgt c) (.dma agRcv1)) 0
    ∗ reached ER (cellAt (lft c) (.dma agRcv2)) 0
    ∗ reached ER (cellAt (rgt c) (.dma agRcv4)) 0
    ∗ reached ER (cellAt (lft c) (.dma agRcv5)) 0)

instance reacheds_persistent (c : Dev nD) : BI.Persistent (reacheds (F := F) c) := by unfold reacheds; infer_instance

/-- Its positions: at the start of the round of each of its own cells. -/
def positions (c : Dev nD) : sProp 𝕄 :=
  iprop(atPos ER (barCell c) 0 ∅ 0
    ∗ atPos ER (cellAt c (.dma rsSnd0)) 0 ∅ 0
    ∗ atPos ER (cellAt c (.dma rsSnd1)) 0 ∅ 0
    ∗ atPos ER (cellAt c (.dma rsSnd2)) 0 ∅ 0
    ∗ atPos ER (cellAt c (.dma rsRcv0)) 0 ∅ 0
    ∗ atPos ER (cellAt c (.dma rsRcv1)) 0 ∅ 0
    ∗ atPos ER (cellAt c (.dma rsRcv2)) 0 ∅ 0
    ∗ atPos ER (cellAt c (.dma agSnd0)) 0 ∅ 0
    ∗ atPos ER (cellAt c (.dma agSnd1)) 0 ∅ 0
    ∗ atPos ER (cellAt c (.dma agSnd2)) 0 ∅ 0
    ∗ atPos ER (cellAt c (.dma agSnd3)) 0 ∅ 0
    ∗ atPos ER (cellAt c (.dma agSnd4)) 0 ∅ 0
    ∗ atPos ER (cellAt c (.dma agSnd5)) 0 ∅ 0
    ∗ atPos ER (cellAt c (.dma agRcv0)) 0 ∅ 0
    ∗ atPos ER (cellAt c (.dma agRcv1)) 0 ∅ 0
    ∗ atPos ER (cellAt c (.dma agRcv2)) 0 ∅ 0
    ∗ atPos ER (cellAt c (.dma agRcv3)) 0 ∅ 0
    ∗ atPos ER (cellAt c (.dma agRcv4)) 0 ∅ 0
    ∗ atPos ER (cellAt c (.dma agRcv5)) 0 ∅ 0)

/-- The tokens of the duties it pays: its two barrier units, the nine landings it fills, its nine departures. -/
def payToks (c : Dev nD) : sProp 𝕄 :=
  iprop(dutyTok ER (barCell (lft c)) 0 false
    ∗ dutyTok ER (barCell (rgt c)) 0 true
    ∗ dutyTok ER (cellAt (far c) (.dma rsRcv0)) 0 false
    ∗ dutyTok ER (cellAt (far c) (.dma rsRcv1)) 0 false
    ∗ dutyTok ER (cellAt (par c) (.dma rsRcv2)) 0 false
    ∗ dutyTok ER (cellAt (rgt c) (.dma agRcv0)) 0 false
    ∗ dutyTok ER (cellAt (lft c) (.dma agRcv3)) 0 false
    ∗ dutyTok ER (cellAt (rgt c) (.dma agRcv1)) 0 false
    ∗ dutyTok ER (cellAt (lft c) (.dma agRcv2)) 0 false
    ∗ dutyTok ER (cellAt (rgt c) (.dma agRcv4)) 0 false
    ∗ dutyTok ER (cellAt (lft c) (.dma agRcv5)) 0 false
    ∗ dutyTok ER (cellAt c (.dma rsSnd0)) 0 false
    ∗ dutyTok ER (cellAt c (.dma rsSnd1)) 0 false
    ∗ dutyTok ER (cellAt c (.dma rsSnd2)) 0 false
    ∗ dutyTok ER (cellAt c (.dma agSnd0)) 0 false
    ∗ dutyTok ER (cellAt c (.dma agSnd1)) 0 false
    ∗ dutyTok ER (cellAt c (.dma agSnd2)) 0 false
    ∗ dutyTok ER (cellAt c (.dma agSnd3)) 0 false
    ∗ dutyTok ER (cellAt c (.dma agSnd4)) 0 false
    ∗ dutyTok ER (cellAt c (.dma agSnd5)) 0 false)

def ghost (K : Dev nD × Fin 19 → ℕ) (c : Dev nD) : sProp 𝕄 :=
  iprop(invs m K c ∗ reacheds c ∗ positions c ∗ payToks c)

/-- The credit others owe its cells: two units on its barrier cell, one transfer on each landing cell. -/
def credits (c : Dev nD) : sProp 𝕄 :=
  iprop(cred (tallyAt (barCell c) () 2)
    ∗ cred (tallyAt (cellAt c (.dma rsRcv0)) () N192)
    ∗ cred (tallyAt (cellAt c (.dma rsRcv1)) () N192)
    ∗ cred (tallyAt (cellAt c (.dma rsRcv2)) () N192)
    ∗ cred (tallyAt (cellAt c (.dma agRcv0)) () N96)
    ∗ cred (tallyAt (cellAt c (.dma agRcv1)) () N96)
    ∗ cred (tallyAt (cellAt c (.dma agRcv2)) () N96)
    ∗ cred (tallyAt (cellAt c (.dma agRcv3)) () N96)
    ∗ cred (tallyAt (cellAt c (.dma agRcv4)) () N96)
    ∗ cred (tallyAt (cellAt c (.dma agRcv5)) () N96))

/-- What device `c`'s body starts from. -/
def start (c : Dev nD) : sProp 𝕄 :=
  iprop((∃ K, ghost m K c) ∗ credits c ∗ levAts L lv)

/-- The four scratch buffers, whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The eighteen transfer semaphores of the device at zero. -/
def semsZero (c : Dev nD) : sProp 𝕄 :=
  iprop(semVal (cellAt c (.dma rsSnd0)) 0
    ∗ semVal (cellAt c (.dma rsSnd1)) 0
    ∗ semVal (cellAt c (.dma rsSnd2)) 0
    ∗ semVal (cellAt c (.dma rsRcv0)) 0
    ∗ semVal (cellAt c (.dma rsRcv1)) 0
    ∗ semVal (cellAt c (.dma rsRcv2)) 0
    ∗ semVal (cellAt c (.dma agSnd0)) 0
    ∗ semVal (cellAt c (.dma agSnd1)) 0
    ∗ semVal (cellAt c (.dma agSnd2)) 0
    ∗ semVal (cellAt c (.dma agSnd3)) 0
    ∗ semVal (cellAt c (.dma agSnd4)) 0
    ∗ semVal (cellAt c (.dma agSnd5)) 0
    ∗ semVal (cellAt c (.dma agRcv0)) 0
    ∗ semVal (cellAt c (.dma agRcv1)) 0
    ∗ semVal (cellAt c (.dma agRcv2)) 0
    ∗ semVal (cellAt c (.dma agRcv3)) 0
    ∗ semVal (cellAt c (.dma agRcv4)) 0
    ∗ semVal (cellAt c (.dma agRcv5)) 0)

def Φ₀ (c : Dev nD) : sProp 𝕄 := iprop(start m c ∗ scratch c)
def Φ₁ (c : Dev nD) : sProp 𝕄 := iprop(scratch (F := F) c ∗ semsZero c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stg0 m c
    | ⟨1, _⟩ => stg1 m c
    | ⟨2, _⟩ => stg2 m c
    | ⟨3, _⟩ => stg3 m c
    | ⟨4, _⟩ => outBuf m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.Mlp

end
-- ==== Proof.WLaunch1.lean ====
/-
  The launch, first part: the nineteen cells of a device numbered, the launch element of the exchange's ghost state and
  what it deals each device, and the allocation of each device's cell invariants from its semaphores at zero.
-/
import proofs.«900352_g7700000000000353_dist_gated_mlp_tp_i_m768_h1536_d768_v7x_i4_f32_1_alg».proof.Proof.WGhost
import Idealize.ShloMosaic.Lib.Pipeline.Launch
import Idealize.ShloMosaic.Lib.Pipeline.Kit
import Idealize.ShloMosaic.Lib.Tactic

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device, numbered -/

/-- The nineteen semaphores of the exchange on a device: the barrier semaphore, then the eighteen transfer semaphores. -/
abbrev csem : Fin 19 → SemLoc sig := fun
  | 0 => .reg barS
  | 1 => .dma rsSnd0
  | 2 => .dma rsSnd1
  | 3 => .dma rsSnd2
  | 4 => .dma rsRcv0
  | 5 => .dma rsRcv1
  | 6 => .dma rsRcv2
  | 7 => .dma agSnd0
  | 8 => .dma agSnd1
  | 9 => .dma agSnd2
  | 10 => .dma agSnd3
  | 11 => .dma agSnd4
  | 12 => .dma agSnd5
  | 13 => .dma agRcv0
  | 14 => .dma agRcv1
  | 15 => .dma agRcv2
  | 16 => .dma agRcv3
  | 17 => .dma agRcv4
  | 18 => .dma agRcv5
  | ⟨_ + 19, h⟩ => absurd h (Nat.not_lt.2 (Nat.le_add_left _ _))
/-- The eighteen transfer semaphores: the kernel's own, scoped to the launch. -/
abbrev osem : Fin 18 → SemLoc sig := fun
  | 0 => .dma rsSnd0
  | 1 => .dma rsSnd1
  | 2 => .dma rsSnd2
  | 3 => .dma rsRcv0
  | 4 => .dma rsRcv1
  | 5 => .dma rsRcv2
  | 6 => .dma agSnd0
  | 7 => .dma agSnd1
  | 8 => .dma agSnd2
  | 9 => .dma agSnd3
  | 10 => .dma agSnd4
  | 11 => .dma agSnd5
  | 12 => .dma agRcv0
  | 13 => .dma agRcv1
  | 14 => .dma agRcv2
  | 15 => .dma agRcv3
  | 16 => .dma agRcv4
  | 17 => .dma agRcv5
  | ⟨_ + 18, h⟩ => absurd h (Nat.not_lt.2 (Nat.le_add_left _ _))
abbrev kcell (ck : Dev nD × Fin 19) : GSem nD τ sig := cellAt ck.1 (csem ck.2)

/-- A semaphore's number among the nineteen. -/
def semNum : SemLoc sig → ℕ
  | .reg _ => 0
  | .dma q => q.val - 4

theorem semNum_csem (k : Fin 19) : semNum (csem k) = k.val := by fin_cases k <;> rfl

theorem kcell_injective : Function.Injective (kcell : Dev nD × Fin 19 → GSem nD τ sig) := by
  rintro ⟨c, k⟩ ⟨c', k'⟩ h
  have h1 : c = c' := by have := congrArg (fun g : GSem nD τ sig => g.1.1) h; exact this
  subst h1
  have h2 : csem k = csem k' := congrArg Prod.snd h
  have h3 : k = k' := Fin.ext (by rw [← semNum_csem k, ← semNum_csem k', h2])
  subst h3; rfl
def ringCells : Finset (GSem nD τ sig) := Finset.univ.map ⟨kcell, kcell_injective⟩

/-- The duty tokens minted on a device's own cells: the two of its barrier cell, then one per transfer cell. -/
abbrev tokOf (cj : Dev nD × Fin 20) : GSem nD τ sig × ℕ × Bool := match cj.2 with
  | 0 => (barCell cj.1, 0, false)
  | 1 => (barCell cj.1, 0, true)
  | 2 => (cellAt cj.1 (.dma rsSnd0), 0, false)
  | 3 => (cellAt cj.1 (.dma rsSnd1), 0, false)
  | 4 => (cellAt cj.1 (.dma rsSnd2), 0, false)
  | 5 => (cellAt cj.1 (.dma rsRcv0), 0, false)
  | 6 => (cellAt cj.1 (.dma rsRcv1), 0, false)
  | 7 => (cellAt cj.1 (.dma rsRcv2), 0, false)
  | 8 => (cellAt cj.1 (.dma agSnd0), 0, false)
  | 9 => (cellAt cj.1 (.dma agSnd1), 0, false)
  | 10 => (cellAt cj.1 (.dma agSnd2), 0, false)
  | 11 => (cellAt cj.1 (.dma agSnd3), 0, false)
  | 12 => (cellAt cj.1 (.dma agSnd4), 0, false)
  | 13 => (cellAt cj.1 (.dma agSnd5), 0, false)
  | 14 => (cellAt cj.1 (.dma agRcv0), 0, false)
  | 15 => (cellAt cj.1 (.dma agRcv1), 0, false)
  | 16 => (cellAt cj.1 (.dma agRcv2), 0, false)
  | 17 => (cellAt cj.1 (.dma agRcv3), 0, false)
  | 18 => (cellAt cj.1 (.dma agRcv4), 0, false)
  | 19 => (cellAt cj.1 (.dma agRcv5), 0, false)
  | ⟨_ + 20, h⟩ => absurd h (Nat.not_lt.2 (Nat.le_add_left _ _))

def tokNum (x : GSem nD τ sig × ℕ × Bool) : ℕ := 2 * semNum x.1.2 + (if x.2.2 then 1 else 0)
theorem tokNum_tokOf (c : Dev nD) (j : Fin 20) :
    tokNum (tokOf (c, j)) = if j.val = 0 then 0 else if j.val = 1 then 1 else 2 * j.val - 2 := by fin_cases j <;> rfl
theorem dev_tokOf (c : Dev nD) (j : Fin 20) : (tokOf (c, j)).1.1.1 = c := by fin_cases j <;> rfl

theorem tokOf_injective : Function.Injective (tokOf : Dev nD × Fin 20 → GSem nD τ sig × ℕ × Bool) := by
  rintro ⟨c, j⟩ ⟨c', j'⟩ h
  have h1 : c = c' := by rw [← dev_tokOf c j, ← dev_tokOf c' j', h]
  subst h1
  have h2 := congrArg tokNum h
  rw [tokNum_tokOf, tokNum_tokOf] at h2
  have h3 : j = j' := Fin.ext (by split_ifs at h2 <;> omega)
  subst h3; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

theorem ownSemFacts : Pipeline.OwnSemFacts cfg0.spec osem := by decide

/-! ## What the launch element deals each device -/

/-- The duty tokens of device `c`'s own cells. -/
def toks (c : Dev nD) : sProp 𝕄 :=
  iprop(dutyTok ER (barCell c) 0 false
    ∗ dutyTok ER (barCell c) 0 true
    ∗ dutyTok ER (cellAt c (.dma rsSnd0)) 0 false
    ∗ dutyTok ER (cellAt c (.dma rsSnd1)) 0 false
    ∗ dutyTok ER (cellAt c (.dma rsSnd2)) 0 false
    ∗ dutyTok ER (cellAt c (.dma rsRcv0)) 0 false
    ∗ dutyTok ER (cellAt c (.dma rsRcv1)) 0 false
    ∗ dutyTok ER (cellAt c (.dma rsRcv2)) 0 false
    ∗ dutyTok ER (cellAt c (.dma agSnd0)) 0 false
    ∗ dutyTok ER (cellAt c (.dma agSnd1)) 0 false
    ∗ dutyTok ER (cellAt c (.dma agSnd2)) 0 false
    ∗ dutyTok ER (cellAt c (.dma agSnd3)) 0 false
    ∗ dutyTok ER (cellAt c (.dma agSnd4)) 0 false
    ∗ dutyTok ER (cellAt c (.dma agSnd5)) 0 false
    ∗ dutyTok ER (cellAt c (.dma agRcv0)) 0 false
    ∗ dutyTok ER (cellAt c (.dma agRcv1)) 0 false
    ∗ dutyTok ER (cellAt c (.dma agRcv2)) 0 false
    ∗ dutyTok ER (cellAt c (.dma agRcv3)) 0 false
    ∗ dutyTok ER (cellAt c (.dma agRcv4)) 0 false
    ∗ dutyTok ER (cellAt c (.dma agRcv5)) 0 false)

/-- What the launch element deals device `c`: the round state of its nineteen cells, its position on each and that
    each has reached its round, and the tokens of their duties. -/
def G (c : Dev nD) : sProp 𝕄 :=
  iprop((bigSep Finset.univ fun k : Fin 19 => roundState ER (Rd m) (kcell (c, k)) 0)
    ∗ (bigSep Finset.univ fun k : Fin 19 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin19 (Φ : Fin 19 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ
theorem bigSep_fin20 (Φ : Fin 20 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 19 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin20]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

/-- The eighteen transfer semaphores are the kernel's own; -/
theorem ownSems0_eq (c : Dev nD) : (Pipeline.ownSems0 (Ix := Unit) (Name := ℕ) (U := UU) (Lvl := ℕ) (Val := Elt F) (τ := τ) osem c : sProp 𝕄)
    = semsZero c := by
  rw [Pipeline.ownSems0_eq_of_list c osem [0, 1, 2, 3, 4, 5, 6, 7, 8, 9, 10, 11, 12, 13, 14, 15, 16, 17] (by decide) (by decide)]; rfl
/-- the barrier semaphore is the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 19 => semVal (kcell (c, k)) 0 : sProp 𝕄) := by
  rw [ownSems0_eq, unscopedSems0_eq, bigSep_fin19]
  unfold semsZero
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 19 => semVal (kcell (c, k)) 0) ∗ bigSep Finset.univ fun k : Fin 19 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

end Cert.Kernel.Mlp

end
-- ==== Proof.WLaunch.lean ====
/-
  The launch, second part: from the cell invariants of all devices, each device's ghost state (the records every device
  reads, the duty tokens dealt to the devices that pay them); the credit a device is dealt for what its peers owe its
  cells; and the run of the whole program on the four devices, given that each device's body meets its obligation,
  with the final contents of the five windowed arrays read off.
-/
import proofs.«900352_g7700000000000353_dist_gated_mlp_tp_i_m768_h1536_d768_v7x_i4_f32_1_alg».proof.Proof.WLaunch1
import Idealize.ShloMosaic.Lib.Pipeline.Launch
import Idealize.ShloMosaic.Lib.Pipeline.Kit
import Idealize.ShloMosaic.Lib.Tactic

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The records every device reads, and each device's ghost state from them -/

def records (K : Dev nD × Fin 19 → ℕ) : sProp 𝕄 :=
  iprop((bigSep Finset.univ fun ck : Dev nD × Fin 19 => cellInv ER (Rd m) (K ck) (kcell ck))
    ∗ bigSep Finset.univ fun ck : Dev nD × Fin 19 => reached ER (kcell ck) 0)

instance records_persistent (K : Dev nD × Fin 19 → ℕ) : BI.Persistent (records m K) := by unfold records; infer_instance

theorem inv_at0 (K : Dev nD × Fin 19 → ℕ) (ck : Dev nD × Fin 19) :
    (bigSep Finset.univ fun ck : Dev nD × Fin 19 => (cellInv ER (Rd m) (K ck) (kcell ck) : sProp 𝕄)) ⊢ cellInv ER (Rd m) (K ck) (kcell ck) :=
  bigSep_elim (Finset.mem_univ ck)
theorem reached_at0 (ck : Dev nD × Fin 19) :
    (bigSep Finset.univ fun ck : Dev nD × Fin 19 => (reached ER (kcell ck) 0 : sProp 𝕄)) ⊢ reached ER (kcell ck) 0 :=
  bigSep_elim (Finset.mem_univ ck)
theorem inv_at (K : Dev nD × Fin 19 → ℕ) (ck : Dev nD × Fin 19) : records m K ⊢ cellInv ER (Rd m) (K ck) (kcell ck) := by
  unfold records
  iintro ⟨H, -⟩
  iapply (inv_at0 m K ck)
  iexact H
theorem reached_at (K : Dev nD × Fin 19 → ℕ) (ck : Dev nD × Fin 19) : records m K ⊢ reached ER (kcell ck) 0 := by
  unfold records
  iintro ⟨-, H⟩
  iapply (reached_at0 (F := F) ck)
  iexact H

/-- A persistent assertion yields a conjunction when it yields each part. -/
theorem pers_sep {R A B : sProp 𝕄} [BI.Persistent R] (hA : R ⊢ A) (hB : R ⊢ B) : R ⊢ iprop(A ∗ B) := by
  iintro #H
  isplitr
  · iapply hA; iexact H
  · iapply hB; iexact H

theorem records_invs (K : Dev nD × Fin 19 → ℕ) (c : Dev nD) : records m K ⊢ invs m K c := by
  unfold invs
  exact pers_sep (inv_at m K (c, 0)) (pers_sep (inv_at m K (c, 1)) (pers_sep (inv_at m K (c, 2)) (pers_sep (inv_at m K (c, 3)) (pers_sep (inv_at m K (c, 4)) (pers_sep (inv_at m K (c, 5)) (pers_sep (inv_at m K (c, 6)) (pers_sep (inv_at m K (c, 7)) (pers_sep (inv_at m K (c, 8)) (pers_sep (inv_at m K (c, 9)) (pers_sep (inv_at m K (c, 10)) (pers_sep (inv_at m K (c, 11)) (pers_sep (inv_at m K (c, 12)) (pers_sep (inv_at m K (c, 13)) (pers_sep (inv_at m K (c, 14)) (pers_sep (inv_at m K (c, 15)) (pers_sep (inv_at m K (c, 16)) (pers_sep (inv_at m K (c, 17)) (pers_sep (inv_at m K (c, 18)) (pers_sep (inv_at m K (lft c, 0)) (pers_sep (inv_at m K (rgt c, 0)) (pers_sep (inv_at m K (far c, 4)) (pers_sep (inv_at m K (far c, 5)) (pers_sep (inv_at m K (par c, 6)) (pers_sep (inv_at m K (rgt c, 13)) (pers_sep (inv_at m K (lft c, 16)) (pers_sep (inv_at m K (rgt c, 14)) (pers_sep (inv_at m K (lft c, 15)) (pers_sep (inv_at m K (rgt c, 17)) (inv_at m K (lft c, 18))))))))))))))))))))))))))))))

theorem records_reacheds (K : Dev nD × Fin 19 → ℕ) (c : Dev nD) : records m K ⊢ reacheds c := by
  unfold reacheds
  exact pers_sep (reached_at m K (c, 0)) (pers_sep (reached_at m K (c, 1)) (pers_sep (reached_at m K (c, 2)) (pers_sep (reached_at m K (c, 3)) (pers_sep (reached_at m K (c, 4)) (pers_sep (reached_at m K (c, 5)) (pers_sep (reached_at m K (c, 6)) (pers_sep (reached_at m K (c, 7)) (pers_sep (reached_at m K (c, 8)) (pers_sep (reached_at m K (c, 9)) (pers_sep (reached_at m K (c, 10)) (pers_sep (reached_at m K (c, 11)) (pers_sep (reached_at m K (c, 12)) (pers_sep (reached_at m K (c, 13)) (pers_sep (reached_at m K (c, 14)) (pers_sep (reached_at m K (c, 15)) (pers_sep (reached_at m K (c, 16)) (pers_sep (reached_at m K (c, 17)) (pers_sep (reached_at m K (c, 18)) (pers_sep (reached_at m K (lft c, 0)) (pers_sep (reached_at m K (rgt c, 0)) (pers_sep (reached_at m K (far c, 4)) (pers_sep (reached_at m K (far c, 5)) (pers_sep (reached_at m K (par c, 6)) (pers_sep (reached_at m K (rgt c, 13)) (pers_sep (reached_at m K (lft c, 16)) (pers_sep (reached_at m K (rgt c, 14)) (pers_sep (reached_at m K (lft c, 15)) (pers_sep (reached_at m K (rgt c, 17)) (reached_at m K (lft c, 18))))))))))))))))))))))))))))))

/-- What stays with device `c`: its positions, and the tokens of the duties it pays. -/
def linear (c : Dev nD) : sProp 𝕄 := iprop(positions (F := F) c ∗ payToks c)

theorem ghost_intro (K : Dev nD × Fin 19 → ℕ) (c : Dev nD) : iprop(records m K ∗ linear c) ⊢ G' m c := by
  unfold linear G' ghost
  iintro ⟨#HR, Hpos, Hpay⟩
  iexists K
  isplitr; · iapply (records_invs m K c); iexact HR
  isplitr; · iapply (records_reacheds m K c); iexact HR
  isplitl [Hpos]; · iexact Hpos
  iexact Hpay

/-! ## The tokens dealt around -/

def eLft : Dev nD ≃ Dev nD := ⟨lft, rgt, rgt_lft, lft_rgt⟩
def eRgt : Dev nD ≃ Dev nD := ⟨rgt, lft, lft_rgt, rgt_lft⟩
def eFar : Dev nD ≃ Dev nD := ⟨far, far, far_far, far_far⟩
def ePar : Dev nD ≃ Dev nD := ⟨par, par, par_par, par_par⟩

/-- Each token goes to the device that pays its duty: a barrier cell's two to the two ring neighbours, the landing cells
    of the reduce-scatter to the partner of that exchange, the landing cells of the all-gather to the neighbour that fills
    them; the tokens of the departures stay. -/
theorem toks_around : (bigSep Finset.univ fun c : Dev nD => (toks c : sProp 𝕄)) ⊢ bigSep Finset.univ fun c : Dev nD => payToks c := by
  unfold toks payToks
  simp only [bigSep_sep']
  rw [bigSep_univ_equiv eLft (fun c : Dev nD => (dutyTok ER (barCell c) 0 false : sProp 𝕄)),
    bigSep_univ_equiv eRgt (fun c : Dev nD => (dutyTok ER (barCell c) 0 true : sProp 𝕄)),
    bigSep_univ_equiv eFar (fun c : Dev nD => (dutyTok ER (cellAt c (.dma rsRcv0)) 0 false : sProp 𝕄)),
    bigSep_univ_equiv eFar (fun c : Dev nD => (dutyTok ER (cellAt c (.dma rsRcv1)) 0 false : sProp 𝕄)),
    bigSep_univ_equiv ePar (fun c : Dev nD => (dutyTok ER (cellAt c (.dma rsRcv2)) 0 false : sProp 𝕄)),
    bigSep_univ_equiv eRgt (fun c : Dev nD => (dutyTok ER (cellAt c (.dma agRcv0)) 0 false : sProp 𝕄)),
    bigSep_univ_equiv eRgt (fun c : Dev nD => (dutyTok ER (cellAt c (.dma agRcv1)) 0 false : sProp 𝕄)),
    bigSep_univ_equiv eLft (fun c : Dev nD => (dutyTok ER (cellAt c (.dma agRcv2)) 0 false : sProp 𝕄)),
    bigSep_univ_equiv eLft (fun c : Dev nD => (dutyTok ER (cellAt c (.dma agRcv3)) 0 false : sProp 𝕄)),
    bigSep_univ_equiv eRgt (fun c : Dev nD => (dutyTok ER (cellAt c (.dma agRcv4)) 0 false : sProp 𝕄)),
    bigSep_univ_equiv eLft (fun c : Dev nD => (dutyTok ER (cellAt c (.dma agRcv5)) 0 false : sProp 𝕄))]
  iintro ⟨H0, H1, H2, H3, H4, H5, H6, H7, H8, H9, H10, H11, H12, H13, H14, H15, H16, H17, H18, H19⟩
  isplitl [H0]; · iexact H0
  isplitl [H1]; · iexact H1
  isplitl [H5]; · iexact H5
  isplitl [H6]; · iexact H6
  isplitl [H7]; · iexact H7
  isplitl [H14]; · iexact H14
  isplitl [H17]; · iexact H17
  isplitl [H15]; · iexact H15
  isplitl [H16]; · iexact H16
  isplitl [H18]; · iexact H18
  isplitl [H19]; · iexact H19
  isplitl [H2]; · iexact H2
  isplitl [H3]; · iexact H3
  isplitl [H4]; · iexact H4
  isplitl [H8]; · iexact H8
  isplitl [H9]; · iexact H9
  isplitl [H10]; · iexact H10
  isplitl [H11]; · iexact H11
  isplitl [H12]; · iexact H12
  iexact H13

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 19 => iprop(∃ κ : ℕ, cellInv ER (Rd m) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄))]
  iintro ⟨HI, ⟨Hat, #HR⟩, Htok⟩
  ihave HK := (BI.bigSep_exists_pi Finset.univ (fun (ck : Dev nD × Fin 19) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 19 => (atPos ER (kcell (c, k)) 0 ∅ 0 : sProp 𝕄)) payToks).symm).trans
      (bigSep_mono fun c _ => show _ ⊢ linear c from Entails.of_eq (by
        unfold linear positions
        exact congrArg (fun X : sProp 𝕄 => iprop(X ∗ payToks c)) (bigSep_fin19 _))))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

section Dues
variable (sm : SemLoc sig) (n : ℕ) (c : Dev nD)

/-- Every device owing `n` units on semaphore `sm` of one of its peers, device `c` is dealt `n` units of credit on its own. -/
theorem due_lft : (Pipeline.launchCred (fun d : Dev nD => tallyAt (cellAt (lft d) sm) () n) c : sProp 𝕄) ⊢ cred (tallyAt (cellAt c sm) () n) :=
  Pipeline.launchCred_tallyAt sm lft rgt lft_rgt rgt_lft () n c
theorem due_rgt : (Pipeline.launchCred (fun d : Dev nD => tallyAt (cellAt (rgt d) sm) () n) c : sProp 𝕄) ⊢ cred (tallyAt (cellAt c sm) () n) :=
  Pipeline.launchCred_tallyAt sm rgt lft rgt_lft lft_rgt () n c
theorem due_far : (Pipeline.launchCred (fun d : Dev nD => tallyAt (cellAt (far d) sm) () n) c : sProp 𝕄) ⊢ cred (tallyAt (cellAt c sm) () n) :=
  Pipeline.launchCred_tallyAt sm far far far_far far_far () n c
theorem due_par : (Pipeline.launchCred (fun d : Dev nD => tallyAt (cellAt (par d) sm) () n) c : sProp 𝕄) ⊢ cred (tallyAt (cellAt c sm) () n) :=
  Pipeline.launchCred_tallyAt sm par par par_par par_par () n c

end Dues

theorem split_O₀ (c : Dev nD) : (Pipeline.launchCred O₀ c : sProp 𝕄)
    ⊢ iprop(Pipeline.launchCred Oj c ∗ Pipeline.launchCred (fun d : Dev nD => tallyAt (cellAt (lft d) (.reg barS)) () 1) c) :=
  Entails.of_eq (Pipeline.launchCred_add Oj (fun d : Dev nD => tallyAt (cellAt (lft d) (.reg barS)) () 1) c)
theorem split_Oj (c : Dev nD) : (Pipeline.launchCred Oj c : sProp 𝕄)
    ⊢ iprop(Pipeline.launchCred Oi c ∗ Pipeline.launchCred (fun d : Dev nD => tallyAt (cellAt (rgt d) (.reg barS)) () 1) c) :=
  Entails.of_eq (Pipeline.launchCred_add Oi (fun d : Dev nD => tallyAt (cellAt (rgt d) (.reg barS)) () 1) c)
theorem split_Oi (c : Dev nD) : (Pipeline.launchCred Oi c : sProp 𝕄)
    ⊢ iprop(Pipeline.launchCred Oh c ∗ Pipeline.launchCred (fun d : Dev nD => tallyAt (cellAt (far d) (.dma rsRcv0)) () N192) c) :=
  Entails.of_eq (Pipeline.launchCred_add Oh (fun d : Dev nD => tallyAt (cellAt (far d) (.dma rsRcv0)) () N192) c)
theorem split_Oh (c : Dev nD) : (Pipeline.launchCred Oh c : sProp 𝕄)
    ⊢ iprop(Pipeline.launchCred Og c ∗ Pipeline.launchCred (fun d : Dev nD => tallyAt (cellAt (far d) (.dma rsRcv1)) () N192) c) :=
  Entails.of_eq (Pipeline.launchCred_add Og (fun d : Dev nD => tallyAt (cellAt (far d) (.dma rsRcv1)) () N192) c)
theorem split_Og (c : Dev nD) : (Pipeline.launchCred Og c : sProp 𝕄)
    ⊢ iprop(Pipeline.launchCred Of c ∗ Pipeline.launchCred (fun d : Dev nD => tallyAt (cellAt (par d) (.dma rsRcv2)) () N192) c) :=
  Entails.of_eq (Pipeline.launchCred_add Of (fun d : Dev nD => tallyAt (cellAt (par d) (.dma rsRcv2)) () N192) c)
theorem split_Of (c : Dev nD) : (Pipeline.launchCred Of c : sProp 𝕄)
    ⊢ iprop(Pipeline.launchCred Oe c ∗ Pipeline.launchCred (fun d : Dev nD => tallyAt (cellAt (rgt d) (.dma agRcv0)) () N96) c) :=
  Entails.of_eq (Pipeline.launchCred_add Oe (fun d : Dev nD => tallyAt (cellAt (rgt d) (.dma agRcv0)) () N96) c)
theorem split_Oe (c : Dev nD) : (Pipeline.launchCred Oe c : sProp 𝕄)
    ⊢ iprop(Pipeline.launchCred Od c ∗ Pipeline.launchCred (fun d : Dev nD => tallyAt (cellAt (lft d) (.dma agRcv3)) () N96) c) :=
  Entails.of_eq (Pipeline.launchCred_add Od (fun d : Dev nD => tallyAt (cellAt (lft d) (.dma agRcv3)) () N96) c)
theorem split_Od (c : Dev nD) : (Pipeline.launchCred Od c : sProp 𝕄)
    ⊢ iprop(Pipeline.launchCred Oc c ∗ Pipeline.launchCred (fun d : Dev nD => tallyAt (cellAt (rgt d) (.dma agRcv1)) () N96) c) :=
  Entails.of_eq (Pipeline.launchCred_add Oc (fun d : Dev nD => tallyAt (cellAt (rgt d) (.dma agRcv1)) () N96) c)
theorem split_Oc (c : Dev nD) : (Pipeline.launchCred Oc c : sProp 𝕄)
    ⊢ iprop(Pipeline.launchCred Ob c ∗ Pipeline.launchCred (fun d : Dev nD => tallyAt (cellAt (lft d) (.dma agRcv2)) () N96) c) :=
  Entails.of_eq (Pipeline.launchCred_add Ob (fun d : Dev nD => tallyAt (cellAt (lft d) (.dma agRcv2)) () N96) c)
theorem split_Ob (c : Dev nD) : (Pipeline.launchCred Ob c : sProp 𝕄)
    ⊢ iprop(Pipeline.launchCred Oa c ∗ Pipeline.launchCred (fun d : Dev nD => tallyAt (cellAt (rgt d) (.dma agRcv4)) () N96) c) :=
  Entails.of_eq (Pipeline.launchCred_add Oa (fun d : Dev nD => tallyAt (cellAt (rgt d) (.dma agRcv4)) () N96) c)

theorem split_Oa (c : Dev nD) : (Pipeline.launchCred Oa c : sProp 𝕄)
    ⊢ Pipeline.launchCred (fun d : Dev nD => tallyAt (cellAt (lft d) (.dma agRcv5)) () N96) c :=
  Entails.of_eq rfl

/-- The two units owed a barrier cell are one credit of two. -/
theorem two_units (c : Dev nD) :
    iprop(cred (tallyAt (barCell c) () 1) ∗ cred (tallyAt (barCell c) () 1)) ⊢ (cred (tallyAt (barCell c) () 2) : sProp 𝕄) := by
  show _ ⊢ cred (tallyAt (barCell c) () (1 + 1))
  rw [← tallyAt_add]
  exact (cred_add _ _).2

/-- What the devices owe device `c`'s cells at launch is the credit its body waits with. -/
theorem creds (c : Dev nD) : (Pipeline.launchCred O₀ c : sProp 𝕄) ⊢ credits c := by
  iintro H
  ihave H := (split_O₀ (F := F) c) $$ H
  icases H with ⟨H, Hbl⟩
  ihave H := (split_Oj (F := F) c) $$ H
  icases H with ⟨H, Hbr⟩
  ihave H := (split_Oi (F := F) c) $$ H
  icases H with ⟨H, Hr0⟩
  ihave H := (split_Oh (F := F) c) $$ H
  icases H with ⟨H, Hr1⟩
  ihave H := (split_Og (F := F) c) $$ H
  icases H with ⟨H, Hr2⟩
  ihave H := (split_Of (F := F) c) $$ H
  icases H with ⟨H, Ha0⟩
  ihave H := (split_Oe (F := F) c) $$ H
  icases H with ⟨H, Ha3⟩
  ihave H := (split_Od (F := F) c) $$ H
  icases H with ⟨H, Ha1⟩
  ihave H := (split_Oc (F := F) c) $$ H
  icases H with ⟨H, Ha2⟩
  ihave H := (split_Ob (F := F) c) $$ H
  icases H with ⟨Ha5, Ha4⟩
  ihave Ha5 := (split_Oa (F := F) c) $$ Ha5
  ihave Hbl := (due_lft (F := F) (.reg barS) 1 c) $$ Hbl
  ihave Hbr := (due_rgt (F := F) (.reg barS) 1 c) $$ Hbr
  ihave Hr0 := (due_far (F := F) (.dma rsRcv0) N192 c) $$ Hr0
  ihave Hr1 := (due_far (F := F) (.dma rsRcv1) N192 c) $$ Hr1
  ihave Hr2 := (due_par (F := F) (.dma rsRcv2) N192 c) $$ Hr2
  ihave Ha0 := (due_rgt (F := F) (.dma agRcv0) N96 c) $$ Ha0
  ihave Ha3 := (due_lft (F := F) (.dma agRcv3) N96 c) $$ Ha3
  ihave Ha1 := (due_rgt (F := F) (.dma agRcv1) N96 c) $$ Ha1
  ihave Ha2 := (due_lft (F := F) (.dma agRcv2) N96 c) $$ Ha2
  ihave Ha4 := (due_rgt (F := F) (.dma agRcv4) N96 c) $$ Ha4
  ihave Ha5 := (due_lft (F := F) (.dma agRcv5) N96 c) $$ Ha5
  unfold credits
  isplitl [Hbl Hbr]
  · iapply (two_units (F := F) c)
    isplitl [Hbl] <;> iassumption
  isplitl [Hr0]; · iexact Hr0
  isplitl [Hr1]; · iexact Hr1
  isplitl [Hr2]; · iexact Hr2
  isplitl [Ha0]; · iexact Ha0
  isplitl [Ha1]; · iexact Ha1
  isplitl [Ha2]; · iexact Ha2
  isplitl [Ha3]; · iexact Ha3
  isplitl [Ha4]; · iexact Ha4
  iexact Ha5

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

/-- Every device's windowed arrays end at the contents the proof data computes. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- At the mesh of four devices, for any float values, from any memory with zero counters: when each device's body meets
    its obligation, every weakly fair execution of the program — the four kernels meeting at the barrier, exchanging
    their partial sums and gathering the reduced chunks — terminates, and every final state has each device's windowed
    arrays at the computed contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Mlp.run_main' depends on axioms: [propext, Classical.choice, Quot.sound] -/
#guard_msgs in #print axioms run_main

/-! ## The final arrays, read -/

/-- The four argument arrays end holding what they held. -/
theorem finalA_in0 (c : Dev nD) : (dats m ρ 0 c).arrAt (0 : Fin 5) cfg0.N = (s₀ m ρ).mem (win0_0.arr.view.loc (c : Thread nD τ)) :=
  (dats (F := F) m ρ 0 c).arrAt_in (0 : Fin 5) rfl _
theorem finalA_in1 (c : Dev nD) : (dats m ρ 0 c).arrAt (1 : Fin 5) cfg0.N = (s₀ m ρ).mem (win0_1.arr.view.loc (c : Thread nD τ)) :=
  (dats (F := F) m ρ 0 c).arrAt_in (1 : Fin 5) rfl _
theorem finalA_in2 (c : Dev nD) : (dats m ρ 0 c).arrAt (2 : Fin 5) cfg0.N = (s₀ m ρ).mem (win0_2.arr.view.loc (c : Thread nD τ)) :=
  (dats (F := F) m ρ 0 c).arrAt_in (2 : Fin 5) rfl _
theorem finalA_in3 (c : Dev nD) : (dats m ρ 0 c).arrAt (3 : Fin 5) cfg0.N = (s₀ m ρ).mem (win0_3.arr.view.loc (c : Thread nD τ)) :=
  (dats (F := F) m ρ 0 c).arrAt_in (3 : Fin 5) rfl _

/-- The result array, read through its one block, is what the body left in the staging buffer at the one point. -/
theorem final_out (c : Dev nD) :
    ((cfg0.win (4 : Fin 5)).blk t₀).view.read (Elt F) ((dats m ρ 0 c).arrAt (4 : Fin 5) cfg0.N) = (dats m ρ 0 c).flushed (4 : Fin 5) t₀ := by
  rw [show cfg0.N = (t₀ : Fin cfg0.N).val + 1 from rfl, (dats m ρ 0 c).arrAt_succ (4 : Fin 5) t₀]
  rw [flush0_4 t₀, if_pos rfl]
  exact View.read_write_univ _ _

/-- The result array ends holding what the body computes: the window is the whole array, written back at the one point. -/
theorem finalA_out (c : Dev nD) : (dats m ρ 0 c).arrAt (4 : Fin 5) cfg0.N = outBuf m c := by
  have ho := final_out m ρ c
  have hz : (fun a => (win0_4.index t₀) a * main_v1.ty.shape.size a) = fun _ => 0 := funext fun a => by fin_cases a <;> decide
  have hr := fun f => Memref.read_access_unit_zero (Elt F) main_v1 hz (fun a => by fin_cases a <;> decide) f
  rw [hr] at ho
  rw [ho]
  rfl

end Cert.Kernel.Mlp

end
-- ==== Proof.WBodyDefs.lean ====
/-
  What one device's body starts from and what it leaves: the statement of the body's run.

  It starts from its ghost state, the credit others owe its cells, the level facts, its four scratch buffers at any
  contents, what it owes (everything), and the five staging buffers: the four inputs holding the device's copy of `x`
  and its blocks of the three weight arrays, the result buffer holding anything. It leaves the scratch buffers whole
  again, its eighteen transfer semaphores at zero, nothing owed, the inputs as they were and the result buffer holding the
  full result: its own reduced chunk and the three it gathered.
-/
import proofs.«900352_g7700000000000353_dist_gated_mlp_tp_i_m768_h1536_d768_v7x_i4_f32_1_alg».proof.Proof.WGhost

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A staging buffer of device `c` held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 19 → ℕ) (c : Dev nD) : sProp 𝕄 :=
  iprop((ghost m K c ∗ credits c ∗ levAts L lv ∗ scratch c)
    ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ (F := F) c ∗ (dats m ρ 0 c).owesAt () t₀.succ
    ∗ stg c cc0_stg0_0 (stg0 m c) ∗ stg c cc0_stg1_0 (stg1 m c) ∗ stg c cc0_stg2_0 (stg2 m c) ∗ stg c cc0_stg3_0 (stg3 m c)
    ∗ stg c cc0_stg4_0 (outBuf m c))

/-- The statement of the body's run on device `c`. -/
def BodyRuns (c : Dev nD) : Prop :=
  ∀ (K : Dev nD × Fin 19 → ℕ) (Kt : PUnit → sProp 𝕄),
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scratch4 cc0_scratch5 cc0_scratch6 cc0_scratch7) Kt

end Cert.Kernel.Mlp

end
-- ==== Proof.WBodyWrap.lean ====
/-
  The body's run as the pipeline's obligation at its one grid point: the five staging buffers are whole buffers, so owning
  each through its memref is holding it whole at the contents named.
-/
import proofs.«900352_g7700000000000353_dist_gated_mlp_tp_i_m768_h1536_d768_v7x_i4_f32_1_alg».proof.Proof.WBodyDefs

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

set_option maxRecDepth 4000 in
/-- The library's body obligation on device `c`, from the body's run. -/
theorem body_obligation (c : Dev nD) (h : BodyRuns m ρ c) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scratch4 cc0_scratch5 cc0_scratch6 cc0_scratch7) (fun _ => bodyPost m ρ c)
  unfold bodyPre' Φ₀ start
  iintro ⟨⟨⟨⟨%K, Hg⟩, Hcr, Hlev⟩, Hscr⟩, Ho, Hx0, Hx1, Hx2, Hx3, Hx4⟩
  iapply (h K fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx0]; · iexact Hx0
    isplitl [Hx1]; · iexact Hx1
    isplitl [Hx2]; · iexact Hx2
    isplitl [Hx3]; · iexact Hx3
    iexact Hx4
  · iintro H; iexact H

end Cert.Kernel.Mlp

end
-- ==== Proof.WGeom1.lean ====
/-
  The regions of the four scratch buffers.

  A three-slot buffer (3 × 192 × 768) is the disjoint union of its three slots, told apart by the first coordinate; a slot
  is its two halves of 96 rows, told apart by the second; the own chunk (192 × 768) is its two halves of 96 rows. So a
  points-to of a whole buffer, at any share, is the separating conjunction of the points-tos of its slots (or
  half-slots, or halves) at the same contents. A region at the full share is its two half shares; and only the values on
  a region matter to it.
-/
import proofs.«900352_g7700000000000353_dist_gated_mlp_tp_i_m768_h1536_d768_v7x_i4_f32_1_alg».proof.Proof.WSched

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Which elements a slot covers -/

/-- An element lies in slot `k` of a three-slot buffer exactly when its first coordinate is `k`. -/
theorem mem_slot (k : Nat) (inb : ∀ a, (![k, 0, 0] : Fin 3 → Nat) a + S1x192x768.size a ≤ S3x192x768.size a) (i : S3x192x768.Idx) :
    i ∈ (Rect.unit (s := S3x192x768) ![k, 0, 0] S1x192x768.size inb).set ↔ (i 0).val = k := by
  rw [Rect.mem_set_unit]
  constructor
  · intro h
    have h0 : k ≤ (i 0).val ∧ (i 0).val < k + 1 := h 0
    omega
  · intro h a
    match a with
    | ⟨0, _⟩ => exact (show k ≤ (i 0).val ∧ (i 0).val < k + 1 by omega)
    | ⟨1, _⟩ => exact (show 0 ≤ (i 1).val ∧ (i 1).val < 0 + 192 from ⟨Nat.zero_le _, by have h1 : (i 1).val < 192 := (i 1).isLt; omega⟩)
    | ⟨2, _⟩ => exact (show 0 ≤ (i 2).val ∧ (i 2).val < 0 + 768 from ⟨Nat.zero_le _, by have h2 : (i 2).val < 768 := (i 2).isLt; omega⟩)

/-! ## Splitting a points-to along disjoint element sets, as equalities -/

section Generic
variable {ℓ : Loc nD τ sig} {q : PosShare TreeShare} {f : Buf (Elt F) ℓ}

omit [FloatOps F] in
theorem pointsTo_union_eq {I J : Finset (Idx ℓ)} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

omit [FloatOps F] in
theorem carve2 {A0 A1 : Finset (Idx ℓ)} (hcov : Finset.univ = A0 ∪ A1) (hd : Disjoint A0 A1) :
    (ℓ ↦{q} f : sProp 𝕄) = iprop((ℓ ↦[A0]{q} f) ∗ ℓ ↦[A1]{q} f) := by
  rw [hcov, pointsTo_union_eq hd]

omit [FloatOps F] in
theorem carve3 {A0 A1 A2 : Finset (Idx ℓ)} (hcov : Finset.univ = A0 ∪ (A1 ∪ A2)) (hd0 : Disjoint A0 (A1 ∪ A2))
    (hd1 : Disjoint A1 A2) :
    (ℓ ↦{q} f : sProp 𝕄) = iprop((ℓ ↦[A0]{q} f) ∗ (ℓ ↦[A1]{q} f) ∗ ℓ ↦[A2]{q} f) := by
  rw [hcov, pointsTo_union_eq hd0, pointsTo_union_eq hd1]

end Generic

/-- Three sets of elements told apart by the first coordinate being 0, 1, 2 cover a three-slot buffer and are disjoint. -/
theorem slots_partition {A0 A1 A2 : Finset S3x192x768.Idx} (h0 : ∀ i, i ∈ A0 ↔ (i 0).val = 0) (h1 : ∀ i, i ∈ A1 ↔ (i 0).val = 1)
    (h2 : ∀ i, i ∈ A2 ↔ (i 0).val = 2) :
    Finset.univ = A0 ∪ (A1 ∪ A2) ∧ Disjoint A0 (A1 ∪ A2) ∧ Disjoint A1 A2 := by
  refine ⟨?_, ?_, ?_⟩
  · ext i
    have hi : (i 0).val < 3 := (i 0).isLt
    simp only [Finset.mem_univ, Finset.mem_union, h0, h1, h2, true_iff]
    omega
  · rw [Finset.disjoint_left]
    intro i hi hj
    simp only [Finset.mem_union, h0, h1, h2] at hi hj
    omega
  · rw [Finset.disjoint_left]
    intro i hi hj
    rw [h1] at hi; rw [h2] at hj
    omega

/-! ## The slot views' elements -/

omit [FloatOps F] in
theorem mem_rs0 (i : S3x192x768.Idx) : i ∈ (rs0 : Memref sig .tc .vmem S192x768 .bf16).view.set ↔ (i 0).val = 0 := by
  simp only [Memref.view_squeeze, Memref.view_slice, Memref.view_whole, View.set_reshape, View.set_slice_whole]
  exact mem_slot 0 _ i
omit [FloatOps F] in
theorem mem_rs1 (i : S3x192x768.Idx) : i ∈ (rs1 : Memref sig .tc .vmem S192x768 .bf16).view.set ↔ (i 0).val = 1 := by
  simp only [Memref.view_squeeze, Memref.view_slice, Memref.view_whole, View.set_reshape, View.set_slice_whole]
  exact mem_slot 1 _ i
omit [FloatOps F] in
theorem mem_rs2 (i : S3x192x768.Idx) : i ∈ (rs2 : Memref sig .tc .vmem S192x768 .bf16).view.set ↔ (i 0).val = 2 := by
  simp only [Memref.view_squeeze, Memref.view_slice, Memref.view_whole, View.set_reshape, View.set_slice_whole]
  exact mem_slot 2 _ i
omit [FloatOps F] in
theorem mem_sb0 (i : S3x192x768.Idx) : i ∈ (sb0 : Memref sig .tc .vmem S192x768 .bf16).view.set ↔ (i 0).val = 0 := by
  simp only [Memref.view_squeeze, Memref.view_slice, Memref.view_whole, View.set_reshape, View.set_slice_whole]
  exact mem_slot 0 _ i
omit [FloatOps F] in
theorem mem_sb1 (i : S3x192x768.Idx) : i ∈ (sb1 : Memref sig .tc .vmem S192x768 .bf16).view.set ↔ (i 0).val = 1 := by
  simp only [Memref.view_squeeze, Memref.view_slice, Memref.view_whole, View.set_reshape, View.set_slice_whole]
  exact mem_slot 1 _ i
omit [FloatOps F] in
theorem mem_sb2 (i : S3x192x768.Idx) : i ∈ (sb2 : Memref sig .tc .vmem S192x768 .bf16).view.set ↔ (i 0).val = 2 := by
  simp only [Memref.view_squeeze, Memref.view_slice, Memref.view_whole, View.set_reshape, View.set_slice_whole]
  exact mem_slot 2 _ i

/-! ## G1: a whole three-slot buffer is its three slots, at any share -/

omit [FloatOps F] in
/-- The reduce-scatter landing buffer is its three slots. -/
theorem rs_carve (c : Dev nD) (q : PosShare TreeShare) (f : Buf (Elt F) ((c : Thread nD τ).loc cc0_scratch1)) :
    ((c : Thread nD τ).loc cc0_scratch1 ↦{q} f : sProp 𝕄) = iprop(held c rs0 q f ∗ held c rs1 q f ∗ held c rs2 q f) := by
  obtain ⟨hcov, hd0, hd1⟩ := slots_partition mem_rs0 mem_rs1 mem_rs2
  exact carve3 hcov hd0 hd1

omit [FloatOps F] in
/-- The send buffer is its three slots. -/
theorem sb_carve (c : Dev nD) (q : PosShare TreeShare) (f : Buf (Elt F) ((c : Thread nD τ).loc cc0_scratch0)) :
    ((c : Thread nD τ).loc cc0_scratch0 ↦{q} f : sProp 𝕄) = iprop(held c sb0 q f ∗ held c sb1 q f ∗ held c sb2 q f) := by
  obtain ⟨hcov, hd0, hd1⟩ := slots_partition mem_sb0 mem_sb1 mem_sb2
  exact carve3 hcov hd0 hd1

/-! ## The halves of the own chunk, and the half-slots of the all-gather landing buffer -/

/-- An element lies in the 96 rows from row `o` of a 192-row chunk exactly when its row does. -/
theorem mem_rows (o : Nat) (inb : ∀ a, (![o, 0] : Fin 2 → Nat) a + S96x768.size a ≤ S192x768.size a) (i : S192x768.Idx) :
    i ∈ (Rect.unit (s := S192x768) ![o, 0] S96x768.size inb).set ↔ o ≤ (i 0).val ∧ (i 0).val < o + 96 := by
  rw [Rect.mem_set_unit]
  constructor
  · intro h
    exact (show o ≤ (i 0).val ∧ (i 0).val < o + 96 from h 0)
  · intro h a
    match a with
    | ⟨0, _⟩ => exact (show o ≤ (i 0).val ∧ (i 0).val < o + 96 from h)
    | ⟨1, _⟩ => exact (show 0 ≤ (i 1).val ∧ (i 1).val < 0 + 768 from ⟨Nat.zero_le _, by have h1 : (i 1).val < 768 := (i 1).isLt; omega⟩)

/-- An element lies in the 96 rows from row `o` of slot `k` exactly when its slot is `k` and its row is among them. -/
theorem mem_half (k o : Nat) (inb : ∀ a, (![k, o, 0] : Fin 3 → Nat) a + S1x96x768.size a ≤ S3x192x768.size a) (i : S3x192x768.Idx) :
    i ∈ (Rect.unit (s := S3x192x768) ![k, o, 0] S1x96x768.size inb).set ↔ (i 0).val = k ∧ o ≤ (i 1).val ∧ (i 1).val < o + 96 := by
  rw [Rect.mem_set_unit]
  constructor
  · intro h
    have h0 : k ≤ (i 0).val ∧ (i 0).val < k + 1 := h 0
    have h1 : o ≤ (i 1).val ∧ (i 1).val < o + 96 := h 1
    omega
  · intro h a
    match a with
    | ⟨0, _⟩ => exact (show k ≤ (i 0).val ∧ (i 0).val < k + 1 by omega)
    | ⟨1, _⟩ => exact (show o ≤ (i 1).val ∧ (i 1).val < o + 96 from h.2)
    | ⟨2, _⟩ => exact (show 0 ≤ (i 2).val ∧ (i 2).val < 0 + 768 from ⟨Nat.zero_le _, by have h2 : (i 2).val < 768 := (i 2).isLt; omega⟩)

omit [FloatOps F] in
theorem mem_ownLo (i : S192x768.Idx) : i ∈ (ownLo : Memref sig .tc .vmem S96x768 .bf16).view.set ↔ (i 0).val < 96 := by
  simp only [Memref.view_slice, Memref.view_whole, View.set_slice_whole]
  rw [mem_rows 0 _ i]; omega
omit [FloatOps F] in
theorem mem_ownHi (i : S192x768.Idx) : i ∈ (ownHi : Memref sig .tc .vmem S96x768 .bf16).view.set ↔ 96 ≤ (i 0).val := by
  have hi : (i 0).val < 192 := (i 0).isLt
  simp only [Memref.view_slice, Memref.view_whole, View.set_slice_whole]
  rw [mem_rows 96 _ i]; omega

omit [FloatOps F] in
theorem mem_ag0Lo (i : S3x192x768.Idx) : i ∈ (ag0Lo : Memref sig .tc .vmem S96x768 .bf16).view.set ↔ (i 0).val = 0 ∧ (i 1).val < 96 := by
  simp only [Memref.view_squeeze, Memref.view_slice, Memref.view_whole, View.set_reshape, View.set_slice_whole]
  rw [mem_half 0 0 _ i]; omega
omit [FloatOps F] in
theorem mem_ag0Hi (i : S3x192x768.Idx) : i ∈ (ag0Hi : Memref sig .tc .vmem S96x768 .bf16).view.set ↔ (i 0).val = 0 ∧ 96 ≤ (i 1).val := by
  have hi : (i 1).val < 192 := (i 1).isLt
  simp only [Memref.view_squeeze, Memref.view_slice, Memref.view_whole, View.set_reshape, View.set_slice_whole]
  rw [mem_half 0 96 _ i]; omega
omit [FloatOps F] in
theorem mem_ag1Lo (i : S3x192x768.Idx) : i ∈ (ag1Lo : Memref sig .tc .vmem S96x768 .bf16).view.set ↔ (i 0).val = 1 ∧ (i 1).val < 96 := by
  simp only [Memref.view_squeeze, Memref.view_slice, Memref.view_whole, View.set_reshape, View.set_slice_whole]
  rw [mem_half 1 0 _ i]; omega
omit [FloatOps F] in
theorem mem_ag1Hi (i : S3x192x768.Idx) : i ∈ (ag1Hi : Memref sig .tc .vmem S96x768 .bf16).view.set ↔ (i 0).val = 1 ∧ 96 ≤ (i 1).val := by
  have hi : (i 1).val < 192 := (i 1).isLt
  simp only [Memref.view_squeeze, Memref.view_slice, Memref.view_whole, View.set_reshape, View.set_slice_whole]
  rw [mem_half 1 96 _ i]; omega
omit [FloatOps F] in
theorem mem_ag2Lo (i : S3x192x768.Idx) : i ∈ (ag2Lo : Memref sig .tc .vmem S96x768 .bf16).view.set ↔ (i 0).val = 2 ∧ (i 1).val < 96 := by
  simp only [Memref.view_squeeze, Memref.view_slice, Memref.view_whole, View.set_reshape, View.set_slice_whole]
  rw [mem_half 2 0 _ i]; omega
omit [FloatOps F] in
theorem mem_ag2Hi (i : S3x192x768.Idx) : i ∈ (ag2Hi : Memref sig .tc .vmem S96x768 .bf16).view.set ↔ (i 0).val = 2 ∧ 96 ≤ (i 1).val := by
  have hi : (i 1).val < 192 := (i 1).isLt
  simp only [Memref.view_squeeze, Memref.view_slice, Memref.view_whole, View.set_reshape, View.set_slice_whole]
  rw [mem_half 2 96 _ i]; omega

omit [FloatOps F] in
/-- The device's own reduced chunk is its two halves. -/
theorem own_carve (c : Dev nD) (q : PosShare TreeShare) (f : Buf (Elt F) ((c : Thread nD τ).loc cc0_scratch2)) :
    ((c : Thread nD τ).loc cc0_scratch2 ↦{q} f : sProp 𝕄) = iprop(held c ownLo q f ∗ held c ownHi q f) := by
  refine carve2 ?_ ?_
  · ext i
    simp only [Finset.mem_univ, Finset.mem_union, true_iff]
    rcases Nat.lt_or_ge (i 0).val 96 with h | h
    · exact Or.inl ((mem_ownLo i).mpr h)
    · exact Or.inr ((mem_ownHi i).mpr h)
  · rw [Finset.disjoint_left]
    intro i hi hj
    have h1 := (mem_ownLo i).mp hi
    have h2 := (mem_ownHi i).mp hj
    omega

section Generic6
variable {ℓ : Loc nD τ sig} {q : PosShare TreeShare} {f : Buf (Elt F) ℓ}
omit [FloatOps F] in
theorem carve6 {A0 A1 A2 A3 A4 A5 : Finset (Idx ℓ)} (hcov : Finset.univ = A0 ∪ (A1 ∪ (A2 ∪ (A3 ∪ (A4 ∪ A5)))))
    (hd0 : Disjoint A0 (A1 ∪ (A2 ∪ (A3 ∪ (A4 ∪ A5))))) (hd1 : Disjoint A1 (A2 ∪ (A3 ∪ (A4 ∪ A5))))
    (hd2 : Disjoint A2 (A3 ∪ (A4 ∪ A5))) (hd3 : Disjoint A3 (A4 ∪ A5)) (hd4 : Disjoint A4 A5) :
    (ℓ ↦{q} f : sProp 𝕄) = iprop((ℓ ↦[A0]{q} f) ∗ (ℓ ↦[A1]{q} f) ∗ (ℓ ↦[A2]{q} f) ∗ (ℓ ↦[A3]{q} f) ∗ (ℓ ↦[A4]{q} f) ∗ ℓ ↦[A5]{q} f) := by
  rw [hcov, pointsTo_union_eq hd0, pointsTo_union_eq hd1, pointsTo_union_eq hd2, pointsTo_union_eq hd3, pointsTo_union_eq hd4]
end Generic6

/-- Six sets of elements told apart by the slot and by the half of its rows cover a three-slot buffer and are disjoint. -/
theorem halves_partition {L0 H0 L1 H1 L2 H2 : Finset S3x192x768.Idx}
    (l0 : ∀ i, i ∈ L0 ↔ (i 0).val = 0 ∧ (i 1).val < 96) (h0 : ∀ i, i ∈ H0 ↔ (i 0).val = 0 ∧ 96 ≤ (i 1).val)
    (l1 : ∀ i, i ∈ L1 ↔ (i 0).val = 1 ∧ (i 1).val < 96) (h1 : ∀ i, i ∈ H1 ↔ (i 0).val = 1 ∧ 96 ≤ (i 1).val)
    (l2 : ∀ i, i ∈ L2 ↔ (i 0).val = 2 ∧ (i 1).val < 96) (h2 : ∀ i, i ∈ H2 ↔ (i 0).val = 2 ∧ 96 ≤ (i 1).val) :
    Finset.univ = L0 ∪ (H0 ∪ (L1 ∪ (H1 ∪ (L2 ∪ H2)))) ∧ Disjoint L0 (H0 ∪ (L1 ∪ (H1 ∪ (L2 ∪ H2))))
      ∧ Disjoint H0 (L1 ∪ (H1 ∪ (L2 ∪ H2))) ∧ Disjoint L1 (H1 ∪ (L2 ∪ H2)) ∧ Disjoint H1 (L2 ∪ H2) ∧ Disjoint L2 H2 := by
  refine ⟨?_, ?_, ?_, ?_, ?_, ?_⟩
  · ext i
    have hi : (i 0).val < 3 := (i 0).isLt
    simp only [Finset.mem_univ, Finset.mem_union, l0, h0, l1, h1, l2, h2, true_iff]
    omega
  all_goals
    rw [Finset.disjoint_left]
    intro i hi hj
    simp only [Finset.mem_union, l0, h0, l1, h1, l2, h2] at hi hj
    omega

omit [FloatOps F] in
/-- The all-gather landing buffer is its six half-slots. -/
theorem ag_carve (c : Dev nD) (q : PosShare TreeShare) (f : Buf (Elt F) ((c : Thread nD τ).loc cc0_scratch3)) :
    ((c : Thread nD τ).loc cc0_scratch3 ↦{q} f : sProp 𝕄)
      = iprop(held c ag0Lo q f ∗ held c ag0Hi q f ∗ held c ag1Lo q f ∗ held c ag1Hi q f ∗ held c ag2Lo q f ∗ held c ag2Hi q f) := by
  obtain ⟨hcov, hd0, hd1, hd2, hd3, hd4⟩ := halves_partition mem_ag0Lo mem_ag0Hi mem_ag1Lo mem_ag1Hi mem_ag2Lo mem_ag2Hi
  exact carve6 hcov hd0 hd1 hd2 hd3 hd4
  all_goals
    rw [Finset.disjoint_left]
    intro i hi hj
    simp only [Finset.mem_union, mem_ag0Lo, mem_ag0Hi, mem_ag1Lo, mem_ag1Hi, mem_ag2Lo, mem_ag2Hi] at hi hj
    omega

/-! ## G2: halving the share of a region -/

omit [FloatOps F] in
theorem held_halve (p : Dev nD) {sh : Shape} (M : Memref sig .tc .vmem sh .bf16) (X : Buf (Elt F) (M.view.loc (p : Thread nD τ))) :
    (held p M fullShare X : sProp 𝕄) = iprop(held p M fullShare.left X ∗ held p M fullShare.right X) :=
  BI.equiv_iff.mp ⟨(pointsTo_share (PosShare.mem_left_op_right fullShare)).1, (pointsTo_share (PosShare.mem_left_op_right fullShare)).2⟩

/-! ## G3: only the values on the region matter -/

omit [FloatOps F] in
theorem held_congr (p : Dev nD) {sh : Shape} (M : Memref sig .tc .vmem sh .bf16) (q : PosShare TreeShare)
    (X Y : Buf (Elt F) (M.view.loc (p : Thread nD τ))) (h : ∀ i ∈ M.view.set, X i = Y i) :
    (held p M q X : sProp 𝕄) = held p M q Y :=
  pointsTo_congr h

end Cert.Kernel.Mlp

end
-- ==== Proof.WBodyMid.lean ====
/-
  The body's run cut in three at two points of the program, and what a device holds at each.

  FIRST POINT: the reduce-scatter is over and the first all-gather transfer (the lower half of the device's reduced chunk, to
  the device after it) is under way. The device has its three landing slots at their final contents, the upper half of
  its own chunk whole and the lower half at the share not lent, the five regions of its neighbours' all-gather buffers it
  has yet to fill, the result buffer with its own chunk written; it still owes the five other all-gather landings.
  SECOND POINT: the last chunk of the result is written. Every transfer has been issued and every landing waited for; the
  device owes nothing, holds its landing buffers (two half-slots at the share not lent to the forwarded transfers) and the
  full result, and has the nine departures' credit in hand: what remains is to wait for them, put the buffers together
  again and close the cells.
-/
import proofs.«900352_g7700000000000353_dist_gated_mlp_tp_i_m768_h1536_d768_v7x_i4_f32_1_alg».proof.Proof.WBodyDefs
import proofs.«900352_g7700000000000353_dist_gated_mlp_tp_i_m768_h1536_d768_v7x_i4_f32_1_alg».proof.Proof.WGeom1

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The four input staging buffers, as they were. -/
def inputsHeld (c : Dev nD) : sProp 𝕄 :=
  iprop(((Memref.whole cc0_stg0_0 : Memref sig .tc .vmem S768x768 .f32).view.loc (c : Thread nD τ) ↦[(Memref.whole cc0_stg0_0 : Memref sig .tc .vmem S768x768 .f32).view.set]{fullShare} (stg0 m c))
    ∗ ((Memref.whole cc0_stg1_0 : Memref sig .tc .vmem S768x1536 .f32).view.loc (c : Thread nD τ) ↦[(Memref.whole cc0_stg1_0 : Memref sig .tc .vmem S768x1536 .f32).view.set]{fullShare} (stg1 m c))
    ∗ ((Memref.whole cc0_stg2_0 : Memref sig .tc .vmem S768x1536 .f32).view.loc (c : Thread nD τ) ↦[(Memref.whole cc0_stg2_0 : Memref sig .tc .vmem S768x1536 .f32).view.set]{fullShare} (stg2 m c))
    ∗ ((Memref.whole cc0_stg3_0 : Memref sig .tc .vmem S1536x768 .f32).view.loc (c : Thread nD τ) ↦[(Memref.whole cc0_stg3_0 : Memref sig .tc .vmem S1536x768 .f32).view.set]{fullShare} (stg3 m c)))

/-- What device `c` holds at the first point. -/
def M1 (K : Dev nD × Fin 19 → ℕ) (c : Dev nD) : sProp 𝕄 :=
  iprop((invs m K c ∗ reacheds c ∗ levAts L lv)
    ∗ (atPos ER (barCell c) 1 ∅ 0
      ∗ atPos ER (cellAt c (.dma rsRcv0)) 1 ∅ 0
      ∗ atPos ER (cellAt c (.dma rsRcv1)) 1 ∅ 0
      ∗ atPos ER (cellAt c (.dma rsRcv2)) 1 ∅ 0
      ∗ atPos ER (cellAt c (.dma rsSnd0)) 0 ∅ 0
      ∗ atPos ER (cellAt c (.dma rsSnd1)) 0 ∅ 0
      ∗ atPos ER (cellAt c (.dma rsSnd2)) 0 ∅ 0
      ∗ atPos ER (cellAt c (.dma agSnd0)) 0 ∅ 0
      ∗ atPos ER (cellAt c (.dma agSnd1)) 0 ∅ 0
      ∗ atPos ER (cellAt c (.dma agSnd2)) 0 ∅ 0
      ∗ atPos ER (cellAt c (.dma agSnd3)) 0 ∅ 0
      ∗ atPos ER (cellAt c (.dma agSnd4)) 0 ∅ 0
      ∗ atPos ER (cellAt c (.dma agSnd5)) 0 ∅ 0
      ∗ atPos ER (cellAt c (.dma agRcv0)) 0 ∅ 0
      ∗ atPos ER (cellAt c (.dma agRcv1)) 0 ∅ 0
      ∗ atPos ER (cellAt c (.dma agRcv2)) 0 ∅ 0
      ∗ atPos ER (cellAt c (.dma agRcv3)) 0 ∅ 0
      ∗ atPos ER (cellAt c (.dma agRcv4)) 0 ∅ 0
      ∗ atPos ER (cellAt c (.dma agRcv5)) 0 ∅ 0)
    ∗ (dutyTok ER (cellAt (lft c) (.dma agRcv3)) 0 false
      ∗ dutyTok ER (cellAt (rgt c) (.dma agRcv1)) 0 false
      ∗ dutyTok ER (cellAt (lft c) (.dma agRcv2)) 0 false
      ∗ dutyTok ER (cellAt (rgt c) (.dma agRcv4)) 0 false
      ∗ dutyTok ER (cellAt (lft c) (.dma agRcv5)) 0 false
      ∗ dutyTok ER (cellAt c (.dma agSnd1)) 0 false
      ∗ dutyTok ER (cellAt c (.dma agSnd2)) 0 false
      ∗ dutyTok ER (cellAt c (.dma agSnd3)) 0 false
      ∗ dutyTok ER (cellAt c (.dma agSnd4)) 0 false
      ∗ dutyTok ER (cellAt c (.dma agSnd5)) 0 false)
    ∗ (cred (tallyAt (cellAt c (.dma rsSnd0)) () N192)
      ∗ cred (tallyAt (cellAt c (.dma rsSnd1)) () N192)
      ∗ cred (tallyAt (cellAt c (.dma rsSnd2)) () N192)
      ∗ cred (tallyAt (cellAt c (.dma agSnd0)) () N96)
      ∗ cred (tallyAt (cellAt c (.dma agRcv0)) () N96)
      ∗ cred (tallyAt (cellAt c (.dma agRcv1)) () N96)
      ∗ cred (tallyAt (cellAt c (.dma agRcv2)) () N96)
      ∗ cred (tallyAt (cellAt c (.dma agRcv3)) () N96)
      ∗ cred (tallyAt (cellAt c (.dma agRcv4)) () N96)
      ∗ cred (tallyAt (cellAt c (.dma agRcv5)) () N96))
    ∗ (∃ W, owes (c : Thread nD τ) (Oe c) W)
    ∗ (held c rs0 fullShare (rsBuf m c)
      ∗ held c rs1 fullShare (rsBuf m c)
      ∗ held c rs2 fullShare (rsBuf m c)
      ∗ held c ownHi fullShare (ownBuf m c)
      ∗ held c ownLo fullShare.right (ownBuf m c)
      ∗ free (rgt c) ag0Hi
      ∗ free (rgt c) ag2Lo
      ∗ free (lft c) ag1Hi
      ∗ free (lft c) ag1Lo
      ∗ free (lft c) ag2Hi)
    ∗ inputsHeld m c
    ∗ (∃ x4, ((Memref.whole cc0_stg4_0 : Memref sig .tc .vmem S768x768 .f32).view.loc (c : Thread nD τ) ↦[(Memref.whole cc0_stg4_0 : Memref sig .tc .vmem S768x768 .f32).view.set]{fullShare} (((Memref.whole cc0_stg4_0 : Memref sig .tc .vmem S768x768 .f32).access (Rect.unit (s := S768x768) (k0_off4 c) S192x768.size (k0_off4_inb c))).write (Elt F) x4 (ACC m c) Finset.univ))))

/-- What device `c` holds at the second point. -/
def M2 (K : Dev nD × Fin 19 → ℕ) (c : Dev nD) : sProp 𝕄 :=
  iprop((invs m K c ∗ reacheds c ∗ levAts L lv)
    ∗ (atPos ER (barCell c) 1 ∅ 0
      ∗ atPos ER (cellAt c (.dma rsRcv0)) 1 ∅ 0
      ∗ atPos ER (cellAt c (.dma rsRcv1)) 1 ∅ 0
      ∗ atPos ER (cellAt c (.dma rsRcv2)) 1 ∅ 0
      ∗ atPos ER (cellAt c (.dma agRcv0)) 1 ∅ 0
      ∗ atPos ER (cellAt c (.dma agRcv1)) 1 ∅ 0
      ∗ atPos ER (cellAt c (.dma agRcv2)) 1 ∅ 0
      ∗ atPos ER (cellAt c (.dma agRcv3)) 1 ∅ 0
      ∗ atPos ER (cellAt c (.dma agRcv4)) 1 ∅ 0
      ∗ atPos ER (cellAt c (.dma agRcv5)) 1 ∅ 0
      ∗ atPos ER (cellAt c (.dma rsSnd0)) 0 ∅ 0
      ∗ atPos ER (cellAt c (.dma rsSnd1)) 0 ∅ 0
      ∗ atPos ER (cellAt c (.dma rsSnd2)) 0 ∅ 0
      ∗ atPos ER (cellAt c (.dma agSnd0)) 0 ∅ 0
      ∗ atPos ER (cellAt c (.dma agSnd1)) 0 ∅ 0
      ∗ atPos ER (cellAt c (.dma agSnd2)) 0 ∅ 0
      ∗ atPos ER (cellAt c (.dma agSnd3)) 0 ∅ 0
      ∗ atPos ER (cellAt c (.dma agSnd4)) 0 ∅ 0
      ∗ atPos ER (cellAt c (.dma agSnd5)) 0 ∅ 0)
    ∗ (cred (tallyAt (cellAt c (.dma rsSnd0)) () N192)
      ∗ cred (tallyAt (cellAt c (.dma rsSnd1)) () N192)
      ∗ cred (tallyAt (cellAt c (.dma rsSnd2)) () N192)
      ∗ cred (tallyAt (cellAt c (.dma agSnd0)) () N96)
      ∗ cred (tallyAt (cellAt c (.dma agSnd1)) () N96)
      ∗ cred (tallyAt (cellAt c (.dma agSnd2)) () N96)
      ∗ cred (tallyAt (cellAt c (.dma agSnd3)) () N96)
      ∗ cred (tallyAt (cellAt c (.dma agSnd4)) () N96)
      ∗ cred (tallyAt (cellAt c (.dma agSnd5)) () N96))
    ∗ (∃ W, owes (c : Thread nD τ) 0 W)
    ∗ (held c rs0 fullShare (rsBuf m c)
      ∗ held c rs1 fullShare (rsBuf m c)
      ∗ held c rs2 fullShare (rsBuf m c)
      ∗ held c ag0Lo fullShare.right (agBuf m c)
      ∗ held c ag0Hi fullShare (agBuf m c)
      ∗ held c ag1Lo fullShare (agBuf m c)
      ∗ held c ag1Hi fullShare.right (agBuf m c)
      ∗ held c ag2Lo fullShare (agBuf m c)
      ∗ held c ag2Hi fullShare (agBuf m c))
    ∗ inputsHeld m c
    ∗ ((Memref.whole cc0_stg4_0 : Memref sig .tc .vmem S768x768 .f32).view.loc (c : Thread nD τ) ↦[(Memref.whole cc0_stg4_0 : Memref sig .tc .vmem S768x768 .f32).view.set]{fullShare} (outBuf m c)))

/-- The middle stretch: the three other direct all-gather transfers, the two forwarded ones, the six landings and the
    three gathered chunks written, over any continuation. (The words `v13 v24 v37` are the ring neighbours' and the
    opposite device's ids as the program carries them; nothing here reads them.) -/
def MidRuns (c : Dev nD) : Prop :=
  ∀ (K : Dev nD × Fin 19 → ℕ) (v13 v24 v37 : BitVec 32) (α : Type) (kk : PUnit.{1} → Prog (TpuEff nD τ sig (Elt F) Λ₀ .tc) α) (Kt : α → sProp 𝕄),
    iprop(M1 m K c ∗ (M2 m K c -∗ wp frame (wpE (defs₀ (F := F)) 𝒱₀ c none) Set.univ (kk ⟨⟩) Kt))
      ⊢ wp frame (wpE (defs₀ (F := F)) 𝒱₀ c none) Set.univ
        (do
          k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v13 v24
          k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v13 v24
          k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v13 v24
          k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v13 v24 v37
          kk ⟨⟩) Kt

/-- The closing stretch: the nine waits for the departures, the buffers whole again, the cells closed. -/
def EndRuns (c : Dev nD) : Prop :=
  ∀ (K : Dev nD × Fin 19 → ℕ) (Kt : PUnit → sProp 𝕄),
    iprop(M2 m K c ∗ (bodyPost m ρ c -∗ Kt ⟨⟩))
      ⊢ wp frame (wpE (defs₀ (F := F)) 𝒱₀ c none) Set.univ
        (do
          k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
          k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
          Prog.lift (.waitDma2 agSnd5 ag2Hi ag1Hi
            (((Memref.isWhole_whole cc0_scratch3).wordExact_slice rfl _ wordsbf16_S3x192x768_S1x96x768_2_96_0).reshape _ _)
            (((Memref.isWhole_whole cc0_scratch3).wordExact_slice rfl _ wordsbf16_S3x192x768_S1x96x768_1_96_0).reshape _ _))
          pure ⟨⟩) Kt

end Cert.Kernel.Mlp

end
-- ==== Proof.WBodyFront.lean ====
/-
  The first stretch of the body's run cut once more, after the first exchange is issued.

  EARLY POINT: the device has passed the barrier, stored slots 0 and 1 of its send buffer and issued the two transfers of
  the first exchange to its first partner. It holds slot 2 of the send buffer and its own-chunk buffer at whatever they
  hold, the landing regions of its peers it has yet to fill (slot 2 of its second partner's reduce-scatter buffer and the
  six half-slots of its neighbours' all-gather buffers), the inputs and the result buffer untouched; it still owes the
  third reduce-scatter landing and the six all-gather landings.
-/
import proofs.«900352_g7700000000000353_dist_gated_mlp_tp_i_m768_h1536_d768_v7x_i4_f32_1_alg».proof.Proof.WBodyMid

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device `c` holds at the early point. -/
def M0 (K : Dev nD × Fin 19 → ℕ) (c : Dev nD) : sProp 𝕄 :=
  iprop((invs m K c ∗ reacheds c ∗ levAts L lv)
    ∗ (atPos ER (barCell c) 1 ∅ 0
      ∗ atPos ER (cellAt c (.dma rsRcv0)) 0 ∅ 0
      ∗ atPos ER (cellAt c (.dma rsRcv1)) 0 ∅ 0
      ∗ atPos ER (cellAt c (.dma rsRcv2)) 0 ∅ 0
      ∗ atPos ER (cellAt c (.dma rsSnd0)) 0 ∅ 0
      ∗ atPos ER (cellAt c (.dma rsSnd1)) 0 ∅ 0
      ∗ atPos ER (cellAt c (.dma rsSnd2)) 0 ∅ 0
      ∗ atPos ER (cellAt c (.dma agSnd0)) 0 ∅ 0
      ∗ atPos ER (cellAt c (.dma agSnd1)) 0 ∅ 0
      ∗ atPos ER (cellAt c (.dma agSnd2)) 0 ∅ 0
      ∗ atPos ER (cellAt c (.dma agSnd3)) 0 ∅ 0
      ∗ atPos ER (cellAt c (.dma agSnd4)) 0 ∅ 0
      ∗ atPos ER (cellAt c (.dma agSnd5)) 0 ∅ 0
      ∗ atPos ER (cellAt c (.dma agRcv0)) 0 ∅ 0
      ∗ atPos ER (cellAt c (.dma agRcv1)) 0 ∅ 0
      ∗ atPos ER (cellAt c (.dma agRcv2)) 0 ∅ 0
      ∗ atPos ER (cellAt c (.dma agRcv3)) 0 ∅ 0
      ∗ atPos ER (cellAt c (.dma agRcv4)) 0 ∅ 0
      ∗ atPos ER (cellAt c (.dma agRcv5)) 0 ∅ 0)
    ∗ (dutyTok ER (cellAt (par c) (.dma rsRcv2)) 0 false
      ∗ dutyTok ER (cellAt (rgt c) (.dma agRcv0)) 0 false
      ∗ dutyTok ER (cellAt (lft c) (.dma agRcv3)) 0 false
      ∗ dutyTok ER (cellAt (rgt c) (.dma agRcv1)) 0 false
      ∗ dutyTok ER (cellAt (lft c) (.dma agRcv2)) 0 false
      ∗ dutyTok ER (cellAt (rgt c) (.dma agRcv4)) 0 false
      ∗ dutyTok ER (cellAt (lft c) (.dma agRcv5)) 0 false
      ∗ dutyTok ER (cellAt c (.dma rsSnd2)) 0 false
      ∗ dutyTok ER (cellAt c (.dma agSnd0)) 0 false
      ∗ dutyTok ER (cellAt c (.dma agSnd1)) 0 false
      ∗ dutyTok ER (cellAt c (.dma agSnd2)) 0 false
      ∗ dutyTok ER (cellAt c (.dma agSnd3)) 0 false
      ∗ dutyTok ER (cellAt c (.dma agSnd4)) 0 false
      ∗ dutyTok ER (cellAt c (.dma agSnd5)) 0 false)
    ∗ (cred (tallyAt (cellAt c (.dma rsSnd0)) () N192)
      ∗ cred (tallyAt (cellAt c (.dma rsSnd1)) () N192)
      ∗ cred (tallyAt (cellAt c (.dma rsRcv0)) () N192)
      ∗ cred (tallyAt (cellAt c (.dma rsRcv1)) () N192)
      ∗ cred (tallyAt (cellAt c (.dma rsRcv2)) () N192)
      ∗ cred (tallyAt (cellAt c (.dma agRcv0)) () N96)
      ∗ cred (tallyAt (cellAt c (.dma agRcv1)) () N96)
      ∗ cred (tallyAt (cellAt c (.dma agRcv2)) () N96)
      ∗ cred (tallyAt (cellAt c (.dma agRcv3)) () N96)
      ∗ cred (tallyAt (cellAt c (.dma agRcv4)) () N96)
      ∗ cred (tallyAt (cellAt c (.dma agRcv5)) () N96))
    ∗ (∃ W, owes (c : Thread nD τ) (Og c) W)
    ∗ (free c sb2
      ∗ (∃ f2, ((Memref.whole cc0_scratch2 : Memref sig .tc .vmem S192x768 .bf16).view.loc (c : Thread nD τ) ↦[(Memref.whole cc0_scratch2 : Memref sig .tc .vmem S192x768 .bf16).view.set]{fullShare} f2))
      ∗ free (par c) rs2
      ∗ free (rgt c) ag0Lo
      ∗ free (rgt c) ag0Hi
      ∗ free (rgt c) ag2Lo
      ∗ free (lft c) ag1Hi
      ∗ free (lft c) ag1Lo
      ∗ free (lft c) ag2Hi)
    ∗ inputsHeld m c
    ∗ (∃ x4, ((Memref.whole cc0_stg4_0 : Memref sig .tc .vmem S768x768 .f32).view.loc (c : Thread nD τ) ↦[(Memref.whole cc0_stg4_0 : Memref sig .tc .vmem S768x768 .f32).view.set]{fullShare} x4)))

/-- The stretch from the early point to the first point: the landing of the first partner's slot 0, slot 2 stored and
    sent to the second partner, the two other landings, the device's own chunk reduced and stored, the first all-gather
    transfer issued; over any continuation. (The words `v2 v13 v24 v25 v26` are device ids as the program carries them;
    nothing here reads them. The three weight blocks reach these parts as the values the second part returned.) -/
def FrontRuns (c : Dev nD) : Prop :=
  ∀ (K : Dev nD × Fin 19 → ℕ) (v2 v13 v24 v25 v26 : BitVec 32) (α : Type) (kk : PUnit.{1} → Prog (TpuEff nD τ sig (Elt F) Λ₀ .tc) α) (Kt : α → sProp 𝕄),
    iprop(M0 m K c ∗ (M1 m K c -∗ wp frame (wpE (defs₀ (F := F)) 𝒱₀ c none) Set.univ (kk ⟨⟩) Kt))
      ⊢ wp frame (wpE (defs₀ (F := F)) 𝒱₀ c none) Set.univ
        (do
          k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v25 v26 (k0_pay1 (stg1 m c)) (k0_pay2 (stg2 m c)) (k0_pay3 (stg3 m c))
          let v142 ← k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v25 v26 (k0_pay1 (stg1 m c)) (k0_pay2 (stg2 m c)) (k0_pay3 (stg3 m c))
          k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v13 v24 v142
          kk ⟨⟩) Kt

end Cert.Kernel.Mlp

end
-- ==== Proof.WBodyCompose.lean ====
/-
  The body's run on a device put together from its four stretches: the first (from what the body starts with to the early
  point), the front (to the first point), the middle (to the second point) and the closing one (to what the body ends
  with), each stated over any continuation and chained through the continuations in program order.
-/
import proofs.«900352_g7700000000000353_dist_gated_mlp_tp_i_m768_h1536_d768_v7x_i4_f32_1_alg».proof.Proof.WBodyFront
import proofs.«900352_g7700000000000353_dist_gated_mlp_tp_i_m768_h1536_d768_v7x_i4_f32_1_alg».proof.Proof.WBodyMid
import Idealize.ShloMosaic.Lib.Pipeline.Launch
import Idealize.ShloMosaic.Lib.Pipeline.Kit
import Idealize.ShloMosaic.Lib.Tactic

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The first stretch of the body's run: the prologue, the two barrier units and the barrier wait, the weights loaded, the
    first two chunks of the partial sums stored and sent to the first partner; from what the body starts with to the
    early point, over any continuation, which receives the device, the device ids as the program carries them (nothing
    later reads them) and the three weight blocks as loaded. -/
def HeadRuns (c : Dev nD) : Prop :=
  ∀ (K : Dev nD × Fin 19 → ℕ) (α : Type)
    (kk : Dev nD → BitVec 32 → BitVec 32 → BitVec 32 → BitVec 32 → BitVec 32 → BitVec 32
      → FVec F S768x1536 .f32 → FVec F S768x1536 .f32 → FVec F S1536x768 .f32 → Prog (TpuEff nD τ sig (Elt F) Λ₀ .tc) α)
    (Kt : α → sProp 𝕄),
    iprop(bodyPre m ρ K c
        ∗ (∀ (v2 v13 v24 v25 v26 v37 : BitVec 32), M0 m K c -∗ wp frame (wpE (defs₀ (F := F)) 𝒱₀ c none) Set.univ
            (kk c v2 v13 v24 v25 v26 v37 (k0_pay1 (stg1 m c)) (k0_pay2 (stg2 m c)) (k0_pay3 (stg3 m c))) Kt))
      ⊢ wp frame (wpE (defs₀ (F := F)) 𝒱₀ c none) Set.univ
        (do
          let ⟨d0, v2, v13, v24, v25, v26, v29, v30, v31, v32, v33⟩ : Σ' (d0 : Dev nD) (v2 : BitVec 32) (v13 : BitVec 32) (v24 : BitVec 32) (v25 : BitVec 32) (v26 : BitVec 32) (v29 : BitVec 32) (v30 : BitVec 32) (v31 : BitVec 1) (v32 : BitVec 1), BitVec 1 ← k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
          let ⟨v37, v44, v46, v48, c1_i32_42⟩ : Σ' (v37 : BitVec 32) (v44 : FVec F S768x1536 .f32) (v46 : FVec F S768x1536 .f32) (v48 : FVec F S1536x768 .f32), BitVec 32 ← k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v13 v24 v29 v30 v31 v32 v33
          k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v25 v44 v46 v48 c1_i32_42
          kk d0 v2 v13 v24 v25 v26 v37 v44 v46 v48) Kt

set_option maxRecDepth 65536 in
/-- The body's run on a device, from the runs of its four stretches. -/
theorem sound_body (c : Dev nD) (hhead : HeadRuns m ρ c) (hfront : FrontRuns m c) (hmid : MidRuns m c) (hend : EndRuns m ρ c) :
    BodyRuns m ρ c := by
  intro K Kt
  simp only [cc0_body_eq_skeleton]; unfold cc0_body_skel
  iintro ⟨Hpre, Hk⟩
  iapply (hhead K PUnit (fun d0 v2 v13 v24 v25 v26 v37 v44 v46 v48 => (do
          k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v25 v26 v44 v46 v48
          let v142 ← k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v25 v26 v44 v46 v48
          k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v13 v24 v142
          k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v13 v24
          k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v13 v24
          k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v13 v24
          k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v13 v24 v37
          k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
          k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
          Prog.lift (.waitDma2 agSnd5 ag2Hi ag1Hi
            (((Memref.isWhole_whole cc0_scratch3).wordExact_slice rfl _ wordsbf16_S3x192x768_S1x96x768_2_96_0).reshape _ _)
            (((Memref.isWhole_whole cc0_scratch3).wordExact_slice rfl _ wordsbf16_S3x192x768_S1x96x768_1_96_0).reshape _ _))
          pure ⟨⟩ : Prog (TpuEff nD τ sig (Elt F) Λ₀ .tc) PUnit)) Kt)
  isplitl [Hpre]; · iexact Hpre
  iintro %v2 %v13 %v24 %v25 %v26 %v37 HM0
  iapply (hfront K v2 v13 v24 v25 v26 PUnit (fun _ => (do
          k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v13 v24
          k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v13 v24
          k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v13 v24
          k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v13 v24 v37
          k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
          k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
          Prog.lift (.waitDma2 agSnd5 ag2Hi ag1Hi
            (((Memref.isWhole_whole cc0_scratch3).wordExact_slice rfl _ wordsbf16_S3x192x768_S1x96x768_2_96_0).reshape _ _)
            (((Memref.isWhole_whole cc0_scratch3).wordExact_slice rfl _ wordsbf16_S3x192x768_S1x96x768_1_96_0).reshape _ _))
          pure ⟨⟩ : Prog (TpuEff nD τ sig (Elt F) Λ₀ .tc) PUnit)) Kt)
  isplitl [HM0]; · iexact HM0
  iintro HM1
  iapply (hmid K v13 v24 v37 PUnit (fun _ => (do
          k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
          k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
          Prog.lift (.waitDma2 agSnd5 ag2Hi ag1Hi
            (((Memref.isWhole_whole cc0_scratch3).wordExact_slice rfl _ wordsbf16_S3x192x768_S1x96x768_2_96_0).reshape _ _)
            (((Memref.isWhole_whole cc0_scratch3).wordExact_slice rfl _ wordsbf16_S3x192x768_S1x96x768_1_96_0).reshape _ _))
          pure ⟨⟩ : Prog (TpuEff nD τ sig (Elt F) Λ₀ .tc) PUnit)) Kt)
  isplitl [HM1]; · iexact HM1
  iintro HM2
  iapply (hend K Kt)
  isplitl [HM2]; · iexact HM2
  iexact Hk

end Cert.Kernel.Mlp

end
-- ==== Proof.WBodyIn.lean ====
/-
  At the one grid point each input window is fetched, so its staging buffer holds the window's block of the device's
  argument array: the staged contents named in the values module.
-/
import proofs.«900352_g7700000000000353_dist_gated_mlp_tp_i_m768_h1536_d768_v7x_i4_f32_1_alg».proof.Proof.WBodyDefs

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem before_in0 (c : Dev nD) (d) : (dats m ρ 0 c).before (0 : Fin 5) t₀ d = stg0 m c := by
  unfold Dat.before; rw [if_pos (fetch0_0 t₀)]; rfl
theorem before_in1 (c : Dev nD) (d) : (dats m ρ 0 c).before (1 : Fin 5) t₀ d = stg1 m c := by
  unfold Dat.before; rw [if_pos (fetch0_1 t₀)]; rfl
theorem before_in2 (c : Dev nD) (d) : (dats m ρ 0 c).before (2 : Fin 5) t₀ d = stg2 m c := by
  unfold Dat.before; rw [if_pos (fetch0_2 t₀)]; rfl
theorem before_in3 (c : Dev nD) (d) : (dats m ρ 0 c).before (3 : Fin 5) t₀ d = stg3 m c := by
  unfold Dat.before; rw [if_pos (fetch0_3 t₀)]; rfl

end Cert.Kernel.Mlp

end
-- ==== Proof.WGeom2.lean ====
/-
  Reading and landing in the scratch buffers.

  A slot view puts `(p, q)` at `(k, p, q)` of its three-slot buffer, a half-slot view at `(k, o + p, q)`, a half of the own
  chunk at `(o + p, q)`. So each view reads, of the canonical contents of its buffer, the payload stored there; and a
  transfer that writes through the destination view what the source view read of the sender's canonical contents leaves
  the destination region at the receiver's canonical contents, the two devices being each other's partner (or
  neighbour) in the sense the contents are defined by. A whole slot loaded from a landing buffer is the payload that
  landed there.
-/
import proofs.«900352_g7700000000000353_dist_gated_mlp_tp_i_m768_h1536_d768_v7x_i4_f32_1_alg».proof.Proof.WGeom1
import Idealize.ShloMosaic.Lib.ValueLayout

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.ValueIdx

/-! ## Where a slot view puts an element -/

theorem slot_rect_emb (k : Nat) (hk : k < 3) (inb : ∀ a, (![k, 0, 0] : Fin 3 → Nat) a + S1x192x768.size a ≤ S3x192x768.size a)
    (p : Fin 192) (q : Fin 768) :
    (Rect.unit (s := S3x192x768) ![k, 0, 0] S1x192x768.size inb).emb (ix3 (⟨0, Nat.one_pos⟩ : Fin 1) p q) = ix3 (⟨k, hk⟩ : Fin 3) p q := by
  funext a
  match a with
  | ⟨0, _⟩ => exact Fin.ext (show k + 1 * 0 = k by omega)
  | ⟨1, _⟩ => exact Fin.ext (show 0 + 1 * p.val = p.val by omega)
  | ⟨2, _⟩ => exact Fin.ext (show 0 + 1 * q.val = q.val by omega)

omit [FloatOps F] in
/-- A slot of a three-slot buffer read at `(p, q)` is the buffer read at `(k, p, q)`. -/
theorem slot_read (W : Memref sig .tc .vmem S3x192x768 .bf16) (k : Nat) (hk : k < 3)
    (inb : ∀ a, (![k, 0, 0] : Fin 3 → Nat) a + S1x192x768.size a ≤ S3x192x768.size a) (hsq : S1x192x768.Squeezes S192x768)
    (f : W.view.ty.Contents (Elt F)) (p : Fin 192) (q : Fin 768) :
    ((W.slice (Rect.unit (s := S3x192x768) ![k, 0, 0] S1x192x768.size inb) (fun _ => rfl)).squeeze S192x768 hsq).view.read (Elt F) f (ix2 p q)
      = W.view.read (Elt F) f (ix3 (⟨k, hk⟩ : Fin 3) p q) := by
  rw [View.read_apply, View.read_apply]
  simp only [Memref.view_squeeze, Memref.view_slice, View.emb_reshape, View.emb_slice, Function.Embedding.trans_apply,
    Equiv.coe_toEmbedding]
  rw [reshapeEquiv_ix2_1ab, slot_rect_emb k hk]

theorem half_rect_emb (k : Nat) (hk : k < 3) (o : Nat) (ho : o + 96 ≤ 192)
    (inb : ∀ a, (![k, o, 0] : Fin 3 → Nat) a + S1x96x768.size a ≤ S3x192x768.size a) (p : Fin 96) (q : Fin 768) :
    (Rect.unit (s := S3x192x768) ![k, o, 0] S1x96x768.size inb).emb (ix3 (⟨0, Nat.one_pos⟩ : Fin 1) p q)
      = ix3 (⟨k, hk⟩ : Fin 3) (⟨o + p.val, by have := p.isLt; omega⟩ : Fin 192) q := by
  funext a
  match a with
  | ⟨0, _⟩ => exact Fin.ext (show k + 1 * 0 = k by omega)
  | ⟨1, _⟩ => exact Fin.ext (show o + 1 * p.val = o + p.val by omega)
  | ⟨2, _⟩ => exact Fin.ext (show 0 + 1 * q.val = q.val by omega)

omit [FloatOps F] in
/-- Half a slot read at `(p, q)` is the buffer read at `(k, o + p, q)`. -/
theorem half_read (W : Memref sig .tc .vmem S3x192x768 .bf16) (k : Nat) (hk : k < 3) (o : Nat) (ho : o + 96 ≤ 192)
    (inb : ∀ a, (![k, o, 0] : Fin 3 → Nat) a + S1x96x768.size a ≤ S3x192x768.size a) (hsq : S1x96x768.Squeezes S96x768)
    (f : W.view.ty.Contents (Elt F)) (p : Fin 96) (q : Fin 768) :
    ((W.slice (Rect.unit (s := S3x192x768) ![k, o, 0] S1x96x768.size inb) (fun _ => rfl)).squeeze S96x768 hsq).view.read (Elt F) f (ix2 p q)
      = W.view.read (Elt F) f (ix3 (⟨k, hk⟩ : Fin 3) (⟨o + p.val, by have := p.isLt; omega⟩ : Fin 192) q) := by
  rw [View.read_apply, View.read_apply]
  simp only [Memref.view_squeeze, Memref.view_slice, View.emb_reshape, View.emb_slice, Function.Embedding.trans_apply,
    Equiv.coe_toEmbedding]
  rw [reshapeEquiv_ix2_1ab, half_rect_emb k hk o ho]

theorem rows_rect_emb (o : Nat) (ho : o + 96 ≤ 192)
    (inb : ∀ a, (![o, 0] : Fin 2 → Nat) a + S96x768.size a ≤ S192x768.size a) (p : Fin 96) (q : Fin 768) :
    (Rect.unit (s := S192x768) ![o, 0] S96x768.size inb).emb (ix2 p q)
      = ix2 (⟨o + p.val, by have := p.isLt; omega⟩ : Fin 192) q := by
  funext a
  match a with
  | ⟨0, _⟩ => exact Fin.ext (show o + 1 * p.val = o + p.val by omega)
  | ⟨1, _⟩ => exact Fin.ext (show 0 + 1 * q.val = q.val by omega)

omit [FloatOps F] in
/-- Half the own chunk read at `(p, q)` is the chunk read at `(o + p, q)`. -/
theorem rows_read (W : Memref sig .tc .vmem S192x768 .bf16) (o : Nat) (ho : o + 96 ≤ 192)
    (inb : ∀ a, (![o, 0] : Fin 2 → Nat) a + S96x768.size a ≤ S192x768.size a)
    (f : W.view.ty.Contents (Elt F)) (p : Fin 96) (q : Fin 768) :
    (W.slice (Rect.unit (s := S192x768) ![o, 0] S96x768.size inb) (fun _ => rfl)).view.read (Elt F) f (ix2 p q)
      = W.view.read (Elt F) f (ix2 (⟨o + p.val, by have := p.isLt; omega⟩ : Fin 192) q) := by
  rw [View.read_apply, View.read_apply]
  simp only [Memref.view_slice, View.emb_slice, Function.Embedding.trans_apply]
  rw [rows_rect_emb o ho]

/-! ## The canonical contents at a slot -/

theorem slot3_zero {α : Type} (X0 X1 X2 : S1x192x768.Idx → α) (p : Fin 192) (q : Fin 768) :
    slot3 X0 X1 X2 (ix3 (⟨0, by decide⟩ : Fin 3) p q) = X0 (ix3 (0 : Fin 1) p q) := rfl
theorem slot3_one {α : Type} (X0 X1 X2 : S1x192x768.Idx → α) (p : Fin 192) (q : Fin 768) :
    slot3 X0 X1 X2 (ix3 (⟨1, by decide⟩ : Fin 3) p q) = X1 (ix3 (0 : Fin 1) p q) := rfl
theorem slot3_two {α : Type} (X0 X1 X2 : S1x192x768.Idx → α) (p : Fin 192) (q : Fin 768) :
    slot3 X0 X1 X2 (ix3 (⟨2, by decide⟩ : Fin 3) p q) = X2 (ix3 (0 : Fin 1) p q) := rfl

/-! ## A landing: writing through a view what it reads of `Y` leaves the region at `Y` -/

omit [FloatOps F] in
theorem landing (p : Dev nD) {sh : Shape} (D : Memref sig .tc .vmem sh .bf16) (q : PosShare TreeShare)
    (fd Y : Buf (Elt F) (D.view.loc (p : Thread nD τ))) (w : sh.Idx → Elt F .bf16) (h : D.view.read (Elt F) Y = w) :
    (held p D q (D.view.write (Elt F) fd w Finset.univ) : sProp 𝕄) = held p D q Y := by
  refine held_congr p D q _ _ fun i hi => ?_
  obtain ⟨x, rfl⟩ := View.exists_emb_of_mem_set _ hi
  rw [View.write_emb_of_mem _ _ (Finset.mem_univ x), ← h, View.read_apply, cast_cast, cast_eq]

variable (m : (ℓ : Loc nD τ sig) → Buf (Elt F) ℓ)

/-! ## The canonical contents read through each view -/

theorem read_sb0 (c : Dev nD) (p : Fin 192) (q : Fin 768) :
    sb0.view.read (Elt F) (sbBuf m c) (ix2 p q) = SB0 m c (ix3 (0 : Fin 1) p q) :=
  (slot_read (Memref.whole cc0_scratch0) 0 (by decide) _ _ (sbBuf m c) p q).trans
    (show (Memref.whole cc0_scratch0 : Memref sig .tc .vmem S3x192x768 .bf16).view.read (Elt F) (sbBuf m c) (ix3 (⟨0, by decide⟩ : Fin 3) p q)
        = SB0 m c (ix3 (0 : Fin 1) p q) from slot3_zero (SB0 m c) (SB1 m c) (SB2 m c) p q)
theorem read_sb1 (c : Dev nD) (p : Fin 192) (q : Fin 768) :
    sb1.view.read (Elt F) (sbBuf m c) (ix2 p q) = SB1 m c (ix3 (0 : Fin 1) p q) :=
  (slot_read (Memref.whole cc0_scratch0) 1 (by decide) _ _ (sbBuf m c) p q).trans
    (show (Memref.whole cc0_scratch0 : Memref sig .tc .vmem S3x192x768 .bf16).view.read (Elt F) (sbBuf m c) (ix3 (⟨1, by decide⟩ : Fin 3) p q)
        = SB1 m c (ix3 (0 : Fin 1) p q) from slot3_one (SB0 m c) (SB1 m c) (SB2 m c) p q)
theorem read_sb2 (c : Dev nD) (p : Fin 192) (q : Fin 768) :
    sb2.view.read (Elt F) (sbBuf m c) (ix2 p q) = SB2 m c (ix3 (0 : Fin 1) p q) :=
  (slot_read (Memref.whole cc0_scratch0) 2 (by decide) _ _ (sbBuf m c) p q).trans
    (show (Memref.whole cc0_scratch0 : Memref sig .tc .vmem S3x192x768 .bf16).view.read (Elt F) (sbBuf m c) (ix3 (⟨2, by decide⟩ : Fin 3) p q)
        = SB2 m c (ix3 (0 : Fin 1) p q) from slot3_two (SB0 m c) (SB1 m c) (SB2 m c) p q)
theorem read_rs0 (c : Dev nD) (p : Fin 192) (q : Fin 768) :
    rs0.view.read (Elt F) (rsBuf m c) (ix2 p q) = SB0 m (far c) (ix3 (0 : Fin 1) p q) :=
  (slot_read (Memref.whole cc0_scratch1) 0 (by decide) _ _ (rsBuf m c) p q).trans
    (show (Memref.whole cc0_scratch1 : Memref sig .tc .vmem S3x192x768 .bf16).view.read (Elt F) (rsBuf m c) (ix3 (⟨0, by decide⟩ : Fin 3) p q)
        = SB0 m (far c) (ix3 (0 : Fin 1) p q) from slot3_zero (SB0 m (far c)) (SB1 m (far c)) (SB2 m (par c)) p q)
theorem read_rs1 (c : Dev nD) (p : Fin 192) (q : Fin 768) :
    rs1.view.read (Elt F) (rsBuf m c) (ix2 p q) = SB1 m (far c) (ix3 (0 : Fin 1) p q) :=
  (slot_read (Memref.whole cc0_scratch1) 1 (by decide) _ _ (rsBuf m c) p q).trans
    (show (Memref.whole cc0_scratch1 : Memref sig .tc .vmem S3x192x768 .bf16).view.read (Elt F) (rsBuf m c) (ix3 (⟨1, by decide⟩ : Fin 3) p q)
        = SB1 m (far c) (ix3 (0 : Fin 1) p q) from slot3_one (SB0 m (far c)) (SB1 m (far c)) (SB2 m (par c)) p q)
theorem read_rs2 (c : Dev nD) (p : Fin 192) (q : Fin 768) :
    rs2.view.read (Elt F) (rsBuf m c) (ix2 p q) = SB2 m (par c) (ix3 (0 : Fin 1) p q) :=
  (slot_read (Memref.whole cc0_scratch1) 2 (by decide) _ _ (rsBuf m c) p q).trans
    (show (Memref.whole cc0_scratch1 : Memref sig .tc .vmem S3x192x768 .bf16).view.read (Elt F) (rsBuf m c) (ix3 (⟨2, by decide⟩ : Fin 3) p q)
        = SB2 m (par c) (ix3 (0 : Fin 1) p q) from slot3_two (SB0 m (far c)) (SB1 m (far c)) (SB2 m (par c)) p q)

theorem read_ownLo (c : Dev nD) (p : Fin 96) (q : Fin 768) :
    ownLo.view.read (Elt F) (ownBuf m c) (ix2 p q) = OWN m c (ix2 (⟨0 + p.val, by have := p.isLt; omega⟩ : Fin 192) q) :=
  rows_read (Memref.whole cc0_scratch2) 0 (by decide) _ (ownBuf m c) p q
theorem read_ownHi (c : Dev nD) (p : Fin 96) (q : Fin 768) :
    ownHi.view.read (Elt F) (ownBuf m c) (ix2 p q) = OWN m c (ix2 (⟨96 + p.val, by have := p.isLt; omega⟩ : Fin 192) q) :=
  rows_read (Memref.whole cc0_scratch2) 96 (by decide) _ (ownBuf m c) p q

theorem read_ag0Lo (c : Dev nD) (p : Fin 96) (q : Fin 768) :
    ag0Lo.view.read (Elt F) (agBuf m c) (ix2 p q) = OWN m (lft c) (ix2 (⟨0 + p.val, by have := p.isLt; omega⟩ : Fin 192) q) :=
  half_read (Memref.whole cc0_scratch3) 0 (by decide) 0 (by decide) _ _ (agBuf m c) p q
theorem read_ag0Hi (c : Dev nD) (p : Fin 96) (q : Fin 768) :
    ag0Hi.view.read (Elt F) (agBuf m c) (ix2 p q) = OWN m (lft c) (ix2 (⟨96 + p.val, by have := p.isLt; omega⟩ : Fin 192) q) :=
  half_read (Memref.whole cc0_scratch3) 0 (by decide) 96 (by decide) _ _ (agBuf m c) p q
theorem read_ag1Lo (c : Dev nD) (p : Fin 96) (q : Fin 768) :
    ag1Lo.view.read (Elt F) (agBuf m c) (ix2 p q) = OWN m (rgt c) (ix2 (⟨0 + p.val, by have := p.isLt; omega⟩ : Fin 192) q) :=
  half_read (Memref.whole cc0_scratch3) 1 (by decide) 0 (by decide) _ _ (agBuf m c) p q
theorem read_ag1Hi (c : Dev nD) (p : Fin 96) (q : Fin 768) :
    ag1Hi.view.read (Elt F) (agBuf m c) (ix2 p q) = OWN m (rgt c) (ix2 (⟨96 + p.val, by have := p.isLt; omega⟩ : Fin 192) q) :=
  half_read (Memref.whole cc0_scratch3) 1 (by decide) 96 (by decide) _ _ (agBuf m c) p q
theorem read_ag2Lo (c : Dev nD) (p : Fin 96) (q : Fin 768) :
    ag2Lo.view.read (Elt F) (agBuf m c) (ix2 p q) = OWN m (opp c) (ix2 (⟨0 + p.val, by have := p.isLt; omega⟩ : Fin 192) q) :=
  half_read (Memref.whole cc0_scratch3) 2 (by decide) 0 (by decide) _ _ (agBuf m c) p q
theorem read_ag2Hi (c : Dev nD) (p : Fin 96) (q : Fin 768) :
    ag2Hi.view.read (Elt F) (agBuf m c) (ix2 p q) = OWN m (opp c) (ix2 (⟨96 + p.val, by have := p.isLt; omega⟩ : Fin 192) q) :=
  half_read (Memref.whole cc0_scratch3) 2 (by decide) 96 (by decide) _ _ (agBuf m c) p q

/-! ## G4: the nine landings -/

theorem opp_rgt : ∀ c : Dev nD, opp (rgt c) = lft c := by decide +kernel
theorem opp_lft : ∀ c : Dev nD, opp (lft c) = rgt c := by decide +kernel

/-- Slot 0 of the send buffer of `c` lands in slot 0 of its first partner's landing buffer. -/
theorem land_rs0 (c : Dev nD) (fd : Buf (Elt F) (rs0.view.loc ((far c : Dev nD) : Thread nD τ))) :
    (held (far c) rs0 fullShare (rs0.view.write (Elt F) fd (sb0.view.read (Elt F) (sbBuf m c)) Finset.univ) : sProp 𝕄)
      = held (far c) rs0 fullShare (rsBuf m (far c)) := by
  refine landing (far c) rs0 fullShare fd (rsBuf m (far c)) _ (funext fun x => ?_)
  obtain ⟨p, q, rfl⟩ : ∃ (p : Fin 192) (q : Fin 768), x = ix2 p q := ⟨x 0, x 1, eq_ix2 x⟩
  rw [read_rs0, read_sb0, far_far]
/-- Slot 1 likewise. -/
theorem land_rs1 (c : Dev nD) (fd : Buf (Elt F) (rs1.view.loc ((far c : Dev nD) : Thread nD τ))) :
    (held (far c) rs1 fullShare (rs1.view.write (Elt F) fd (sb1.view.read (Elt F) (sbBuf m c)) Finset.univ) : sProp 𝕄)
      = held (far c) rs1 fullShare (rsBuf m (far c)) := by
  refine landing (far c) rs1 fullShare fd (rsBuf m (far c)) _ (funext fun x => ?_)
  obtain ⟨p, q, rfl⟩ : ∃ (p : Fin 192) (q : Fin 768), x = ix2 p q := ⟨x 0, x 1, eq_ix2 x⟩
  rw [read_rs1, read_sb1, far_far]
/-- Slot 2 lands in slot 2 of its second partner's landing buffer. -/
theorem land_rs2 (c : Dev nD) (fd : Buf (Elt F) (rs2.view.loc ((par c : Dev nD) : Thread nD τ))) :
    (held (par c) rs2 fullShare (rs2.view.write (Elt F) fd (sb2.view.read (Elt F) (sbBuf m c)) Finset.univ) : sProp 𝕄)
      = held (par c) rs2 fullShare (rsBuf m (par c)) := by
  refine landing (par c) rs2 fullShare fd (rsBuf m (par c)) _ (funext fun x => ?_)
  obtain ⟨p, q, rfl⟩ : ∃ (p : Fin 192) (q : Fin 768), x = ix2 p q := ⟨x 0, x 1, eq_ix2 x⟩
  rw [read_rs2, read_sb2, par_par]

/-- The lower half of `c`'s reduced chunk lands in the lower half of slot 0 of the device after it. -/
theorem land_ag0Lo (c : Dev nD) (fd : Buf (Elt F) (ag0Lo.view.loc ((rgt c : Dev nD) : Thread nD τ))) :
    (held (rgt c) ag0Lo fullShare (ag0Lo.view.write (Elt F) fd (ownLo.view.read (Elt F) (ownBuf m c)) Finset.univ) : sProp 𝕄)
      = held (rgt c) ag0Lo fullShare (agBuf m (rgt c)) := by
  refine landing (rgt c) ag0Lo fullShare fd (agBuf m (rgt c)) _ (funext fun x => ?_)
  obtain ⟨p, q, rfl⟩ : ∃ (p : Fin 96) (q : Fin 768), x = ix2 p q := ⟨x 0, x 1, eq_ix2 x⟩
  rw [read_ag0Lo, read_ownLo, lft_rgt]
/-- The upper half likewise. -/
theorem land_ag0Hi (c : Dev nD) (fd : Buf (Elt F) (ag0Hi.view.loc ((rgt c : Dev nD) : Thread nD τ))) :
    (held (rgt c) ag0Hi fullShare (ag0Hi.view.write (Elt F) fd (ownHi.view.read (Elt F) (ownBuf m c)) Finset.univ) : sProp 𝕄)
      = held (rgt c) ag0Hi fullShare (agBuf m (rgt c)) := by
  refine landing (rgt c) ag0Hi fullShare fd (agBuf m (rgt c)) _ (funext fun x => ?_)
  obtain ⟨p, q, rfl⟩ : ∃ (p : Fin 96) (q : Fin 768), x = ix2 p q := ⟨x 0, x 1, eq_ix2 x⟩
  rw [read_ag0Hi, read_ownHi, lft_rgt]
/-- The upper half of `c`'s reduced chunk lands in the upper half of slot 1 of the device before it. -/
theorem land_ag1Hi (c : Dev nD) (fd : Buf (Elt F) (ag1Hi.view.loc ((lft c : Dev nD) : Thread nD τ))) :
    (held (lft c) ag1Hi fullShare (ag1Hi.view.write (Elt F) fd (ownHi.view.read (Elt F) (ownBuf m c)) Finset.univ) : sProp 𝕄)
      = held (lft c) ag1Hi fullShare (agBuf m (lft c)) := by
  refine landing (lft c) ag1Hi fullShare fd (agBuf m (lft c)) _ (funext fun x => ?_)
  obtain ⟨p, q, rfl⟩ : ∃ (p : Fin 96) (q : Fin 768), x = ix2 p q := ⟨x 0, x 1, eq_ix2 x⟩
  rw [read_ag1Hi, read_ownHi, rgt_lft]
/-- The lower half likewise. -/
theorem land_ag1Lo (c : Dev nD) (fd : Buf (Elt F) (ag1Lo.view.loc ((lft c : Dev nD) : Thread nD τ))) :
    (held (lft c) ag1Lo fullShare (ag1Lo.view.write (Elt F) fd (ownLo.view.read (Elt F) (ownBuf m c)) Finset.univ) : sProp 𝕄)
      = held (lft c) ag1Lo fullShare (agBuf m (lft c)) := by
  refine landing (lft c) ag1Lo fullShare fd (agBuf m (lft c)) _ (funext fun x => ?_)
  obtain ⟨p, q, rfl⟩ : ∃ (p : Fin 96) (q : Fin 768), x = ix2 p q := ⟨x 0, x 1, eq_ix2 x⟩
  rw [read_ag1Lo, read_ownLo, rgt_lft]
/-- What landed in the lower half of slot 0 of `c` is passed on to the lower half of slot 2 of the device after it. -/
theorem land_ag2Lo (c : Dev nD) (fd : Buf (Elt F) (ag2Lo.view.loc ((rgt c : Dev nD) : Thread nD τ))) :
    (held (rgt c) ag2Lo fullShare (ag2Lo.view.write (Elt F) fd (ag0Lo.view.read (Elt F) (agBuf m c)) Finset.univ) : sProp 𝕄)
      = held (rgt c) ag2Lo fullShare (agBuf m (rgt c)) := by
  refine landing (rgt c) ag2Lo fullShare fd (agBuf m (rgt c)) _ (funext fun x => ?_)
  obtain ⟨p, q, rfl⟩ : ∃ (p : Fin 96) (q : Fin 768), x = ix2 p q := ⟨x 0, x 1, eq_ix2 x⟩
  rw [read_ag2Lo, read_ag0Lo, opp_rgt]
/-- What landed in the upper half of slot 1 of `c` is passed on to the upper half of slot 2 of the device before it. -/
theorem land_ag2Hi (c : Dev nD) (fd : Buf (Elt F) (ag2Hi.view.loc ((lft c : Dev nD) : Thread nD τ))) :
    (held (lft c) ag2Hi fullShare (ag2Hi.view.write (Elt F) fd (ag1Hi.view.read (Elt F) (agBuf m c)) Finset.univ) : sProp 𝕄)
      = held (lft c) ag2Hi fullShare (agBuf m (lft c)) := by
  refine landing (lft c) ag2Hi fullShare fd (agBuf m (lft c)) _ (funext fun x => ?_)
  obtain ⟨p, q, rfl⟩ : ∃ (p : Fin 96) (q : Fin 768), x = ix2 p q := ⟨x 0, x 1, eq_ix2 x⟩
  rw [read_ag2Hi, read_ag1Hi, opp_lft]

/-! ## G5: loading a whole slot -/

omit [FloatOps F] in
/-- A slot loaded from a three-slot buffer at `x` is the buffer read at `(k, x 1, x 2)`. -/
theorem slot_load (W : Memref sig .tc .vmem S3x192x768 .bf16) (k : Nat) (hk : k < 3)
    (inb : ∀ a, (![k, 0, 0] : Fin 3 → Nat) a + S1x192x768.size a ≤ S3x192x768.size a)
    (f : W.view.ty.Contents (Elt F)) (x : S1x192x768.Idx) :
    W.view.readAt (Elt F) (Rect.unit (s := S3x192x768) ![k, 0, 0] S1x192x768.size inb).toLoadRect f x
      = W.view.read (Elt F) f (ix3 (⟨k, hk⟩ : Fin 3) (x 1) (x 2)) := by
  rw [View.readAt_apply]
  refine congrArg (W.view.read (Elt F) f) (funext fun a => ?_)
  match a with
  | ⟨0, _⟩ => exact Fin.ext (show k + 1 * (x 0).val = k by have h0 : (x 0).val < 1 := (x 0).isLt; omega)
  | ⟨1, _⟩ => exact Fin.ext (show 0 + 1 * (x 1).val = (x 1).val by omega)
  | ⟨2, _⟩ => exact Fin.ext (show 0 + 1 * (x 2).val = (x 2).val by omega)

/-- An index of a one-slot shape is `(0, x 1, x 2)`. -/
theorem ix3_unit (x : S1x192x768.Idx) : ix3 (0 : Fin 1) (x 1) (x 2) = x :=
  funext fun a => match a with | ⟨0, _⟩ => Fin.ext (show 0 = (x 0).val by have h0 : (x 0).val < 1 := (x 0).isLt; omega) | ⟨1, _⟩ => rfl | ⟨2, _⟩ => rfl

theorem load_rs0 (c : Dev nD) :
    (Memref.whole cc0_scratch1 : Memref sig .tc .vmem S3x192x768 .bf16).view.readAt (Elt F)
      (Rect.unit (s := S3x192x768) ![0, 0, 0] S1x192x768.size inb_S3x192x768_S1x192x768_0_0_0).toLoadRect (rsBuf m c) = SB0 m (far c) :=
  funext fun x => (slot_load (Memref.whole cc0_scratch1) 0 (by decide) _ (rsBuf m c) x).trans
    ((show (Memref.whole cc0_scratch1 : Memref sig .tc .vmem S3x192x768 .bf16).view.read (Elt F) (rsBuf m c) (ix3 (⟨0, by decide⟩ : Fin 3) (x 1) (x 2))
        = SB0 m (far c) (ix3 (0 : Fin 1) (x 1) (x 2)) from slot3_zero (SB0 m (far c)) (SB1 m (far c)) (SB2 m (par c)) (x 1) (x 2)).trans
      (congrArg (SB0 m (far c)) (ix3_unit x)))
theorem load_rs1 (c : Dev nD) :
    (Memref.whole cc0_scratch1 : Memref sig .tc .vmem S3x192x768 .bf16).view.readAt (Elt F)
      (Rect.unit (s := S3x192x768) ![1, 0, 0] S1x192x768.size inb_S3x192x768_S1x192x768_1_0_0).toLoadRect (rsBuf m c) = SB1 m (far c) :=
  funext fun x => (slot_load (Memref.whole cc0_scratch1) 1 (by decide) _ (rsBuf m c) x).trans
    ((show (Memref.whole cc0_scratch1 : Memref sig .tc .vmem S3x192x768 .bf16).view.read (Elt F) (rsBuf m c) (ix3 (⟨1, by decide⟩ : Fin 3) (x 1) (x 2))
        = SB1 m (far c) (ix3 (0 : Fin 1) (x 1) (x 2)) from slot3_one (SB0 m (far c)) (SB1 m (far c)) (SB2 m (par c)) (x 1) (x 2)).trans
      (congrArg (SB1 m (far c)) (ix3_unit x)))
theorem load_rs2 (c : Dev nD) :
    (Memref.whole cc0_scratch1 : Memref sig .tc .vmem S3x192x768 .bf16).view.readAt (Elt F)
      (Rect.unit (s := S3x192x768) ![2, 0, 0] S1x192x768.size inb_S3x192x768_S1x192x768_2_0_0).toLoadRect (rsBuf m c) = SB2 m (par c) :=
  funext fun x => (slot_load (Memref.whole cc0_scratch1) 2 (by decide) _ (rsBuf m c) x).trans
    ((show (Memref.whole cc0_scratch1 : Memref sig .tc .vmem S3x192x768 .bf16).view.read (Elt F) (rsBuf m c) (ix3 (⟨2, by decide⟩ : Fin 3) (x 1) (x 2))
        = SB2 m (par c) (ix3 (0 : Fin 1) (x 1) (x 2)) from slot3_two (SB0 m (far c)) (SB1 m (far c)) (SB2 m (par c)) (x 1) (x 2)).trans
      (congrArg (SB2 m (par c)) (ix3_unit x)))

theorem load_ag0 (c : Dev nD) :
    (Memref.whole cc0_scratch3 : Memref sig .tc .vmem S3x192x768 .bf16).view.readAt (Elt F)
      (Rect.unit (s := S3x192x768) ![0, 0, 0] S1x192x768.size inb_S3x192x768_S1x192x768_0_0_0).toLoadRect (agBuf m c) = asSlot (OWN m (lft c)) :=
  funext fun x => (slot_load (Memref.whole cc0_scratch3) 0 (by decide) _ (agBuf m c) x).trans
    ((show (Memref.whole cc0_scratch3 : Memref sig .tc .vmem S3x192x768 .bf16).view.read (Elt F) (agBuf m c) (ix3 (⟨0, by decide⟩ : Fin 3) (x 1) (x 2))
        = asSlot (OWN m (lft c)) (ix3 (0 : Fin 1) (x 1) (x 2)) from
          slot3_zero (asSlot (OWN m (lft c))) (asSlot (OWN m (rgt c))) (asSlot (OWN m (opp c))) (x 1) (x 2)).trans
      (congrArg (asSlot (OWN m (lft c))) (ix3_unit x)))
theorem load_ag1 (c : Dev nD) :
    (Memref.whole cc0_scratch3 : Memref sig .tc .vmem S3x192x768 .bf16).view.readAt (Elt F)
      (Rect.unit (s := S3x192x768) ![1, 0, 0] S1x192x768.size inb_S3x192x768_S1x192x768_1_0_0).toLoadRect (agBuf m c) = asSlot (OWN m (rgt c)) :=
  funext fun x => (slot_load (Memref.whole cc0_scratch3) 1 (by decide) _ (agBuf m c) x).trans
    ((show (Memref.whole cc0_scratch3 : Memref sig .tc .vmem S3x192x768 .bf16).view.read (Elt F) (agBuf m c) (ix3 (⟨1, by decide⟩ : Fin 3) (x 1) (x 2))
        = asSlot (OWN m (rgt c)) (ix3 (0 : Fin 1) (x 1) (x 2)) from
          slot3_one (asSlot (OWN m (lft c))) (asSlot (OWN m (rgt c))) (asSlot (OWN m (opp c))) (x 1) (x 2)).trans
      (congrArg (asSlot (OWN m (rgt c))) (ix3_unit x)))
theorem load_ag2 (c : Dev nD) :
    (Memref.whole cc0_scratch3 : Memref sig .tc .vmem S3x192x768 .bf16).view.readAt (Elt F)
      (Rect.unit (s := S3x192x768) ![2, 0, 0] S1x192x768.size inb_S3x192x768_S1x192x768_2_0_0).toLoadRect (agBuf m c) = asSlot (OWN m (opp c)) :=
  funext fun x => (slot_load (Memref.whole cc0_scratch3) 2 (by decide) _ (agBuf m c) x).trans
    ((show (Memref.whole cc0_scratch3 : Memref sig .tc .vmem S3x192x768 .bf16).view.read (Elt F) (agBuf m c) (ix3 (⟨2, by decide⟩ : Fin 3) (x 1) (x 2))
        = asSlot (OWN m (opp c)) (ix3 (0 : Fin 1) (x 1) (x 2)) from
          slot3_two (asSlot (OWN m (lft c))) (asSlot (OWN m (rgt c))) (asSlot (OWN m (opp c))) (x 1) (x 2)).trans
      (congrArg (asSlot (OWN m (opp c))) (ix3_unit x)))

end Cert.Kernel.Mlp

end
-- ==== Proof.WBodyInv.lean ====
/-
  Small facts the body's run uses between its steps: the two neighbours of a device have the same parity, opposite to its
  own; what a device hands its neighbours with its two barrier units is the nine landing regions of its own buffers; what it
  receives with theirs is the nine regions of theirs that it will write, named by the partners of its two exchanges.
-/
import proofs.«900352_g7700000000000353_dist_gated_mlp_tp_i_m768_h1536_d768_v7x_i4_f32_1_alg».proof.Proof.WBodyDefs
import proofs.«900352_g7700000000000353_dist_gated_mlp_tp_i_m768_h1536_d768_v7x_i4_f32_1_alg».proof.Proof.WGeom2

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Parity of the neighbours -/

theorem nbr_parity : ∀ c : Dev nD, (rgt c).val % 2 = (lft c).val % 2 ∧ ((lft c).val % 2 = 0 ↔ c.val % 2 = 1) := by decide +kernel

/-! ## The barrier's grants -/

omit [FloatOps F] in
/-- A region held at some contents is a region handed over. -/
theorem free_of_held (p : Dev nD) {sh : Shape} (M : Memref sig .tc .vmem sh .bf16) (X : Buf (Elt F) (M.view.loc (p : Thread nD τ))) :
    (held p M fullShare X : sProp 𝕄) ⊢ free p M := by
  unfold held free; iintro H; iexists X; iexact H

omit [FloatOps F] in
/-- What a device hands over with its two barrier units: the six half-slots of its all-gather landing buffer and the three
    slots of its reduce-scatter landing buffer. -/
theorem barPay_give (c : Dev nD) :
    (iprop(free c ag0Lo ∗ free c ag0Hi ∗ free c ag1Lo ∗ free c ag1Hi ∗ free c ag2Lo ∗ free c ag2Hi ∗ free c rs0 ∗ free c rs1 ∗ free c rs2) : sProp 𝕄)
      ⊢ iprop(barPay (lft c) false ∗ barPay (rgt c) true) := by
  unfold barPay
  simp only [Bool.false_eq_true, if_false, if_true, rgt_lft, lft_rgt]
  rcases Nat.mod_two_eq_zero_or_one (lft c).val with h | h
  · have h' : (rgt c).val % 2 = 0 := (nbr_parity c).1.trans h
    simp only [h, h', if_true]
    iintro ⟨H1, H2, H3, H4, H5, H6, H7, H8, H9⟩
    isplitl [H1 H2 H5 H9]
    · isplitl [H1]; · iexact H1
      isplitl [H2]; · iexact H2
      isplitl [H5]; · iexact H5
      iexact H9
    · isplitl [H4]; · iexact H4
      isplitl [H3]; · iexact H3
      isplitl [H6]; · iexact H6
      isplitl [H7]; · iexact H7
      iexact H8
  · have h' : (rgt c).val % 2 = 1 := (nbr_parity c).1.trans h
    simp only [h, h', Nat.one_ne_zero, if_false]
    iintro ⟨H1, H2, H3, H4, H5, H6, H7, H8, H9⟩
    isplitl [H1 H2 H5 H7 H8]
    · isplitl [H1]; · iexact H1
      isplitl [H2]; · iexact H2
      isplitl [H5]; · iexact H5
      isplitl [H7]; · iexact H7
      iexact H8
    · isplitl [H4]; · iexact H4
      isplitl [H3]; · iexact H3
      isplitl [H6]; · iexact H6
      iexact H9

omit [FloatOps F] in
/-- What a device receives with its neighbours' units: the half-slots of their all-gather buffers on its side, and the
    slots of the reduce-scatter buffers of its two partners that it fills. -/
theorem barPay_take (c : Dev nD) :
    (iprop(barPay c false ∗ barPay c true) : sProp 𝕄)
      ⊢ iprop(free (rgt c) ag0Lo ∗ free (rgt c) ag0Hi ∗ free (rgt c) ag2Lo ∗ free (lft c) ag1Hi ∗ free (lft c) ag1Lo ∗ free (lft c) ag2Hi
          ∗ free (far c) rs0 ∗ free (far c) rs1 ∗ free (par c) rs2) := by
  unfold barPay
  simp only [Bool.false_eq_true, if_false, if_true]
  rcases Nat.mod_two_eq_zero_or_one c.val with h | h
  · obtain ⟨hf, hp⟩ := far_par_even c h
    simp only [h, if_true, hf, hp]
    iintro ⟨⟨H1, H2, H3, H9⟩, H4, H5, H6, H7, H8⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · obtain ⟨hf, hp⟩ := far_par_odd c h
    simp only [h, Nat.one_ne_zero, if_false, hf, hp]
    iintro ⟨⟨H1, H2, H3, H7, H8⟩, H4, H5, H6, H9⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

omit [FloatOps F] in
/-- Two assertions held together feed a consequence that asks for them one after the other. -/
theorem sep_wand2 (A B P : sProp 𝕄) : iprop((A ∗ B) ∗ (A -∗ B -∗ P)) ⊢ P := by
  iintro ⟨⟨HA, HB⟩, HP⟩
  iapply HP $$ HA HB

omit [FloatOps F] in
/-- `barPay_give`, for a consequence that asks for the two grants one after the other. -/
theorem barPay_give_k (c : Dev nD) (P : sProp 𝕄) :
    iprop((free c ag0Lo ∗ free c ag0Hi ∗ free c ag1Lo ∗ free c ag1Hi ∗ free c ag2Lo ∗ free c ag2Hi ∗ free c rs0 ∗ free c rs1 ∗ free c rs2)
        ∗ (barPay (lft c) false -∗ barPay (rgt c) true -∗ P)) ⊢ P :=
  (sep_mono_left (barPay_give (F := F) c)).trans (sep_wand2 _ _ P)

omit [FloatOps F] in
/-- What is left of the barrier cell's round when nothing of it has been taken: both neighbours' grants. -/
theorem barPay_rest (c : Dev nD) :
    (bigSep (Finset.univ : Finset Bool) (fun d => barPay (F := F) c d) : sProp 𝕄)
      ⊢ iprop(free (rgt c) ag0Lo ∗ free (rgt c) ag0Hi ∗ free (rgt c) ag2Lo ∗ free (lft c) ag1Hi ∗ free (lft c) ag1Lo ∗ free (lft c) ag2Hi
          ∗ free (far c) rs0 ∗ free (far c) rs1 ∗ free (par c) rs2) := by
  rw [bigSep_univ_eq_bigSepL [false, true] (by decide) (by decide), bigSepL_cons_cons, bigSepL_singleton]
  exact barPay_take c

end Cert.Kernel.Mlp

end
-- ==== Proof.WGeom3.lean ====
/-
  Storing into the scratch buffers and the result buffer.

  A whole slot stored into the send buffer leaves, on that slot, the canonical contents of the buffer (the stored
  payload is what the contents are defined to hold there); the elements such a store writes are the slot view's, and
  the elements a whole-slot load of a landing buffer reads are the slot view's (its two half views', for the all-gather
  buffer). The reduced chunk stored over the whole own buffer is its canonical contents. Last, the result buffer: a row
  lies in exactly one of the four chunks of 192 rows, and the device writes its own chunk, the chunk of the device before
  it, of the device after it and of the device across the ring — four different chunks — so after the four stores a row
  holds what the one store covering it wrote.
-/
import proofs.«900352_g7700000000000353_dist_gated_mlp_tp_i_m768_h1536_d768_v7x_i4_f32_1_alg».proof.Proof.WGeom2

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.ValueIdx

variable (m : (ℓ : Loc nD τ sig) → Buf (Elt F) ℓ)

/-! ## The canonical contents of a three-slot buffer, by the slot of the element -/

theorem slot3_of_zero {α : Type} (X0 X1 X2 : S1x192x768.Idx → α) (i : S3x192x768.Idx) (h : (i 0).val = 0) :
    slot3 X0 X1 X2 i = X0 (ix3 (0 : Fin 1) (i 1) (i 2)) := by
  unfold slot3; rw [if_pos h]
theorem slot3_of_one {α : Type} (X0 X1 X2 : S1x192x768.Idx → α) (i : S3x192x768.Idx) (h : (i 0).val = 1) :
    slot3 X0 X1 X2 i = X1 (ix3 (0 : Fin 1) (i 1) (i 2)) := by
  unfold slot3; rw [if_neg (by omega), if_pos h]
theorem slot3_of_two {α : Type} (X0 X1 X2 : S1x192x768.Idx → α) (i : S3x192x768.Idx) (h : (i 0).val = 2) :
    slot3 X0 X1 X2 i = X2 (ix3 (0 : Fin 1) (i 1) (i 2)) := by
  unfold slot3; rw [if_neg (by omega), if_neg (by omega)]

/-! ## G6: a store of a whole slot, read at an element of the slot -/

/-- An element of slot `k` is where the slot's rectangle puts `(0, i 1, i 2)`. -/
theorem slot_rect_emb_of (k : Nat) (inb : ∀ a, (![k, 0, 0] : Fin 3 → Nat) a + S1x192x768.size a ≤ S3x192x768.size a)
    (i : S3x192x768.Idx) (hi : (i 0).val = k) :
    (Rect.unit (s := S3x192x768) ![k, 0, 0] S1x192x768.size inb).emb (ix3 (0 : Fin 1) (i 1) (i 2)) = i := by
  funext a
  match a with
  | ⟨0, _⟩ => exact Fin.ext (show k + 1 * 0 = (i 0).val by omega)
  | ⟨1, _⟩ => exact Fin.ext (show 0 + 1 * (i 1).val = (i 1).val by omega)
  | ⟨2, _⟩ => exact Fin.ext (show 0 + 1 * (i 2).val = (i 2).val by omega)

omit [FloatOps F] in
/-- What a write through a view leaves at the place of one of its indices. -/
theorem write_at {κ : Kind} {sp : Space} {sh : Shape} {e : EltTy} (V : View sig κ sp sh e) (f : V.ty.Contents (Elt F))
    (w : sh.Idx → Elt F e) (x : sh.Idx) (i : V.ty.Idx) (h : V.emb x = i) :
    V.write (Elt F) f w Finset.univ i = _root_.cast (congrArg (Elt F) V.elt_eq.symm) (w x) :=
  h ▸ View.write_emb_of_mem f w (Finset.mem_univ x)

/-- Slot 0 of the send buffer once stored: on that slot the buffer is the canonical contents. -/
theorem store_sb0 (c : Dev nD) (f : Buf (Elt F) ((c : Thread nD τ).loc cc0_scratch0)) :
    ∀ i ∈ (sb0 : Memref sig .tc .vmem S192x768 .bf16).view.set,
      ((Memref.whole cc0_scratch0 : Memref sig .tc .vmem S3x192x768 .bf16).access
        (Rect.unit (s := S3x192x768) ![0, 0, 0] S1x192x768.size inb_S3x192x768_S1x192x768_0_0_0)).write (Elt F) f (SB0 m c) Finset.univ i
        = sbBuf m c i := by
  intro i hi
  have h0 : (i 0).val = 0 := (mem_sb0 i).mp hi
  refine (write_at _ f (SB0 m c) (ix3 (0 : Fin 1) (i 1) (i 2)) i (slot_rect_emb_of 0 _ i h0)).trans ?_
  rw [cast_eq]
  exact (slot3_of_zero (SB0 m c) (SB1 m c) (SB2 m c) i h0).symm

/-- Slot 1 of the send buffer once stored: on that slot the buffer is the canonical contents. -/
theorem store_sb1 (c : Dev nD) (f : Buf (Elt F) ((c : Thread nD τ).loc cc0_scratch0)) :
    ∀ i ∈ (sb1 : Memref sig .tc .vmem S192x768 .bf16).view.set,
      ((Memref.whole cc0_scratch0 : Memref sig .tc .vmem S3x192x768 .bf16).access
        (Rect.unit (s := S3x192x768) ![1, 0, 0] S1x192x768.size inb_S3x192x768_S1x192x768_1_0_0)).write (Elt F) f (SB1 m c) Finset.univ i
        = sbBuf m c i := by
  intro i hi
  have h0 : (i 0).val = 1 := (mem_sb1 i).mp hi
  refine (write_at _ f (SB1 m c) (ix3 (0 : Fin 1) (i 1) (i 2)) i (slot_rect_emb_of 1 _ i h0)).trans ?_
  rw [cast_eq]
  exact (slot3_of_one (SB0 m c) (SB1 m c) (SB2 m c) i h0).symm

/-- Slot 2 of the send buffer once stored: on that slot the buffer is the canonical contents. -/
theorem store_sb2 (c : Dev nD) (f : Buf (Elt F) ((c : Thread nD τ).loc cc0_scratch0)) :
    ∀ i ∈ (sb2 : Memref sig .tc .vmem S192x768 .bf16).view.set,
      ((Memref.whole cc0_scratch0 : Memref sig .tc .vmem S3x192x768 .bf16).access
        (Rect.unit (s := S3x192x768) ![2, 0, 0] S1x192x768.size inb_S3x192x768_S1x192x768_2_0_0)).write (Elt F) f (SB2 m c) Finset.univ i
        = sbBuf m c i := by
  intro i hi
  have h0 : (i 0).val = 2 := (mem_sb2 i).mp hi
  refine (write_at _ f (SB2 m c) (ix3 (0 : Fin 1) (i 1) (i 2)) i (slot_rect_emb_of 2 _ i h0)).trans ?_
  rw [cast_eq]
  exact (slot3_of_two (SB0 m c) (SB1 m c) (SB2 m c) i h0).symm

/-! ## The elements a slot store writes and a slot load reads -/

omit [FloatOps F] in
theorem store_set_sb0 : ((Memref.whole cc0_scratch0 : Memref sig .tc .vmem S3x192x768 .bf16).access
      (Rect.unit (s := S3x192x768) ![0, 0, 0] S1x192x768.size inb_S3x192x768_S1x192x768_0_0_0)).setOn Finset.univ
    = (sb0 : Memref sig .tc .vmem S192x768 .bf16).view.set := by
  simp only [View.setOn_univ, Memref.view_squeeze, Memref.view_slice, Memref.view_whole, View.set_reshape, View.set_slice_whole]
  exact View.set_slice_whole cc0_scratch0 _
omit [FloatOps F] in
theorem store_set_sb1 : ((Memref.whole cc0_scratch0 : Memref sig .tc .vmem S3x192x768 .bf16).access
      (Rect.unit (s := S3x192x768) ![1, 0, 0] S1x192x768.size inb_S3x192x768_S1x192x768_1_0_0)).setOn Finset.univ
    = (sb1 : Memref sig .tc .vmem S192x768 .bf16).view.set := by
  simp only [View.setOn_univ, Memref.view_squeeze, Memref.view_slice, Memref.view_whole, View.set_reshape, View.set_slice_whole]
  exact View.set_slice_whole cc0_scratch0 _
omit [FloatOps F] in
theorem store_set_sb2 : ((Memref.whole cc0_scratch0 : Memref sig .tc .vmem S3x192x768 .bf16).access
      (Rect.unit (s := S3x192x768) ![2, 0, 0] S1x192x768.size inb_S3x192x768_S1x192x768_2_0_0)).setOn Finset.univ
    = (sb2 : Memref sig .tc .vmem S192x768 .bf16).view.set := by
  simp only [View.setOn_univ, Memref.view_squeeze, Memref.view_slice, Memref.view_whole, View.set_reshape, View.set_slice_whole]
  exact View.set_slice_whole cc0_scratch0 _

omit [FloatOps F] in
/-- A slot load of the reduce-scatter landing buffer reads the elements of that slot's view. -/
theorem load_set_rs0 : (Memref.whole cc0_scratch1 : Memref sig .tc .vmem S3x192x768 .bf16).view.setOn
      (Rect.unit (s := S3x192x768) ![0, 0, 0] S1x192x768.size inb_S3x192x768_S1x192x768_0_0_0).toLoadRect.set
    ⊆ (rs0 : Memref sig .tc .vmem S192x768 .bf16).view.set := by
  intro i hi
  obtain ⟨j, hj, rfl⟩ := Finset.mem_map.mp hi
  exact (mem_rs0 _).mpr ((mem_slot 0 _ j).mp hj)
omit [FloatOps F] in
theorem load_set_rs1 : (Memref.whole cc0_scratch1 : Memref sig .tc .vmem S3x192x768 .bf16).view.setOn
      (Rect.unit (s := S3x192x768) ![1, 0, 0] S1x192x768.size inb_S3x192x768_S1x192x768_1_0_0).toLoadRect.set
    ⊆ (rs1 : Memref sig .tc .vmem S192x768 .bf16).view.set := by
  intro i hi
  obtain ⟨j, hj, rfl⟩ := Finset.mem_map.mp hi
  exact (mem_rs1 _).mpr ((mem_slot 1 _ j).mp hj)
omit [FloatOps F] in
theorem load_set_rs2 : (Memref.whole cc0_scratch1 : Memref sig .tc .vmem S3x192x768 .bf16).view.setOn
      (Rect.unit (s := S3x192x768) ![2, 0, 0] S1x192x768.size inb_S3x192x768_S1x192x768_2_0_0).toLoadRect.set
    ⊆ (rs2 : Memref sig .tc .vmem S192x768 .bf16).view.set := by
  intro i hi
  obtain ⟨j, hj, rfl⟩ := Finset.mem_map.mp hi
  exact (mem_rs2 _).mpr ((mem_slot 2 _ j).mp hj)

omit [FloatOps F] in
/-- A slot load of the all-gather landing buffer reads the elements of that slot's two half views. -/
theorem load_set_ag0 : (Memref.whole cc0_scratch3 : Memref sig .tc .vmem S3x192x768 .bf16).view.setOn
      (Rect.unit (s := S3x192x768) ![0, 0, 0] S1x192x768.size inb_S3x192x768_S1x192x768_0_0_0).toLoadRect.set
    ⊆ (ag0Lo : Memref sig .tc .vmem S96x768 .bf16).view.set ∪ (ag0Hi : Memref sig .tc .vmem S96x768 .bf16).view.set := by
  intro i hi
  obtain ⟨j, hj, rfl⟩ := Finset.mem_map.mp hi
  have h0 := (mem_slot 0 _ j).mp hj
  rcases Nat.lt_or_ge (j 1).val 96 with h | h
  · exact Finset.mem_union_left _ ((mem_ag0Lo _).mpr ⟨h0, h⟩)
  · exact Finset.mem_union_right _ ((mem_ag0Hi _).mpr ⟨h0, h⟩)
omit [FloatOps F] in
theorem load_set_ag1 : (Memref.whole cc0_scratch3 : Memref sig .tc .vmem S3x192x768 .bf16).view.setOn
      (Rect.unit (s := S3x192x768) ![1, 0, 0] S1x192x768.size inb_S3x192x768_S1x192x768_1_0_0).toLoadRect.set
    ⊆ (ag1Lo : Memref sig .tc .vmem S96x768 .bf16).view.set ∪ (ag1Hi : Memref sig .tc .vmem S96x768 .bf16).view.set := by
  intro i hi
  obtain ⟨j, hj, rfl⟩ := Finset.mem_map.mp hi
  have h0 := (mem_slot 1 _ j).mp hj
  rcases Nat.lt_or_ge (j 1).val 96 with h | h
  · exact Finset.mem_union_left _ ((mem_ag1Lo _).mpr ⟨h0, h⟩)
  · exact Finset.mem_union_right _ ((mem_ag1Hi _).mpr ⟨h0, h⟩)
omit [FloatOps F] in
theorem load_set_ag2 : (Memref.whole cc0_scratch3 : Memref sig .tc .vmem S3x192x768 .bf16).view.setOn
      (Rect.unit (s := S3x192x768) ![2, 0, 0] S1x192x768.size inb_S3x192x768_S1x192x768_2_0_0).toLoadRect.set
    ⊆ (ag2Lo : Memref sig .tc .vmem S96x768 .bf16).view.set ∪ (ag2Hi : Memref sig .tc .vmem S96x768 .bf16).view.set := by
  intro i hi
  obtain ⟨j, hj, rfl⟩ := Finset.mem_map.mp hi
  have h0 := (mem_slot 2 _ j).mp hj
  rcases Nat.lt_or_ge (j 1).val 96 with h | h
  · exact Finset.mem_union_left _ ((mem_ag2Lo _).mpr ⟨h0, h⟩)
  · exact Finset.mem_union_right _ ((mem_ag2Hi _).mpr ⟨h0, h⟩)

/-! ## The own chunk stored whole -/

/-- The reduced chunk stored over the whole own buffer: the buffer is the canonical contents. -/
theorem store_own (c : Dev nD) (f : Buf (Elt F) ((c : Thread nD τ).loc cc0_scratch2)) :
    ((Memref.whole cc0_scratch2 : Memref sig .tc .vmem S192x768 .bf16).access
      (Rect.unit (s := S192x768) ![0, 0] S192x768.size inb_S192x768_S192x768_0_0)).write (Elt F) f (OWN m c) Finset.univ = ownBuf m c :=
  Memref.write_access_unit_zero_univ (Elt F) cc0_scratch2 (funext fun a => by fin_cases a <;> rfl) _ f (OWN m c)

/-! ## G7: the result buffer, written chunk by chunk -/

/-- The four row offsets of the result's chunks, by the chunk they start. -/
theorem roff_own (c : Dev nD) : k0_off4 c = ![192 * c.val, 0] := k0_off4_eq c
theorem roff_lft (c : Dev nD) : k0_off5 c = ![192 * (lft c).val, 0] := by rw [off5_eq, lft_val]
theorem roff_rgt (c : Dev nD) : k0_off1 c 1#32 = ![192 * (rgt c).val, 0] := by rw [off1_one, rgt_val]
theorem roff_opp (c : Dev nD) : k0_off1 c 2#32 = ![192 * (opp c).val, 0] := by rw [off1_two, opp_val]

/-- The four chunks a device writes are the four chunks. -/
theorem four_chunks : ∀ (c : Dev nD) (e : Fin 4),
    (e.val = c.val ∨ e.val = (lft c).val ∨ e.val = (rgt c).val ∨ e.val = (opp c).val)
      ∧ c.val ≠ (lft c).val ∧ c.val ≠ (rgt c).val ∧ c.val ≠ (opp c).val
      ∧ (lft c).val ≠ (rgt c).val ∧ (lft c).val ≠ (opp c).val ∧ (rgt c).val ≠ (opp c).val := by
  decide +kernel

omit [FloatOps F] in
/-- One chunk of 192 rows written into the 768-row result buffer: a row of that chunk holds what was written, any other
    row what it held. -/
theorem chunk_write_stg4 (off : Fin 2 → Nat) (hinb : ∀ a, off a + S192x768.size a ≤ S768x768.size a) (e : Fin 4)
    (hoff : off = ![192 * e.val, 0]) (g : (cc0_stg4_0 : Ref sig .tc).ty.Contents (Elt F)) (w : S192x768.Idx → Elt F .f32)
    (i : S768x768.Idx) :
    ((Memref.whole cc0_stg4_0 : Memref sig .tc .vmem S768x768 .f32).access (Rect.unit (s := S768x768) off S192x768.size hinb)).write
        (Elt F) g w Finset.univ i
      = if (i 0).val / 192 = e.val then w (ix2 (⟨(i 0).val % 192, Nat.mod_lt _ (by decide)⟩ : Fin 192) (i 1)) else g i := by
  subst hoff
  by_cases h : (i 0).val / 192 = e.val
  · rw [if_pos h]
    refine (write_at ((Memref.whole cc0_stg4_0 : Memref sig .tc .vmem S768x768 .f32).access
      (Rect.unit (s := S768x768) ![192 * e.val, 0] S192x768.size hinb)) g w
      (ix2 (⟨(i 0).val % 192, Nat.mod_lt _ (by decide)⟩ : Fin 192) (i 1)) i ?_).trans (cast_eq _ _)
    funext a
    match a with
    | ⟨0, _⟩ => exact Fin.ext (show 192 * e.val + 1 * ((i 0).val % 192) = (i 0).val by omega)
    | ⟨1, _⟩ => exact Fin.ext (show 0 + 1 * (i 1).val = (i 1).val by omega)
  · rw [if_neg h]
    refine View.write_of_not_mem (v := (Memref.whole cc0_stg4_0 : Memref sig .tc .vmem S768x768 .f32).access
      (Rect.unit (s := S768x768) ![192 * e.val, 0] S192x768.size hinb)) g w Finset.univ (i := i) fun hi => h ?_
    obtain ⟨j, -, hj⟩ := Finset.mem_map.mp hi
    have h0 : (i 0).val = 192 * e.val + 1 * (j 0).val := (congrArg (fun x : S768x768.Idx => (x 0).val) hj).symm
    have hj0 : (j 0).val < 192 := (j 0).isLt
    omega

/-- THE RESULT BUFFER: the four chunks written in the order own, before, after, across leave the result array. -/
theorem out_writes (c : Dev nD) (x4 : (cc0_stg4_0 : Ref sig .tc).ty.Contents (Elt F)) :
    ((Memref.whole cc0_stg4_0 : Memref sig .tc .vmem S768x768 .f32).access
        (Rect.unit (s := S768x768) (k0_off1 c 2#32) S192x768.size (k0_off1_inb c 1))).write (Elt F)
      (((Memref.whole cc0_stg4_0 : Memref sig .tc .vmem S768x768 .f32).access
          (Rect.unit (s := S768x768) (k0_off1 c 1#32) S192x768.size (k0_off1_inb c 0))).write (Elt F)
        (((Memref.whole cc0_stg4_0 : Memref sig .tc .vmem S768x768 .f32).access
            (Rect.unit (s := S768x768) (k0_off5 c) S192x768.size (k0_off5_inb c))).write (Elt F)
          (((Memref.whole cc0_stg4_0 : Memref sig .tc .vmem S768x768 .f32).access
              (Rect.unit (s := S768x768) (k0_off4 c) S192x768.size (k0_off4_inb c))).write (Elt F) x4 (ACC m c) Finset.univ)
          (k0_pay10 (asSlot (OWN m (lft c)))) Finset.univ)
        (k0_pay11 (asSlot (OWN m (rgt c)))) Finset.univ)
      (k0_pay12 (asSlot (OWN m (opp c)))) Finset.univ
      = outBuf m c := by
  funext i
  have hi : (i 0).val < 768 := (i 0).isLt
  obtain ⟨hcase, d1, d2, d3, d4, d5, d6⟩ := four_chunks c ⟨(i 0).val / 192, by omega⟩
  have hcase' : (i 0).val / 192 = c.val ∨ (i 0).val / 192 = (lft c).val ∨ (i 0).val / 192 = (rgt c).val
      ∨ (i 0).val / 192 = (opp c).val := hcase
  rw [chunk_write_stg4 _ _ (opp c) (roff_opp c), chunk_write_stg4 _ _ (rgt c) (roff_rgt c),
    chunk_write_stg4 _ _ (lft c) (roff_lft c), chunk_write_stg4 _ _ c (roff_own c)]
  unfold outBuf
  split_ifs <;> first | (exfalso; omega) | rfl

end Cert.Kernel.Mlp

end
-- ==== Proof.WBodyMidRun.lean ====
/-
  The middle stretch of the body's run on a device: the three remaining direct transfers of the all-gather (the upper
  half of the device's reduced chunk to both ring neighbours, the lower half to the device before it), the two forwarded
  ones (what landed in the lower half of slot 0 on to the device after, what landed in the upper half of slot 1 on to the
  device before), the six landings waited for, and the three gathered chunks read slot by slot and written to the result.
  Each transfer pays one summand of what the device owes and hands the landed region to the landing cell's round; each
  wait returns the landed region at the canonical contents; a slot is read through its two halves held at one share.
-/
import proofs.«900352_g7700000000000353_dist_gated_mlp_tp_i_m768_h1536_d768_v7x_i4_f32_1_alg».proof.Proof.WBodyMid
import proofs.«900352_g7700000000000353_dist_gated_mlp_tp_i_m768_h1536_d768_v7x_i4_f32_1_alg».proof.Proof.WGeom3
import Idealize.ShloMosaic.Lib.Pipeline.Launch
import Idealize.ShloMosaic.Lib.Pipeline.Kit
import Idealize.ShloMosaic.Lib.Tactic

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The transfer rule at this kernel's cells, and the regions joined and split -/

namespace MidRun

/-- A transfer of a region held at share `q` to a peer's region the issuer holds whole: the source goes to the send
    cell's round, the landed region to the landing cell's, and one summand of what the issuer owes is paid. -/
theorem wp_send_to (c p n : Dev nD) (hn : n = p) {sh : Shape} {S D : Memref sig .tc .vmem sh .bf16} {sS sR : DmaSem sig}
    {hsc : (D : Memref sig (Dev.tc n : Thread nD τ).2.kind .vmem sh .bf16).view.ref.isScScratch = false}
    {hsrc : S.view.WordExact} {hdst : D.view.WordExact}
    {hsem : DmaTarget.Typed .vmem (.dma sR) (.remote (Dev.tc n : Thread nD τ) D (.dma sS) hsc)}
    {α : Type} {Q : α → sProp 𝕄} {k : PUnit → Prog (TpuEff nD τ sig (Elt F) Λ₀ .tc) α}
    (q : PosShare TreeShare) (fs : Buf (Elt F) (S.view.loc (c : Thread nD τ))) (fd : Buf (Elt F) (D.view.loc (p : Thread nD τ)))
    (W : Waits sig Unit) (κ₁ κ₂ : ℕ) (N : ℕ) (O O' : CellTallies nD τ sig Unit)
    (hd₁ : false ∈ (Rd m).duties (cellAt c (.dma sS)) 0) (hd₂ : false ∈ (Rd m).duties (cellAt p (.dma sR)) 0)
    (hN : D.view.amount (.dma sR) = N)
    (hk₁ : (Rd m).amount (cellAt c (.dma sS)) 0 false = N) (hk₂ : (Rd m).amount (cellAt p (.dma sR)) 0 false = N)
    (hO : O = O' + tallyAt (cellAt p (.dma sR)) () N)
    (hpay₁ : held c S q fs ⊢ (Rd m).payload (cellAt c (.dma sS)) 0 false)
    (hpay₂ : held p D fullShare (D.view.write (Elt F) fd (S.view.read (Elt F) fs) Finset.univ) ⊢ (Rd m).payload (cellAt p (.dma sR)) 0 false) :
    iprop(cellInv ER (Rd m) κ₁ (cellAt c (.dma sS)) ∗ cellInv ER (Rd m) κ₂ (cellAt p (.dma sR))
        ∗ held c S q fs ∗ held p D fullShare fd
        ∗ owes (c : Thread nD τ) O W
        ∗ dutyTok ER (cellAt c (.dma sS)) 0 false ∗ reached ER (cellAt c (.dma sS)) 0
        ∗ dutyTok ER (cellAt p (.dma sR)) 0 false ∗ reached ER (cellAt p (.dma sR)) 0)
      ⊢ iprop(((cred (tallyAt (cellAt c (.dma sS)) () N) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma S (.remote (Dev.tc n : Thread nD τ) D (.dma sS) hsc) (.dma sR) hsrc hdst hsem) k) Q) := by
  subst hn
  unfold held at hpay₁ hpay₂ ⊢
  exact Rounds.wp_send_pointsTo 𝒱₀ ER (Rd m) (c : Thread nD τ) none (κ₁ := κ₁) (κ₂ := κ₂)
    (r₁ := 0) (r₂ := 0) (d₁ := false) (d₂ := false) (fd := fd) hd₁ hd₂ () () N hN hk₁ hk₂ O' hO (W := W) hpay₁ hpay₂

/-- A region handed over is a region held at some contents. -/
theorem free_held (p : Dev nD) {sh : Shape} (M : Memref sig .tc .vmem sh .bf16) :
    (free p M : sProp 𝕄) = iprop(∃ f, held p M fullShare f) := rfl

/-- The two halves of slot 0 of the all-gather landing buffer, at one share, are one region. -/
theorem slot0_join (c : Dev nD) (q : PosShare TreeShare) (X : Buf (Elt F) ((c : Thread nD τ).loc cc0_scratch3)) :
    (iprop(held c ag0Lo q X ∗ held c ag0Hi q X) : sProp 𝕄)
      = ((c : Thread nD τ).loc cc0_scratch3 ↦[(ag0Lo : Memref sig .tc .vmem S96x768 .bf16).view.set ∪ (ag0Hi : Memref sig .tc .vmem S96x768 .bf16).view.set]{q} X) :=
  (pointsTo_union_eq (Finset.disjoint_left.mpr fun i hi hj => by
    have h1 := (mem_ag0Lo i).mp hi
    have h2 := (mem_ag0Hi i).mp hj
    omega)).symm

/-- The two halves of slot 1 of the all-gather landing buffer, at one share, are one region. -/
theorem slot1_join (c : Dev nD) (q : PosShare TreeShare) (X : Buf (Elt F) ((c : Thread nD τ).loc cc0_scratch3)) :
    (iprop(held c ag1Lo q X ∗ held c ag1Hi q X) : sProp 𝕄)
      = ((c : Thread nD τ).loc cc0_scratch3 ↦[(ag1Lo : Memref sig .tc .vmem S96x768 .bf16).view.set ∪ (ag1Hi : Memref sig .tc .vmem S96x768 .bf16).view.set]{q} X) :=
  (pointsTo_union_eq (Finset.disjoint_left.mpr fun i hi hj => by
    have h1 := (mem_ag1Lo i).mp hi
    have h2 := (mem_ag1Hi i).mp hj
    omega)).symm

/-- The two halves of slot 2 of the all-gather landing buffer, at one share, are one region. -/
theorem slot2_join (c : Dev nD) (q : PosShare TreeShare) (X : Buf (Elt F) ((c : Thread nD τ).loc cc0_scratch3)) :
    (iprop(held c ag2Lo q X ∗ held c ag2Hi q X) : sProp 𝕄)
      = ((c : Thread nD τ).loc cc0_scratch3 ↦[(ag2Lo : Memref sig .tc .vmem S96x768 .bf16).view.set ∪ (ag2Hi : Memref sig .tc .vmem S96x768 .bf16).view.set]{q} X) :=
  (pointsTo_union_eq (Finset.disjoint_left.mpr fun i hi hj => by
    have h1 := (mem_ag2Lo i).mp hi
    have h2 := (mem_ag2Hi i).mp hj
    omega)).symm

/-- The result staging buffer is held whole. -/
theorem sub_out (c : Dev nD) (A : Finset (Idx ((Memref.whole cc0_stg4_0 : Memref sig .tc .vmem S768x768 .f32).view.loc ((c : Dev nD) : Thread nD τ)))) :
    A ⊆ (Memref.whole cc0_stg4_0 : Memref sig .tc .vmem S768x768 .f32).view.set := by
  rw [show (Memref.whole cc0_stg4_0 : Memref sig .tc .vmem S768x768 .f32).view.set = Finset.univ from View.set_whole _]
  exact Finset.subset_univ _

/-- A persistent assertion may be kept and used. -/
theorem pers_dup (P : sProp 𝕄) [BI.Persistent P] : P ⊢ iprop(P ∗ P) := by
  iintro #H; isplitr <;> iexact H

end MidRun

open MidRun in
set_option maxHeartbeats 1600000 in
set_option maxRecDepth 65536 in
/-- The middle stretch runs from the first point's holdings to the second point's. -/
theorem mid_runs (c : Dev nD) : MidRuns m c := by
  intro K v13 v24 v37 α kk Kt
  simp only [k0_part7_eq_skeleton, k0_part8_eq_skeleton, k0_part9_eq_skeleton, k0_part10_eq_skeleton]
  unfold k0_part7_skel k0_part8_skel k0_part9_skel k0_part10_skel
  simp only [Prog.lift, Prog.bind_op, Prog.bind_ret, Prog.pure_eq_ret, bind_assoc, pure_bind]
  unfold M1
  iintro ⟨⟨⟨HI, HR, #Hlev⟩, ⟨Pbar, Prr0, Prr1, Prr2, Prs0, Prs1, Prs2, Pas0, Pas1, Pas2, Pas3, Pas4, Pas5, Par0, Par1, Par2, Par3, Par4, Par5⟩,
    ⟨Tr3, Tr1, Tr2, Tr4, Tr5, Ts1, Ts2, Ts3, Ts4, Ts5⟩, ⟨Crs0, Crs1, Crs2, Cas0, Car0, Car1, Car2, Car3, Car4, Car5⟩, ⟨%W, HO⟩,
    ⟨Hrs0, Hrs1, Hrs2, HownHi, HownLoR, Fag0Hi, Fag2Lo, Fag1Hi, Fag1Lo, Fag2Hi⟩, Hin, ⟨%x4, Hout⟩⟩, Hk⟩

  ihave HI := (pers_dup (invs m K c)) $$ HI
  icases HI with ⟨#HIall, HI⟩
  unfold invs
  icases HI with ⟨#I0, #I1, #I2, #I3, #I4, #I5, #I6, #I7, #I8, #I9, #I10, #I11, #I12, #I13, #I14, #I15, #I16, #I17, #I18, #I19, #I20, #I21, #I22, #I23, #I24, #I25, #I26, #I27, #I28, #I29⟩
  ihave HR := (pers_dup (reacheds (F := F) c)) $$ HR
  icases HR with ⟨#HRall, HR⟩
  unfold reacheds
  icases HR with ⟨#R0, #R1, #R2, #R3, #R4, #R5, #R6, #R7, #R8, #R9, #R10, #R11, #R12, #R13, #R14, #R15, #R16, #R17, #R18, #R19, #R20, #R21, #R22, #R23, #R24, #R25, #R26, #R27, #R28, #R29⟩
  -- the upper half of the own chunk, in two shares
  ihave HownHi := (Entails.of_eq (held_halve c ownHi (ownBuf m c))) $$ HownHi
  icases HownHi with ⟨HownHiL, HownHiR⟩
  -- the upper half, to the upper half of slot 1 of the device before
  ihave Fag1Hi := (Entails.of_eq (free_held (F := F) (lft c) ag1Hi)) $$ Fag1Hi
  icases Fag1Hi with ⟨%fd1, Fag1Hi⟩
  iapply (wp_send_to m c (lft c) _ (dev7_eq c) fullShare.right (ownBuf m c) fd1 W (K (c, 9)) (K (lft c, 16)) N96 (Oe c) (Od c)
      (by rw [duties_agSnd2]; exact Finset.mem_singleton_self _) (by rw [duties_agRcv3]; exact Finset.mem_singleton_self _)
      rfl (amount_agSnd2 m c false) (amount_agRcv3 m (lft c) false) rfl
      (by rw [payload_agSnd2])
      (by rw [payload_agRcv3, land_ag1Hi m c fd1])) $$ [HownHiR Fag1Hi HO Ts2 Tr3]
  · isplitr; · iexact I9
    isplitr; · iexact I25
    isplitl [HownHiR]; · iexact HownHiR
    isplitl [Fag1Hi]; · iexact Fag1Hi
    isplitl [HO]; · iexact HO
    isplitl [Ts2]; · iexact Ts2
    isplitr; · iexact R9
    isplitl [Tr3]; · iexact Tr3
    iexact R25
  iintro ⟨Cas2, HO⟩
  -- the upper half, to the upper half of slot 0 of the device after
  ihave Fag0Hi := (Entails.of_eq (free_held (F := F) (rgt c) ag0Hi)) $$ Fag0Hi
  icases Fag0Hi with ⟨%fd2, Fag0Hi⟩
  iapply (wp_send_to m c (rgt c) _ (dev8_eq c) fullShare.left (ownBuf m c) fd2 W (K (c, 8)) (K (rgt c, 14)) N96 (Od c) (Oc c)
      (by rw [duties_agSnd1]; exact Finset.mem_singleton_self _) (by rw [duties_agRcv1]; exact Finset.mem_singleton_self _)
      rfl (amount_agSnd1 m c false) (amount_agRcv1 m (rgt c) false) rfl
      (by rw [payload_agSnd1])
      (by rw [payload_agRcv1, land_ag0Hi m c fd2])) $$ [HownHiL Fag0Hi HO Ts1 Tr1]
  · isplitr; · iexact I8
    isplitr; · iexact I26
    isplitl [HownHiL]; · iexact HownHiL
    isplitl [Fag0Hi]; · iexact Fag0Hi
    isplitl [HO]; · iexact HO
    isplitl [Ts1]; · iexact Ts1
    isplitr; · iexact R8
    isplitl [Tr1]; · iexact Tr1
    iexact R26
  iintro ⟨Cas1, HO⟩
  -- the lower half, to the lower half of slot 1 of the device before
  ihave Fag1Lo := (Entails.of_eq (free_held (F := F) (lft c) ag1Lo)) $$ Fag1Lo
  icases Fag1Lo with ⟨%fd3, Fag1Lo⟩
  iapply (wp_send_to m c (lft c) _ (dev9_eq c) fullShare.right (ownBuf m c) fd3 W (K (c, 10)) (K (lft c, 15)) N96 (Oc c) (Ob c)
      (by rw [duties_agSnd3]; exact Finset.mem_singleton_self _) (by rw [duties_agRcv2]; exact Finset.mem_singleton_self _)
      rfl (amount_agSnd3 m c false) (amount_agRcv2 m (lft c) false) rfl
      (by rw [payload_agSnd3])
      (by rw [payload_agRcv2, land_ag1Lo m c fd3])) $$ [HownLoR Fag1Lo HO Ts3 Tr2]
  · isplitr; · iexact I10
    isplitr; · iexact I27
    isplitl [HownLoR]; · iexact HownLoR
    isplitl [Fag1Lo]; · iexact Fag1Lo
    isplitl [HO]; · iexact HO
    isplitl [Ts3]; · iexact Ts3
    isplitr; · iexact R10
    isplitl [Tr2]; · iexact Tr2
    iexact R27
  iintro ⟨Cas3, HO⟩
  -- the landing in the lower half of slot 0
  iapply (Rounds.wp_wait_rest_token 𝒱₀ ER (Rd m) (c : Thread nD τ) none (κ := K (c, 13))
      (wpE_waitDma2_eq 𝒱₀ (c : Thread nD τ) none Set.univ) (Set.mem_univ _) () (O := Ob c) (W := W) (R := 0) (m := 0) (T := ∅)
      (by rw [Nat.zero_add, expect_agRcv0])) $$ [Car0 HO Par0]
  · isplitr; · iexact I13
    isplitl [Car0]; · iexact Car0
    isplitl [HO]; · iexact HO
    isplitr; · iapply (mayWait_agRcv0 c); iexact Hlev
    iexact Par0
  iintro ⟨HO, Par0, -, Hpay⟩
  ihave Hag0Lo := (Entails.of_eq (rest_agRcv0 m c)) $$ Hpay
  ihave Hag0Lo := (Entails.of_eq (held_halve c ag0Lo (agBuf m c))) $$ Hag0Lo
  icases Hag0Lo with ⟨Hag0LoL, Hag0LoR⟩
  -- what landed there, on to the lower half of slot 2 of the device after
  ihave Fag2Lo := (Entails.of_eq (free_held (F := F) (rgt c) ag2Lo)) $$ Fag2Lo
  icases Fag2Lo with ⟨%fd4, Fag2Lo⟩
  iapply (wp_send_to m c (rgt c) _ (dev10_eq c) fullShare.left (agBuf m c) fd4 (insert (SemLoc.dma agRcv0, ()) W) (K (c, 11)) (K (rgt c, 17)) N96 (Ob c) (Oa c)
      (by rw [duties_agSnd4]; exact Finset.mem_singleton_self _) (by rw [duties_agRcv4]; exact Finset.mem_singleton_self _)
      rfl (amount_agSnd4 m c false) (amount_agRcv4 m (rgt c) false) rfl
      (by rw [payload_agSnd4])
      (by rw [payload_agRcv4, land_ag2Lo m c fd4])) $$ [Hag0LoL Fag2Lo HO Ts4 Tr4]
  · isplitr; · iexact I11
    isplitr; · iexact I28
    isplitl [Hag0LoL]; · iexact Hag0LoL
    isplitl [Fag2Lo]; · iexact Fag2Lo
    isplitl [HO]; · iexact HO
    isplitl [Ts4]; · iexact Ts4
    isplitr; · iexact R11
    isplitl [Tr4]; · iexact Tr4
    iexact R28
  iintro ⟨Cas4, HO⟩
  -- the landing in the upper half of slot 1
  iapply (Rounds.wp_wait_rest_token 𝒱₀ ER (Rd m) (c : Thread nD τ) none (κ := K (c, 16))
      (wpE_waitDma2_eq 𝒱₀ (c : Thread nD τ) none Set.univ) (Set.mem_univ _) () (O := Oa c) (W := (insert (SemLoc.dma agRcv0, ()) W)) (R := 0) (m := 0) (T := ∅)
      (by rw [Nat.zero_add, expect_agRcv3])) $$ [Car3 HO Par3]
  · isplitr; · iexact I16
    isplitl [Car3]; · iexact Car3
    isplitl [HO]; · iexact HO
    isplitr; · iapply (mayWait_agRcv3 c); iexact Hlev
    iexact Par3
  iintro ⟨HO, Par3, -, Hpay⟩
  ihave Hag1Hi := (Entails.of_eq (rest_agRcv3 m c)) $$ Hpay
  ihave Hag1Hi := (Entails.of_eq (held_halve c ag1Hi (agBuf m c))) $$ Hag1Hi
  icases Hag1Hi with ⟨Hag1HiL, Hag1HiR⟩
  -- what landed there, on to the upper half of slot 2 of the device before
  ihave Fag2Hi := (Entails.of_eq (free_held (F := F) (lft c) ag2Hi)) $$ Fag2Hi
  icases Fag2Hi with ⟨%fd5, Fag2Hi⟩
  iapply (wp_send_to m c (lft c) _ (dev11_eq c) fullShare.left (agBuf m c) fd5 (insert (SemLoc.dma agRcv3, ()) (insert (SemLoc.dma agRcv0, ()) W)) (K (c, 12)) (K (lft c, 18)) N96 (Oa c) (0)
      (by rw [duties_agSnd5]; exact Finset.mem_singleton_self _) (by rw [duties_agRcv5]; exact Finset.mem_singleton_self _)
      rfl (amount_agSnd5 m c false) (amount_agRcv5 m (lft c) false) (zero_add _).symm
      (by rw [payload_agSnd5])
      (by rw [payload_agRcv5, land_ag2Hi m c fd5])) $$ [Hag1HiL Fag2Hi HO Ts5 Tr5]
  · isplitr; · iexact I12
    isplitr; · iexact I29
    isplitl [Hag1HiL]; · iexact Hag1HiL
    isplitl [Fag2Hi]; · iexact Fag2Hi
    isplitl [HO]; · iexact HO
    isplitl [Ts5]; · iexact Ts5
    isplitr; · iexact R12
    isplitl [Tr5]; · iexact Tr5
    iexact R29
  iintro ⟨Cas5, HO⟩
  -- the landing in the upper half of slot 0
  iapply (Rounds.wp_wait_rest_token 𝒱₀ ER (Rd m) (c : Thread nD τ) none (κ := K (c, 14))
      (wpE_waitDma2_eq 𝒱₀ (c : Thread nD τ) none Set.univ) (Set.mem_univ _) () (O := 0) (W := (insert (SemLoc.dma agRcv3, ()) (insert (SemLoc.dma agRcv0, ()) W))) (R := 0) (m := 0) (T := ∅)
      (by rw [Nat.zero_add, expect_agRcv1])) $$ [Car1 HO Par1]
  · isplitr; · iexact I14
    isplitl [Car1]; · iexact Car1
    isplitl [HO]; · iexact HO
    isplitr; · rw [MayWait_zero]; iempintro
    iexact Par1
  iintro ⟨HO, Par1, -, Hpay⟩
  ihave Hag0Hi := (Entails.of_eq (rest_agRcv1 m c)) $$ Hpay
  -- slot 0, read through the two halves held at one share
  ihave Hag0Hi := (Entails.of_eq (held_halve c ag0Hi (agBuf m c))) $$ Hag0Hi
  icases Hag0Hi with ⟨Hag0HiL, Hag0HiR⟩
  ihave Hs0 := (Entails.of_eq (slot0_join c fullShare.right (agBuf m c))) $$ [Hag0LoR Hag0HiR]
  · isplitl [Hag0LoR] <;> iassumption
  iapply (wp_load 𝒱₀ (c : Thread nD τ) none Set.univ (m := (Memref.whole cc0_scratch3 : Memref sig .tc .vmem S3x192x768 .bf16)) load_set_ag0) $$ Hs0
  iintro Hs0
  rw [load_ag0]
  ihave Hs0 := (Entails.of_eq (slot0_join c fullShare.right (agBuf m c)).symm) $$ Hs0
  icases Hs0 with ⟨Hag0LoR, Hag0HiR⟩
  ihave Hag0Hi := (Entails.of_eq (held_halve c ag0Hi (agBuf m c)).symm) $$ [Hag0HiL Hag0HiR]
  · isplitl [Hag0HiL] <;> iassumption
  iapply (wp_load 𝒱₀ (c : Thread nD τ) none Set.univ (m := (Memref.whole cc0_stg4_0 : Memref sig .tc .vmem S768x768 .f32)) (sub_out c _)) $$ Hout
  iintro Hout
  iapply (wp_store 𝒱₀ (c : Thread nD τ) none Set.univ (m := (Memref.whole cc0_stg4_0 : Memref sig .tc .vmem S768x768 .f32))
      (r := Rect.unit (s := S768x768) (k0_off5 c) S192x768.size (k0_off5_inb c)) (Mk := Finset.univ) (sub_out c _)) $$ Hout
  iintro Hout
  -- the landing in the lower half of slot 1
  iapply (Rounds.wp_wait_rest_token 𝒱₀ ER (Rd m) (c : Thread nD τ) none (κ := K (c, 15))
      (wpE_waitDma2_eq 𝒱₀ (c : Thread nD τ) none Set.univ) (Set.mem_univ _) () (O := 0) (W := (insert (SemLoc.dma agRcv1, ()) (insert (SemLoc.dma agRcv3, ()) (insert (SemLoc.dma agRcv0, ()) W)))) (R := 0) (m := 0) (T := ∅)
      (by rw [Nat.zero_add, expect_agRcv2])) $$ [Car2 HO Par2]
  · isplitr; · iexact I15
    isplitl [Car2]; · iexact Car2
    isplitl [HO]; · iexact HO
    isplitr; · rw [MayWait_zero]; iempintro
    iexact Par2
  iintro ⟨HO, Par2, -, Hpay⟩
  ihave Hag1Lo := (Entails.of_eq (rest_agRcv2 m c)) $$ Hpay
  -- slot 1 likewise
  ihave Hag1Lo := (Entails.of_eq (held_halve c ag1Lo (agBuf m c))) $$ Hag1Lo
  icases Hag1Lo with ⟨Hag1LoL, Hag1LoR⟩
  ihave Hs1 := (Entails.of_eq (slot1_join c fullShare.right (agBuf m c))) $$ [Hag1LoR Hag1HiR]
  · isplitl [Hag1LoR] <;> iassumption
  iapply (wp_load 𝒱₀ (c : Thread nD τ) none Set.univ (m := (Memref.whole cc0_scratch3 : Memref sig .tc .vmem S3x192x768 .bf16)) load_set_ag1) $$ Hs1
  iintro Hs1
  rw [load_ag1]
  ihave Hs1 := (Entails.of_eq (slot1_join c fullShare.right (agBuf m c)).symm) $$ Hs1
  icases Hs1 with ⟨Hag1LoR, Hag1HiR⟩
  ihave Hag1Lo := (Entails.of_eq (held_halve c ag1Lo (agBuf m c)).symm) $$ [Hag1LoL Hag1LoR]
  · isplitl [Hag1LoL] <;> iassumption
  iapply (wp_load 𝒱₀ (c : Thread nD τ) none Set.univ (m := (Memref.whole cc0_stg4_0 : Memref sig .tc .vmem S768x768 .f32)) (sub_out c _)) $$ Hout
  iintro Hout
  iapply (wp_store 𝒱₀ (c : Thread nD τ) none Set.univ (m := (Memref.whole cc0_stg4_0 : Memref sig .tc .vmem S768x768 .f32))
      (r := Rect.unit (s := S768x768) (k0_off1 c 1#32) S192x768.size (k0_off1_inb c 0)) (Mk := Finset.univ) (sub_out c _)) $$ Hout
  iintro Hout
  -- the landing in the lower half of slot 2
  iapply (Rounds.wp_wait_rest_token 𝒱₀ ER (Rd m) (c : Thread nD τ) none (κ := K (c, 17))
      (wpE_waitDma2_eq 𝒱₀ (c : Thread nD τ) none Set.univ) (Set.mem_univ _) () (O := 0) (W := (insert (SemLoc.dma agRcv2, ()) (insert (SemLoc.dma agRcv1, ()) (insert (SemLoc.dma agRcv3, ()) (insert (SemLoc.dma agRcv0, ()) W))))) (R := 0) (m := 0) (T := ∅)
      (by rw [Nat.zero_add, expect_agRcv4])) $$ [Car4 HO Par4]
  · isplitr; · iexact I17
    isplitl [Car4]; · iexact Car4
    isplitl [HO]; · iexact HO
    isplitr; · rw [MayWait_zero]; iempintro
    iexact Par4
  iintro ⟨HO, Par4, -, Hpay⟩
  ihave Hag2Lo := (Entails.of_eq (rest_agRcv4 m c)) $$ Hpay
  -- the landing in the upper half of slot 2
  iapply (Rounds.wp_wait_rest_token 𝒱₀ ER (Rd m) (c : Thread nD τ) none (κ := K (c, 18))
      (wpE_waitDma2_eq 𝒱₀ (c : Thread nD τ) none Set.univ) (Set.mem_univ _) () (O := 0) (W := (insert (SemLoc.dma agRcv4, ()) (insert (SemLoc.dma agRcv2, ()) (insert (SemLoc.dma agRcv1, ()) (insert (SemLoc.dma agRcv3, ()) (insert (SemLoc.dma agRcv0, ()) W)))))) (R := 0) (m := 0) (T := ∅)
      (by rw [Nat.zero_add, expect_agRcv5])) $$ [Car5 HO Par5]
  · isplitr; · iexact I18
    isplitl [Car5]; · iexact Car5
    isplitl [HO]; · iexact HO
    isplitr; · rw [MayWait_zero]; iempintro
    iexact Par5
  iintro ⟨HO, Par5, -, Hpay⟩
  ihave Hag2Hi := (Entails.of_eq (rest_agRcv5 m c)) $$ Hpay
  -- slot 2, held whole
  ihave Hs2 := (Entails.of_eq (slot2_join c fullShare (agBuf m c))) $$ [Hag2Lo Hag2Hi]
  · isplitl [Hag2Lo] <;> iassumption
  iapply (wp_load 𝒱₀ (c : Thread nD τ) none Set.univ (m := (Memref.whole cc0_scratch3 : Memref sig .tc .vmem S3x192x768 .bf16)) load_set_ag2) $$ Hs2
  iintro Hs2
  rw [load_ag2]
  ihave Hs2 := (Entails.of_eq (slot2_join c fullShare (agBuf m c)).symm) $$ Hs2
  icases Hs2 with ⟨Hag2Lo, Hag2Hi⟩
  iapply (wp_load 𝒱₀ (c : Thread nD τ) none Set.univ (m := (Memref.whole cc0_stg4_0 : Memref sig .tc .vmem S768x768 .f32)) (sub_out c _)) $$ Hout
  iintro Hout
  iapply (wp_store 𝒱₀ (c : Thread nD τ) none Set.univ (m := (Memref.whole cc0_stg4_0 : Memref sig .tc .vmem S768x768 .f32))
      (r := Rect.unit (s := S768x768) (k0_off1 c 2#32) S192x768.size (k0_off1_inb c 1)) (Mk := Finset.univ) (sub_out c _)) $$ Hout
  iintro Hout
  -- the four chunks written are the result
  rw [out_writes m c x4]
  iapply Hk
  unfold M2 invs reacheds
  isplitr
  · isplitr; · iexact HIall
    isplitr; · iexact HRall
    iexact Hlev
  isplitl [Pbar Prr0 Prr1 Prr2 Par0 Par1 Par2 Par3 Par4 Par5 Prs0 Prs1 Prs2 Pas0 Pas1 Pas2 Pas3 Pas4 Pas5]
  ·
    isplitl [Pbar]; · iexact Pbar
    isplitl [Prr0]; · iexact Prr0
    isplitl [Prr1]; · iexact Prr1
    isplitl [Prr2]; · iexact Prr2
    isplitl [Par0]; · iexact Par0
    isplitl [Par1]; · iexact Par1
    isplitl [Par2]; · iexact Par2
    isplitl [Par3]; · iexact Par3
    isplitl [Par4]; · iexact Par4
    isplitl [Par5]; · iexact Par5
    isplitl [Prs0]; · iexact Prs0
    isplitl [Prs1]; · iexact Prs1
    isplitl [Prs2]; · iexact Prs2
    isplitl [Pas0]; · iexact Pas0
    isplitl [Pas1]; · iexact Pas1
    isplitl [Pas2]; · iexact Pas2
    isplitl [Pas3]; · iexact Pas3
    isplitl [Pas4]; · iexact Pas4
    iexact Pas5
  isplitl [Crs0 Crs1 Crs2 Cas0 Cas1 Cas2 Cas3 Cas4 Cas5]
  ·
    isplitl [Crs0]; · iexact Crs0
    isplitl [Crs1]; · iexact Crs1
    isplitl [Crs2]; · iexact Crs2
    isplitl [Cas0]; · iexact Cas0
    isplitl [Cas1]; · iexact Cas1
    isplitl [Cas2]; · iexact Cas2
    isplitl [Cas3]; · iexact Cas3
    isplitl [Cas4]; · iexact Cas4
    iexact Cas5
  isplitl [HO]
  · iexists (insert (SemLoc.dma agRcv5, ()) (insert (SemLoc.dma agRcv4, ()) (insert (SemLoc.dma agRcv2, ()) (insert (SemLoc.dma agRcv1, ()) (insert (SemLoc.dma agRcv3, ()) (insert (SemLoc.dma agRcv0, ()) W))))))
    iexact HO
  isplitl [Hrs0 Hrs1 Hrs2 Hag0LoR Hag0Hi Hag1Lo Hag1HiR Hag2Lo Hag2Hi]
  ·
    isplitl [Hrs0]; · iexact Hrs0
    isplitl [Hrs1]; · iexact Hrs1
    isplitl [Hrs2]; · iexact Hrs2
    isplitl [Hag0LoR]; · iexact Hag0LoR
    isplitl [Hag0Hi]; · iexact Hag0Hi
    isplitl [Hag1Lo]; · iexact Hag1Lo
    isplitl [Hag1HiR]; · iexact Hag1HiR
    isplitl [Hag2Lo]; · iexact Hag2Lo
    iexact Hag2Hi
  isplitl [Hin]; · iexact Hin
  iexact Hout

/-- info: 'Cert.Kernel.Mlp.mid_runs' depends on axioms: [propext, Classical.choice, Quot.sound] -/
#guard_msgs in #print axioms mid_runs

end Cert.Kernel.Mlp

end
-- ==== Proof.WGeom4.lean ====
/-
  A whole buffer held, in the two spellings: by its location and all its elements, and through the view of its whole
  memref. The two are the same assertion (the whole view's elements are all the elements).
-/
import proofs.«900352_g7700000000000353_dist_gated_mlp_tp_i_m768_h1536_d768_v7x_i4_f32_1_alg».proof.Proof.WSched

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
theorem raw_eq_whole (c : Dev nD) (b : Ref sig .tc) (q : PosShare TreeShare) (X : Buf (Elt F) ((c : Thread nD τ).loc b)) :
    ((((c : Thread nD τ).loc b) ↦{q} X) : sProp 𝕄)
      = ((Memref.whole b).view.loc (c : Thread nD τ) ↦[(Memref.whole b).view.set]{q} X) := by
  show _ = (((View.whole b : View sig .tc _ _ _).loc (c : Thread nD τ)) ↦[(View.whole b : View sig .tc _ _ _).set]{q} X : sProp 𝕄)
  rw [View.set_whole]

end Cert.Kernel.Mlp

end
-- ==== Proof.WBodyHeadC.lean ====
/-
  The first stretch of the body's run on a device: from what the body starts with to the early point.

  The device carves its reduce-scatter and all-gather landing buffers into the regions its neighbours will write and hands
  them over with its two barrier units; the barrier wait brings it the regions of its neighbours' and partners' buffers that
  it will write. It loads its weight blocks, computes the partial sum of the chunk across the ring into slot 0 of its send
  buffer and sends it to slot 0 of its first partner's landing buffer, then the partial sum of the first partner's own
  chunk into slot 1 and sends it to slot 1 there. Each stored slot agrees, on its region, with the send buffer's final
  contents, and each landing is the first partner's landing buffer's final contents there, which is what the two cells of
  each transfer are owed.
-/
import proofs.«900352_g7700000000000353_dist_gated_mlp_tp_i_m768_h1536_d768_v7x_i4_f32_1_alg».proof.Proof.WBodyCompose
import proofs.«900352_g7700000000000353_dist_gated_mlp_tp_i_m768_h1536_d768_v7x_i4_f32_1_alg».proof.Proof.WBodyIn
import proofs.«900352_g7700000000000353_dist_gated_mlp_tp_i_m768_h1536_d768_v7x_i4_f32_1_alg».proof.Proof.WBodyInv
import proofs.«900352_g7700000000000353_dist_gated_mlp_tp_i_m768_h1536_d768_v7x_i4_f32_1_alg».proof.Proof.WBodyMidRun
import proofs.«900352_g7700000000000353_dist_gated_mlp_tp_i_m768_h1536_d768_v7x_i4_f32_1_alg».proof.Proof.WGeom3
import proofs.«900352_g7700000000000353_dist_gated_mlp_tp_i_m768_h1536_d768_v7x_i4_f32_1_alg».proof.Proof.WGeom4

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem z2 : (![0, 0] : Fin 2 → ℕ) = fun _ => 0 := by funext a; fin_cases a <;> rfl

/-- A weight block read whole is the block. -/
theorem w1_eq (c : Dev nD) :
    View.readAt (Elt F) (Memref.whole cc0_stg1_0 : Memref sig .tc .vmem S768x1536 .f32).view
      (Rect.unit (s := S768x1536) ![0, 0] S768x1536.size inb_S768x1536_S768x1536_0_0).toLoadRect (stg1 m c) = stg1 m c :=
  Memref.readAt_unit_zero (Elt F) cc0_stg1_0 z2 _ (stg1 m c)
theorem w2_eq (c : Dev nD) :
    View.readAt (Elt F) (Memref.whole cc0_stg2_0 : Memref sig .tc .vmem S768x1536 .f32).view
      (Rect.unit (s := S768x1536) ![0, 0] S768x1536.size inb_S768x1536_S768x1536_0_0).toLoadRect (stg2 m c) = stg2 m c :=
  Memref.readAt_unit_zero (Elt F) cc0_stg2_0 z2 _ (stg2 m c)
theorem w3_eq (c : Dev nD) :
    View.readAt (Elt F) (Memref.whole cc0_stg3_0 : Memref sig .tc .vmem S1536x768 .f32).view
      (Rect.unit (s := S1536x768) ![0, 0] S1536x768.size inb_S1536x768_S1536x768_0_0).toLoadRect (stg3 m c) = stg3 m c :=
  Memref.readAt_unit_zero (Elt F) cc0_stg3_0 z2 _ (stg3 m c)

omit [FloatOps F] in
/-- A region's contents may be restated by any buffer that agrees with them on the region. -/
theorem pts_congr (p : Dev nD) {sh : Shape} (M : Memref sig .tc .vmem sh .bf16) (q : PosShare TreeShare)
    (X Y : Buf (Elt F) (M.view.loc (p : Thread nD τ))) (h : ∀ i ∈ M.view.set, X i = Y i) :
    (M.view.loc (p : Thread nD τ) ↦[M.view.set]{q} X : sProp 𝕄) = (M.view.loc (p : Thread nD τ) ↦[M.view.set]{q} Y) :=
  held_congr p M q X Y h

omit [FloatOps F] in
theorem free_open (p : Dev nD) {sh : Shape} (M : Memref sig .tc .vmem sh .bf16) :
    (free p M : sProp 𝕄) ⊢ iprop(∃ f, M.view.loc (p : Thread nD τ) ↦[M.view.set]{fullShare} f) := by
  unfold free; exact .rfl
omit [FloatOps F] in
theorem free_close (p : Dev nD) {sh : Shape} (M : Memref sig .tc .vmem sh .bf16) (f : Buf (Elt F) (M.view.loc (p : Thread nD τ))) :
    (M.view.loc (p : Thread nD τ) ↦[M.view.set]{fullShare} f : sProp 𝕄) ⊢ free p M := by
  unfold free; iintro H; iexists f; iexact H

omit [FloatOps F] in
/-- The same, leaving the region named. -/
theorem pts_held_congr (p : Dev nD) {sh : Shape} (M : Memref sig .tc .vmem sh .bf16) (q : PosShare TreeShare)
    (X Y : Buf (Elt F) (M.view.loc (p : Thread nD τ))) (h : ∀ i ∈ M.view.set, X i = Y i) :
    (M.view.loc (p : Thread nD τ) ↦[M.view.set]{q} X : sProp 𝕄) = held p M q Y :=
  held_congr p M q X Y h
omit [FloatOps F] in
theorem pts_held (p : Dev nD) {sh : Shape} (M : Memref sig .tc .vmem sh .bf16) (q : PosShare TreeShare)
    (X : Buf (Elt F) (M.view.loc (p : Thread nD τ))) :
    (M.view.loc (p : Thread nD τ) ↦[M.view.set]{q} X : sProp 𝕄) = held p M q X := rfl

attribute [local sl_rounds] duties_bar amount_bar payload_bar expect_bar rest_bar held_def free_def

set_option maxHeartbeats 3200000 in
theorem head_runs (c : Dev nD) : HeadRuns m ρ c := by
  intro K α kk Kt
  simp only [k0_part1_eq_skeleton, k0_part2_eq_skeleton, k0_part3_eq_skeleton]
  unfold bodyPre
  simp only [before_in0, before_in1, before_in2, before_in3]
  iintro ⟨⟨⟨Hg, Hcr, Hlev, Hscr⟩, Ho, Hx0, Hx1, Hx2, Hx3, Hx4⟩, HK⟩
  unfold ghost
  icases Hg with ⟨#Hinv, #Hreach, Hpos, Htok⟩
  icases Hlev with #Hlev
  unfold scratch
  icases Hscr with ⟨⟨%f0, Hf0⟩, ⟨%f1, Hf1⟩, ⟨%f2, Hf2⟩, ⟨%f3, Hf3⟩⟩
  icases Hx0 with ⟨%d0, %x0, %hx0, Hx0⟩
  icases Hx1 with ⟨%d1, %x1, %hx1, Hx1⟩
  icases Hx2 with ⟨%d2, %x2, %hx2, Hx2⟩
  icases Hx3 with ⟨%d3, %x3, %hx3, Hx3⟩
  icases Hx4 with ⟨%d4, %x4, %hx4, Hx4⟩
  subst hx0 hx1 hx2 hx3
  clear hx4 d0 d1 d2 d3
  ihave Hf2 := (Entails.of_eq (raw_eq_whole (F := F) c cc0_scratch2 fullShare f2)) $$ Hf2
  ihave Hx0 := (Entails.of_eq (raw_eq_whole (F := F) c cc0_stg0_0 fullShare (stg0 m c))) $$ Hx0
  ihave Hx1 := (Entails.of_eq (raw_eq_whole (F := F) c cc0_stg1_0 fullShare (stg1 m c))) $$ Hx1
  ihave Hx2 := (Entails.of_eq (raw_eq_whole (F := F) c cc0_stg2_0 fullShare (stg2 m c))) $$ Hx2
  ihave Hx3 := (Entails.of_eq (raw_eq_whole (F := F) c cc0_stg3_0 fullShare (stg3 m c))) $$ Hx3
  ihave Hx4 := (Entails.of_eq (raw_eq_whole (F := F) c cc0_stg4_0 fullShare x4)) $$ Hx4
  icases Ho with ⟨%W, %hW, HO⟩
  rw [show (dats m ρ 0 c).owed t₀.castSucc = Oi c + tallyAt (barCell (rgt c)) () 1 + tallyAt (barCell (lft c)) () 1 from rfl]
  unfold invs
  icases +keep Hinv with ⟨#I0, #I1, #I2, #I3, #I4, #I5, #I6, #I7, #I8, #I9, #I10, #I11, #I12, #I13, #I14, #I15, #I16, #I17, #I18, #I19, #I20, #I21, #I22, #I23, #I24, #I25, #I26, #I27, #I28, #I29⟩
  unfold reacheds
  icases +keep Hreach with ⟨#R0, #R1, #R2, #R3, #R4, #R5, #R6, #R7, #R8, #R9, #R10, #R11, #R12, #R13, #R14, #R15, #R16, #R17, #R18, #R19, #R20, #R21, #R22, #R23, #R24, #R25, #R26, #R27, #R28, #R29⟩
  unfold positions
  icases Hpos with ⟨Pb, Ps0, Ps1, Ps2, Pr0, Pr1, Pr2, Pg0, Pg1, Pg2, Pg3, Pg4, Pg5, Pa0, Pa1, Pa2, Pa3, Pa4, Pa5⟩
  unfold payToks
  icases Htok with ⟨TbL, TbR, Tr0, Tr1, Tr2, Ta0, Ta3, Ta1, Ta2, Ta4, Ta5, Ts0, Ts1, Ts2, Tg0, Tg1, Tg2, Tg3, Tg4, Tg5⟩
  unfold credits
  icases Hcr with ⟨Cb, Cr0, Cr1, Cr2, Ca0, Ca1, Ca2, Ca3, Ca4, Ca5⟩
  -- the three landing buffers and the send buffer, region by region
  ihave Hsb := (Entails.of_eq (sb_carve (F := F) c fullShare f0)) $$ Hf0
  icases Hsb with ⟨Hsb0, Hsb1, Hsb2⟩
  ihave Hrs := (Entails.of_eq (rs_carve (F := F) c fullShare f1)) $$ Hf1
  icases Hrs with ⟨Hrs0, Hrs1, Hrs2⟩
  ihave Hag := (Entails.of_eq (ag_carve (F := F) c fullShare f3)) $$ Hf3
  icases Hag with ⟨Hag0Lo, Hag0Hi, Hag1Lo, Hag1Hi, Hag2Lo, Hag2Hi⟩
  ihave Hrs0 := (free_of_held (F := F) c rs0 f1) $$ Hrs0
  ihave Hrs1 := (free_of_held (F := F) c rs1 f1) $$ Hrs1
  ihave Hrs2 := (free_of_held (F := F) c rs2 f1) $$ Hrs2
  ihave Hag0Lo := (free_of_held (F := F) c ag0Lo f3) $$ Hag0Lo
  ihave Hag0Hi := (free_of_held (F := F) c ag0Hi f3) $$ Hag0Hi
  ihave Hag1Lo := (free_of_held (F := F) c ag1Lo f3) $$ Hag1Lo
  ihave Hag1Hi := (free_of_held (F := F) c ag1Hi f3) $$ Hag1Hi
  ihave Hag2Lo := (free_of_held (F := F) c ag2Lo f3) $$ Hag2Lo
  ihave Hag2Hi := (free_of_held (F := F) c ag2Hi f3) $$ Hag2Hi
  iapply (barPay_give_k (F := F) c _)
  isplitl [Hag0Lo Hag0Hi Hag1Lo Hag1Hi Hag2Lo Hag2Hi Hrs0 Hrs1 Hrs2]
  · isplitl [Hag0Lo]; · iexact Hag0Lo
    isplitl [Hag0Hi]; · iexact Hag0Hi
    isplitl [Hag1Lo]; · iexact Hag1Lo
    isplitl [Hag1Hi]; · iexact Hag1Hi
    isplitl [Hag2Lo]; · iexact Hag2Lo
    isplitl [Hag2Hi]; · iexact Hag2Hi
    isplitl [Hrs0]; · iexact Hrs0
    isplitl [Hrs1]; · iexact Hrs1
    iexact Hrs2
  iintro HpL HpR
  unfold held
  have hmw := mayWait_bar (F := F) c
  -- the prologue, the two barrier units, the barrier wait, the weights, slot 0 stored
  sl_exec
  -- what the neighbours' units brought
  ihave Hpeers := (barPay_rest (F := F) c) $$ Pb_pay1
  icases Hpeers with ⟨Qa0Lo, Qa0Hi, Qa2Lo, Qa1Hi, Qa1Lo, Qa2Hi, Qr0, Qr1, Qr2⟩
  ihave Qr0 := (Entails.of_eq (MidRun.free_held (F := F) (far c) rs0)) $$ Qr0
  icases Qr0 with ⟨%g0, Qr0⟩
  ihave Qr1 := (Entails.of_eq (MidRun.free_held (F := F) (far c) rs1)) $$ Qr1
  icases Qr1 with ⟨%g1, Qr1⟩
  -- slot 0 holds its final contents
  have hs0 : ∀ i ∈ (sb0 : Memref sig .tc .vmem S192x768 .bf16).view.set, head_runs.sl.Hsb0_w1 m c f0 i = sbBuf m c i := by
    intro i hi
    have e := store_sb0 m c f0 i hi
    unfold head_runs.sl.Hsb0_w1
    rw [w1_eq, w2_eq, w3_eq]
    exact e
  ihave Hsb0 := (Entails.of_eq (pts_held_congr (F := F) c sb0 fullShare _ (sbBuf m c) hs0)) $$ Hsb0
  -- slot 0 to slot 0 of the first partner's landing buffer
  iapply (MidRun.wp_send_to m c (far c) _ rfl fullShare (sbBuf m c) g0 _ (K (c, 1)) (K (far c, 4)) N192 (Oi c) (Oh c)
      (by rw [duties_rsSnd0]; exact Finset.mem_singleton_self _) (by rw [duties_rsRcv0]; exact Finset.mem_singleton_self _)
      rfl (amount_rsSnd0 m c false) (amount_rsRcv0 m (far c) false) rfl
      (by rw [payload_rsSnd0])
      (by rw [payload_rsRcv0, land_rs0 m c g0])) $$ [Hsb0 Qr0 HO Ts0 Tr0]
  · isplitr; · iexact I1
    isplitr; · iexact I21
    isplitl [Hsb0]; · iexact Hsb0
    isplitl [Qr0]; · iexact Qr0
    isplitl [HO]; · iexact HO
    isplitl [Ts0]; · iexact Ts0
    isplitr; · iexact R1
    isplitl [Tr0]; · iexact Tr0
    iexact R21
  iintro ⟨Cs0, HO⟩
  -- the chunk of the first partner, slot 1 stored
  sl_exec
  have hs1 : ∀ i ∈ (sb1 : Memref sig .tc .vmem S192x768 .bf16).view.set, head_runs.sl.Hsb1_w1 m c f0 i = sbBuf m c i := by
    intro i hi
    have e := store_sb1 m c f0 i hi
    unfold head_runs.sl.Hsb1_w1 head_runs.sl.r head_runs.sl.r_1 head_runs.sl.r_2
    rw [w1_eq, w2_eq, w3_eq]
    exact e
  ihave Hsb1 := (Entails.of_eq (pts_held_congr (F := F) c sb1 fullShare _ (sbBuf m c) hs1)) $$ Hsb1
  -- slot 1 to slot 1 of the first partner's landing buffer
  iapply (MidRun.wp_send_to m c (far c) _ (dev4_eq c) fullShare (sbBuf m c) g1 _ (K (c, 2)) (K (far c, 5)) N192 (Oh c) (Og c)
      (by rw [duties_rsSnd1]; exact Finset.mem_singleton_self _) (by rw [duties_rsRcv1]; exact Finset.mem_singleton_self _)
      rfl (amount_rsSnd1 m c false) (amount_rsRcv1 m (far c) false) rfl
      (by rw [payload_rsSnd1])
      (by rw [payload_rsRcv1, land_rs1 m c g1])) $$ [Hsb1 Qr1 HO Ts1 Tr1]
  · isplitr; · iexact I2
    isplitr; · iexact I22
    isplitl [Hsb1]; · iexact Hsb1
    isplitl [Qr1]; · iexact Qr1
    isplitl [HO]; · iexact HO
    isplitl [Ts1]; · iexact Ts1
    isplitr; · iexact R2
    isplitl [Tr1]; · iexact Tr1
    iexact R22
  iintro ⟨Cs1, HO⟩
  -- the first exchange is issued: the early point
  sl_exec
  have hr0 : head_runs.sl.r m c = k0_pay1 (stg1 m c) := by unfold head_runs.sl.r; rw [w1_eq]
  have hr1 : head_runs.sl.r_1 m c = k0_pay2 (stg2 m c) := by unfold head_runs.sl.r_1; rw [w2_eq]
  have hr2 : head_runs.sl.r_2 m c = k0_pay3 (stg3 m c) := by unfold head_runs.sl.r_2; rw [w3_eq]
  rw [hr0, hr1, hr2]
  iapply HK
  unfold M0 inputsHeld invs reacheds
  isplitr
  · isplitr; · iexact Hinv
    isplitr; · iexact Hreach
    iexact Hlev
  isplitl [Pb Pr0 Pr1 Pr2 Ps0 Ps1 Ps2 Pg0 Pg1 Pg2 Pg3 Pg4 Pg5 Pa0 Pa1 Pa2 Pa3 Pa4 Pa5]
  ·
    isplitl [Pb]; · iexact Pb
    isplitl [Pr0]; · iexact Pr0
    isplitl [Pr1]; · iexact Pr1
    isplitl [Pr2]; · iexact Pr2
    isplitl [Ps0]; · iexact Ps0
    isplitl [Ps1]; · iexact Ps1
    isplitl [Ps2]; · iexact Ps2
    isplitl [Pg0]; · iexact Pg0
    isplitl [Pg1]; · iexact Pg1
    isplitl [Pg2]; · iexact Pg2
    isplitl [Pg3]; · iexact Pg3
    isplitl [Pg4]; · iexact Pg4
    isplitl [Pg5]; · iexact Pg5
    isplitl [Pa0]; · iexact Pa0
    isplitl [Pa1]; · iexact Pa1
    isplitl [Pa2]; · iexact Pa2
    isplitl [Pa3]; · iexact Pa3
    isplitl [Pa4]; · iexact Pa4
    iexact Pa5
  isplitl [Tr2 Ta0 Ta3 Ta1 Ta2 Ta4 Ta5 Ts2 Tg0 Tg1 Tg2 Tg3 Tg4 Tg5]
  ·
    isplitl [Tr2]; · iexact Tr2
    isplitl [Ta0]; · iexact Ta0
    isplitl [Ta3]; · iexact Ta3
    isplitl [Ta1]; · iexact Ta1
    isplitl [Ta2]; · iexact Ta2
    isplitl [Ta4]; · iexact Ta4
    isplitl [Ta5]; · iexact Ta5
    isplitl [Ts2]; · iexact Ts2
    isplitl [Tg0]; · iexact Tg0
    isplitl [Tg1]; · iexact Tg1
    isplitl [Tg2]; · iexact Tg2
    isplitl [Tg3]; · iexact Tg3
    isplitl [Tg4]; · iexact Tg4
    iexact Tg5
  isplitl [Cs0 Cs1 Cr0 Cr1 Cr2 Ca0 Ca1 Ca2 Ca3 Ca4 Ca5]
  ·
    isplitl [Cs0]; · iexact Cs0
    isplitl [Cs1]; · iexact Cs1
    isplitl [Cr0]; · iexact Cr0
    isplitl [Cr1]; · iexact Cr1
    isplitl [Cr2]; · iexact Cr2
    isplitl [Ca0]; · iexact Ca0
    isplitl [Ca1]; · iexact Ca1
    isplitl [Ca2]; · iexact Ca2
    isplitl [Ca3]; · iexact Ca3
    isplitl [Ca4]; · iexact Ca4
    iexact Ca5
  isplitl [HO]
  · iexists _; iexact HO
  isplitl [Hsb2 Hf2 Qr2 Qa0Lo Qa0Hi Qa2Lo Qa1Hi Qa1Lo Qa2Hi]
  · isplitl [Hsb2]
    · iapply (free_close (F := F) c sb2 f0); iexact Hsb2
    isplitl [Hf2]
    · iexists f2; iexact Hf2
    isplitl [Qr2]; · iexact Qr2
    isplitl [Qa0Lo]; · iexact Qa0Lo
    isplitl [Qa0Hi]; · iexact Qa0Hi
    isplitl [Qa2Lo]; · iexact Qa2Lo
    isplitl [Qa1Hi]; · iexact Qa1Hi
    isplitl [Qa1Lo]; · iexact Qa1Lo
    iexact Qa2Hi
  isplitl [Hx0 Hx1 Hx2 Hx3]
  ·
    isplitl [Hx0]; · iexact Hx0
    isplitl [Hx1]; · iexact Hx1
    isplitl [Hx2]; · iexact Hx2
    iexact Hx3
  iexists x4; iexact Hx4

end Cert.Kernel.Mlp

end
-- ==== Proof.WBodyFrontRun.lean ====
/-
  The stretch of the body's run from the early point to the first point.

  The device loads the rows of `x` of its second partner's chunk and computes its partial of that chunk; it waits for slot 0
  of its landing buffer (owing only cells above that one), reads what its first partner sent there, adds it, and stores the
  sum as slot 2 of its send buffer: on that slot the buffer now holds its canonical contents. Slot 2 goes to the second
  partner's landing buffer: the source is lent to the send cell's round, the landing region, as it will read once written,
  to the landing cell's round, and the landing's credit is paid off what the device owes. It loads the rows of its own chunk
  and computes its partial; it waits for slots 1 and 2 of its landing buffer, reads them, and the three summed are its reduced
  chunk: stored over the own buffer (now at its canonical contents) and over the device's own rows of the result. The own
  buffer is its two halves; the lower half is held in two shares, and one of them goes with the first all-gather transfer to
  the lower half of slot 0 of the device after it. What the device then holds is the first point.
-/
import proofs.«900352_g7700000000000353_dist_gated_mlp_tp_i_m768_h1536_d768_v7x_i4_f32_1_alg».proof.Proof.WBodyFront
import proofs.«900352_g7700000000000353_dist_gated_mlp_tp_i_m768_h1536_d768_v7x_i4_f32_1_alg».proof.Proof.WGeom3

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rule of an exchange transfer at this kernel's cells, and small facts -/

/-- A transfer of a region the device holds at share `q` into a peer's region it holds whole: the source goes to the
    send cell's round, the region as it lands to the landing cell's, and the landing's credit is paid off what the device
    owes. The peer is named by the program's own device arithmetic (`n`), equal to the schedule's name (`p`). -/
theorem send_region (c p n : Dev nD) (hn : n = p) {sh : Shape} {S D : Memref sig .tc .vmem sh .bf16} {sS sR : DmaSem sig}
    {hsc : (D : Memref sig (Dev.tc n : Thread nD τ).2.kind .vmem sh .bf16).view.ref.isScScratch = false}
    {hsrc : S.view.WordExact} {hdst : D.view.WordExact}
    {hsem : DmaTarget.Typed .vmem (.dma sR) (.remote (Dev.tc n : Thread nD τ) D (.dma sS) hsc)}
    {α : Type} {Q : α → sProp 𝕄} {k : PUnit → Prog (TpuEff nD τ sig (Elt F) Λ₀ .tc) α}
    (q : PosShare TreeShare) (fs : Buf (Elt F) (S.view.loc (c : Thread nD τ))) (fd : Buf (Elt F) (D.view.loc (p : Thread nD τ)))
    (W : Waits sig Unit) (κ₁ κ₂ : ℕ) (N : ℕ) (O O' : CellTallies nD τ sig Unit)
    (hd₁ : false ∈ (Rd m).duties (cellAt c (.dma sS)) 0) (hd₂ : false ∈ (Rd m).duties (cellAt p (.dma sR)) 0)
    (hN : D.view.amount (.dma sR) = N)
    (hk₁ : (Rd m).amount (cellAt c (.dma sS)) 0 false = N) (hk₂ : (Rd m).amount (cellAt p (.dma sR)) 0 false = N)
    (hO : O = O' + tallyAt (cellAt p (.dma sR)) () N)
    (hpay₁ : held c S q fs ⊢ (Rd m).payload (cellAt c (.dma sS)) 0 false)
    (hpay₂ : held p D fullShare (D.view.write (Elt F) fd (S.view.read (Elt F) fs) Finset.univ) ⊢ (Rd m).payload (cellAt p (.dma sR)) 0 false) :
    iprop(cellInv ER (Rd m) κ₁ (cellAt c (.dma sS)) ∗ cellInv ER (Rd m) κ₂ (cellAt p (.dma sR))
        ∗ held c S q fs ∗ held p D fullShare fd
        ∗ owes (c : Thread nD τ) O W
        ∗ dutyTok ER (cellAt c (.dma sS)) 0 false ∗ reached ER (cellAt c (.dma sS)) 0
        ∗ dutyTok ER (cellAt p (.dma sR)) 0 false ∗ reached ER (cellAt p (.dma sR)) 0)
      ⊢ iprop(((cred (tallyAt (cellAt c (.dma sS)) () N) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma S (.remote (Dev.tc n : Thread nD τ) D (.dma sS) hsc) (.dma sR) hsrc hdst hsem) k) Q) := by
  subst hn
  unfold held at hpay₁ hpay₂ ⊢
  exact Rounds.wp_send_pointsTo 𝒱₀ ER (Rd m) (c : Thread nD τ) none (κ₁ := κ₁) (κ₂ := κ₂)
    (r₁ := 0) (r₂ := 0) (d₁ := false) (d₂ := false) (fd := fd) hd₁ hd₂ () () N hN hk₁ hk₂ O' hO (W := W) hpay₁ hpay₂

omit [FloatOps F] in
/-- A region handed over is that region held at some contents. -/
theorem free_is_held (p : Dev nD) {sh : Shape} (M : Memref sig .tc .vmem sh .bf16) :
    (free p M : sProp 𝕄) = iprop(∃ f, held p M fullShare f) := rfl

omit [FloatOps F] in
/-- A persistent assertion may be kept and used. -/
theorem keep_pers (P : sProp 𝕄) [BI.Persistent P] : P ⊢ iprop(P ∗ P) := by
  iintro #H; isplitr <;> iexact H

omit [FloatOps F] in
/-- A whole-slot load of slot 2 of the send buffer reads the elements of that slot's view. -/
theorem load_set_sb2 : (Memref.whole cc0_scratch0 : Memref sig .tc .vmem S3x192x768 .bf16).view.setOn
      (Rect.unit (s := S3x192x768) ![2, 0, 0] S1x192x768.size inb_S3x192x768_S1x192x768_2_0_0).toLoadRect.set
    ⊆ (sb2 : Memref sig .tc .vmem S192x768 .bf16).view.set := by
  intro i hi
  obtain ⟨j, hj, rfl⟩ := Finset.mem_map.mp hi
  exact (mem_sb2 _).mpr ((mem_slot 2 _ j).mp hj)

/-- The own buffer once the reduced chunk is stored over it: held whole at its canonical contents. -/
theorem own_stored (c : Dev nD) (f : Buf (Elt F) ((c : Thread nD τ).loc cc0_scratch2)) :
    ((((Memref.whole cc0_scratch2 : Memref sig .tc .vmem S192x768 .bf16).access
        (Rect.unit (s := S192x768) ![0, 0] S192x768.size inb_S192x768_S192x768_0_0)).loc (c : Thread nD τ))
        ↦[(Memref.whole cc0_scratch2 : Memref sig .tc .vmem S192x768 .bf16).view.set]{fullShare}
          (((Memref.whole cc0_scratch2 : Memref sig .tc .vmem S192x768 .bf16).access
            (Rect.unit (s := S192x768) ![0, 0] S192x768.size inb_S192x768_S192x768_0_0)).write (Elt F) f (OWN m c) Finset.univ) : sProp 𝕄)
      = ((c : Thread nD τ).loc cc0_scratch2 ↦{fullShare} ownBuf m c) := by
  rw [store_own]
  exact congrArg (fun S => ((c : Thread nD τ).loc cc0_scratch2 ↦[S]{fullShare} ownBuf m c : sProp 𝕄)) (View.set_whole cc0_scratch2)

/-! ## The values, as the program composes them -/

/-- The rows of `x` a load at a row offset reads. -/
theorem xAt_eq (c : Dev nD) (off : Fin 2 → Nat) (h : ∀ a, off a + S192x768.size a ≤ S768x768.size a) :
    (Memref.whole cc0_stg0_0 : Memref sig .tc .vmem S768x768 .f32).view.readAt (Elt F)
      (Rect.unit (s := S768x768) off S192x768.size h).toLoadRect (stg0 m c) = xAt m c off h := rfl
theorem SB2_eq (c : Dev nD) :
    k0_pay6 (k0_pay1 (stg1 m c)) (k0_pay2 (stg2 m c)) (k0_pay3 (stg3 m c)) (xAt m c (k0_off3 c) (k0_off3_inb c)) (SB0 m (far c)) = SB2 m c := rfl
theorem mine_eq (c : Dev nD) :
    k0_pay7 (k0_pay1 (stg1 m c)) (k0_pay2 (stg2 m c)) (k0_pay3 (stg3 m c)) (xAt m c (k0_off4 c) (k0_off4_inb c)) = mine m c := rfl
theorem OWN_eq (c : Dev nD) : k0_pay9 (mine m c) (SB1 m (far c)) (SB2 m (par c)) = OWN m c := rfl
theorem ACC_eq (c : Dev nD) : k0_pay8 (mine m c) (SB1 m (far c)) (SB2 m (par c)) = ACC m c := rfl

/-- Slot 2 of the send buffer once its payload is stored: that slot held at the buffer's canonical contents. -/
theorem sb2_stored (c : Dev nD) (g : Buf (Elt F) ((c : Thread nD τ).loc cc0_scratch0)) :
    ((((Memref.whole cc0_scratch0 : Memref sig .tc .vmem S3x192x768 .bf16).access (Rect.unit (s := S3x192x768) ![2, 0, 0] S1x192x768.size inb_S3x192x768_S1x192x768_2_0_0)).loc (c : Thread nD τ))
        ↦[(sb2 : Memref sig .tc .vmem S192x768 .bf16).view.set]{fullShare}
          (((Memref.whole cc0_scratch0 : Memref sig .tc .vmem S3x192x768 .bf16).access (Rect.unit (s := S3x192x768) ![2, 0, 0] S1x192x768.size inb_S3x192x768_S1x192x768_2_0_0)).write (Elt F) g (SB2 m c) Finset.univ) : sProp 𝕄)
      = held c sb2 fullShare (sbBuf m c) :=
  held_congr c sb2 fullShare _ (sbBuf m c) (store_sb2 m c g)

/-- A slot of the landing buffer held through the whole buffer's location is that slot held. -/
theorem rs0_held (c : Dev nD) : (((Memref.whole cc0_scratch1 : Memref sig .tc .vmem S3x192x768 .bf16).view.loc (c : Thread nD τ))
    ↦[(rs0 : Memref sig .tc .vmem S192x768 .bf16).view.set]{fullShare} rsBuf m c : sProp 𝕄) = held c rs0 fullShare (rsBuf m c) := rfl
theorem rs1_held (c : Dev nD) : (((Memref.whole cc0_scratch1 : Memref sig .tc .vmem S3x192x768 .bf16).view.loc (c : Thread nD τ))
    ↦[(rs1 : Memref sig .tc .vmem S192x768 .bf16).view.set]{fullShare} rsBuf m c : sProp 𝕄) = held c rs1 fullShare (rsBuf m c) := rfl
theorem rs2_held (c : Dev nD) : (((Memref.whole cc0_scratch1 : Memref sig .tc .vmem S3x192x768 .bf16).view.loc (c : Thread nD τ))
    ↦[(rs2 : Memref sig .tc .vmem S192x768 .bf16).view.set]{fullShare} rsBuf m c : sProp 𝕄) = held c rs2 fullShare (rsBuf m c) := rfl

set_option maxHeartbeats 1600000 in
set_option maxRecDepth 65536 in
theorem front_runs (c : Dev nD) : FrontRuns m c := by
  intro K v2 v13 v24 v25 v26 α kk Kt
  simp only [k0_part4_eq_skeleton, k0_part5_eq_skeleton, k0_part6_eq_skeleton]
  unfold k0_part4_skel k0_part5_skel k0_part6_skel
  simp only [Prog.lift, Prog.bind_op, Prog.bind_ret, Prog.pure_eq_ret, bind_assoc, pure_bind]
  unfold M0 inputsHeld
  iintro ⟨⟨⟨HI, HR, #Hlev⟩, ⟨Pbar, Prr0, Prr1, Prr2, Prs0, Prs1, Prs2, Pas0, Pas1, Pas2, Pas3, Pas4, Pas5, Par0, Par1, Par2, Par3, Par4, Par5⟩,
    ⟨Trr2, Tr0, Tr3, Tr1, Tr2, Tr4, Tr5, Tss2, Ts0, Ts1, Ts2, Ts3, Ts4, Ts5⟩,
    ⟨Crs0, Crs1, Crr0, Crr1, Crr2, Car0, Car1, Car2, Car3, Car4, Car5⟩, ⟨%W, HO⟩,
    ⟨Fsb2, ⟨%f2, Hown⟩, Frs2, Fag0Lo, Fag0Hi, Fag2Lo, Fag1Hi, Fag1Lo, Fag2Hi⟩, ⟨Hx0, Hx1, Hx2, Hx3⟩, ⟨%x4, Hout⟩⟩, Hk⟩
  ihave HI := (keep_pers (invs m K c)) $$ HI
  icases HI with ⟨#HIall, HI⟩
  unfold invs
  icases HI with ⟨#I0, #I1, #I2, #I3, #I4, #I5, #I6, #I7, #I8, #I9, #I10, #I11, #I12, #I13, #I14, #I15, #I16, #I17, #I18, #I19, #I20, #I21, #I22, #I23, #I24, #I25, #I26, #I27, #I28, #I29⟩
  ihave HR := (keep_pers (reacheds (F := F) c)) $$ HR
  icases HR with ⟨#HRall, HR⟩
  unfold reacheds
  icases HR with ⟨#R0, #R1, #R2, #R3, #R4, #R5, #R6, #R7, #R8, #R9, #R10, #R11, #R12, #R13, #R14, #R15, #R16, #R17, #R18, #R19, #R20, #R21, #R22, #R23, #R24, #R25, #R26, #R27, #R28, #R29⟩
  -- the rows of x for the second partner's chunk
  iapply (wp_load 𝒱₀ (c : Thread nD τ) none Set.univ (m := (Memref.whole cc0_stg0_0 : Memref sig .tc .vmem S768x768 .f32)) (View.setOn_subset_set _ _)) $$ Hx0
  iintro Hx0
  rw [xAt_eq m c]
  -- the first partner's slot 0 has landed
  iapply (Rounds.wp_wait_rest_token 𝒱₀ ER (Rd m) (c : Thread nD τ) none (κ := K (c, 4))
      (wpE_waitDma2_eq 𝒱₀ (c : Thread nD τ) none Set.univ) (Set.mem_univ _) () (O := Og c) (W := W) (R := 0) (m := 0) (T := ∅)
      (by rw [Nat.zero_add, expect_rsRcv0])) $$ [Crr0 HO Prr0]
  · isplitr; · iexact I4
    isplitl [Crr0]; · iexact Crr0
    isplitl [HO]; · iexact HO
    isplitr; · iapply (mayWait_rsRcv0 c); iexact Hlev
    iexact Prr0
  iintro ⟨HO, Prr0, -, Hpay⟩
  ihave Hrs0 := (Entails.of_eq (rest_rsRcv0 m c)) $$ Hpay
  ihave Hrs0 := (Entails.of_eq (held_def c rs0 fullShare (rsBuf m c))) $$ Hrs0
  iapply (wp_load 𝒱₀ (c : Thread nD τ) none Set.univ (m := (Memref.whole cc0_scratch1 : Memref sig .tc .vmem S3x192x768 .bf16)) load_set_rs0) $$ Hrs0
  iintro Hrs0
  rw [load_rs0, SB2_eq m c]
  -- slot 2 of the send buffer: read, then stored
  ihave Fsb2 := (Entails.of_eq (free_def (F := F) c sb2)) $$ Fsb2
  icases Fsb2 with ⟨%g2, Hsb2⟩
  iapply (wp_load 𝒱₀ (c : Thread nD τ) none Set.univ (m := (Memref.whole cc0_scratch0 : Memref sig .tc .vmem S3x192x768 .bf16)) load_set_sb2) $$ Hsb2
  iintro Hsb2
  iapply (wp_store 𝒱₀ (c : Thread nD τ) none Set.univ (m := (Memref.whole cc0_scratch0 : Memref sig .tc .vmem S3x192x768 .bf16))
      (r := Rect.unit (s := S3x192x768) ![2, 0, 0] S1x192x768.size inb_S3x192x768_S1x192x768_2_0_0) (Mk := Finset.univ)
      (Finset.subset_of_eq store_set_sb2)) $$ Hsb2
  iintro Hsb2
  ihave Hsb2 := (Entails.of_eq (sb2_stored m c g2)) $$ Hsb2
  -- slot 2 goes to the second partner's landing buffer
  ihave Frs2 := (Entails.of_eq (free_is_held (F := F) (par c) rs2)) $$ Frs2
  icases Frs2 with ⟨%fd2, Frs2⟩
  iapply (send_region m c (par c) _ rfl fullShare (sbBuf m c) fd2 (insert (SemLoc.dma rsRcv0, ()) W) (K (c, 3)) (K (par c, 6)) N192 (Og c) (Of c)
      (by rw [duties_rsSnd2]; exact Finset.mem_singleton_self _) (by rw [duties_rsRcv2]; exact Finset.mem_singleton_self _)
      rfl (amount_rsSnd2 m c false) (amount_rsRcv2 m (par c) false) rfl
      (by rw [payload_rsSnd2])
      (by rw [payload_rsRcv2, land_rs2 m c fd2])) $$ [Hsb2 Frs2 HO Tss2 Trr2]
  · isplitr; · iexact I3
    isplitr; · iexact I23
    isplitl [Hsb2]; · iexact Hsb2
    isplitl [Frs2]; · iexact Frs2
    isplitl [HO]; · iexact HO
    isplitl [Tss2]; · iexact Tss2
    isplitr; · iexact R3
    isplitl [Trr2]; · iexact Trr2
    iexact R23
  iintro ⟨Crs2, HO⟩
  -- the rows of x for the device's own chunk
  iapply (wp_load 𝒱₀ (c : Thread nD τ) none Set.univ (m := (Memref.whole cc0_stg0_0 : Memref sig .tc .vmem S768x768 .f32)) (View.setOn_subset_set _ _)) $$ Hx0
  iintro Hx0
  rw [xAt_eq m c, mine_eq m c]
  -- the first partner's slot 1 has landed, and the second partner's slot 2
  iapply (Rounds.wp_wait_rest_token 𝒱₀ ER (Rd m) (c : Thread nD τ) none (κ := K (c, 5))
      (wpE_waitDma2_eq 𝒱₀ (c : Thread nD τ) none Set.univ) (Set.mem_univ _) () (O := Of c) (W := (insert (SemLoc.dma rsRcv0, ()) W)) (R := 0) (m := 0) (T := ∅)
      (by rw [Nat.zero_add, expect_rsRcv1])) $$ [Crr1 HO Prr1]
  · isplitr; · iexact I5
    isplitl [Crr1]; · iexact Crr1
    isplitl [HO]; · iexact HO
    isplitr; · iapply (mayWait_rsRcv1 c); iexact Hlev
    iexact Prr1
  iintro ⟨HO, Prr1, -, Hpay⟩
  ihave Hrs1 := (Entails.of_eq (rest_rsRcv1 m c)) $$ Hpay
  iapply (Rounds.wp_wait_rest_token 𝒱₀ ER (Rd m) (c : Thread nD τ) none (κ := K (c, 6))
      (wpE_waitDma2_eq 𝒱₀ (c : Thread nD τ) none Set.univ) (Set.mem_univ _) () (O := Of c) (W := (insert (SemLoc.dma rsRcv1, ()) (insert (SemLoc.dma rsRcv0, ()) W))) (R := 0) (m := 0) (T := ∅)
      (by rw [Nat.zero_add, expect_rsRcv2])) $$ [Crr2 HO Prr2]
  · isplitr; · iexact I6
    isplitl [Crr2]; · iexact Crr2
    isplitl [HO]; · iexact HO
    isplitr; · iapply (mayWait_rsRcv2 c); iexact Hlev
    iexact Prr2
  iintro ⟨HO, Prr2, -, Hpay⟩
  ihave Hrs2 := (Entails.of_eq (rest_rsRcv2 m c)) $$ Hpay
  -- slots 1 and 2 of the landing buffer
  ihave Hrs1 := (Entails.of_eq (held_def c rs1 fullShare (rsBuf m c))) $$ Hrs1
  iapply (wp_load 𝒱₀ (c : Thread nD τ) none Set.univ (m := (Memref.whole cc0_scratch1 : Memref sig .tc .vmem S3x192x768 .bf16)) load_set_rs1) $$ Hrs1
  iintro Hrs1
  ihave Hrs2 := (Entails.of_eq (held_def c rs2 fullShare (rsBuf m c))) $$ Hrs2
  iapply (wp_load 𝒱₀ (c : Thread nD τ) none Set.univ (m := (Memref.whole cc0_scratch1 : Memref sig .tc .vmem S3x192x768 .bf16)) load_set_rs2) $$ Hrs2
  iintro Hrs2
  rw [load_rs1, load_rs2, OWN_eq m c, ACC_eq m c]
  -- the reduced chunk stored over the own buffer
  iapply (wp_load 𝒱₀ (c : Thread nD τ) none Set.univ (m := (Memref.whole cc0_scratch2 : Memref sig .tc .vmem S192x768 .bf16)) (View.setOn_subset_set _ _)) $$ Hown
  iintro Hown
  iapply (wp_store 𝒱₀ (c : Thread nD τ) none Set.univ (m := (Memref.whole cc0_scratch2 : Memref sig .tc .vmem S192x768 .bf16)) (r := (Rect.unit (s := S192x768) ![0, 0] S192x768.size inb_S192x768_S192x768_0_0)) (Mk := Finset.univ)
      (Memref.setOn_access_subset _ _ _)) $$ Hown
  iintro Hown
  ihave Hown := (Entails.of_eq (own_stored m c f2)) $$ Hown
  -- and written to the device's own rows of the result
  iapply (wp_load 𝒱₀ (c : Thread nD τ) none Set.univ (m := (Memref.whole cc0_stg4_0 : Memref sig .tc .vmem S768x768 .f32)) (View.setOn_subset_set _ _)) $$ Hout
  iintro Hout
  iapply (wp_store 𝒱₀ (c : Thread nD τ) none Set.univ (m := (Memref.whole cc0_stg4_0 : Memref sig .tc .vmem S768x768 .f32)) (r := (Rect.unit (s := S768x768) (k0_off4 c) S192x768.size (k0_off4_inb c))) (Mk := Finset.univ)
      (Memref.setOn_access_subset _ _ _)) $$ Hout
  iintro Hout
  -- the own chunk in its two halves, the lower half in two shares; one share goes with the transfer to the device after
  ihave Hown := (Entails.of_eq (own_carve (F := F) c fullShare (ownBuf m c))) $$ Hown
  icases Hown with ⟨HownLo, HownHi⟩
  ihave HownLo := (Entails.of_eq (held_halve (F := F) c ownLo (ownBuf m c))) $$ HownLo
  icases HownLo with ⟨HownLoL, HownLoR⟩
  ihave Fag0Lo := (Entails.of_eq (free_is_held (F := F) (rgt c) ag0Lo)) $$ Fag0Lo
  icases Fag0Lo with ⟨%fd0, Fag0Lo⟩
  iapply (send_region m c (rgt c) _ (dev6_eq c) fullShare.left (ownBuf m c) fd0 (insert (SemLoc.dma rsRcv2, ()) (insert (SemLoc.dma rsRcv1, ()) (insert (SemLoc.dma rsRcv0, ()) W))) (K (c, 7)) (K (rgt c, 13)) N96 (Of c) (Oe c)
      (by rw [duties_agSnd0]; exact Finset.mem_singleton_self _) (by rw [duties_agRcv0]; exact Finset.mem_singleton_self _)
      rfl (amount_agSnd0 m c false) (amount_agRcv0 m (rgt c) false) rfl
      (by rw [payload_agSnd0])
      (by rw [payload_agRcv0, land_ag0Lo m c fd0])) $$ [HownLoL Fag0Lo HO Ts0 Tr0]
  · isplitr; · iexact I7
    isplitr; · iexact I24
    isplitl [HownLoL]; · iexact HownLoL
    isplitl [Fag0Lo]; · iexact Fag0Lo
    isplitl [HO]; · iexact HO
    isplitl [Ts0]; · iexact Ts0
    isplitr; · iexact R7
    isplitl [Tr0]; · iexact Tr0
    iexact R24
  iintro ⟨Cas0, HO⟩
  -- what the device holds at the first point
  iapply Hk
  unfold M1 invs reacheds inputsHeld
  isplitr
  · isplitr; · iexact HIall
    isplitr; · iexact HRall
    iexact Hlev
  isplitl [Pbar Prr0 Prr1 Prr2 Prs0 Prs1 Prs2 Pas0 Pas1 Pas2 Pas3 Pas4 Pas5 Par0 Par1 Par2 Par3 Par4 Par5]
  · isplitl [Pbar]; · iexact Pbar
    isplitl [Prr0]; · iexact Prr0
    isplitl [Prr1]; · iexact Prr1
    isplitl [Prr2]; · iexact Prr2
    isplitl [Prs0]; · iexact Prs0
    isplitl [Prs1]; · iexact Prs1
    isplitl [Prs2]; · iexact Prs2
    isplitl [Pas0]; · iexact Pas0
    isplitl [Pas1]; · iexact Pas1
    isplitl [Pas2]; · iexact Pas2
    isplitl [Pas3]; · iexact Pas3
    isplitl [Pas4]; · iexact Pas4
    isplitl [Pas5]; · iexact Pas5
    isplitl [Par0]; · iexact Par0
    isplitl [Par1]; · iexact Par1
    isplitl [Par2]; · iexact Par2
    isplitl [Par3]; · iexact Par3
    isplitl [Par4]; · iexact Par4
    iexact Par5
  isplitl [Tr3 Tr1 Tr2 Tr4 Tr5 Ts1 Ts2 Ts3 Ts4 Ts5]
  · isplitl [Tr3]; · iexact Tr3
    isplitl [Tr1]; · iexact Tr1
    isplitl [Tr2]; · iexact Tr2
    isplitl [Tr4]; · iexact Tr4
    isplitl [Tr5]; · iexact Tr5
    isplitl [Ts1]; · iexact Ts1
    isplitl [Ts2]; · iexact Ts2
    isplitl [Ts3]; · iexact Ts3
    isplitl [Ts4]; · iexact Ts4
    iexact Ts5
  isplitl [Crs0 Crs1 Crs2 Cas0 Car0 Car1 Car2 Car3 Car4 Car5]
  · isplitl [Crs0]; · iexact Crs0
    isplitl [Crs1]; · iexact Crs1
    isplitl [Crs2]; · iexact Crs2
    isplitl [Cas0]; · iexact Cas0
    isplitl [Car0]; · iexact Car0
    isplitl [Car1]; · iexact Car1
    isplitl [Car2]; · iexact Car2
    isplitl [Car3]; · iexact Car3
    isplitl [Car4]; · iexact Car4
    iexact Car5
  isplitl [HO]
  · iexists _; iexact HO
  isplitl [Hrs0 Hrs1 Hrs2 HownHi HownLoR Fag0Hi Fag2Lo Fag1Hi Fag1Lo Fag2Hi]
  · isplitl [Hrs0]; · iapply (Entails.of_eq (rs0_held m c)); iexact Hrs0
    isplitl [Hrs1]; · iapply (Entails.of_eq (rs1_held m c)); iexact Hrs1
    isplitl [Hrs2]; · iapply (Entails.of_eq (rs2_held m c)); iexact Hrs2
    isplitl [HownHi]; · iexact HownHi
    isplitl [HownLoR]; · iexact HownLoR
    isplitl [Fag0Hi]; · iexact Fag0Hi
    isplitl [Fag2Lo]; · iexact Fag2Lo
    isplitl [Fag1Hi]; · iexact Fag1Hi
    isplitl [Fag1Lo]; · iexact Fag1Lo
    iexact Fag2Hi
  isplitl [Hx0 Hx1 Hx2 Hx3]
  · isplitl [Hx0]; · iexact Hx0
    isplitl [Hx1]; · iexact Hx1
    isplitl [Hx2]; · iexact Hx2
    iexact Hx3
  iexists x4; iexact Hout

end Cert.Kernel.Mlp

end
-- ==== Proof.WBodyEnd.lean ====
/-
  The closing stretch of the body's run: from the second point to the end.

  Every transfer has been issued and every landing waited for; the device owes nothing. It waits for its nine departures, each on
  its own send cell, in the order the program makes them: with the credit of the transfer in hand and nothing owed the wait
  is allowed, it ends the cell's one round, and the round's payload gives back the source that was lent — a slot of the send
  buffer whole, or a half of the own chunk (or of a forwarded half-slot) at the share that was lent. The half shares join to
  full shares, the slots, halves and half-slots join to the four whole scratch buffers, and these, at whatever they hold,
  are the scratch buffers the device started from. Its eighteen transfer cells, each past its one round with nothing taken
  of a later one and no later round with a duty, close: their counters are the device's again, at zero. What is left is what
  the body promises: the scratch buffers, the semaphores at zero, nothing owed, the four inputs as they were and the result
  buffer holding the full result.
-/
import proofs.«900352_g7700000000000353_dist_gated_mlp_tp_i_m768_h1536_d768_v7x_i4_f32_1_alg».proof.Proof.WBodyMid

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_rsSnd0 amount_rsSnd0 payload_rsSnd0 expect_rsSnd0 rest_rsSnd0 duties_rsSnd1 amount_rsSnd1 payload_rsSnd1 expect_rsSnd1 rest_rsSnd1 duties_rsSnd2 amount_rsSnd2 payload_rsSnd2 expect_rsSnd2 rest_rsSnd2 duties_agSnd0 amount_agSnd0 payload_agSnd0 expect_agSnd0 rest_agSnd0 duties_agSnd1 amount_agSnd1 payload_agSnd1 expect_agSnd1 rest_agSnd1 duties_agSnd2 amount_agSnd2 payload_agSnd2 expect_agSnd2 rest_agSnd2 duties_agSnd3 amount_agSnd3 payload_agSnd3 expect_agSnd3 rest_agSnd3 duties_agSnd4 amount_agSnd4 payload_agSnd4 expect_agSnd4 rest_agSnd4 duties_agSnd5 amount_agSnd5 payload_agSnd5 expect_agSnd5 rest_agSnd5

omit [FloatOps F] in
/-- A staging buffer held through its whole view is the staging buffer held. -/
theorem stg_of_whole (c : Dev nD) (b : Ref sig .tc) (X : Buf (Elt F) ((c : Thread nD τ).loc b)) :
    (((View.whole b : View sig .tc _ _ _).loc (c : Thread nD τ)) ↦[(View.whole b : View sig .tc _ _ _).set]{fullShare} X : sProp 𝕄) ⊢ stg c b X := by
  rw [View.set_whole]
  iintro H; iexists X; isplitr; · ipureintro; rfl
  iexact H

/-- A device that owes nothing owes what the point after the body asks: nothing, whatever waits it has recorded. -/
theorem owesAt_done (c : Dev nD) (W : Waits sig Unit) :
    (owes (c : Thread nD τ) 0 W : sProp 𝕄) ⊢ (dats m ρ 0 c).owesAt () t₀.succ := by
  unfold Dat.owesAt Pipeline.owesWithin
  iintro H; iexists W
  isplitr; · ipureintro; exact fun _ _ => Or.inl (Set.mem_univ _)
  iexact H

theorem end_runs (c : Dev nD) : EndRuns m ρ c := by
  intro K Kt
  unfold M2 invs reacheds inputsHeld
  iintro ⟨⟨⟨⟨#I0, #I1, #I2, #I3, #I4, #I5, #I6, #I7, #I8, #I9, #I10, #I11, #I12, #I13, #I14, #I15, #I16, #I17, #I18, -⟩, #HR, #Hlev⟩,
    ⟨Pb, Pr0, Pr1, Pr2, Pa0, Pa1, Pa2, Pa3, Pa4, Pa5, Ps0, Ps1, Ps2, Pg0, Pg1, Pg2, Pg3, Pg4, Pg5⟩,
    ⟨C0, C1, C2, C3, C4, C5, C6, C7, C8⟩, ⟨%W, HO⟩,
    ⟨Hrs0, Hrs1, Hrs2, Hag0Lo, Hag0Hi, Hag1Lo, Hag1Hi, Hag2Lo, Hag2Hi⟩, ⟨Hx0, Hx1, Hx2, Hx3⟩, Hx4⟩, HK⟩
  simp only [k0_part11_eq_skeleton, k0_part12_eq_skeleton]
  unfold k0_part11_skel k0_part12_skel
  -- the nine waits for the departures
  sl_exec
  -- halves to full shares, regions to whole buffers
  ihave Hsb := (Entails.of_eq (sb_carve (F := F) c fullShare (sbBuf m c)).symm) $$ [Ps0_pay1 Ps1_pay1 Ps2_pay1]
  · isplitl [Ps0_pay1]; · iexact Ps0_pay1
    isplitl [Ps1_pay1]; · iexact Ps1_pay1
    iexact Ps2_pay1
  ihave Hrs := (Entails.of_eq (rs_carve (F := F) c fullShare (rsBuf m c)).symm) $$ [Hrs0 Hrs1 Hrs2]
  · isplitl [Hrs0]; · iexact Hrs0
    isplitl [Hrs1]; · iexact Hrs1
    iexact Hrs2
  ihave HownLo := (Entails.of_eq (held_halve (F := F) c ownLo (ownBuf m c)).symm) $$ [Pg0_pay1 Pg3_pay1]
  · isplitl [Pg0_pay1]; · iexact Pg0_pay1
    iexact Pg3_pay1
  ihave HownHi := (Entails.of_eq (held_halve (F := F) c ownHi (ownBuf m c)).symm) $$ [Pg1_pay1 Pg2_pay1]
  · isplitl [Pg1_pay1]; · iexact Pg1_pay1
    iexact Pg2_pay1
  ihave Hown := (Entails.of_eq (own_carve (F := F) c fullShare (ownBuf m c)).symm) $$ [HownLo HownHi]
  · isplitl [HownLo]; · iexact HownLo
    iexact HownHi
  ihave Hag0LoF := (Entails.of_eq (held_halve (F := F) c ag0Lo (agBuf m c)).symm) $$ [Pg4_pay1 Hag0Lo]
  · isplitl [Pg4_pay1]; · iexact Pg4_pay1
    iexact Hag0Lo
  ihave Hag1HiF := (Entails.of_eq (held_halve (F := F) c ag1Hi (agBuf m c)).symm) $$ [Pg5_pay1 Hag1Hi]
  · isplitl [Pg5_pay1]; · iexact Pg5_pay1
    iexact Hag1Hi
  ihave Hag := (Entails.of_eq (ag_carve (F := F) c fullShare (agBuf m c)).symm) $$ [Hag0LoF Hag0Hi Hag1Lo Hag1HiF Hag2Lo Hag2Hi]
  · isplitl [Hag0LoF]; · iexact Hag0LoF
    isplitl [Hag0Hi]; · iexact Hag0Hi
    isplitl [Hag1Lo]; · iexact Hag1Lo
    isplitl [Hag1HiF]; · iexact Hag1HiF
    isplitl [Hag2Lo]; · iexact Hag2Lo
    iexact Hag2Hi
  -- the eighteen transfer cells close: their counters are the device's again, at zero
  imod (Rounds.cell_close ER (Rd m) (Set.mem_univ (K (c, 1))) (fun h => h) (R := 1) (fun r hr => duties_later m _ r hr)) $$ [Ps0] with Z1
  · isplitr; · iexact I1
    iexact Ps0
  imod (Rounds.cell_close ER (Rd m) (Set.mem_univ (K (c, 2))) (fun h => h) (R := 1) (fun r hr => duties_later m _ r hr)) $$ [Ps1] with Z2
  · isplitr; · iexact I2
    iexact Ps1
  imod (Rounds.cell_close ER (Rd m) (Set.mem_univ (K (c, 3))) (fun h => h) (R := 1) (fun r hr => duties_later m _ r hr)) $$ [Ps2] with Z3
  · isplitr; · iexact I3
    iexact Ps2
  imod (Rounds.cell_close ER (Rd m) (Set.mem_univ (K (c, 4))) (fun h => h) (R := 1) (fun r hr => duties_later m _ r hr)) $$ [Pr0] with Z4
  · isplitr; · iexact I4
    iexact Pr0
  imod (Rounds.cell_close ER (Rd m) (Set.mem_univ (K (c, 5))) (fun h => h) (R := 1) (fun r hr => duties_later m _ r hr)) $$ [Pr1] with Z5
  · isplitr; · iexact I5
    iexact Pr1
  imod (Rounds.cell_close ER (Rd m) (Set.mem_univ (K (c, 6))) (fun h => h) (R := 1) (fun r hr => duties_later m _ r hr)) $$ [Pr2] with Z6
  · isplitr; · iexact I6
    iexact Pr2
  imod (Rounds.cell_close ER (Rd m) (Set.mem_univ (K (c, 7))) (fun h => h) (R := 1) (fun r hr => duties_later m _ r hr)) $$ [Pg0] with Z7
  · isplitr; · iexact I7
    iexact Pg0
  imod (Rounds.cell_close ER (Rd m) (Set.mem_univ (K (c, 8))) (fun h => h) (R := 1) (fun r hr => duties_later m _ r hr)) $$ [Pg1] with Z8
  · isplitr; · iexact I8
    iexact Pg1
  imod (Rounds.cell_close ER (Rd m) (Set.mem_univ (K (c, 9))) (fun h => h) (R := 1) (fun r hr => duties_later m _ r hr)) $$ [Pg2] with Z9
  · isplitr; · iexact I9
    iexact Pg2
  imod (Rounds.cell_close ER (Rd m) (Set.mem_univ (K (c, 10))) (fun h => h) (R := 1) (fun r hr => duties_later m _ r hr)) $$ [Pg3] with Z10
  · isplitr; · iexact I10
    iexact Pg3
  imod (Rounds.cell_close ER (Rd m) (Set.mem_univ (K (c, 11))) (fun h => h) (R := 1) (fun r hr => duties_later m _ r hr)) $$ [Pg4] with Z11
  · isplitr; · iexact I11
    iexact Pg4
  imod (Rounds.cell_close ER (Rd m) (Set.mem_univ (K (c, 12))) (fun h => h) (R := 1) (fun r hr => duties_later m _ r hr)) $$ [Pg5] with Z12
  · isplitr; · iexact I12
    iexact Pg5
  imod (Rounds.cell_close ER (Rd m) (Set.mem_univ (K (c, 13))) (fun h => h) (R := 1) (fun r hr => duties_later m _ r hr)) $$ [Pa0] with Z13
  · isplitr; · iexact I13
    iexact Pa0
  imod (Rounds.cell_close ER (Rd m) (Set.mem_univ (K (c, 14))) (fun h => h) (R := 1) (fun r hr => duties_later m _ r hr)) $$ [Pa1] with Z14
  · isplitr; · iexact I14
    iexact Pa1
  imod (Rounds.cell_close ER (Rd m) (Set.mem_univ (K (c, 15))) (fun h => h) (R := 1) (fun r hr => duties_later m _ r hr)) $$ [Pa2] with Z15
  · isplitr; · iexact I15
    iexact Pa2
  imod (Rounds.cell_close ER (Rd m) (Set.mem_univ (K (c, 16))) (fun h => h) (R := 1) (fun r hr => duties_later m _ r hr)) $$ [Pa3] with Z16
  · isplitr; · iexact I16
    iexact Pa3
  imod (Rounds.cell_close ER (Rd m) (Set.mem_univ (K (c, 17))) (fun h => h) (R := 1) (fun r hr => duties_later m _ r hr)) $$ [Pa4] with Z17
  · isplitr; · iexact I17
    iexact Pa4
  imod (Rounds.cell_close ER (Rd m) (Set.mem_univ (K (c, 18))) (fun h => h) (R := 1) (fun r hr => duties_later m _ r hr)) $$ [Pa5] with Z18
  · isplitr; · iexact I18
    iexact Pa5
  rw [wp_ret]; imodintro
  iapply HK
  unfold bodyPost Φ₁ scratch semsZero

  isplitl [Hsb Hrs Hown Hag Z1 Z2 Z3 Z4 Z5 Z6 Z7 Z8 Z9 Z10 Z11 Z12 Z13 Z14 Z15 Z16 Z17 Z18]
  · isplitl [Hsb Hrs Hown Hag]
    · isplitl [Hsb]; · iexists _; iexact Hsb
      isplitl [Hrs]; · iexists _; iexact Hrs
      isplitl [Hown]; · iexists _; iexact Hown
      iexists _; iexact Hag
    · isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      isplitl [Z10]; · iexact Z10
      isplitl [Z11]; · iexact Z11
      isplitl [Z12]; · iexact Z12
      isplitl [Z13]; · iexact Z13
      isplitl [Z14]; · iexact Z14
      isplitl [Z15]; · iexact Z15
      isplitl [Z16]; · iexact Z16
      isplitl [Z17]; · iexact Z17
      iexact Z18
  isplitl [HO]; · iapply (owesAt_done m ρ c _); iexact HO
  isplitl [Hx0]; · iapply (stg_of_whole (F := F) c cc0_stg0_0 (stg0 m c)); iexact Hx0
  isplitl [Hx1]; · iapply (stg_of_whole (F := F) c cc0_stg1_0 (stg1 m c)); iexact Hx1
  isplitl [Hx2]; · iapply (stg_of_whole (F := F) c cc0_stg2_0 (stg2 m c)); iexact Hx2
  isplitl [Hx3]; · iapply (stg_of_whole (F := F) c cc0_stg3_0 (stg3 m c)); iexact Hx3
  iapply (stg_of_whole (F := F) c cc0_stg4_0 (outBuf m c)); iexact Hx4

end Cert.Kernel.Mlp

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.ValPartial.lean ====
/-
  The value of one device's partial product, entry by entry, over the extended reals.

  A device holds a row chunk `xc` (192 × 768) and its blocks `wg`, `wu` (768 × 1536) and `wd` (1536 × 768) of the three
  weight matrices. Its partial result is `((xc · wg) * ((xc · wu) * logistic (xc · wu))) · wd`: entry `(p, q)` is the sum
  over the 1536 hidden columns `k` of `hAt xc wg wu p k * wd (k, q)`, where `hAt` is the gated hidden activation at
  `(p, k)`. The other payloads are this value moved through format changes and unit-axis reshapes (the identity on
  extended reals) and added to received partial results.
-/
import proofs.«900352_g7700000000000353_dist_gated_mlp_tp_i_m768_h1536_d768_v7x_i4_f32_1_alg».proof.Proof.Gen.KernelIdeal.Skeleton
import proofs.«900352_g7700000000000353_dist_gated_mlp_tp_i_m768_h1536_d768_v7x_i4_f32_1_alg».proof.Proof.LibMatmulPlain
import Idealize.ShloMosaic.Lib.ValueIdx
import Idealize.ShloMosaic.Lib.ValueLayout
import Idealize.ShloMosaic.Lib.Pipeline.Value

noncomputable section

open scoped BigOperators

namespace Cert.MlpValue

open Idealize.ShloMosaic Idealize.ShloMosaic.ValueIdx Cert.KernelIdeal Cert.KernelIdeal.Gen

/-- The gated hidden activation at row `p`, hidden column `k`: `(xc · wg) * ((xc · wu) * logistic (xc · wu))` there. -/
def hAt (xc : FVec Ideal S192x768 .f32) (wg wu : FVec Ideal S768x1536 .f32) (p : Fin 192) (k : Fin 1536) : EReal :=
  (∑ j : Fin 768, xc (ix2 p j) * wg (ix2 j k))
    * ((∑ j : Fin 768, xc (ix2 p j) * wu (ix2 j k)) * Ideal.logistic (∑ j : Fin 768, xc (ix2 p j) * wu (ix2 j k)))

/-- The logistic function of a vector, read at an index, is the logistic function of the element. -/
theorem logistic_apply {s : Shape} {φ : FTy} (v : FVec Ideal s φ) (i : s.Idx) : logistic v i = Ideal.logistic (v i) := rfl

/-- Entry `(p, k)` of the first block product (192 × 768 by 768 × 1536, into zero). -/
theorem mmUp_apply (l : FVec Ideal S192x768 .f32) (r : FVec Ideal S768x1536 .f32) (p : Fin 192) (k : Fin 1536) :
    matmul dot_S192x768_S768x1536_S192x1536_1_0_0_1_n_n none l r (constant (F := Ideal) S192x1536 .f32 0x00000000#32) (ix2 p k)
      = ∑ j : Fin 768, l (ix2 p j) * r (ix2 j k) :=
  Cert.Lib.matmul_plain_zero_apply 192 768 1536 none l r p k

/-- Entry `(p, q)` of the second block product (192 × 1536 by 1536 × 768, into zero). -/
theorem mmDown_apply (l : FVec Ideal S192x1536 .f32) (r : FVec Ideal S1536x768 .f32) (p : Fin 192) (q : Fin 768) :
    matmul dot_S192x1536_S1536x768_S192x768_1_0_0_1_n_n none l r (constant (F := Ideal) S192x768 .f32 0x00000000#32) (ix2 p q)
      = ∑ k : Fin 1536, l (ix2 p k) * r (ix2 k q) :=
  Cert.Lib.matmul_plain_zero_apply 192 1536 768 none l r p q

/-- THE PARTIAL PRODUCT AT AN ENTRY: the sum over the hidden columns of the gated activation times the down weight. -/
theorem pay7_apply (wg wu : FVec Ideal S768x1536 .f32) (wd : FVec Ideal S1536x768 .f32) (xc : FVec Ideal S192x768 .f32)
    (p : Fin 192) (q : Fin 768) :
    k0_pay7 (F := Ideal) wg wu wd xc (ix2 p q) = ∑ k : Fin 1536, hAt xc wg wu p k * wd (ix2 k q) := by
  unfold k0_pay7
  rw [shapeCast_self, mmDown_apply]
  refine Finset.sum_congr rfl fun k _ => ?_
  rw [mulf_apply, mulf_apply, logistic_apply, mmUp_apply, mmUp_apply]
  rfl

/-! ## The other payloads: the same value through format changes and unit-axis reshapes, plus received partial results -/

/-- The first send buffer's payload at `(0, p, q)` is the partial product of the freshly loaded weight blocks. -/
theorem pay4_apply (v43 v45 : FVec Ideal S768x1536 .f32) (v47 : FVec Ideal S1536x768 .f32) (xc : FVec Ideal S192x768 .f32)
    (p : Fin 192) (q : Fin 768) :
    k0_pay4 (F := Ideal) v43 v45 v47 xc (ix3 (0 : Fin 1) p q)
      = k0_pay7 (F := Ideal) (k0_pay1 v43) (k0_pay2 v45) (k0_pay3 v47) xc (ix2 p q) := by
  unfold k0_pay4 k0_pay7
  exact (shapeCast_ab_1ab_apply _ _ 0 p q).trans rfl

/-- The three weight payloads are the loaded blocks themselves. -/
theorem pay1_eq (v : FVec Ideal S768x1536 .f32) : k0_pay1 (F := Ideal) v = v := shapeCast_self _ _
theorem pay2_eq (v : FVec Ideal S768x1536 .f32) : k0_pay2 (F := Ideal) v = v := shapeCast_self _ _
theorem pay3_eq (v : FVec Ideal S1536x768 .f32) : k0_pay3 (F := Ideal) v = v := shapeCast_self _ _

/-- So the first send buffer's payload is the partial product of the loaded blocks. -/
theorem pay4_apply' (v43 v45 : FVec Ideal S768x1536 .f32) (v47 : FVec Ideal S1536x768 .f32) (xc : FVec Ideal S192x768 .f32)
    (p : Fin 192) (q : Fin 768) :
    k0_pay4 (F := Ideal) v43 v45 v47 xc (ix3 (0 : Fin 1) p q) = k0_pay7 (F := Ideal) v43 v45 v47 xc (ix2 p q) := by
  rw [pay4_apply, pay1_eq, pay2_eq, pay3_eq]

/-- The second send buffer's payload at `(0, p, q)` is the partial product. -/
theorem pay5_apply (wg wu : FVec Ideal S768x1536 .f32) (wd : FVec Ideal S1536x768 .f32) (xc : FVec Ideal S192x768 .f32)
    (p : Fin 192) (q : Fin 768) :
    k0_pay5 (F := Ideal) wg wu wd xc (ix3 (0 : Fin 1) p q) = k0_pay7 (F := Ideal) wg wu wd xc (ix2 p q) := by
  unfold k0_pay5 k0_pay7
  exact (shapeCast_ab_1ab_apply _ _ 0 p q).trans rfl

/-- The third send buffer's payload at `(0, p, q)` is the partial product plus the received partial result there. -/
theorem pay6_apply (wg wu : FVec Ideal S768x1536 .f32) (wd : FVec Ideal S1536x768 .f32) (xc : FVec Ideal S192x768 .f32)
    (r0 : FVec Ideal S1x192x768 .bf16) (p : Fin 192) (q : Fin 768) :
    k0_pay6 (F := Ideal) wg wu wd xc r0 (ix3 (0 : Fin 1) p q)
      = k0_pay7 (F := Ideal) wg wu wd xc (ix2 p q) + r0 (ix3 (0 : Fin 1) p q) := by
  unfold k0_pay6 k0_pay7
  refine (shapeCast_ab_1ab_apply _ _ 0 p q).trans ?_
  rw [truncf_apply, addf_apply, extf_apply, shapeCast_1ab_ab_apply]

/-- The final sum at `(p, q)`: the own partial product plus the two received partial results, in that order. -/
theorem pay8_apply (a : FVec Ideal S192x768 .f32) (r1 r2 : FVec Ideal S1x192x768 .bf16) (p : Fin 192) (q : Fin 768) :
    k0_pay8 (F := Ideal) a r1 r2 (ix2 p q) = (a (ix2 p q) + r1 (ix3 (0 : Fin 1) p q)) + r2 (ix3 (0 : Fin 1) p q) := by
  unfold k0_pay8
  rw [addf_apply, addf_apply, extf_apply, extf_apply, shapeCast_1ab_ab_apply, shapeCast_1ab_ab_apply]

/-- The narrowed copy of the final sum is the final sum: a format change and a cast to the same shape are the identity. -/
theorem pay9_eq (a : FVec Ideal S192x768 .f32) (r1 r2 : FVec Ideal S1x192x768 .bf16) :
    (k0_pay9 (F := Ideal) a r1 r2 : S192x768.Idx → EReal) = k0_pay8 (F := Ideal) a r1 r2 := by
  unfold k0_pay9
  exact (shapeCast_self _ _).trans rfl

/-- The same at an entry. -/
theorem pay9_apply (a : FVec Ideal S192x768 .f32) (r1 r2 : FVec Ideal S1x192x768 .bf16) (p : Fin 192) (q : Fin 768) :
    k0_pay9 (F := Ideal) a r1 r2 (ix2 p q) = (a (ix2 p q) + r1 (ix3 (0 : Fin 1) p q)) + r2 (ix3 (0 : Fin 1) p q) := by
  rw [pay9_eq, pay8_apply]

/-- A received block widened and stored: at `(p, q)` the block at `(0, p, q)`. -/
theorem pay10_apply (v : FVec Ideal S1x192x768 .bf16) (p : Fin 192) (q : Fin 768) :
    k0_pay10 (F := Ideal) v (ix2 p q) = v (ix3 (0 : Fin 1) p q) := by
  unfold k0_pay10
  rw [extf_apply, shapeCast_1ab_ab_apply]
theorem pay11_apply (v : FVec Ideal S1x192x768 .bf16) (p : Fin 192) (q : Fin 768) :
    k0_pay11 (F := Ideal) v (ix2 p q) = v (ix3 (0 : Fin 1) p q) := by
  unfold k0_pay11
  rw [extf_apply, shapeCast_1ab_ab_apply]
theorem pay12_apply (v : FVec Ideal S1x192x768 .bf16) (p : Fin 192) (q : Fin 768) :
    k0_pay12 (F := Ideal) v (ix2 p q) = v (ix3 (0 : Fin 1) p q) := by
  unfold k0_pay12
  rw [extf_apply, shapeCast_1ab_ab_apply]

end Cert.MlpValue

end
-- ==== Proof.ValRef.lean ====
/-
  The reference's result, entry by entry, over the extended reals.

  The reference computes `gate = X · WG`, `up = X · WU`, `up / (1 + exp (-up))` and `out = (gate * that) · WD` on whole arrays.
  On the extended reals `1 + exp (-u)` is never zero, so `u / (1 + exp (-u)) = u * logistic u` for EVERY `u` (no finiteness
  is needed), and entry `(r, q)` of the result is the sum over the 6144 hidden columns `k` of the gated activation at
  `(r, k)` times `WD (k, q)`.
-/
import proofs.«900352_g7700000000000353_dist_gated_mlp_tp_i_m768_h1536_d768_v7x_i4_f32_1_alg».proof.Proof.Gen.ReferenceIdeal.Read
import Idealize.ShloMosaic.Lib.ValueIdx
import Idealize.ShloMosaic.PureOps.Ideal.Laws

noncomputable section

open scoped BigOperators

namespace Cert.MlpValue

open Idealize.ShloMosaic Idealize.ShloMosaic.ValueIdx Cert.ReferenceIdeal Cert.ReferenceIdeal.Read

/-- `1 + exp (-u)` is not zero, whatever the extended real `u`: it is `⊤`, a positive real, or `1`. -/
theorem one_add_exp_neg_ne_zero (u : EReal) : (1 : EReal) + Ideal.exp (-u) ≠ 0 := by
  induction u using EReal.rec with
  | bot =>
    rw [EReal.neg_bot, Ideal.exp_top, EReal.add_top_of_ne_bot (show (1 : EReal) ≠ ⊥ from EReal.coe_ne_bot 1)]
    exact EReal.top_ne_zero
  | coe r =>
    have h : (1 : EReal) + Ideal.exp (-(r : EReal)) = ((1 + Real.exp (-r) : ℝ) : EReal) := by
      rw [← EReal.coe_neg, Ideal.exp_coe, ← EReal.coe_one, ← EReal.coe_add]
    rw [h]
    have : (0 : ℝ) < 1 + Real.exp (-r) := by positivity
    exact_mod_cast this.ne'
  | top =>
    rw [EReal.neg_top, Ideal.exp_bot, add_zero]
    exact one_ne_zero

/-- THE SCALAR LAW: `u / (1 + exp (-u)) = u * logistic u` for every extended real `u`. -/
theorem div_one_add_exp_neg (u : EReal) : Ideal.div u (1 + Ideal.exp (-u)) = u * Ideal.logistic u := by
  rw [Ideal.logistic, Ideal.div, Ideal.div, if_neg (one_add_exp_neg_ne_zero u), if_neg (one_add_exp_neg_ne_zero u), one_mul]

/-- The literal `1.0`. -/
theorem ofBits_one_f32 : Ideal.ofBits .f32 0x3F800000#32 = 1 := by
  simp [Ideal.ofBits, Ideal.ieee, -EReal.coe_mul]; norm_num

/-- The reference's gated hidden activation at row `r`, hidden column `k`. -/
def hRef (X : (⟨S768x768, .f32⟩ : BufTy).Contents (Elt Ideal)) (WG WU : (⟨S768x6144, .f32⟩ : BufTy).Contents (Elt Ideal))
    (r : Fin 768) (k : Fin 6144) : EReal :=
  (∑ j : Fin 768, X (ix2 r j) * WG (ix2 j k))
    * ((∑ j : Fin 768, X (ix2 r j) * WU (ix2 j k)) * Ideal.logistic (∑ j : Fin 768, X (ix2 r j) * WU (ix2 j k)))

theorem lidx8 (r q : Fin 768) (k : Fin 6144) : lidx_main_v8 (ix2 r q) k = ix2 r k :=
  funext fun a => match a with | ⟨0, _⟩ => rfl | ⟨1, _⟩ => rfl
theorem ridx8 (r q : Fin 768) (k : Fin 6144) : ridx_main_v8 (ix2 r q) k = ix2 k q :=
  funext fun a => match a with | ⟨0, _⟩ => rfl | ⟨1, _⟩ => rfl
theorem lidx0 (r : Fin 768) (k : Fin 6144) (j : Fin 768) : lidx_main_v0 (ix2 r k) j = ix2 r j :=
  funext fun a => match a with | ⟨0, _⟩ => rfl | ⟨1, _⟩ => rfl
theorem ridx0 (r : Fin 768) (k : Fin 6144) (j : Fin 768) : ridx_main_v0 (ix2 r k) j = ix2 j k :=
  funext fun a => match a with | ⟨0, _⟩ => rfl | ⟨1, _⟩ => rfl
theorem lidx1 (r : Fin 768) (k : Fin 6144) (j : Fin 768) : lidx_main_v1 (ix2 r k) j = ix2 r j :=
  funext fun a => match a with | ⟨0, _⟩ => rfl | ⟨1, _⟩ => rfl
theorem ridx1 (r : Fin 768) (k : Fin 6144) (j : Fin 768) : ridx_main_v1 (ix2 r k) j = ix2 j k :=
  funext fun a => match a with | ⟨0, _⟩ => rfl | ⟨1, _⟩ => rfl

/-- The first product at `(r, k)`. -/
theorem v0_at (X : (⟨S768x768, .f32⟩ : BufTy).Contents (Elt Ideal)) (WG : (⟨S768x6144, .f32⟩ : BufTy).Contents (Elt Ideal))
    (r : Fin 768) (k : Fin 6144) :
    val_main_v0 (F := Ideal) X WG (ix2 r k) = ∑ j : Fin 768, X (ix2 r j) * WG (ix2 j k) := by
  rw [val_main_v0_apply]
  exact Finset.sum_congr rfl fun j _ => by rw [lidx0, ridx0]

/-- The second product at `(r, k)`. -/
theorem v1_at (X : (⟨S768x768, .f32⟩ : BufTy).Contents (Elt Ideal)) (WU : (⟨S768x6144, .f32⟩ : BufTy).Contents (Elt Ideal))
    (r : Fin 768) (k : Fin 6144) :
    val_main_v1 (F := Ideal) X WU (ix2 r k) = ∑ j : Fin 768, X (ix2 r j) * WU (ix2 j k) := by
  rw [val_main_v1_apply]
  exact Finset.sum_congr rfl fun j _ => by rw [lidx1, ridx1]

/-- The gated activation at `(r, k)`. -/
theorem v7_at (X : (⟨S768x768, .f32⟩ : BufTy).Contents (Elt Ideal)) (WG WU : (⟨S768x6144, .f32⟩ : BufTy).Contents (Elt Ideal))
    (r : Fin 768) (k : Fin 6144) :
    val_main_v7 (F := Ideal) X WG WU (ix2 r k) = hRef X WG WU r k := by
  rw [val_main_v7_apply, val_main_v6_apply, val_main_v5_apply, val_main_v4_apply, val_main_cst_apply, val_main_v3_apply,
    val_main_v2_apply, v0_at, v1_at]
  simp only [Ideal.mulf_def, Ideal.hostDivf_def, Ideal.addf_def, Ideal.ofBits_def, Ideal.hostUnary_exp_def, Ideal.hostNegf_def,
    Ideal.negf_def, ofBits_one_f32]
  rw [div_one_add_exp_neg]
  rfl

/-- THE REFERENCE AT AN ENTRY: the sum over the hidden columns of the gated activation times the down weight. -/
theorem ref_apply (X : (⟨S768x768, .f32⟩ : BufTy).Contents (Elt Ideal)) (WG WU : (⟨S768x6144, .f32⟩ : BufTy).Contents (Elt Ideal))
    (WD : (⟨S6144x768, .f32⟩ : BufTy).Contents (Elt Ideal)) (r q : Fin 768) :
    val_main_v8 (F := Ideal) X WG WU WD (ix2 r q) = ∑ k : Fin 6144, hRef X WG WU r k * WD (ix2 k q) := by
  rw [val_main_v8_apply]
  exact Finset.sum_congr rfl fun k _ => by rw [lidx8, ridx8, v7_at]

end Cert.MlpValue

end
-- ==== Proof.ValSplit.lean ====
/-
  From the whole arrays to the four devices' partial products.

  The 6144 hidden columns are four consecutive ranges of 1536: a sum over them is the sum over the four ranges of the
  sums inside each. Device `d`'s weight blocks are those ranges of `WG`, `WU` (columns) and `WD` (rows), so the reference's
  entry at row `e · 192 + p`, column `q`, is the sum over the four devices of their partial products of that row chunk at
  `(p, q)`. Last, the sum of four terms in the two association orders in which they are added up.
-/
import proofs.«900352_g7700000000000353_dist_gated_mlp_tp_i_m768_h1536_d768_v7x_i4_f32_1_alg».proof.Proof.ValPartial
import proofs.«900352_g7700000000000353_dist_gated_mlp_tp_i_m768_h1536_d768_v7x_i4_f32_1_alg».proof.Proof.ValRef
import Idealize.ShloMosaic.Lib.Layout

noncomputable section

open scoped BigOperators

namespace Cert.MlpValue

open Idealize.ShloMosaic Idealize.ShloMosaic.ValueIdx Cert.KernelIdeal Cert.KernelIdeal.Gen

/-! ## A sum over 6144 columns by ranges of 1536 -/

/-- Column `k'` of range `d`. -/
abbrev colOf (d : Fin 4) (k' : Fin 1536) : Fin 6144 := ⟨d.val * 1536 + k'.val, by have := d.isLt; have := k'.isLt; omega⟩

/-- THE REGROUPING: a sum over `Fin 6144` is the sum over the four ranges of the sums over each range. -/
theorem sum_ranges {M : Type*} [AddCommMonoid M] (f : Fin 6144 → M) :
    ∑ k : Fin 6144, f k = ∑ d : Fin 4, ∑ k' : Fin 1536, f (colOf d k') := by
  rw [← Equiv.sum_comp (finProdFinEquiv (m := 4) (n := 1536)) f, Fintype.sum_prod_type]
  refine Finset.sum_congr rfl fun d _ => Finset.sum_congr rfl fun k' _ => ?_
  refine congrArg f (Fin.ext ?_)
  show k'.val + 1536 * d.val = d.val * 1536 + k'.val
  omega

/-! ## The devices' blocks at an entry -/

/-- Row `p` of row chunk `e`. -/
abbrev rowOf (e : Fin 4) (p : Fin 192) : Fin 768 := ⟨e.val * 192 + p.val, by have := e.isLt; have := p.isLt; omega⟩

/-- A column block of a 768 × 6144 array at `(j, k')`: the array at `(j, d · 1536 + k')`. -/
theorem colBlock_apply {α : Type} (d : Fin 4) (W : (⟨2, ![768, 6144]⟩ : Shape).Idx → α)
    (h : Layout.Tiles ⟨2, ![768, 1536]⟩ ⟨2, ![768, 6144]⟩ 1 4) (j : Fin 768) (k' : Fin 1536) :
    Layout.block ⟨2, ![768, 1536]⟩ ⟨2, ![768, 6144]⟩ 1 4 d W h (ix2 j k') = W (ix2 j (colOf d k')) := by
  rw [Layout.block_apply]
  refine congrArg W (funext fun a => ?_)
  match a with
  | ⟨0, _⟩ => exact Fin.ext rfl
  | ⟨1, _⟩ => exact Fin.ext rfl

/-- A row block of a 6144 × 768 array at `(k', q)`: the array at `(d · 1536 + k', q)`. -/
theorem rowBlock_apply {α : Type} (d : Fin 4) (W : (⟨2, ![6144, 768]⟩ : Shape).Idx → α)
    (h : Layout.Tiles ⟨2, ![1536, 768]⟩ ⟨2, ![6144, 768]⟩ 0 4) (k' : Fin 1536) (q : Fin 768) :
    Layout.block ⟨2, ![1536, 768]⟩ ⟨2, ![6144, 768]⟩ 0 4 d W h (ix2 k' q) = W (ix2 (colOf d k') q) := by
  rw [Layout.block_apply]
  refine congrArg W (funext fun a => ?_)
  match a with
  | ⟨0, _⟩ => exact Fin.ext rfl
  | ⟨1, _⟩ => exact Fin.ext rfl

/-- The gated activation of a row chunk against device `d`'s blocks is the reference's, at the chunk's row and the
    device's column. -/
theorem hAt_block (X : (⟨Cert.ReferenceIdeal.S768x768, .f32⟩ : BufTy).Contents (Elt Ideal))
    (WG WU : (⟨Cert.ReferenceIdeal.S768x6144, .f32⟩ : BufTy).Contents (Elt Ideal))
    (hg hu : Layout.Tiles ⟨2, ![768, 1536]⟩ ⟨2, ![768, 6144]⟩ 1 4)
    (xc : FVec Ideal S192x768 .f32) (e : Fin 4) (hx : ∀ (p : Fin 192) (j : Fin 768), xc (ix2 p j) = X (ix2 (rowOf e p) j))
    (d : Fin 4) (p : Fin 192) (k' : Fin 1536) :
    hAt xc (Layout.block ⟨2, ![768, 1536]⟩ ⟨2, ![768, 6144]⟩ 1 4 d WG hg) (Layout.block ⟨2, ![768, 1536]⟩ ⟨2, ![768, 6144]⟩ 1 4 d WU hu) p k'
      = hRef X WG WU (rowOf e p) (colOf d k') := by
  unfold hAt hRef
  simp only [hx, colBlock_apply]

/-- THE SPLIT: the reference at row `e · 192 + p`, column `q`, is the sum over the four devices of their partial products
    of row chunk `e` at `(p, q)`. -/
theorem ref_split (X : (⟨Cert.ReferenceIdeal.S768x768, .f32⟩ : BufTy).Contents (Elt Ideal))
    (WG WU : (⟨Cert.ReferenceIdeal.S768x6144, .f32⟩ : BufTy).Contents (Elt Ideal))
    (WD : (⟨Cert.ReferenceIdeal.S6144x768, .f32⟩ : BufTy).Contents (Elt Ideal))
    (hg hu : Layout.Tiles ⟨2, ![768, 1536]⟩ ⟨2, ![768, 6144]⟩ 1 4) (hd : Layout.Tiles ⟨2, ![1536, 768]⟩ ⟨2, ![6144, 768]⟩ 0 4)
    (xc : FVec Ideal S192x768 .f32) (e : Fin 4) (hx : ∀ (p : Fin 192) (j : Fin 768), xc (ix2 p j) = X (ix2 (rowOf e p) j))
    (p : Fin 192) (q : Fin 768) :
    Cert.ReferenceIdeal.Read.val_main_v8 (F := Ideal) X WG WU WD (ix2 (rowOf e p) q)
      = ∑ d : Fin 4, k0_pay7 (F := Ideal) (Layout.block ⟨2, ![768, 1536]⟩ ⟨2, ![768, 6144]⟩ 1 4 d WG hg)
          (Layout.block ⟨2, ![768, 1536]⟩ ⟨2, ![768, 6144]⟩ 1 4 d WU hu)
          (Layout.block ⟨2, ![1536, 768]⟩ ⟨2, ![6144, 768]⟩ 0 4 d WD hd) xc (ix2 p q) := by
  rw [ref_apply, sum_ranges]
  refine Finset.sum_congr rfl fun d _ => ?_
  rw [pay7_apply]
  refine Finset.sum_congr rfl fun k' _ => ?_
  rw [hAt_block X WG WU hg hu xc e hx, rowBlock_apply]

/-! ## Four terms, in the orders they are added up -/

/-- Four pairwise distinct devices are all of them. -/
theorem univ_eq_of_distinct (d0 d1 d2 d3 : Fin 4) (h : d0 ≠ d1 ∧ d0 ≠ d2 ∧ d0 ≠ d3 ∧ d1 ≠ d2 ∧ d1 ≠ d3 ∧ d2 ≠ d3) :
    (Finset.univ : Finset (Fin 4)) = {d0, d1, d2, d3} := by
  revert d0 d1 d2 d3
  decide

/-- The sum over the four devices, added up one after another in any order `d0, d1, d2, d3`. -/
theorem sum4_chain {M : Type*} [AddCommMonoid M] (g : Fin 4 → M) (d0 d1 d2 d3 : Fin 4)
    (h : d0 ≠ d1 ∧ d0 ≠ d2 ∧ d0 ≠ d3 ∧ d1 ≠ d2 ∧ d1 ≠ d3 ∧ d2 ≠ d3) :
    ∑ d : Fin 4, g d = ((g d0 + g d1) + g d2) + g d3 := by
  obtain ⟨h01, h02, h03, h12, h13, h23⟩ := h
  rw [univ_eq_of_distinct d0 d1 d2 d3 ⟨h01, h02, h03, h12, h13, h23⟩,
    Finset.sum_insert (by simp [h01, h02, h03]), Finset.sum_insert (by simp [h12, h13]),
    Finset.sum_insert (by simp [h23]), Finset.sum_singleton, add_assoc, add_assoc]

/-- The same as two pairs. -/
theorem sum4_pairs {M : Type*} [AddCommMonoid M] (g : Fin 4 → M) (d0 d1 d2 d3 : Fin 4)
    (h : d0 ≠ d1 ∧ d0 ≠ d2 ∧ d0 ≠ d3 ∧ d1 ≠ d2 ∧ d1 ≠ d3 ∧ d2 ≠ d3) :
    ∑ d : Fin 4, g d = (g d0 + g d1) + (g d2 + g d3) := by
  rw [sum4_chain g d0 d1 d2 d3 h, add_assoc]

end Cert.MlpValue

end
-- ==== Proof.ValFinal.lean ====
/-
  The result array against the reference.

  Every device holds all of `X` and its blocks of the three weight matrices. For the row chunk `e` write `part d e` for
  device `d`'s partial product of that chunk. The reduce-scatter leaves on device `c`, for its own chunk `c`,
  `(part c c + part (3 - c) c) + (part (c xor 1) c + part (3 - (c xor 1)) c)`: the four devices' partial products of chunk
  `c`, each once, and so the reference's rows of chunk `c` (the hidden columns split into the four devices' ranges). The
  all-gather copies every device's reduced chunk to the three others unchanged, so the result array on every device is
  the reference's result, chunk by chunk.
-/
import proofs.«900352_g7700000000000353_dist_gated_mlp_tp_i_m768_h1536_d768_v7x_i4_f32_1_alg».proof.Proof.Vals
import proofs.«900352_g7700000000000353_dist_gated_mlp_tp_i_m768_h1536_d768_v7x_i4_f32_1_alg».proof.Proof.ValSplit

noncomputable section

open scoped BigOperators

namespace Cert.MlpValue

open Cert.KernelIdeal Cert.KernelIdeal.Gen Cert.KernelIdeal.Mlp
open Idealize.ShloMosaic Idealize.ShloMosaic.TcCoe Idealize.ShloMosaic.ValueIdx

variable (m : (ℓ : Loc nD τ sig) → Buf (Elt Ideal) ℓ)

/-! ## The staged arguments are the argument arrays -/

/-- Each argument window is the whole array in one block: what is staged is the array. -/
theorem stg0_eq (c : Dev nD) : stg0 m c = m ((c : Thread nD τ).loc main_arg0) := by
  unfold stg0
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

theorem stg1_eq (c : Dev nD) : stg1 m c = m ((c : Thread nD τ).loc main_arg1) := by
  unfold stg1
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _

theorem stg2_eq (c : Dev nD) : stg2 m c = m ((c : Thread nD τ).loc main_arg2) := by
  unfold stg2
  have hz : (fun a => (win0_2.index (0 : Fin 1)) a * main_arg2.ty.shape.size a) = fun _ => 0 :=
    funext fun a => by fin_cases a <;> decide
  exact Memref.read_access_unit_zero (Elt Ideal) main_arg2 hz (fun a => by fin_cases a <;> decide) _

theorem stg3_eq (c : Dev nD) : stg3 m c = m ((c : Thread nD τ).loc main_arg3) := by
  unfold stg3
  have hz : (fun a => (win0_3.index (0 : Fin 1)) a * main_arg3.ty.shape.size a) = fun _ => 0 :=
    funext fun a => by fin_cases a <;> decide
  exact Memref.read_access_unit_zero (Elt Ideal) main_arg3 hz (fun a => by fin_cases a <;> decide) _

/-- Rows `192 e … 192 e + 191` of device `c`'s `x`. -/
theorem xAt_apply (c : Dev nD) (off : Fin 2 → Nat) (h : ∀ a, off a + S192x768.size a ≤ S768x768.size a) (e : Fin 4)
    (hoff : off = ![192 * e.val, 0]) (p : Fin 192) (j : Fin 768) :
    xAt m c off h (ix2 p j) = stg0 m c (ix2 (rowOf e p) j) := by
  subst hoff
  show stg0 m c _ = stg0 m c _
  refine congrArg (stg0 m c) (funext fun a => ?_)
  match a with
  | ⟨0, _⟩ => exact Fin.ext (show 192 * e.val + 1 * p.val = e.val * 192 + p.val by omega)
  | ⟨1, _⟩ => exact Fin.ext (show 0 + 1 * j.val = j.val by omega)

/-! ## The partial products, named -/

section Launch

variable (X : (⟨Cert.ReferenceIdeal.S768x768, .f32⟩ : BufTy).Contents (Elt Ideal))
  (WG WU : (⟨Cert.ReferenceIdeal.S768x6144, .f32⟩ : BufTy).Contents (Elt Ideal))
  (WD : (⟨Cert.ReferenceIdeal.S6144x768, .f32⟩ : BufTy).Contents (Elt Ideal))

/-- Row chunk `e` of `X`: rows `192 e … 192 e + 191`. -/
def xChunk (e : Fin 4) : FVec Ideal S192x768 .f32 := fun i => X (ix2 (rowOf e (i 0)) (i 1))

/-- Device `d`'s partial product of row chunk `e`, at `(p, q)`. -/
def part (d e : Fin 4) (p : Fin 192) (q : Fin 768) : EReal :=
  k0_pay7 (F := Ideal) (Layout.block ⟨2, ![768, 1536]⟩ ⟨2, ![768, 6144]⟩ 1 4 d WG)
    (Layout.block ⟨2, ![768, 1536]⟩ ⟨2, ![768, 6144]⟩ 1 4 d WU)
    (Layout.block ⟨2, ![1536, 768]⟩ ⟨2, ![6144, 768]⟩ 0 4 d WD) (xChunk X e) (ix2 p q)

/-- The reference at a row of chunk `e` is the sum of the four devices' partial products of that chunk. -/
theorem ref_eq_sum_part (e : Fin 4) (p : Fin 192) (q : Fin 768) :
    Cert.ReferenceIdeal.Read.val_main_v8 (F := Ideal) X WG WU WD (ix2 (rowOf e p) q) = ∑ d : Fin 4, part X WG WU WD d e p q :=
  ref_split X WG WU WD (by decide) (by decide) (by decide) (xChunk X e) e (fun _ _ => rfl) p q

variable (h0 : ∀ d : Dev nD, m ((d : Thread nD τ).loc main_arg0) = X)
  (h1 : ∀ d : Dev nD, m ((d : Thread nD τ).loc main_arg1) = Layout.block ⟨2, ![768, 1536]⟩ ⟨2, ![768, 6144]⟩ 1 4 d WG)
  (h2 : ∀ d : Dev nD, m ((d : Thread nD τ).loc main_arg2) = Layout.block ⟨2, ![768, 1536]⟩ ⟨2, ![768, 6144]⟩ 1 4 d WU)
  (h3 : ∀ d : Dev nD, m ((d : Thread nD τ).loc main_arg3) = Layout.block ⟨2, ![1536, 768]⟩ ⟨2, ![6144, 768]⟩ 0 4 d WD)

include h0 in
/-- The rows a device loads at the offset of chunk `e` are that chunk of `X`. -/
theorem xAt_eq (c : Dev nD) (off : Fin 2 → Nat) (h : ∀ a, off a + S192x768.size a ≤ S768x768.size a) (e : Fin 4)
    (hoff : off = ![192 * e.val, 0]) : xAt m c off h = xChunk X e := by
  funext i
  obtain ⟨p, j, rfl⟩ : ∃ (p : Fin 192) (j : Fin 768), i = ix2 p j := ⟨i 0, i 1, eq_ix2 i⟩
  rw [xAt_apply m c off h e hoff, stg0_eq, h0]
  rfl

/-- The four row offsets, by the chunk they start. -/
theorem off_opp (c : Dev nD) : k0_off1 c 2#32 = ![192 * (opp c).val, 0] := by rw [off1_two, opp_val]
theorem off_far (c : Dev nD) : k0_off2 c = ![192 * (far c).val, 0] := by
  have hc : c.val < 4 := c.isLt
  have : 576 - 192 * c.val = 192 * (3 - c.val) := by omega
  rw [k0_off2_eq, far_val, this]
theorem off_par (c : Dev nD) : k0_off3 c = ![192 * (par c).val, 0] := by rw [off3_eq, par_val]
theorem off_own (c : Dev nD) : k0_off4 c = ![192 * c.val, 0] := k0_off4_eq c

/-! ## The reduce-scatter, buffer by buffer -/

include h0 h1 h2 h3 in
theorem SB0_apply (c : Dev nD) (p : Fin 192) (q : Fin 768) :
    SB0 m c (ix3 (0 : Fin 1) p q) = part X WG WU WD c (opp c) p q := by
  unfold SB0
  rw [pay4_apply', stg1_eq, stg2_eq, stg3_eq, h1, h2, h3, xAt_eq m X h0 c _ _ (opp c) (off_opp c)]
  rfl

include h0 h1 h2 h3 in
theorem SB1_apply (c : Dev nD) (p : Fin 192) (q : Fin 768) :
    SB1 m c (ix3 (0 : Fin 1) p q) = part X WG WU WD c (far c) p q := by
  unfold SB1
  rw [pay5_apply, pay1_eq, pay2_eq, pay3_eq, stg1_eq, stg2_eq, stg3_eq, h1, h2, h3, xAt_eq m X h0 c _ _ (far c) (off_far c)]
  rfl

include h0 h1 h2 h3 in
theorem SB2_apply (c : Dev nD) (p : Fin 192) (q : Fin 768) :
    SB2 m c (ix3 (0 : Fin 1) p q) = part X WG WU WD c (par c) p q + part X WG WU WD (far c) (opp (far c)) p q := by
  unfold SB2
  rw [pay6_apply, SB0_apply m X WG WU WD h0 h1 h2 h3, pay1_eq, pay2_eq, pay3_eq, stg1_eq, stg2_eq, stg3_eq, h1, h2, h3,
    xAt_eq m X h0 c _ _ (par c) (off_par c)]
  rfl

include h0 h1 h2 h3 in
theorem mine_apply (c : Dev nD) (p : Fin 192) (q : Fin 768) :
    mine m c (ix2 p q) = part X WG WU WD c c p q := by
  unfold mine
  rw [pay1_eq, pay2_eq, pay3_eq, stg1_eq, stg2_eq, stg3_eq, h1, h2, h3, xAt_eq m X h0 c _ _ c (off_own c)]
  rfl

/-- The chunk the partner's partner's partner sends across is the device's own. -/
theorem opp_far_par : ∀ c : Dev nD, opp (far (par c)) = c := by decide +kernel

include h0 h1 h2 h3 in
/-- THE REDUCED CHUNK: what device `c` accumulates at `(p, q)` is the reference at row `192 c + p`, column `q`. -/
theorem ACC_eq_ref (c : Dev nD) (p : Fin 192) (q : Fin 768) :
    ACC m c (ix2 p q) = Cert.ReferenceIdeal.Read.val_main_v8 (F := Ideal) X WG WU WD (ix2 (rowOf c p) q) := by
  unfold ACC
  rw [pay8_apply, mine_apply m X WG WU WD h0 h1 h2 h3, SB1_apply m X WG WU WD h0 h1 h2 h3, SB2_apply m X WG WU WD h0 h1 h2 h3,
    far_far, par_par, opp_far_par, ref_eq_sum_part]
  obtain ⟨a1, a2, a3, a4, a5, a6⟩ := four_partners c
  exact (sum4_pairs (fun d => part X WG WU WD d c p q) c (far c) (par c) (far (par c))
    ⟨a4.symm, a5.symm, a1.symm, a6, a2.symm, a3.symm⟩).symm

/-- The copy kept for the all-gather is the reduced chunk. -/
theorem OWN_eq (c : Dev nD) : (OWN m c : S192x768.Idx → EReal) = ACC m c := by
  unfold OWN ACC
  exact pay9_eq _ _ _

end Launch

/-! ## The result array -/

section Result

variable (X : (⟨Cert.ReferenceIdeal.S768x768, .f32⟩ : BufTy).Contents (Elt Ideal))
  (WG WU : (⟨Cert.ReferenceIdeal.S768x6144, .f32⟩ : BufTy).Contents (Elt Ideal))
  (WD : (⟨Cert.ReferenceIdeal.S6144x768, .f32⟩ : BufTy).Contents (Elt Ideal))
  (h0 : ∀ d : Dev nD, m ((d : Thread nD τ).loc main_arg0) = X)
  (h1 : ∀ d : Dev nD, m ((d : Thread nD τ).loc main_arg1) = Layout.block ⟨2, ![768, 1536]⟩ ⟨2, ![768, 6144]⟩ 1 4 d WG)
  (h2 : ∀ d : Dev nD, m ((d : Thread nD τ).loc main_arg2) = Layout.block ⟨2, ![768, 1536]⟩ ⟨2, ![768, 6144]⟩ 1 4 d WU)
  (h3 : ∀ d : Dev nD, m ((d : Thread nD τ).loc main_arg3) = Layout.block ⟨2, ![1536, 768]⟩ ⟨2, ![6144, 768]⟩ 0 4 d WD)

/-- A chunk that is not the device's own, nor the one before or after it, is the one across the ring. -/
theorem other_chunk : ∀ (c : Dev nD) (e : Fin 4), e.val ≠ c.val → e.val ≠ (lft c).val → e.val ≠ (rgt c).val → e.val = (opp c).val := by
  decide +kernel

include h0 h1 h2 h3 in
/-- Row `r` lies in chunk `r / 192`, at row `r % 192` of it: the owner's reduced chunk there is the reference at `(r, q)`. -/
theorem ACC_at (r q : Fin 768) (d : Dev nD) (hd : r.val / 192 = d.val) :
    ACC m d (ix2 (⟨r.val % 192, Nat.mod_lt _ (by decide)⟩ : Fin 192) q)
      = Cert.ReferenceIdeal.Read.val_main_v8 (F := Ideal) X WG WU WD (ix2 r q) := by
  rw [ACC_eq_ref m X WG WU WD h0 h1 h2 h3]
  refine congrArg (fun r' => Cert.ReferenceIdeal.Read.val_main_v8 (F := Ideal) X WG WU WD (ix2 r' q)) (Fin.ext ?_)
  show d.val * 192 + r.val % 192 = r.val
  omega

include h0 h1 h2 h3 in
/-- THE RESULT: the result array on every device is the reference's result. -/
theorem outBuf_eq_ref (c : Dev nD) :
    outBuf m c = Cert.ReferenceIdeal.Read.val_main_v8 (F := Ideal) X WG WU WD := by
  funext i
  have hi : (i 0).val < 768 := (i 0).isLt
  have hix : Cert.ReferenceIdeal.Read.val_main_v8 (F := Ideal) X WG WU WD (ix2 (i 0) (i 1))
      = Cert.ReferenceIdeal.Read.val_main_v8 (F := Ideal) X WG WU WD i := congrArg _ (eq_ix2 i).symm
  unfold outBuf
  split_ifs with hc hl hr
  · exact (ACC_at m X WG WU WD h0 h1 h2 h3 (i 0) (i 1) c hc).trans hix
  · refine (pay10_apply _ _ _).trans ?_
    exact ((congrFun (OWN_eq m (lft c)) _).trans (ACC_at m X WG WU WD h0 h1 h2 h3 (i 0) (i 1) (lft c) hl)).trans hix
  · refine (pay11_apply _ _ _).trans ?_
    exact ((congrFun (OWN_eq m (rgt c)) _).trans (ACC_at m X WG WU WD h0 h1 h2 h3 (i 0) (i 1) (rgt c) hr)).trans hix
  · refine (pay12_apply _ _ _).trans ?_
    have ho : (i 0).val / 192 = (opp c).val :=
      other_chunk c ⟨(i 0).val / 192, by omega⟩ hc hl hr
    exact ((congrFun (OWN_eq m (opp c)) _).trans (ACC_at m X WG WU WD h0 h1 h2 h3 (i 0) (i 1) (opp c) ho)).trans hix

end Result

end Cert.MlpValue

end
-- ==== Proof.lean ====
/-
  A gated MLP, out = ((x · Wg) * silu (x · Wu)) · Wd with silu u = u / (1 + exp (-u)), on four devices: the hidden dimension is
  cut in four blocks, device d holding all of x, column block d of Wg and Wu and row block d of Wd. For a chunk of 192 rows
  of x a device's PARTIAL result is ((chunk · Wg_d) * ((chunk · Wu_d) * logistic (chunk · Wu_d))) · Wd_d; the result's chunk e is the
  sum over the four devices of their partials of chunk e (the sum over the hidden dimension, regrouped by block). The kernel
  sums them by a reduce-scatter in two exchanges — with device 3 - d, then with device d xor 1: {d, 3 - d, d xor 1,
  3 - (d xor 1)} are the four devices — so that device d ends with chunk d reduced, and an all-gather both ways round the
  ring then gives every device every chunk. On the extended reals u * logistic u = u / (1 + exp (-u)) for EVERY u (the
  divisor is never zero), sums regroup freely and a change of float format is the identity, so each device's result is the
  reference's, with no appeal to the inputs being finite.

  The frames: every fair interleaving of the four devices' threads ends, nothing faulting. A device signals both
  neighbours' barrier cell and waits for two units before its first transfer, handing each neighbour with its unit the
  landing regions that neighbour will fill; each of its nine transfers credits a landing cell on a neighbour and a
  departure cell of its own; it waits on a cell only while everything it still owes lies on cells of a higher level
  (barrier 1, the first landing of the reduce-scatter 2, its other two 3, the direct all-gather landings 4, the forwarded
  ones 5), so no wait can block for ever. The same text proves the frame of the kernel as printed (at words) and of its
  idealization (at the extended reals); the idealization rewrote nothing, so what it preserves is trivial.
-/
import proofs.«900352_g7700000000000353_dist_gated_mlp_tp_i_m768_h1536_d768_v7x_i4_f32_1_alg».proof.Defs
import proofs.«900352_g7700000000000353_dist_gated_mlp_tp_i_m768_h1536_d768_v7x_i4_f32_1_alg».proof.Proof.Gen.Kernel
import proofs.«900352_g7700000000000353_dist_gated_mlp_tp_i_m768_h1536_d768_v7x_i4_f32_1_alg».proof.Proof.Gen.Kernel.Skeleton
import proofs.«900352_g7700000000000353_dist_gated_mlp_tp_i_m768_h1536_d768_v7x_i4_f32_1_alg».proof.Proof.Gen.Kernel.Launch
import proofs.«900352_g7700000000000353_dist_gated_mlp_tp_i_m768_h1536_d768_v7x_i4_f32_1_alg».proof.Proof.Gen.Kernel.Points
import proofs.«900352_g7700000000000353_dist_gated_mlp_tp_i_m768_h1536_d768_v7x_i4_f32_1_alg».proof.Proof.Gen.Kernel.Frame
import proofs.«900352_g7700000000000353_dist_gated_mlp_tp_i_m768_h1536_d768_v7x_i4_f32_1_alg».proof.Proof.Gen.KernelIdeal
import proofs.«900352_g7700000000000353_dist_gated_mlp_tp_i_m768_h1536_d768_v7x_i4_f32_1_alg».proof.Proof.Gen.KernelIdeal.Skeleton
import proofs.«900352_g7700000000000353_dist_gated_mlp_tp_i_m768_h1536_d768_v7x_i4_f32_1_alg».proof.Proof.Gen.KernelIdeal.Launch
import proofs.«900352_g7700000000000353_dist_gated_mlp_tp_i_m768_h1536_d768_v7x_i4_f32_1_alg».proof.Proof.Gen.KernelIdeal.Points
import proofs.«900352_g7700000000000353_dist_gated_mlp_tp_i_m768_h1536_d768_v7x_i4_f32_1_alg».proof.Proof.Gen.KernelIdeal.Frame
import proofs.«900352_g7700000000000353_dist_gated_mlp_tp_i_m768_h1536_d768_v7x_i4_f32_1_alg».proof.Proof.Gen.ReferenceIdeal
import proofs.«900352_g7700000000000353_dist_gated_mlp_tp_i_m768_h1536_d768_v7x_i4_f32_1_alg».proof.Proof.Gen.ReferenceIdeal.Run
import proofs.«900352_g7700000000000353_dist_gated_mlp_tp_i_m768_h1536_d768_v7x_i4_f32_1_alg».proof.Proof.Gen.ReferenceIdeal.Read
import proofs.«900352_g7700000000000353_dist_gated_mlp_tp_i_m768_h1536_d768_v7x_i4_f32_1_alg».proof.Proof.Gen.Pre_finite_inputs_Kernel
import proofs.«900352_g7700000000000353_dist_gated_mlp_tp_i_m768_h1536_d768_v7x_i4_f32_1_alg».proof.Proof.Gen.Pre_finite_inputs_ReferenceIdeal
import proofs.«900352_g7700000000000353_dist_gated_mlp_tp_i_m768_h1536_d768_v7x_i4_f32_1_alg».proof.Proof.Launch
import proofs.«900352_g7700000000000353_dist_gated_mlp_tp_i_m768_h1536_d768_v7x_i4_f32_1_alg».proof.Proof.BodyWrap
import proofs.«900352_g7700000000000353_dist_gated_mlp_tp_i_m768_h1536_d768_v7x_i4_f32_1_alg».proof.Proof.BodyCompose
import proofs.«900352_g7700000000000353_dist_gated_mlp_tp_i_m768_h1536_d768_v7x_i4_f32_1_alg».proof.Proof.BodyHeadC
import proofs.«900352_g7700000000000353_dist_gated_mlp_tp_i_m768_h1536_d768_v7x_i4_f32_1_alg».proof.Proof.BodyFrontRun
import proofs.«900352_g7700000000000353_dist_gated_mlp_tp_i_m768_h1536_d768_v7x_i4_f32_1_alg».proof.Proof.BodyMidRun
import proofs.«900352_g7700000000000353_dist_gated_mlp_tp_i_m768_h1536_d768_v7x_i4_f32_1_alg».proof.Proof.BodyEnd
import proofs.«900352_g7700000000000353_dist_gated_mlp_tp_i_m768_h1536_d768_v7x_i4_f32_1_alg».proof.Proof.WLaunch
import proofs.«900352_g7700000000000353_dist_gated_mlp_tp_i_m768_h1536_d768_v7x_i4_f32_1_alg».proof.Proof.WBodyWrap
import proofs.«900352_g7700000000000353_dist_gated_mlp_tp_i_m768_h1536_d768_v7x_i4_f32_1_alg».proof.Proof.WBodyCompose
import proofs.«900352_g7700000000000353_dist_gated_mlp_tp_i_m768_h1536_d768_v7x_i4_f32_1_alg».proof.Proof.WBodyHeadC
import proofs.«900352_g7700000000000353_dist_gated_mlp_tp_i_m768_h1536_d768_v7x_i4_f32_1_alg».proof.Proof.WBodyFrontRun
import proofs.«900352_g7700000000000353_dist_gated_mlp_tp_i_m768_h1536_d768_v7x_i4_f32_1_alg».proof.Proof.WBodyMidRun
import proofs.«900352_g7700000000000353_dist_gated_mlp_tp_i_m768_h1536_d768_v7x_i4_f32_1_alg».proof.Proof.WBodyEnd
import proofs.«900352_g7700000000000353_dist_gated_mlp_tp_i_m768_h1536_d768_v7x_i4_f32_1_alg».proof.Proof.ValFinal
import Idealize.ShloMosaic.Adequacy
import Idealize.ShloMosaic.Init

noncomputable section

namespace Cert.Proof

open Idealize.ShloMosaic Idealize.ShloMosaic.TcCoe Idealize.SL.Sem

/-- The kernel as printed runs to the end on the four devices and leaves its arguments as they were. -/
theorem frame_p : Cert.frame_Kernel (hKernel := Cert.Kernel.Gen.facts) (hPre_finite_inputs_Kernel := Cert.Pre_finite_inputs_Kernel.Gen.facts) := fun m ρ _ =>
  (θ_run Cert.Kernel.defs _ _).mono (fun r h c => ⟨((h c) 0).trans (Cert.Kernel.Mlp.finalA_in0 m ρ c), ((h c) 1).trans (Cert.Kernel.Mlp.finalA_in1 m ρ c), ((h c) 2).trans (Cert.Kernel.Mlp.finalA_in2 m ρ c), ((h c) 3).trans (Cert.Kernel.Mlp.finalA_in3 m ρ c)⟩)
    (Cert.Kernel.Mlp.run_main (F := Bits) m ρ fun c => Cert.Kernel.Mlp.body_obligation m ρ c
      (Cert.Kernel.Mlp.sound_body m ρ c (Cert.Kernel.Mlp.head_runs m ρ c) (Cert.Kernel.Mlp.front_runs m c) (Cert.Kernel.Mlp.mid_runs m c) (Cert.Kernel.Mlp.end_runs m ρ c)))

/-- So does its idealization. -/
theorem frame_pi : Cert.frame_KernelIdeal (hKernelIdeal := Cert.KernelIdeal.Gen.facts) (hPre_finite_inputs_Kernel := Cert.Pre_finite_inputs_Kernel.Gen.facts) := fun m ρ _ =>
  (θ_run Cert.KernelIdeal.defs _ _).mono (fun r h c => ⟨((h c) 0).trans (Cert.KernelIdeal.Mlp.finalA_in0 m ρ c), ((h c) 1).trans (Cert.KernelIdeal.Mlp.finalA_in1 m ρ c), ((h c) 2).trans (Cert.KernelIdeal.Mlp.finalA_in2 m ρ c), ((h c) 3).trans (Cert.KernelIdeal.Mlp.finalA_in3 m ρ c)⟩)
    (Cert.KernelIdeal.Mlp.run_main (F := Ideal) m ρ fun c => Cert.KernelIdeal.Mlp.body_obligation m ρ c
      (Cert.KernelIdeal.Mlp.sound_body m ρ c (Cert.KernelIdeal.Mlp.head_runs m ρ c) (Cert.KernelIdeal.Mlp.front_runs m c) (Cert.KernelIdeal.Mlp.mid_runs m c) (Cert.KernelIdeal.Mlp.end_runs m ρ c)))

/-- The reference is host operations only: its run, the result dropped. -/
theorem frame_ri : Cert.frame_ReferenceIdeal (hReferenceIdeal := Cert.ReferenceIdeal.Gen.facts) (hPre_finite_inputs_ReferenceIdeal := Cert.Pre_finite_inputs_ReferenceIdeal.Gen.facts) := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Every device's result array ends at the reference's result: its own chunk is the four partials summed, the other three
    are the neighbours' and the opposite device's reduced chunks as gathered, and each reduced chunk is the reference's
    rows there. -/
theorem algebraic : Cert.algebraic_KernelIdeal_ReferenceIdeal (hKernelIdeal := Cert.KernelIdeal.Gen.facts) (hReferenceIdeal := Cert.ReferenceIdeal.Gen.facts) (hPre_finite_inputs_Kernel := Cert.Pre_finite_inputs_Kernel.Gen.facts) := by
  intro m ρ m' ρ' _ hagree
  refine ⟨_, ?k, (θ_run Cert.ReferenceIdeal.defs _ _).mono (fun _ h => ⟨(h 0).1, (h 0).2⟩) (Cert.ReferenceIdeal.Value.run (F := Ideal) m' ρ')⟩
  refine (θ_run Cert.KernelIdeal.defs _ _).mono (fun r h c => ?_)
    (Cert.KernelIdeal.Mlp.run_main (F := Ideal) m ρ fun c => Cert.KernelIdeal.Mlp.body_obligation m ρ c
      (Cert.KernelIdeal.Mlp.sound_body m ρ c (Cert.KernelIdeal.Mlp.head_runs m ρ c) (Cert.KernelIdeal.Mlp.front_runs m c) (Cert.KernelIdeal.Mlp.mid_runs m c) (Cert.KernelIdeal.Mlp.end_runs m ρ c)))
  refine ⟨?_, ((h c) 0).trans (Cert.KernelIdeal.Mlp.finalA_in0 m ρ c), ((h c) 1).trans (Cert.KernelIdeal.Mlp.finalA_in1 m ρ c), ((h c) 2).trans (Cert.KernelIdeal.Mlp.finalA_in2 m ρ c), ((h c) 3).trans (Cert.KernelIdeal.Mlp.finalA_in3 m ρ c)⟩
  refine (((h c) 4).trans (Cert.KernelIdeal.Mlp.finalA_out m ρ c)).trans ?_
  rw [Cert.ReferenceIdeal.Read.val_main_v8_eq]
  exact Cert.MlpValue.outBuf_eq_ref m _ _ _ _ (fun d => (hagree d).1) (fun d => (hagree d).2.1) (fun d => (hagree d).2.2.1) (fun d => (hagree d).2.2.2) c

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, frame_pi, frame_ri, preserves, algebraic⟩

end Cert.Proof

end
